-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S384x384 : Shape := ⟨2, ![384, 384]⟩
abbrev S384 : Shape := ⟨1, ![384]⟩
abbrev S384x1 : Shape := ⟨2, ![384, 1]⟩
abbrev S1 : Shape := ⟨1, ![1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S384x1 .f32) (main_arg23 : FVec F S1 .f32) (main_v98 : IVec S_ 1) (main_v101 : IVec S384 1) (main_c_39 : IVec S_ 1) : IVec S_ 1 :=
  let main_v102 : IVec S_ 1 := (fun x v => Host.reduce IntOp.andi x v reducesTo_S384_S_d0 h_S_) main_v101 main_c_39
  let main_v103 : IVec S_ 1 := andi main_v98 main_v102
  let main_v104 : FVec F S384x1 .f32 := Host.absf main_arg22
  let main_cst_40 : FVec F S_ .f32 := constant S_ .f32 0x7F800000#32
  let main_v105 : FVec F S384x1 .f32 := broadcastInDim S384x1 ![] bcast_S_S384x1 main_cst_40
  let main_v106 : IVec S384x1 1 := cmpf .olt main_v104 main_v105
  let main_c_41 : IVec S_ 1 := constantI S_ 1 1#1
  let main_v107 : IVec S_ 1 := (fun x v => Host.reduce IntOp.andi x v reducesTo_S384x1_S_d0_1 h_S_) main_v106 main_c_41
  let main_v108 : IVec S_ 1 := andi main_v103 main_v107
  let main_v109 : FVec F S1 .f32 := Host.absf main_arg23
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg19 : FVec F S128 .f32) (main_arg20 : FVec F S384x384 .f32) (main_arg21 : FVec F S384 .f32) (main_arg22 : FVec F S384x1 .f32) (main_arg23 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S384x384 .f32 := Host.absf main_arg20
  let main_cst_36 : FVec F S_ .f32 := constant S_ .f32 0x7F800000#32
  let main_v95 : FVec F S384x384 .f32 := broadcastInDim S384x384 ![] bcast_S_S384x384 main_cst_36
  let main_v96 : IVec S384x384 1 := cmpf .olt main_v94 main_v95
  let main_c_37 : IVec S_ 1 := constantI S_ 1 1#1
  let main_v97 : IVec S_ 1 := (fun x v => Host.reduce IntOp.andi x v reducesTo_S384x384_S_d0_1 h_S_) main_v96 main_c_37
  let main_v98 : IVec S_ 1 := andi main_v93 main_v97
  let main_v99 : FVec F S384 .f32 := Host.absf main_arg21
  let main_cst_38 : FVec F S_ .f32 := constant S_ .f32 0x7F800000#32
  let main_v100 : FVec F S384 .f32 := broadcastInDim S384 ![] bcast_S_S384 main_cst_38
  let main_v101 : IVec S384 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S128 .f32) (main_arg16 : FVec F S128 .f32) (main_arg17 : FVec F S128 .f32) (main_arg18 : FVec F S128x128 .f32) (main_arg19 : FVec F S128 .f32) (main_arg20 : FVec F S384x384 .f32) (main_arg21 : FVec F S384 .f32) (main_arg22 : FVec F S384x1 .f32) (main_arg23 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128x128 .f32) (main_arg19 : FVec F S128 .f32) (main_arg20 : FVec F S384x384 .f32) (main_arg21 : FVec F S384 .f32) (main_arg22 : FVec F S384x1 .f32) (main_arg23 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128x128 .f32) (main_arg19 : FVec F S128 .f32) (main_arg20 : FVec F S384x384 .f32) (main_arg21 : FVec F S384 .f32) (main_arg22 : FVec F S384x1 .f32) (main_arg23 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128x128 .f32) (main_arg19 : FVec F S128 .f32) (main_arg20 : FVec F S384x384 .f32) (main_arg21 : FVec F S384 .f32) (main_arg22 : FVec F S384x1 .f32) (main_arg23 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S8192x64 .f32) (main_arg1 : IVec S8192x8192 32) (main_arg2 : FVec F S64x128 .f32) (main_arg3 : FVec F S128 .f32) (main_arg4 : FVec F S128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128x128 .f32) (main_arg19 : FVec F S128 .f32) (main_arg20 : FVec F S384x384 .f32) (main_arg21 : FVec F S384 .f32) (main_arg22 : FVec F S384x1 .f32) (main_arg23 : FVec F S1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S384x384 : Shape := ⟨2, ![384, 384]⟩
abbrev S384 : Shape := ⟨1, ![384]⟩
abbrev S384x1 : Shape := ⟨2, ![384, 1]⟩
abbrev S1 : Shape := ⟨1, ![1]⟩
abbrev S1x128 : Shape := ⟨2, ![1, 128]⟩
abbrev S8192x128 : Shape := ⟨2, ![8192, 128]⟩
abbrev S2048x1024 : Shape := ⟨2, ![2048, 1024]⟩
abbrev S2048x64 : Shape := ⟨2, ![2048, 64]⟩
abbrev S1024x64 : Shape := ⟨2, ![1024, 64]⟩
abbrev S1024x128 : Shape := ⟨2, ![1024, 128]⟩
abbrev S_ : Shape := ⟨0, ![]⟩
abbrev S2048x128 : Shape := ⟨2, ![2048, 128]⟩
abbrev S1x384 : Shape := ⟨2, ![1, 384]⟩
abbrev S1x1 : Shape := ⟨2, ![1, 1]⟩

abbrev nBuf : Space → Nat
  | .hbm => 234
  | .vmem => 33
  | .smem => 0
  | _ => 0

abbrev hbmTy0_0 (i : Nat) : BufTy := match i % 128 with
  | 0 => ⟨S8192x64, .f32⟩
  | 1 => ⟨S8192x8192, .i32⟩
  | 2 => ⟨S64x128, .f32⟩
  | 3 => ⟨S128, .f32⟩
  | 4 => ⟨S128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128, .f32⟩
  | 18 => ⟨S128x128, .f32⟩
  | 19 => ⟨S128, .f32⟩
  | 20 => ⟨S384x384, .f32⟩
  | 21 => ⟨S384, .f32⟩
  | 22 => ⟨S384x1, .f32⟩
  | 23 => ⟨S1, .f32⟩
  | 24 => ⟨S1x128, .f32⟩
  | 25 => ⟨S8192x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S8192x128, .f32⟩
  | 39 => ⟨S8192x128, .f32⟩
  | 40 => ⟨S8192x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S8192x128, .f32⟩
  | 56 => ⟨S8192x128, .f32⟩
  | 57 => ⟨S1x128, .f32⟩
  | 58 => ⟨S8192x128, .f32⟩
  | 59 => ⟨S8192x128, .f32⟩
  | 60 => ⟨S_, .f32⟩
  | 61 => ⟨S128, .f32⟩
  | 62 => ⟨S128, .f32⟩
  | 63 => ⟨S128, .f32⟩
  | 64 => ⟨S1x128, .f32⟩
  | 65 => ⟨S8192x128, .f32⟩
  | 66 => ⟨S8192x128, .f32⟩
  | 67 => ⟨S1x128, .f32⟩
  | 68 => ⟨S8192x128, .f32⟩
  | 69 => ⟨S8192x128, .f32⟩
  | 70 => ⟨S_, .f32⟩
  | 71 => ⟨S8192x128, .f32⟩
  | 72 => ⟨S8192x128, .f32⟩
  | 73 => ⟨S8192x128, .f32⟩
  | 74 => ⟨S1x128, .f32⟩
  | 75 => ⟨S8192x128, .f32⟩
  | 76 => ⟨S8192x128, .f32⟩
  | 77 => ⟨S_, .f32⟩
  | 78 => ⟨S8192x128, .f32⟩
  | 79 => ⟨S8192x128, .f32⟩
  | 80 => ⟨S1x128, .f32⟩
  | 81 => ⟨S8192x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S8192x128, .f32⟩
  | 95 => ⟨S8192x128, .f32⟩
  | 96 => ⟨S8192x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S8192x128, .f32⟩
  | 112 => ⟨S8192x128, .f32⟩
  | 113 => ⟨S1x128, .f32⟩
  | 114 => ⟨S8192x128, .f32⟩
  | 115 => ⟨S8192x128, .f32⟩
  | 116 => ⟨S_, .f32⟩
  | 117 => ⟨S128, .f32⟩
  | 118 => ⟨S128, .f32⟩
  | 119 => ⟨S128, .f32⟩
  | 120 => ⟨S1x128, .f32⟩
  | 121 => ⟨S8192x128, .f32⟩
  | 122 => ⟨S8192x128, .f32⟩
  | 123 => ⟨S1x128, .f32⟩
  | 124 => ⟨S8192x128, .f32⟩
  | 125 => ⟨S8192x128, .f32⟩
  | 126 => ⟨S_, .f32⟩
  | 127 => ⟨S8192x128, .f32⟩
  | _ => ⟨S8192x64, .f32⟩

abbrev hbmTy0_1 (i : Nat) : BufTy := match i % 128 with
  | 0 => ⟨S8192x128, .f32⟩
  | 1 => ⟨S8192x128, .f32⟩
  | 2 => ⟨S1x128, .f32⟩
  | 3 => ⟨S8192x128, .f32⟩
  | 4 => ⟨S8192x128, .f32⟩
  | 5 => ⟨S_, .f32⟩
  | 6 => ⟨S8192x128, .f32⟩
  | 7 => ⟨S8192x128, .f32⟩
  | 8 => ⟨S1x128, .f32⟩
  | 9 => ⟨S8192x128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S8192x128, .f32⟩
  | 23 => ⟨S8192x128, .f32⟩
  | 24 => ⟨S8192x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S1x128, .f32⟩
  | 39 => ⟨S8192x128, .f32⟩
  | 40 => ⟨S8192x128, .f32⟩
  | 41 => ⟨S1x128, .f32⟩
  | 42 => ⟨S8192x128, .f32⟩
  | 43 => ⟨S8192x128, .f32⟩
  | 44 => ⟨S_, .f32⟩
  | 45 => ⟨S128, .f32⟩
  | 46 => ⟨S128, .f32⟩
  | 47 => ⟨S128, .f32⟩
  | 48 => ⟨S1x128, .f32⟩
  | 49 => ⟨S8192x128, .f32⟩
  | 50 => ⟨S8192x128, .f32⟩
  | 51 => ⟨S1x128, .f32⟩
  | 52 => ⟨S8192x128, .f32⟩
  | 53 => ⟨S8192x128, .f32⟩
  | 54 => ⟨S_, .f32⟩
  | 55 => ⟨S8192x128, .f32⟩
  | 56 => ⟨S8192x128, .f32⟩
  | 57 => ⟨S8192x128, .f32⟩
  | 58 => ⟨S1x128, .f32⟩
  | 59 => ⟨S8192x128, .f32⟩
  | 60 => ⟨S8192x128, .f32⟩
  | 61 => ⟨S_, .f32⟩
  | 62 => ⟨S8192x128, .f32⟩
  | 63 => ⟨S8192x128, .f32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S1x384, .f32⟩
  | 83 => ⟨S1x384, .f32⟩
  | 84 => ⟨S1x384, .f32⟩
  | 85 => ⟨S1x384, .f32⟩
  | 86 => ⟨S_, .f32⟩
  | 87 => ⟨S1x384, .f32⟩
  | 88 => ⟨S1x384, .f32⟩
  | 89 => ⟨S1x1, .f32⟩
  | 90 => ⟨S1x1, .f32⟩
  | 91 => ⟨S1x1, .f32⟩
  | 92 => ⟨S_, .f32⟩
  | 93 => ⟨S1, .f32⟩
  | 94 => ⟨S_, .f32⟩
  | 95 => ⟨S1, .f32⟩
  | 96 => ⟨S1, .f32⟩
  | 97 => ⟨S1x1, .f32⟩
  | 98 => ⟨S1x1, .f32⟩
  | 99 => ⟨S1x1, .f32⟩
  | 100 => ⟨S_, .f32⟩
  | 101 => ⟨S1, .f32⟩
  | 102 => ⟨S1x1, .f32⟩
  | 103 => ⟨S1x1, .f32⟩
  | 104 => ⟨S1x1, .f32⟩
  | 105 => ⟨S1, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | .local _ .vmem, ⟨0, _⟩ => ⟨S2048x1024, .i32⟩
  | .local _ .vmem, ⟨1, _⟩ => ⟨S2048x1024, .i32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1024x64, .f32⟩
  | .local _ .vmem, ⟨6, _⟩ => ⟨S64x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x64, .f32⟩
  | .local _ .vmem, ⟨11, _⟩ => ⟨S2048x1024, .i32⟩
  | .local _ .vmem, ⟨12, _⟩ => ⟨S2048x1024, .i32⟩
  | .local _ .vmem, ⟨13, _⟩ => ⟨S2048x128, .f32⟩
  | .local _ .vmem, ⟨14, _⟩ => ⟨S2048x128, .f32⟩
  | .local _ .vmem, ⟨15, _⟩ => ⟨S1024x128, .f32⟩
  | .local _ .vmem, ⟨16, _⟩ => ⟨S1024x128, .f32⟩
  | .local _ .vmem, ⟨17, _⟩ => ⟨S128x128, .f32⟩
  | .local _ .vmem, ⟨18, _⟩ => ⟨S1x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S2048x1024, .i32⟩
  | .local _ .vmem, ⟨23, _⟩ => ⟨S2048x1024, .i32⟩
  | .local _ .vmem, ⟨24, _⟩ => ⟨S2048x128, .f32⟩
  | .local _ .vmem, ⟨25, _⟩ => ⟨S2048x128, .f32⟩
  | .local _ .vmem, ⟨26, _⟩ => ⟨S1024x128, .f32⟩
  | .local _ .vmem, ⟨27, _⟩ => ⟨S1024x128, .f32⟩
  | .local _ .vmem, ⟨28, _⟩ => ⟨S128x128, .f32⟩
  | .local _ .vmem, ⟨29, _⟩ => ⟨S1x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_v4 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_cst_3 : Ref sig .tc := ⟨.hbm, 48, rfl⟩
abbrev main_call0_v12 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_cst_1 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_call1_cst : Ref sig .tc := ⟨.hbm, 70, rfl⟩
abbrev main_call1_v0 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_call2_cst : Ref sig .tc := ⟨.hbm, 77, rfl⟩
abbrev main_call2_v0 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_cst_2 : Ref sig .tc := ⟨.hbm, 82, rfl⟩
abbrev main_v29 : Ref sig .tc := ⟨.hbm, 83, rfl⟩
abbrev main_cst_3 : Ref sig .tc := ⟨.hbm, 84, rfl⟩
abbrev main_v30 : Ref sig .tc := ⟨.hbm, 85, rfl⟩
abbrev main_v31 : Ref sig .tc := ⟨.hbm, 86, rfl⟩
abbrev main_c_4 : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_cst_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_cst_1 : Ref sig .tc := ⟨.hbm, 98, rfl⟩
abbrev main_call3_v8 : Ref sig .tc := ⟨.hbm, 99, rfl⟩
abbrev main_call3_cst_2 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_cst_3 : Ref sig .tc := ⟨.hbm, 104, rfl⟩
abbrev main_call3_v12 : Ref sig .tc := ⟨.hbm, 105, rfl⟩
abbrev main_call3_cst_4 : Ref sig .tc := ⟨.hbm, 106, rfl⟩
abbrev main_call3_call0_v0 : Ref sig .tc := ⟨.hbm, 107, rfl⟩
abbrev main_call3_call0_v1 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_cst_5 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_call4_cst : Ref sig .tc := ⟨.hbm, 126, rfl⟩
abbrev main_call4_v0 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_call5_cst : Ref sig .tc := ⟨.hbm, 133, rfl⟩
abbrev main_call5_v0 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_cst_6 : Ref sig .tc := ⟨.hbm, 138, rfl⟩
abbrev main_v56 : Ref sig .tc := ⟨.hbm, 139, rfl⟩
abbrev main_cst_7 : Ref sig .tc := ⟨.hbm, 140, rfl⟩
abbrev main_v57 : Ref sig .tc := ⟨.hbm, 141, rfl⟩
abbrev main_v58 : Ref sig .tc := ⟨.hbm, 142, rfl⟩
abbrev main_c_8 : Ref sig .tc := ⟨.hbm, 143, rfl⟩
abbrev main_call6_cst : Ref sig .tc := ⟨.hbm, 144, rfl⟩
abbrev main_call6_v0 : Ref sig .tc := ⟨.hbm, 145, rfl⟩
abbrev main_call6_v1 : Ref sig .tc := ⟨.hbm, 146, rfl⟩
abbrev main_call6_cst_0 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_call6_v5 : Ref sig .tc := ⟨.hbm, 151, rfl⟩
abbrev main_call6_v6 : Ref sig .tc := ⟨.hbm, 152, rfl⟩
abbrev main_call6_v7 : Ref sig .tc := ⟨.hbm, 153, rfl⟩
abbrev main_call6_cst_1 : Ref sig .tc := ⟨.hbm, 154, rfl⟩
abbrev main_call6_v8 : Ref sig .tc := ⟨.hbm, 155, rfl⟩
abbrev main_call6_cst_2 : Ref sig .tc := ⟨.hbm, 156, rfl⟩
abbrev main_call6_v9 : Ref sig .tc := ⟨.hbm, 157, rfl⟩
abbrev main_call6_v10 : Ref sig .tc := ⟨.hbm, 158, rfl⟩
abbrev main_call6_v11 : Ref sig .tc := ⟨.hbm, 159, rfl⟩
abbrev main_call6_cst_3 : Ref sig .tc := ⟨.hbm, 160, rfl⟩
abbrev main_call6_v12 : Ref sig .tc := ⟨.hbm, 161, rfl⟩
abbrev main_call6_cst_4 : Ref sig .tc := ⟨.hbm, 162, rfl⟩
abbrev main_call6_call0_v0 : Ref sig .tc := ⟨.hbm, 163, rfl⟩
abbrev main_call6_call0_v1 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_cst_9 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩
abbrev main_call7_cst : Ref sig .tc := ⟨.hbm, 182, rfl⟩
abbrev main_call7_v0 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_call8_cst : Ref sig .tc := ⟨.hbm, 189, rfl⟩
abbrev main_call8_v0 : Ref sig .tc := ⟨.hbm, 190, rfl⟩
abbrev main_v80 : Ref sig .tc := ⟨.hbm, 191, rfl⟩
abbrev main_cst_10 : Ref sig .tc := ⟨.hbm, 192, rfl⟩
abbrev main_v81 : Ref sig .tc := ⟨.hbm, 193, rfl⟩
abbrev main_v82 : Ref sig .tc := ⟨.hbm, 194, rfl⟩
abbrev main_cst_11 : Ref sig .tc := ⟨.hbm, 195, rfl⟩
abbrev main_v83 : Ref sig .tc := ⟨.hbm, 196, rfl⟩
abbrev main_v84 : Ref sig .tc := ⟨.hbm, 197, rfl⟩
abbrev main_cst_12 : Ref sig .tc := ⟨.hbm, 198, rfl⟩
abbrev main_v85 : Ref sig .tc := ⟨.hbm, 199, rfl⟩
abbrev main_v86 : Ref sig .tc := ⟨.hbm, 200, rfl⟩
abbrev main_cst_13 : Ref sig .tc := ⟨.hbm, 201, rfl⟩
abbrev main_v87 : Ref sig .tc := ⟨.hbm, 202, rfl⟩
abbrev main_v88 : Ref sig .tc := ⟨.hbm, 203, rfl⟩
abbrev main_cst_14 : Ref sig .tc := ⟨.hbm, 204, rfl⟩
abbrev main_v89 : Ref sig .tc := ⟨.hbm, 205, rfl⟩
abbrev main_v90 : Ref sig .tc := ⟨.hbm, 206, rfl⟩
abbrev main_cst_15 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_call9_cst : Ref sig .tc := ⟨.hbm, 214, rfl⟩
abbrev main_call9_v0 : Ref sig .tc := ⟨.hbm, 215, rfl⟩
abbrev main_v97 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩
abbrev main_call10_cst : Ref sig .tc := ⟨.hbm, 220, rfl⟩
abbrev main_call10_v0 : Ref sig .tc := ⟨.hbm, 221, rfl⟩
abbrev main_call10_cst_0 : Ref sig .tc := ⟨.hbm, 222, rfl⟩
abbrev main_call10_v1 : Ref sig .tc := ⟨.hbm, 223, rfl⟩
abbrev main_call10_v2 : Ref sig .tc := ⟨.hbm, 224, rfl⟩
abbrev main_call10_v3 : Ref sig .tc := ⟨.hbm, 225, rfl⟩
abbrev main_call10_v4 : Ref sig .tc := ⟨.hbm, 226, rfl⟩
abbrev main_call10_v5 : Ref sig .tc := ⟨.hbm, 227, rfl⟩
abbrev main_call10_cst_1 : Ref sig .tc := ⟨.hbm, 228, rfl⟩
abbrev main_call10_v6 : Ref sig .tc := ⟨.hbm, 229, rfl⟩
abbrev main_call10_v7 : Ref sig .tc := ⟨.hbm, 230, rfl⟩
abbrev main_call10_v8 : Ref sig .tc := ⟨.hbm, 231, rfl⟩
abbrev main_v101 : Ref sig .tc := ⟨.hbm, 232, rfl⟩
abbrev main_v102 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_9 : BitVec 32 := 0#32
  let v20 : BitVec 1 := Scalar.cmpi .ne v19 c0_i32_9
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_9 : BitVec 32 := 0#32
  let v20 : BitVec 1 := Scalar.cmpi .ne v19 c0_i32_9
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  shapeCasts_S128_S1x128 : S128.ShapeCasts S1x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x1024_S2048x1024_0_0 : ∀ a, (![0, 0] : Fin 2 → Nat) a + S2048x1024.size a ≤ S2048x1024.size a
  h_S2048x1024 : 0 < S2048x1024.numel
  natLt_1_32 : 1 < 32
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  concatenates_S1x128_S1x128_S1x128_S1x384_d1 : Shape.Concatenates [S1x128, S1x128, S1x128] S1x384 1
  bcast_S384_S1x384_1 : S384.BroadcastsInDim S1x384 (![1] : Fin 1 → Fin S1x384.rank)
  bcast_S_S1x384 : S_.BroadcastsInDim S1x384 (![] : Fin 0 → Fin S1x384.rank)
  bcast_S1_S1x1_1 : S1.BroadcastsInDim S1x1 (![1] : Fin 1 → Fin S1x1.rank)
  reducesTo_S1x1_S1_d1 : S1x1.ReducesTo [1] S1
  bcast_S_S1 : S_.BroadcastsInDim S1 (![] : Fin 0 → Fin S1.rank)
  bcast_S1_S1x1_0 : S1.BroadcastsInDim S1x1 (![0] : Fin 1 → Fin S1x1.rank)
  shapeCasts_S1x1_S1 : S1x1.ShapeCasts S1
  dot_S2048x1024_S2048x64_S1024x64_0_0_1_1_n_n_wf : DotDims.WF S2048x1024 S2048x64 S1024x64 [0] [0] [1] [1] [] []
  dot_S1024x64_S64x128_S1024x128_1_0_0_1_n_n_wf : DotDims.WF S1024x64 S64x128 S1024x128 [1] [0] [0] [1] [] []
  dot_S8192x128_S128x128_S8192x128_1_0_0_1_n_n_wf : DotDims.WF S8192x128 S128x128 S8192x128 [1] [0] [0] [1] [] []
  dot_S2048x1024_S2048x128_S1024x128_0_0_1_1_n_n_wf : DotDims.WF S2048x1024 S2048x128 S1024x128 [0] [0] [1] [1] [] []
  dot_S1024x128_S128x128_S1024x128_1_0_0_1_n_n_wf : DotDims.WF S1024x128 S128x128 S1024x128 [1] [0] [0] [1] [] []
  dot_S1x384_S384x384_S1x384_1_0_0_1_n_n_wf : DotDims.WF S1x384 S384x384 S1x384 [1] [0] [0] [1] [] []
  dot_S1x384_S384x1_S1x1_1_0_0_1_n_n_wf : DotDims.WF S1x384 S384x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .i32 = 32 ∨ (Rect.block (s := S8192x8192) S2048x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .f32 = 32 ∨ (Rect.block (s := S8192x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .i32 = 32 ∨ (Rect.block (s := S8192x8192) S2048x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S8192x128.size a
  hwx1_5 : ∀ i : grid1.Coords, EltTy.bits .f32 = 32 ∨ (Rect.block (s := S8192x128) S1024x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .i32 = 32 ∨ (Rect.block (s := S8192x8192) S2048x1024.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x128.size a ≤ S8192x128.size a
  hwx2_5 : ∀ i : grid2.Coords, EltTy.bits .f32 = 32 ∨ (Rect.block (s := S8192x128) S1024x128.size (cc2_transform_5 i) (hinb2_5 i)).WholeWords (EltTy.packing .f32)

variable [Facts₀]

def dot_S2048x1024_S2048x64_S1024x64_0_0_1_1_n_n : DotDims S2048x1024 S2048x64 S1024x64 where
  lhsContracting := [0]
  rhsContracting := [0]
  lhsNonContracting := [1]
  rhsNonContracting := [1]
  lhsBatch := []
  rhsBatch := []
  wf := dot_S2048x1024_S2048x64_S1024x64_0_0_1_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1x384_S384x384_S1x384_1_0_0_1_n_n : DotDims S1x384 S384x384 S1x384 where
  lhsContracting := [1]
  rhsContracting := [0]
  lhsNonContracting := [0]
  rhsNonContracting := [1]
  lhsBatch := []
  rhsBatch := []
  wf := dot_S1x384_S384x384_S1x384_1_0_0_1_n_n_wf
def dot_S1x384_S384x1_S1x1_1_0_0_1_n_n : DotDims S1x384 S384x1 S1x1 where
  lhsContracting := [1]
  rhsContracting := [0]
  lhsNonContracting := [0]
  rhsNonContracting := [1]
  lhsBatch := []
  rhsBatch := []
  wf := dot_S1x384_S384x1_S1x1_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1024x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S384x384 : Shape := ⟨2, ![384, 384]⟩
abbrev S384 : Shape := ⟨1, ![384]⟩
abbrev S384x1 : Shape := ⟨2, ![384, 1]⟩
abbrev S1 : Shape := ⟨1, ![1]⟩
abbrev S_ : Shape := ⟨0, ![]⟩
abbrev S8192x128 : Shape := ⟨2, ![8192, 128]⟩
abbrev S1x128 : Shape := ⟨2, ![1, 128]⟩
abbrev S1x384 : Shape := ⟨2, ![1, 384]⟩
abbrev S1x1 : Shape := ⟨2, ![1, 1]⟩

abbrev nBuf : Space → Nat
  | .hbm => 250
  | .vmem => 0
  | .smem => 0
  | _ => 0

abbrev hbmTy0_0 (i : Nat) : BufTy := match i % 128 with
  | 0 => ⟨S8192x64, .f32⟩
  | 1 => ⟨S8192x8192, .i32⟩
  | 2 => ⟨S64x128, .f32⟩
  | 3 => ⟨S128, .f32⟩
  | 4 => ⟨S128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128, .f32⟩
  | 18 => ⟨S128x128, .f32⟩
  | 19 => ⟨S128, .f32⟩
  | 20 => ⟨S384x384, .f32⟩
  | 21 => ⟨S384, .f32⟩
  | 22 => ⟨S384x1, .f32⟩
  | 23 => ⟨S1, .f32⟩
  | 24 => ⟨S_, .i32⟩
  | 25 => ⟨S8192x8192, .i32⟩
  | 26 => ⟨S8192x8192, .i1⟩
  | 27 => ⟨S8192x8192, .f32⟩
  | 28 => ⟨S8192x64, .f32⟩
  | 29 => ⟨S8192x64, .f32⟩
  | 30 => ⟨S8192x128, .f32⟩
  | 31 => ⟨S1x128, .f32⟩
  | 32 => ⟨S8192x128, .f32⟩
  | 33 => ⟨S8192x128, .f32⟩
  | 34 => ⟨S_, .f32⟩
  | 35 => ⟨S128, .f32⟩
  | 36 => ⟨S_, .f32⟩
  | 37 => ⟨S128, .f32⟩
  | 38 => ⟨S128, .f32⟩
  | 39 => ⟨S_, .i32⟩
  | 40 => ⟨S_, .f32⟩
  | 41 => ⟨S128, .f32⟩
  | 42 => ⟨S1x128, .f32⟩
  | 43 => ⟨S_, .f32⟩
  | 44 => ⟨S1x128, .f32⟩
  | 45 => ⟨S1x128, .f32⟩
  | 46 => ⟨S8192x128, .f32⟩
  | 47 => ⟨S8192x128, .f32⟩
  | 48 => ⟨S8192x128, .f32⟩
  | 49 => ⟨S_, .f32⟩
  | 50 => ⟨S_, .f32⟩
  | 51 => ⟨S_, .f32⟩
  | 52 => ⟨S_, .f32⟩
  | 53 => ⟨S128, .f32⟩
  | 54 => ⟨S128, .f32⟩
  | 55 => ⟨S128, .f32⟩
  | 56 => ⟨S_, .f32⟩
  | 57 => ⟨S_, .i1⟩
  | 58 => ⟨S_, .f32⟩
  | 59 => ⟨S_, .f32⟩
  | 60 => ⟨S128, .f32⟩
  | 61 => ⟨S128, .f32⟩
  | 62 => ⟨S1x128, .f32⟩
  | 63 => ⟨S8192x128, .f32⟩
  | 64 => ⟨S8192x128, .f32⟩
  | 65 => ⟨S1x128, .f32⟩
  | 66 => ⟨S8192x128, .f32⟩
  | 67 => ⟨S8192x128, .f32⟩
  | 68 => ⟨S_, .f32⟩
  | 69 => ⟨S128, .f32⟩
  | 70 => ⟨S128, .f32⟩
  | 71 => ⟨S128, .f32⟩
  | 72 => ⟨S1x128, .f32⟩
  | 73 => ⟨S8192x128, .f32⟩
  | 74 => ⟨S8192x128, .f32⟩
  | 75 => ⟨S1x128, .f32⟩
  | 76 => ⟨S8192x128, .f32⟩
  | 77 => ⟨S8192x128, .f32⟩
  | 78 => ⟨S_, .f32⟩
  | 79 => ⟨S8192x128, .f32⟩
  | 80 => ⟨S8192x128, .f32⟩
  | 81 => ⟨S8192x128, .f32⟩
  | 82 => ⟨S1x128, .f32⟩
  | 83 => ⟨S8192x128, .f32⟩
  | 84 => ⟨S8192x128, .f32⟩
  | 85 => ⟨S_, .f32⟩
  | 86 => ⟨S8192x128, .f32⟩
  | 87 => ⟨S8192x128, .f32⟩
  | 88 => ⟨S8192x128, .f32⟩
  | 89 => ⟨S8192x128, .f32⟩
  | 90 => ⟨S8192x128, .f32⟩
  | 91 => ⟨S1x128, .f32⟩
  | 92 => ⟨S8192x128, .f32⟩
  | 93 => ⟨S8192x128, .f32⟩
  | 94 => ⟨S_, .f32⟩
  | 95 => ⟨S128, .f32⟩
  | 96 => ⟨S_, .f32⟩
  | 97 => ⟨S128, .f32⟩
  | 98 => ⟨S128, .f32⟩
  | 99 => ⟨S_, .i32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S8192x128, .f32⟩
  | 107 => ⟨S8192x128, .f32⟩
  | 108 => ⟨S8192x128, .f32⟩
  | 109 => ⟨S_, .f32⟩
  | 110 => ⟨S_, .f32⟩
  | 111 => ⟨S_, .f32⟩
  | 112 => ⟨S_, .f32⟩
  | 113 => ⟨S128, .f32⟩
  | 114 => ⟨S128, .f32⟩
  | 115 => ⟨S128, .f32⟩
  | 116 => ⟨S_, .f32⟩
  | 117 => ⟨S_, .i1⟩
  | 118 => ⟨S_, .f32⟩
  | 119 => ⟨S_, .f32⟩
  | 120 => ⟨S128, .f32⟩
  | 121 => ⟨S128, .f32⟩
  | 122 => ⟨S1x128, .f32⟩
  | 123 => ⟨S8192x128, .f32⟩
  | 124 => ⟨S8192x128, .f32⟩
  | 125 => ⟨S1x128, .f32⟩
  | 126 => ⟨S8192x128, .f32⟩
  | 127 => ⟨S8192x128, .f32⟩
  | _ => ⟨S8192x64, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S8192x128, .f32⟩
  | 6 => ⟨S8192x128, .f32⟩
  | 7 => ⟨S1x128, .f32⟩
  | 8 => ⟨S8192x128, .f32⟩
  | 9 => ⟨S8192x128, .f32⟩
  | 10 => ⟨S_, .f32⟩
  | 11 => ⟨S8192x128, .f32⟩
  | 12 => ⟨S8192x128, .f32⟩
  | 13 => ⟨S8192x128, .f32⟩
  | 14 => ⟨S1x128, .f32⟩
  | 15 => ⟨S8192x128, .f32⟩
  | 16 => ⟨S8192x128, .f32⟩
  | 17 => ⟨S_, .f32⟩
  | 18 => ⟨S8192x128, .f32⟩
  | 19 => ⟨S8192x128, .f32⟩
  | 20 => ⟨S8192x128, .f32⟩
  | 21 => ⟨S8192x128, .f32⟩
  | 22 => ⟨S8192x128, .f32⟩
  | 23 => ⟨S1x128, .f32⟩
  | 24 => ⟨S8192x128, .f32⟩
  | 25 => ⟨S8192x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S8192x128, .f32⟩
  | 39 => ⟨S8192x128, .f32⟩
  | 40 => ⟨S8192x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S8192x128, .f32⟩
  | 56 => ⟨S8192x128, .f32⟩
  | 57 => ⟨S1x128, .f32⟩
  | 58 => ⟨S8192x128, .f32⟩
  | 59 => ⟨S8192x128, .f32⟩
  | 60 => ⟨S_, .f32⟩
  | 61 => ⟨S128, .f32⟩
  | 62 => ⟨S128, .f32⟩
  | 63 => ⟨S128, .f32⟩
  | 64 => ⟨S1x128, .f32⟩
  | 65 => ⟨S8192x128, .f32⟩
  | 66 => ⟨S8192x128, .f32⟩
  | 67 => ⟨S1x128, .f32⟩
  | 68 => ⟨S8192x128, .f32⟩
  | 69 => ⟨S8192x128, .f32⟩
  | 70 => ⟨S_, .f32⟩
  | 71 => ⟨S8192x128, .f32⟩
  | 72 => ⟨S8192x128, .f32⟩
  | 73 => ⟨S8192x128, .f32⟩
  | 74 => ⟨S1x128, .f32⟩
  | 75 => ⟨S8192x128, .f32⟩
  | 76 => ⟨S8192x128, .f32⟩
  | 77 => ⟨S_, .f32⟩
  | 78 => ⟨S8192x128, .f32⟩
  | 79 => ⟨S8192x128, .f32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S1x384, .f32⟩
  | 99 => ⟨S1x384, .f32⟩
  | 100 => ⟨S1x384, .f32⟩
  | 101 => ⟨S1x384, .f32⟩
  | 102 => ⟨S_, .f32⟩
  | 103 => ⟨S1x384, .f32⟩
  | 104 => ⟨S1x384, .f32⟩
  | 105 => ⟨S1x1, .f32⟩
  | 106 => ⟨S1x1, .f32⟩
  | 107 => ⟨S1x1, .f32⟩
  | 108 => ⟨S_, .f32⟩
  | 109 => ⟨S1, .f32⟩
  | 110 => ⟨S_, .f32⟩
  | 111 => ⟨S1, .f32⟩
  | 112 => ⟨S1, .f32⟩
  | 113 => ⟨S1x1, .f32⟩
  | 114 => ⟨S1x1, .f32⟩
  | 115 => ⟨S1x1, .f32⟩
  | 116 => ⟨S_, .f32⟩
  | 117 => ⟨S1, .f32⟩
  | 118 => ⟨S1x1, .f32⟩
  | 119 => ⟨S1x1, .f32⟩
  | 120 => ⟨S1x1, .f32⟩
  | 121 => ⟨S1, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_c_1 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_cst_2 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_call1_cst : Ref sig .tc := ⟨.hbm, 78, rfl⟩
abbrev main_call1_v0 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_call2_cst : Ref sig .tc := ⟨.hbm, 85, rfl⟩
abbrev main_call2_v0 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_3 : Ref sig .tc := ⟨.hbm, 94, rfl⟩
abbrev main_v40 : Ref sig .tc := ⟨.hbm, 95, rfl⟩
abbrev main_cst_4 : Ref sig .tc := ⟨.hbm, 96, rfl⟩
abbrev main_v41 : Ref sig .tc := ⟨.hbm, 97, rfl⟩
abbrev main_v42 : Ref sig .tc := ⟨.hbm, 98, rfl⟩
abbrev main_c_5 : Ref sig .tc := ⟨.hbm, 99, rfl⟩
abbrev main_call3_cst : Ref sig .tc := ⟨.hbm, 100, rfl⟩
abbrev main_call3_v0 : Ref sig .tc := ⟨.hbm, 101, rfl⟩
abbrev main_call3_v1 : Ref sig .tc := ⟨.hbm, 102, rfl⟩
abbrev main_call3_cst_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_call3_v7 : Ref sig .tc := ⟨.hbm, 109, rfl⟩
abbrev main_call3_cst_1 : Ref sig .tc := ⟨.hbm, 110, rfl⟩
abbrev main_call3_v8 : Ref sig .tc := ⟨.hbm, 111, rfl⟩
abbrev main_call3_cst_2 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_cst_3 : Ref sig .tc := ⟨.hbm, 116, rfl⟩
abbrev main_call3_v12 : Ref sig .tc := ⟨.hbm, 117, rfl⟩
abbrev main_call3_cst_4 : Ref sig .tc := ⟨.hbm, 118, rfl⟩
abbrev main_call3_call0_v0 : Ref sig .tc := ⟨.hbm, 119, rfl⟩
abbrev main_call3_call0_v1 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_cst_6 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_call4_cst : Ref sig .tc := ⟨.hbm, 138, rfl⟩
abbrev main_call4_v0 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_call5_cst : Ref sig .tc := ⟨.hbm, 145, rfl⟩
abbrev main_call5_v0 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_cst_7 : Ref sig .tc := ⟨.hbm, 154, rfl⟩
abbrev main_v71 : Ref sig .tc := ⟨.hbm, 155, rfl⟩
abbrev main_cst_8 : Ref sig .tc := ⟨.hbm, 156, rfl⟩
abbrev main_v72 : Ref sig .tc := ⟨.hbm, 157, rfl⟩
abbrev main_v73 : Ref sig .tc := ⟨.hbm, 158, rfl⟩
abbrev main_c_9 : Ref sig .tc := ⟨.hbm, 159, rfl⟩
abbrev main_call6_cst : Ref sig .tc := ⟨.hbm, 160, rfl⟩
abbrev main_call6_v0 : Ref sig .tc := ⟨.hbm, 161, rfl⟩
abbrev main_call6_v1 : Ref sig .tc := ⟨.hbm, 162, rfl⟩
abbrev main_call6_cst_0 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_call6_v5 : Ref sig .tc := ⟨.hbm, 167, rfl⟩
abbrev main_call6_v6 : Ref sig .tc := ⟨.hbm, 168, rfl⟩
abbrev main_call6_v7 : Ref sig .tc := ⟨.hbm, 169, rfl⟩
abbrev main_call6_cst_1 : Ref sig .tc := ⟨.hbm, 170, rfl⟩
abbrev main_call6_v8 : Ref sig .tc := ⟨.hbm, 171, rfl⟩
abbrev main_call6_cst_2 : Ref sig .tc := ⟨.hbm, 172, rfl⟩
abbrev main_call6_v9 : Ref sig .tc := ⟨.hbm, 173, rfl⟩
abbrev main_call6_v10 : Ref sig .tc := ⟨.hbm, 174, rfl⟩
abbrev main_call6_v11 : Ref sig .tc := ⟨.hbm, 175, rfl⟩
abbrev main_call6_cst_3 : Ref sig .tc := ⟨.hbm, 176, rfl⟩
abbrev main_call6_v12 : Ref sig .tc := ⟨.hbm, 177, rfl⟩
abbrev main_call6_cst_4 : Ref sig .tc := ⟨.hbm, 178, rfl⟩
abbrev main_call6_call0_v0 : Ref sig .tc := ⟨.hbm, 179, rfl⟩
abbrev main_call6_call0_v1 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_cst_10 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_call7_cst : Ref sig .tc := ⟨.hbm, 198, rfl⟩
abbrev main_call7_v0 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_call8_cst : Ref sig .tc := ⟨.hbm, 205, rfl⟩
abbrev main_call8_v0 : Ref sig .tc := ⟨.hbm, 206, rfl⟩
abbrev main_v95 : Ref sig .tc := ⟨.hbm, 207, rfl⟩
abbrev main_cst_11 : Ref sig .tc := ⟨.hbm, 208, rfl⟩
abbrev main_v96 : Ref sig .tc := ⟨.hbm, 209, rfl⟩
abbrev main_v97 : Ref sig .tc := ⟨.hbm, 210, rfl⟩
abbrev main_cst_12 : Ref sig .tc := ⟨.hbm, 211, rfl⟩
abbrev main_v98 : Ref sig .tc := ⟨.hbm, 212, rfl⟩
abbrev main_v99 : Ref sig .tc := ⟨.hbm, 213, rfl⟩
abbrev main_cst_13 : Ref sig .tc := ⟨.hbm, 214, rfl⟩
abbrev main_v100 : Ref sig .tc := ⟨.hbm, 215, rfl⟩
abbrev main_v101 : Ref sig .tc := ⟨.hbm, 216, rfl⟩
abbrev main_cst_14 : Ref sig .tc := ⟨.hbm, 217, rfl⟩
abbrev main_v102 : Ref sig .tc := ⟨.hbm, 218, rfl⟩
abbrev main_v103 : Ref sig .tc := ⟨.hbm, 219, rfl⟩
abbrev main_cst_15 : Ref sig .tc := ⟨.hbm, 220, rfl⟩
abbrev main_v104 : Ref sig .tc := ⟨.hbm, 221, rfl⟩
abbrev main_v105 : Ref sig .tc := ⟨.hbm, 222, rfl⟩
abbrev main_cst_16 : Ref sig .tc := ⟨.hbm, 223, rfl⟩
abbrev main_v106 : Ref sig .tc := ⟨.hbm, 224, rfl⟩
abbrev main_v107 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_call9_cst : Ref sig .tc := ⟨.hbm, 230, rfl⟩
abbrev main_call9_v0 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_call10_cst : Ref sig .tc := ⟨.hbm, 236, rfl⟩
abbrev main_call10_v0 : Ref sig .tc := ⟨.hbm, 237, rfl⟩
abbrev main_call10_cst_0 : Ref sig .tc := ⟨.hbm, 238, rfl⟩
abbrev main_call10_v1 : Ref sig .tc := ⟨.hbm, 239, rfl⟩
abbrev main_call10_v2 : Ref sig .tc := ⟨.hbm, 240, rfl⟩
abbrev main_call10_v3 : Ref sig .tc := ⟨.hbm, 241, rfl⟩
abbrev main_call10_v4 : Ref sig .tc := ⟨.hbm, 242, rfl⟩
abbrev main_call10_v5 : Ref sig .tc := ⟨.hbm, 243, rfl⟩
abbrev main_call10_cst_1 : Ref sig .tc := ⟨.hbm, 244, rfl⟩
abbrev main_call10_v6 : Ref sig .tc := ⟨.hbm, 245, rfl⟩
abbrev main_call10_v7 : Ref sig .tc := ⟨.hbm, 246, rfl⟩
abbrev main_call10_v8 : Ref sig .tc := ⟨.hbm, 247, rfl⟩
abbrev main_v116 : Ref sig .tc := ⟨.hbm, 248, rfl⟩
abbrev main_v117 : Ref sig .tc := ⟨.hbm, 249, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S128_d0 : S8192x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S8192x128 : S_.BroadcastsInDim S8192x128 (![] : Fin 0 → Fin S8192x128.rank)
  concatenates_S1x128_S1x128_S1x128_S1x384_d1 : Shape.Concatenates [S1x128, S1x128, S1x128] S1x384 1
  bcast_S384_S1x384_1 : S384.BroadcastsInDim S1x384 (![1] : Fin 1 → Fin S1x384.rank)
  bcast_S_S1x384 : S_.BroadcastsInDim S1x384 (![] : Fin 0 → Fin S1x384.rank)
  bcast_S1_S1x1_1 : S1.BroadcastsInDim S1x1 (![1] : Fin 1 → Fin S1x1.rank)
  reducesTo_S1x1_S1_d1 : S1x1.ReducesTo [1] S1
  bcast_S_S1 : S_.BroadcastsInDim S1 (![] : Fin 0 → Fin S1.rank)
  bcast_S1_S1x1_0 : S1.BroadcastsInDim S1x1 (![0] : Fin 1 → Fin S1x1.rank)
  shapeCasts_S1x1_S1 : S1x1.ShapeCasts S1
  dot_S8192x8192_S8192x64_S8192x64_0_0_1_1_n_n_wf : DotDims.WF S8192x8192 S8192x64 S8192x64 [0] [0] [1] [1] [] []
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S8192x8192_S8192x128_S8192x128_0_0_1_1_n_n_wf : DotDims.WF S8192x8192 S8192x128 S8192x128 [0] [0] [1] [1] [] []
  dot_S1x384_S384x384_S1x384_1_0_0_1_n_n_wf : DotDims.WF S1x384 S384x384 S1x384 [1] [0] [0] [1] [] []
  dot_S1x384_S384x1_S1x1_1_0_0_1_n_n_wf : DotDims.WF S1x384 S384x1 S1x1 [1] [0] [0] [1] [] []

variable [Facts₀]

def dot_S8192x8192_S8192x64_S8192x64_0_0_1_1_n_n : DotDims S8192x8192 S8192x64 S8192x64 where
  lhsContracting := [0]
  rhsContracting := [0]
  lhsNonContracting := [1]
  rhsNonContracting := [1]
  lhsBatch := []
  rhsBatch := []
  wf := dot_S8192x8192_S8192x64_S8192x64_0_0_1_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_0_0_1_1_n_n : DotDims S8192x8192 S8192x128 S8192x128 where
  lhsContracting := [0]
  rhsContracting := [0]
  lhsNonContracting := [1]
  rhsNonContracting := [1]
  lhsBatch := []
  rhsBatch := []
  wf := dot_S8192x8192_S8192x128_S8192x128_0_0_1_1_n_n_wf
def dot_S1x384_S384x384_S1x384_1_0_0_1_n_n : DotDims S1x384 S384x384 S1x384 where
  lhsContracting := [1]
  rhsContracting := [0]
  lhsNonContracting := [0]
  rhsNonContracting := [1]
  lhsBatch := []
  rhsBatch := []
  wf := dot_S1x384_S384x384_S1x384_1_0_0_1_n_n_wf
def dot_S1x384_S384x1_S1x1_1_0_0_1_n_n : DotDims S1x384 S384x1 S1x1 where
  lhsContracting := [1]
  rhsContracting := [0]
  lhsNonContracting := [0]
  rhsNonContracting := [1]
  lhsBatch := []
  rhsBatch := []
  wf := dot_S1x384_S384x1_S1x1_1_0_0_1_n_n_wf

class Facts : Prop extends Facts₀ where

variable [Facts]
-- ==== Proof.LibWholeStore.lean ====
import Idealize.ShloMosaic.Lib.Pipeline.FrameBody
import Idealize.ShloMosaic.Lib.Pipeline.Value

noncomputable section

namespace Idealize.ShloMosaic.View

variable {sig : RefSig} {κ : Kind} {sp : Space} {S : Shape} {e : EltTy} {Val : EltTy → Type}

/-- A buffer written by ONE store through the rectangle that is the whole shape (offset zero on every axis, the
    shape's own extents) reads back as that store's value, whatever it held before: the rectangle covers every index
    and the store is the last one. -/
theorem read_writes_unit_whole [∀ e, Nonempty (Val e)] (v : View sig κ sp S e) {off : Fin S.rank → Nat} (h : off = fun _ => 0)
    (inb : ∀ a, off a + S.size a ≤ S.size a) (f : v.ty.Contents Val) (w : S.Idx → Val e) :
    v.read Val (v.writes Val f [(⟨Rect.unit off S.size inb, w⟩ : Piece Val S e)]) = w := by
  subst h
  rw [read_writes_eq_canon _ _ _ (fun y => ⟨_, List.mem_singleton_self _, by
    show y ∈ (Rect.whole S).set; rw [Rect.set_whole]; exact Finset.mem_univ y⟩), canon_unit_zero rfl]

/-- The same after TWO stores through the whole shape: the later one (listed first) is what is read. -/
theorem read_writes_unit_whole_cons [∀ e, Nonempty (Val e)] (v : View sig κ sp S e) {off : Fin S.rank → Nat} (h : off = fun _ => 0)
    (inb : ∀ a, off a + S.size a ≤ S.size a) (f : v.ty.Contents Val) (w : S.Idx → Val e) (L : List (Piece Val S e)) :
    v.read Val (v.writes Val f ((⟨Rect.unit off S.size inb, w⟩ : Piece Val S e) :: L)) = w := by
  subst h
  rw [read_writes_eq_canon _ _ _ (fun y => ⟨_, List.mem_cons_self, by
    show y ∈ (Rect.whole S).set; rw [Rect.set_whole]; exact Finset.mem_univ y⟩), canon_cons_unit_zero rfl]

end Idealize.ShloMosaic.View

end
-- ==== Proof.Body0.lean ====
import proofs.«155579_j31937376813550_1_alg».proof.Proof.Gen.KernelIdeal.Launch
import proofs.«155579_j31937376813550_1_alg».proof.Proof.Gen.KernelIdeal.Skeleton
import proofs.«155579_j31937376813550_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«155579_j31937376813550_1_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pallas_call 0 at one grid point, in its three control cases

The grid is 8 row blocks (first coordinate) by 4 contraction tiles (second coordinate). At a point the body
adds this tile's product (the 0/1 pattern of the adjacency tile, transposed, times the tile's rows of x) to an
accumulator it keeps in scratch memory; at the first tile (second coordinate 0) it first resets the accumulator to
zero, and at the last (second coordinate 3) it also finishes the row block: (own rows + accumulator) times the
weights, plus the bias, stored into the output block. The three runs below say what the scratch and the output
buffer hold afterwards, as the body's own value terms (`k0_pay1` the zero block, `k0_pay2` the accumulator's
update, `k0_pay3` the finished block); every other buffer is left as it was. -/

/-- The body's first conditional (reset): the second grid coordinate is 0. -/
abbrev cond0_0 (i : grid0.Coords) : Prop := (Scalar.cmpi .ne (Scalar.extui (Scalar.cmpi .eq (BitVec.ofNat 32 (i 1).val) 0#32)) 0#32) = 1#1
/-- The body's second conditional (finish and store): the second grid coordinate is 3. -/
abbrev cond0_1 (i : grid0.Coords) : Prop := k0_cond2 i = 1#1

/-- Points are numbered row block by row block, so the reset happens at the points ≡ 0 (mod 4), -/
theorem hcond0_0 : ∀ t : Fin cfg0.N, cond0_0 (grid0.coords t) ↔ t.val % 4 = 0 :=
  (by decide +kernel : ∀ t : Fin grid0.N, cond0_0 (grid0.coords t) ↔ t.val % 4 = 0)
/-- and the finish at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

set_option maxHeartbeats 1000000 in
/-- First tile of a row block: whatever the accumulator held, it is left at zero plus this tile's product. -/
theorem run0_A (c : Dev nD) (E : Set ℕ) (i : grid0.Coords) (hc0 : cond0_0 i) (hc1 : ¬cond0_1 i)
    (arg2 : Memref sig .tc .vmem S2048x1024 .i32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S64x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x64 .f32) (harg8 : arg8.IsWhole)
    (xa : Vec F S2048x1024 .i32) (xj : Vec F S2048x64 .f32) (K : PUnit → sProp 𝕄) :
    iprop(owns (c : Thread nD τ) arg2 fullShare xa ∗ owns (c : Thread nD τ) arg3 fullShare xj ∗ (∃ d, owns (c : Thread nD τ) arg8 fullShare d)
        ∗ (iprop(owns (c : Thread nD τ) arg2 fullShare xa ∗ owns (c : Thread nD τ) arg3 fullShare xj
            ∗ owns (c : Thread nD τ) arg8 fullShare (k0_pay2 xa xj (k0_pay1 (F := F)))) -∗ K ⟨⟩))
      ⊢ wp frame (wpE (defs₀ (F := F)) Variants.none c none) E
          (cc0__gin_agg_linear1_kernel i arg2 harg2 arg3 harg3 arg4 harg4 arg5 harg5 arg6 harg6 arg7 harg7 arg8 harg8) K := by
  simp only [cc0__gin_agg_linear1_kernel_eq_skeleton]; unfold cc0__gin_agg_linear1_kernel_skel
  unfold owns
  iintro ⟨⟨%f2, %hf2, H2⟩, ⟨%f3, %hf3, H3⟩, ⟨%d8, %f8, -, H8⟩, Hk⟩
  obtain rfl := harg2.eq_unread hf2; obtain rfl := harg3.eq_unread hf3
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole_cons _ hz]
  sl_unfold_run_names
  rw [View.readCov_unit_zero _ hz]
  simp only [View.readAt_eq_ld, hf2, hf3, View.ld_unit_zero (S := S2048x1024) hz, View.ld_unit_zero (S := S2048x64) hz, View.ld_unit_zero (S := S1024x64) hz, View.ld_unit_zero (S := S64x128) hz, View.ld_unit_zero (S := S1x128) hz, View.ld_unit_zero (S := S1024x128) hz]

set_option maxHeartbeats 1000000 in
/-- A middle tile: the accumulator, found at `a`, is left at `a` plus this tile's product. -/
theorem run0_B (c : Dev nD) (E : Set ℕ) (i : grid0.Coords) (hc0 : ¬cond0_0 i) (hc1 : ¬cond0_1 i)
    (arg2 : Memref sig .tc .vmem S2048x1024 .i32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S64x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x64 .f32) (harg8 : arg8.IsWhole)
    (xa : Vec F S2048x1024 .i32) (xj : Vec F S2048x64 .f32) (a : Vec F S1024x64 .f32) (K : PUnit → sProp 𝕄) :
    iprop(owns (c : Thread nD τ) arg2 fullShare xa ∗ owns (c : Thread nD τ) arg3 fullShare xj ∗ owns (c : Thread nD τ) arg8 fullShare a
        ∗ (iprop(owns (c : Thread nD τ) arg2 fullShare xa ∗ owns (c : Thread nD τ) arg3 fullShare xj
            ∗ owns (c : Thread nD τ) arg8 fullShare (k0_pay2 xa xj a)) -∗ K ⟨⟩))
      ⊢ wp frame (wpE (defs₀ (F := F)) Variants.none c none) E
          (cc0__gin_agg_linear1_kernel i arg2 harg2 arg3 harg3 arg4 harg4 arg5 harg5 arg6 harg6 arg7 harg7 arg8 harg8) K := by
  simp only [cc0__gin_agg_linear1_kernel_eq_skeleton]; unfold cc0__gin_agg_linear1_kernel_skel
  unfold owns
  iintro ⟨⟨%f2, %hf2, H2⟩, ⟨%f3, %hf3, H3⟩, ⟨%f8, %hf8, H8⟩, Hk⟩
  obtain rfl := harg2.eq_unread hf2; obtain rfl := harg3.eq_unread hf3; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole _ hz]
  simp only [View.readAt_eq_ld, hf2, hf3, hf8, View.ld_unit_zero (S := S2048x1024) hz, View.ld_unit_zero (S := S2048x64) hz, View.ld_unit_zero (S := S1024x64) hz, View.ld_unit_zero (S := S64x128) hz, View.ld_unit_zero (S := S1x128) hz, View.ld_unit_zero (S := S1024x128) hz]

set_option maxHeartbeats 1000000 in
/-- Last tile of a row block: the accumulator is updated as at a middle tile, and the output buffer, whatever it held,
    is left at the finished block computed from the own rows, the updated accumulator, the weights and the bias. -/
theorem run0_C (c : Dev nD) (E : Set ℕ) (i : grid0.Coords) (hc0 : ¬cond0_0 i) (hc1 : cond0_1 i)
    (arg2 : Memref sig .tc .vmem S2048x1024 .i32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S64x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x64 .f32) (harg8 : arg8.IsWhole)
    (xa : Vec F S2048x1024 .i32) (xj : Vec F S2048x64 .f32) (xi : Vec F S1024x64 .f32) (w : Vec F S64x128 .f32) (b : Vec F S1x128 .f32)
    (a : Vec F S1024x64 .f32) (K : PUnit → sProp 𝕄) :
    iprop(owns (c : Thread nD τ) arg2 fullShare xa ∗ owns (c : Thread nD τ) arg3 fullShare xj ∗ owns (c : Thread nD τ) arg4 fullShare xi
        ∗ owns (c : Thread nD τ) arg5 fullShare w ∗ owns (c : Thread nD τ) arg6 fullShare b ∗ (∃ d, owns (c : Thread nD τ) arg7 fullShare d)
        ∗ owns (c : Thread nD τ) arg8 fullShare a
        ∗ (iprop(owns (c : Thread nD τ) arg2 fullShare xa ∗ owns (c : Thread nD τ) arg3 fullShare xj ∗ owns (c : Thread nD τ) arg4 fullShare xi
            ∗ owns (c : Thread nD τ) arg5 fullShare w ∗ owns (c : Thread nD τ) arg6 fullShare b
            ∗ owns (c : Thread nD τ) arg7 fullShare (k0_pay3 xi (k0_pay2 xa xj a) w b)
            ∗ owns (c : Thread nD τ) arg8 fullShare (k0_pay2 xa xj a)) -∗ K ⟨⟩))
      ⊢ wp frame (wpE (defs₀ (F := F)) Variants.none c none) E
          (cc0__gin_agg_linear1_kernel i arg2 harg2 arg3 harg3 arg4 harg4 arg5 harg5 arg6 harg6 arg7 harg7 arg8 harg8) K := by
  simp only [cc0__gin_agg_linear1_kernel_eq_skeleton]; unfold cc0__gin_agg_linear1_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg8.eq_unread hf8
  sl_exec (disch := first | exact hc0 | exact hc1)
  sl_step
  have hz : (![0, 0] : Fin 2 → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [View.read_writes_unit_whole _ hz]
    sl_unfold_run_names
    rw [View.readCov_unit_zero _ hz]
    simp only [View.readAt_eq_ld, hf2, hf3, hf4, hf5, hf6, hf8, View.ld_unit_zero (S := S2048x1024) hz, View.ld_unit_zero (S := S2048x64) hz, View.ld_unit_zero (S := S1024x64) hz, View.ld_unit_zero (S := S64x128) hz, View.ld_unit_zero (S := S1x128) hz, View.ld_unit_zero (S := S1024x128) hz]
  iexists _; isplitr
  swap; · iexact H8
  ipureintro
  sl_unfold_run_names
  rw [View.read_writes_unit_whole _ hz]
  simp only [View.readAt_eq_ld, hf2, hf3, hf8, View.ld_unit_zero (S := S2048x1024) hz, View.ld_unit_zero (S := S2048x64) hz, View.ld_unit_zero (S := S1024x64) hz, View.ld_unit_zero (S := S64x128) hz, View.ld_unit_zero (S := S1x128) hz, View.ld_unit_zero (S := S1024x128) hz]

end Cert.KernelIdeal.Hand

end
-- ==== Proof.Region0.lean ====
import proofs.«155579_j31937376813550_1_alg».proof.Proof.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 0: what its buffers hold point by point, and the body obligation

Stated at a parameter `V`: the TensorCore's buffer contents when the region is entered. The adjacency tile (window 0)
and the contraction-side rows of x (window 1) change at every point; the own rows (window 2) change with the row block;
the weights and bias (windows 3, 4) are fetched once. Windows 1 and 2 read ONE array, so each holds half of it. The
accumulator lives in a scratch buffer the invariant carries from point to point; the output block (window 5) is
stored at the last tile of each row block only and written back there. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it to the body, and its wholeness. -/
abbrev ms0_0 (t : Fin cfg0.N) : Memref sig .tc .vmem S2048x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The scratch accumulator: a whole scoped buffer of the kernel's own. -/
abbrev scM0 : Memref sig .tc .vmem S1024x64 .f32 := Memref.whole cc0_scratch0

/-- THE ACCUMULATOR after point `n`: this tile's product added to zero at the first tile of a row block, and to
    what the point before left otherwise. -/
def acc0 (c : Dev nD) : (n : ℕ) → n < cfg0.N → Vec F S1024x64 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩)
      (if (n + 1) % 4 = 0 then (k0_pay1 (F := F)) else acc0 c n (Nat.lt_of_succ_lt hn))

theorem acc0_reset (c : Dev nD) (t : Fin cfg0.N) (h0 : t.val % 4 = 0) :
    acc0 V c t.val t.isLt = k0_pay2 (iblk0 V c 0 t) (iblk0 V c 1 t) (k0_pay1 (F := F)) := by
  obtain ⟨n, hn⟩ := t
  cases n with
  | zero => rfl
  | succ n => exact (show acc0 V c (n + 1) hn = _ from by rw [acc0, if_pos h0])

theorem acc0_step (c : Dev nD) (t : Fin cfg0.N) (h0 : ¬t.val % 4 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact (show acc0 V c (n + 1) hn = _ from by rw [acc0, if_neg h0]; rfl)

/-- THE FINISHED BLOCK at point `t` (stored at the last tile of a row block): own rows plus accumulator, times the
    weights, plus the bias. -/
def out0 (c : Dev nD) (t : Fin cfg0.N) : Vec F S1024x128 .f32 :=
  k0_pay3 (iblk0 V c 2 t) (acc0 V c t.val t.isLt) (iblk0 V c 3 t) (iblk0 V c 4 t)

/-- The scoped buffers that are neither a staging buffer of this pallas_call nor its scratch, each at some contents. -/
def other0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

set_option maxRecDepth 4000 in
/-- The scoped rest the launch hands the region is the scratch at some contents beside the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ other0 (F := F) c) := by
  unfold Pipeline.scopedRest other0
  rw [bigSep_erase (i := cc0_scratch0) (by decide)]
  simp only [scM0, owns_whole]
  rfl

/-- The region invariant before position `n`: before the first point what the launch hands over; afterwards the
    scratch at the accumulator the point before left, the other scoped buffers, the generator register. -/
def Phi0 (c : Dev nD) : (n : ℕ) → n ≤ cfg0.N → sProp 𝕄
  | 0, _ => Pipeline.ΦA spec0 c
  | n + 1, hn => iprop((owns (c : Thread nD τ) scM0 fullShare (acc0 V c n hn) ∗ other0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (acc0 V c n hn) ∗ other0 (F := F) c) ∗ (∃ r, prngReg c r)) := rfl
theorem Phi0_pos (c : Dev nD) (n : ℕ) (h : n ≤ cfg0.N) (hz : n ≠ 0) :
    Phi0 V c n h = iprop((owns (c : Thread nD τ) scM0 fullShare (acc0 V c (n - 1) (by omega)) ∗ other0 (F := F) c) ∗ (∃ r, prngReg c r)) := by
  cases n with
  | zero => exact absurd rfl hz
  | succ n => rfl
theorem PhiA0_eq (c : Dev nD) :
    (Pipeline.ΦA spec0 c : sProp 𝕄) = iprop(((∃ d, owns (c : Thread nD τ) scM0 fullShare d) ∗ other0 (F := F) c) ∗ (∃ r, prngReg c r)) := by
  unfold Pipeline.ΦA; rw [scopedRest0_split]

/-! ## The proof data -/

/-- The proof data of pallas_call 0 on core `c`: the arrays as the region finds them; after the body each input's
    buffer at its block and the output's at the finished block; the invariant above; nothing owed; the array behind
    windows 1 and 2 held in halves, every other input whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 V c t
  Φ t := Phi0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks; the point's position in its row block says which of the
    three runs applies; the invariant hands over the scratch (at anything before the first point, at the previous
    accumulator afterwards) and takes it back at this point's accumulator; at the last tile the output's buffer is
    left at the finished block, elsewhere as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 32 := lt_of_lt_of_eq t.isLt (show cfg0.N = 32 from N_0)
  by_cases h1 : t.val % 4 = 3
  · -- the last tile of a row block
    have h0 : ¬t.val % 4 = 0 := by omega
    have hz : t.val ≠ 0 := by omega
    rw [show (dat0 V c).leavesExact 5 t = owns (c : Thread nD τ) (ms0_5 t) fullShare ((dat0 V c).after 5 t) from by
      unfold Dat.leavesExact; rw [liveAt0_5 t ((hcond0_1 t).mpr h1)], after0_5]
    unfold out0
    rw [acc0_step V c t h0, Phi0_castSucc V c t, Phi0_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run0_C c Set.univ (grid0.coords t) (fun h => h0 ((hcond0_0 t).mp h)) ((hcond0_1 t).mpr h1)
      (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
      (iblk0 V c 0 t) (iblk0 V c 1 t) (iblk0 V c 2 t) (iblk0 V c 3 t) (iblk0 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat0 V c) 5 t (idleAt0_5 t (fun h => h1 ((hcond0_1 t).mp h))) (noFlush0_5 t (fun h => h1 ((hcond0_1 t).mp h)))]
    by_cases h0 : t.val % 4 = 0
    · -- the first tile of a row block
      rw [acc0_reset V c t h0]
      by_cases hz : t.val = 0
      · rw [Phi0_castSucc V c t, Phi0_zero V c _ _ hz, PhiA0_eq]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run0_A c Set.univ (grid0.coords t) ((hcond0_0 t).mpr h0) (fun h => h1 ((hcond0_1 t).mp h))
          (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
          (iblk0 V c 0 t) (iblk0 V c 1 t) _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi0_castSucc V c t, Phi0_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run0_A c Set.univ (grid0.coords t) ((hcond0_0 t).mpr h0) (fun h => h1 ((hcond0_1 t).mp h))
          (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
          (iblk0 V c 0 t) (iblk0 V c 1 t) _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- a middle tile
      have hz : t.val ≠ 0 := fun e => h0 (by rw [e])
      rw [acc0_step V c t h0, Phi0_castSucc V c t, Phi0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run0_B c Set.univ (grid0.coords t) (fun h => h0 ((hcond0_0 t).mp h)) (fun h => h1 ((hcond0_1 t).mp h))
        (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
        (iblk0 V c 0 t) (iblk0 V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨HS, Hoth⟩, Hg⟩
  isplitl [HS Hoth]
  · isplitl [HS]; · iexists _; iexact HS
    iexact Hoth
  iexact Hg

end Cert.KernelIdeal.Hand

end
-- ==== Proof.Arr0.lean ====
import proofs.«155579_j31937376813550_1_alg».proof.Proof.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 0: its arrays taken out of the core's unscoped buffers at entry and put back at exit

Five distinct buffers stand behind the six windows: windows 1 and 2 read the same array. At entry that array's full
share is dealt to the two windows in halves; at exit the halves, both still at the array's entry contents (an input
is never written), are joined again. Only the output's array changes. -/

variable (V : (c : Dev nD) → (b : Ref sig .tc) → Buf (Elt F) ((c : Thread nD τ).loc b))

set_option maxRecDepth 4000 in
/-- The five buffers behind the windows' arrays, each whole at contents `V'`, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg1) ↦{fullShare} V' main_arg1) ∗ (((c : Thread nD τ).loc main_arg0) ↦{fullShare} V' main_arg0) ∗ (((c : Thread nD τ).loc main_arg2) ↦{fullShare} V' main_arg2) ∗ (((c : Thread nD τ).loc main_v0) ↦{fullShare} V' main_v0) ∗ (((c : Thread nD τ).loc main_v1) ↦{fullShare} V' main_v1)) := by
  unfold Pipeline.arrBufs
  exact bigSep_eq_bigSepL_of_eq [main_arg1, main_arg0, main_arg2, main_v0, main_v1] (by decide) (by decide) _

/-- An input window's array is never written: after any number of write-backs it is as the region found it. -/
theorem arrAt0_in (c : Dev nD) (w : Fin cfg0.W) (hw : (cfg0.win w).isOut = false) (n : ℕ) :
    (dat0 V c).arrAt w n = V c (Pipeline.arrRef spec0 w) :=
  ((dat0 V c).arrAt_in w hw n).trans (A_eq0 V c w)

/-- Window `w`'s array held at its share and contents `f`, spelled on the buffer behind it. -/
theorem arr0_pt (c : Dev nD) (w : Fin cfg0.W) (f : Buf (Elt F) ((cfg0.win w).arr.view.loc (c.tc : Thread nD τ))) :
    (((cfg0.win w).arr.view.loc (c.tc : Thread nD τ) ↦[(cfg0.win w).arr.view.set]{(dat0 V c).share w} f) : sProp 𝕄)
      = (((c.tc : Thread nD τ).loc (Pipeline.arrRef spec0 w)) ↦{(dat0 V c).share w} f) := by
  rw [(arr_whole0 w).set_eq_univ]

set_option maxRecDepth 4000 in
/-- ENTRY: the core's unscoped buffers at `V` are the pipeline's arrays at their entry contents and shares, and the rest. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  have hA : Finset.univ.image (Pipeline.arrRef spec0) ⊆ Finset.univ.filter fun b : Ref sig .tc => ¬ b.isScoped := by decide
  have hs : (unscopedBufs (Ix := Unit) (Name := ℕ) (U := UR sig nD τ) (Lvl := ℕ) c (V c) : sProp 𝕄)
      = iprop(Pipeline.arrBufs spec0 c (V c) ∗ Pipeline.unscopedRest spec0 c (V c)) := by
    unfold unscopedBufs Pipeline.unscopedRest Pipeline.arrBufs
    rw [bigSep_sdiff_split hA]
    rfl
  rw [hs, arrBufs0_eq]
  unfold Dat.arrays
  rw [bigSep_W0]
  simp only [View.set_whole]
  iintro ⟨⟨H0, Hx, H3, H4, H5⟩, Hrest⟩
  icases Hx with ⟨Hx1, Hx2⟩
  isplitr [Hrest]
  swap; · iexact Hrest
  isplitl [H0]; · iexact H0
  isplitl [Hx1]; · iexact Hx1
  isplitl [Hx2]; · iexact Hx2
  isplitl [H3]; · iexact H3
  isplitl [H4]; · iexact H4
  iexact H5

set_option maxHeartbeats 1000000 in
/-- The pipeline's arrays after its last write-back, window by window: every input's array as the region found it (an
    input is never written), the output's at what the write-backs left. -/
theorem arraysN0_eq (c : Dev nD) :
    ((dat0 V c).arrays ((dat0 V c).arrAt · cfg0.N) : sProp 𝕄)
      = iprop((((c : Thread nD τ).loc main_arg1) ↦{fullShare} V c main_arg1) ∗ (((c : Thread nD τ).loc main_arg0) ↦{fullShare.left} V c main_arg0) ∗ (((c : Thread nD τ).loc main_arg0) ↦{fullShare.right} V c main_arg0) ∗ (((c : Thread nD τ).loc main_arg2) ↦{fullShare} V c main_arg2) ∗ (((c : Thread nD τ).loc main_v0) ↦{fullShare} V c main_v0) ∗ (((c : Thread nD τ).loc main_v1) ↦{fullShare} (dat0 V c).arrAt 5 cfg0.N)) := by
  unfold Dat.arrays
  rw [bigSep_W0]
  refine congrArg₂ BI.sep ?_ (congrArg₂ BI.sep ?_ (congrArg₂ BI.sep ?_ (congrArg₂ BI.sep ?_ (congrArg₂ BI.sep ?_ ?_))))
  · dsimp only; rw [arrAt0_in V c 0 rfl]; simp only [View.set_whole]; rfl
  · dsimp only; rw [arrAt0_in V c 1 rfl]; simp only [View.set_whole]; rfl
  · dsimp only; rw [arrAt0_in V c 2 rfl]; simp only [View.set_whole]; rfl
  · dsimp only; rw [arrAt0_in V c 3 rfl]; simp only [View.set_whole]; rfl
  · dsimp only; rw [arrAt0_in V c 4 rfl]; simp only [View.set_whole]; rfl
  · simp only [View.set_whole]; rfl

set_option maxRecDepth 4000 in
set_option maxHeartbeats 1000000 in
/-- EXIT: the pipeline's arrays after its last write-back and the rest at `V` are the core's unscoped buffers at any
    `V'` that has the output's array at what the write-backs left and agrees with `V` everywhere else. -/
theorem exit0 (c : Dev nD) (V' : (b : Ref sig .tc) → Buf (Elt F) ((c : Thread nD τ).loc b))
    (hout : V' main_v1 = (dat0 V c).arrAt 5 cfg0.N) (hrest : ∀ b : Ref sig .tc, b ≠ main_v1 → V' b = V c b) :
    iprop((dat0 V c).arrays ((dat0 V c).arrAt · cfg0.N) ∗ Pipeline.unscopedRest spec0 c (V c))
      ⊢ (unscopedBufs (Ix := Unit) (Name := ℕ) (U := UR sig nD τ) (Lvl := ℕ) c V' : sProp 𝕄) := by
  have hA : Finset.univ.image (Pipeline.arrRef spec0) ⊆ Finset.univ.filter fun b : Ref sig .tc => ¬ b.isScoped := by decide
  have hs : (unscopedBufs (Ix := Unit) (Name := ℕ) (U := UR sig nD τ) (Lvl := ℕ) c V' : sProp 𝕄)
      = iprop(Pipeline.arrBufs spec0 c V' ∗ Pipeline.unscopedRest spec0 c V') := by
    unfold unscopedBufs Pipeline.unscopedRest Pipeline.arrBufs
    rw [bigSep_sdiff_split hA]
    rfl
  have hr : (Pipeline.unscopedRest (Ix := Unit) (Name := ℕ) (U := UR sig nD τ) (Lvl := ℕ) spec0 c V' : sProp 𝕄)
      = Pipeline.unscopedRest spec0 c (V c) := by
    unfold Pipeline.unscopedRest
    refine bigSep_congr fun b hb => ?_
    rw [hrest b (fun e => (Finset.mem_sdiff.mp hb).2 (e ▸ (by decide : main_v1 ∈ Finset.univ.image (Pipeline.arrRef spec0))))]
  rw [hs, hr, arrBufs0_eq, arraysN0_eq, hout, hrest main_arg1 (by decide), hrest main_arg0 (by decide), hrest main_arg2 (by decide), hrest main_v0 (by decide)]
  iintro ⟨⟨H0, Hx1, Hx2, H3, H4, H5⟩, Hrest⟩
  icombine Hx1 Hx2 as Hx
  isplitr [Hrest]
  swap; · iexact Hrest
  isplitl [H0]; · iexact H0
  isplitl [Hx]; · iexact Hx
  isplitl [H3]; · iexact H3
  isplitl [H4]; · iexact H4
  iexact H5

end Cert.KernelIdeal.Hand

end
-- ==== Proof.Body1.lean ====
import proofs.«155579_j31937376813550_1_alg».proof.Proof.Gen.KernelIdeal.Launch
import proofs.«155579_j31937376813550_1_alg».proof.Proof.Gen.KernelIdeal.Skeleton
import proofs.«155579_j31937376813550_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«155579_j31937376813550_1_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pallas_call 1 at one grid point, in its three control cases

The grid is 8 row blocks (first coordinate) by 4 contraction tiles (second coordinate). At a point the body
adds this tile's product (the 0/1 pattern of the adjacency tile, transposed, times the tile's rows of x) to an
accumulator it keeps in scratch memory; at the first tile (second coordinate 0) it first resets the accumulator to
zero, and at the last (second coordinate 3) it also finishes the row block: (own rows + accumulator) times the
weights, plus the bias, stored into the output block. The three runs below say what the scratch and the output
buffer hold afterwards, as the body's own value terms (`k1_pay1` the zero block, `k1_pay2` the accumulator's
update, `k1_pay3` the finished block); every other buffer is left as it was. -/

/-- The body's first conditional (reset): the second grid coordinate is 0. -/
abbrev cond1_0 (i : grid1.Coords) : Prop := (Scalar.cmpi .ne (Scalar.extui (Scalar.cmpi .eq (BitVec.ofNat 32 (i 1).val) 0#32)) 0#32) = 1#1
/-- The body's second conditional (finish and store): the second grid coordinate is 3. -/
abbrev cond1_1 (i : grid1.Coords) : Prop := k1_cond2 i = 1#1

/-- Points are numbered row block by row block, so the reset happens at the points ≡ 0 (mod 4), -/
theorem hcond1_0 : ∀ t : Fin cfg1.N, cond1_0 (grid1.coords t) ↔ t.val % 4 = 0 :=
  (by decide +kernel : ∀ t : Fin grid1.N, cond1_0 (grid1.coords t) ↔ t.val % 4 = 0)
/-- and the finish at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

set_option maxHeartbeats 1000000 in
/-- First tile of a row block: whatever the accumulator held, it is left at zero plus this tile's product. -/
theorem run1_A (c : Dev nD) (E : Set ℕ) (i : grid1.Coords) (hc0 : cond1_0 i) (hc1 : ¬cond1_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (K : PUnit → sProp 𝕄) :
    iprop(owns (c : Thread nD τ) arg2 fullShare xa ∗ owns (c : Thread nD τ) arg3 fullShare xj ∗ (∃ d, owns (c : Thread nD τ) arg8 fullShare d)
        ∗ (iprop(owns (c : Thread nD τ) arg2 fullShare xa ∗ owns (c : Thread nD τ) arg3 fullShare xj
            ∗ owns (c : Thread nD τ) arg8 fullShare (k1_pay2 xa xj (k1_pay1 (F := F)))) -∗ K ⟨⟩))
      ⊢ wp frame (wpE (defs₀ (F := F)) Variants.none c none) E
          (cc1__gin_agg_linear1_kernel i arg2 harg2 arg3 harg3 arg4 harg4 arg5 harg5 arg6 harg6 arg7 harg7 arg8 harg8) K := by
  simp only [cc1__gin_agg_linear1_kernel_eq_skeleton]; unfold cc1__gin_agg_linear1_kernel_skel
  unfold owns
  iintro ⟨⟨%f2, %hf2, H2⟩, ⟨%f3, %hf3, H3⟩, ⟨%d8, %f8, -, H8⟩, Hk⟩
  obtain rfl := harg2.eq_unread hf2; obtain rfl := harg3.eq_unread hf3
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole_cons _ hz]
  sl_unfold_run_names
  rw [View.readCov_unit_zero _ hz]
  simp only [View.readAt_eq_ld, hf2, hf3, View.ld_unit_zero (S := S2048x1024) hz, View.ld_unit_zero (S := S2048x128) hz, View.ld_unit_zero (S := S1024x128) hz, View.ld_unit_zero (S := S128x128) hz, View.ld_unit_zero (S := S1x128) hz]

set_option maxHeartbeats 1000000 in
/-- A middle tile: the accumulator, found at `a`, is left at `a` plus this tile's product. -/
theorem run1_B (c : Dev nD) (E : Set ℕ) (i : grid1.Coords) (hc0 : ¬cond1_0 i) (hc1 : ¬cond1_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (a : Vec F S1024x128 .f32) (K : PUnit → sProp 𝕄) :
    iprop(owns (c : Thread nD τ) arg2 fullShare xa ∗ owns (c : Thread nD τ) arg3 fullShare xj ∗ owns (c : Thread nD τ) arg8 fullShare a
        ∗ (iprop(owns (c : Thread nD τ) arg2 fullShare xa ∗ owns (c : Thread nD τ) arg3 fullShare xj
            ∗ owns (c : Thread nD τ) arg8 fullShare (k1_pay2 xa xj a)) -∗ K ⟨⟩))
      ⊢ wp frame (wpE (defs₀ (F := F)) Variants.none c none) E
          (cc1__gin_agg_linear1_kernel i arg2 harg2 arg3 harg3 arg4 harg4 arg5 harg5 arg6 harg6 arg7 harg7 arg8 harg8) K := by
  simp only [cc1__gin_agg_linear1_kernel_eq_skeleton]; unfold cc1__gin_agg_linear1_kernel_skel
  unfold owns
  iintro ⟨⟨%f2, %hf2, H2⟩, ⟨%f3, %hf3, H3⟩, ⟨%f8, %hf8, H8⟩, Hk⟩
  obtain rfl := harg2.eq_unread hf2; obtain rfl := harg3.eq_unread hf3; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole _ hz]
  simp only [View.readAt_eq_ld, hf2, hf3, hf8, View.ld_unit_zero (S := S2048x1024) hz, View.ld_unit_zero (S := S2048x128) hz, View.ld_unit_zero (S := S1024x128) hz, View.ld_unit_zero (S := S128x128) hz, View.ld_unit_zero (S := S1x128) hz]

set_option maxHeartbeats 1000000 in
/-- Last tile of a row block: the accumulator is updated as at a middle tile, and the output buffer, whatever it held,
    is left at the finished block computed from the own rows, the updated accumulator, the weights and the bias. -/
theorem run1_C (c : Dev nD) (E : Set ℕ) (i : grid1.Coords) (hc0 : ¬cond1_0 i) (hc1 : cond1_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (xi : Vec F S1024x128 .f32) (w : Vec F S128x128 .f32) (b : Vec F S1x128 .f32)
    (a : Vec F S1024x128 .f32) (K : PUnit → sProp 𝕄) :
    iprop(owns (c : Thread nD τ) arg2 fullShare xa ∗ owns (c : Thread nD τ) arg3 fullShare xj ∗ owns (c : Thread nD τ) arg4 fullShare xi
        ∗ owns (c : Thread nD τ) arg5 fullShare w ∗ owns (c : Thread nD τ) arg6 fullShare b ∗ (∃ d, owns (c : Thread nD τ) arg7 fullShare d)
        ∗ owns (c : Thread nD τ) arg8 fullShare a
        ∗ (iprop(owns (c : Thread nD τ) arg2 fullShare xa ∗ owns (c : Thread nD τ) arg3 fullShare xj ∗ owns (c : Thread nD τ) arg4 fullShare xi
            ∗ owns (c : Thread nD τ) arg5 fullShare w ∗ owns (c : Thread nD τ) arg6 fullShare b
            ∗ owns (c : Thread nD τ) arg7 fullShare (k1_pay3 xi (k1_pay2 xa xj a) w b)
            ∗ owns (c : Thread nD τ) arg8 fullShare (k1_pay2 xa xj a)) -∗ K ⟨⟩))
      ⊢ wp frame (wpE (defs₀ (F := F)) Variants.none c none) E
          (cc1__gin_agg_linear1_kernel i arg2 harg2 arg3 harg3 arg4 harg4 arg5 harg5 arg6 harg6 arg7 harg7 arg8 harg8) K := by
  simp only [cc1__gin_agg_linear1_kernel_eq_skeleton]; unfold cc1__gin_agg_linear1_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg8.eq_unread hf8
  sl_exec (disch := first | exact hc0 | exact hc1)
  sl_step
  have hz : (![0, 0] : Fin 2 → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [View.read_writes_unit_whole _ hz]
    sl_unfold_run_names
    rw [View.readCov_unit_zero _ hz]
    simp only [View.readAt_eq_ld, hf2, hf3, hf4, hf5, hf6, hf8, View.ld_unit_zero (S := S2048x1024) hz, View.ld_unit_zero (S := S2048x128) hz, View.ld_unit_zero (S := S1024x128) hz, View.ld_unit_zero (S := S128x128) hz, View.ld_unit_zero (S := S1x128) hz]
  iexists _; isplitr
  swap; · iexact H8
  ipureintro
  sl_unfold_run_names
  rw [View.read_writes_unit_whole _ hz]
  simp only [View.readAt_eq_ld, hf2, hf3, hf8, View.ld_unit_zero (S := S2048x1024) hz, View.ld_unit_zero (S := S2048x128) hz, View.ld_unit_zero (S := S1024x128) hz, View.ld_unit_zero (S := S128x128) hz, View.ld_unit_zero (S := S1x128) hz]

end Cert.KernelIdeal.Hand

end
-- ==== Proof.Region1.lean ====
import proofs.«155579_j31937376813550_1_alg».proof.Proof.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 1: what its buffers hold point by point, and the body obligation

Stated at a parameter `V`: the TensorCore's buffer contents when the region is entered. The adjacency tile (window 0)
and the contraction-side rows of x (window 1) change at every point; the own rows (window 2) change with the row block;
the weights and bias (windows 3, 4) are fetched once. Windows 1 and 2 read ONE array, so each holds half of it. The
accumulator lives in a scratch buffer the invariant carries from point to point; the output block (window 5) is
stored at the last tile of each row block only and written back there. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body, and its wholeness. -/
abbrev ms1_0 (t : Fin cfg1.N) : Memref sig .tc .vmem S2048x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
/-- The scratch accumulator: a whole scoped buffer of the kernel's own. -/
abbrev scM1 : Memref sig .tc .vmem S1024x128 .f32 := Memref.whole cc1_scratch0

/-- THE ACCUMULATOR after point `n`: this tile's product added to zero at the first tile of a row block, and to
    what the point before left otherwise. -/
def acc1 (c : Dev nD) : (n : ℕ) → n < cfg1.N → Vec F S1024x128 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 4 = 0 then (k1_pay1 (F := F)) else acc1 c n (Nat.lt_of_succ_lt hn))

theorem acc1_reset (c : Dev nD) (t : Fin cfg1.N) (h0 : t.val % 4 = 0) :
    acc1 V c t.val t.isLt = k1_pay2 (iblk1 V c 0 t) (iblk1 V c 1 t) (k1_pay1 (F := F)) := by
  obtain ⟨n, hn⟩ := t
  cases n with
  | zero => rfl
  | succ n => exact (show acc1 V c (n + 1) hn = _ from by rw [acc1, if_pos h0])

theorem acc1_step (c : Dev nD) (t : Fin cfg1.N) (h0 : ¬t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (show acc1 V c (n + 1) hn = _ from by rw [acc1, if_neg h0]; rfl)

/-- THE FINISHED BLOCK at point `t` (stored at the last tile of a row block): own rows plus accumulator, times the
    weights, plus the bias. -/
def out1 (c : Dev nD) (t : Fin cfg1.N) : Vec F S1024x128 .f32 :=
  k1_pay3 (iblk1 V c 2 t) (acc1 V c t.val t.isLt) (iblk1 V c 3 t) (iblk1 V c 4 t)

/-- The scoped buffers that are neither a staging buffer of this pallas_call nor its scratch, each at some contents. -/
def other1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

set_option maxRecDepth 4000 in
/-- The scoped rest the launch hands the region is the scratch at some contents beside the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ other1 (F := F) c) := by
  unfold Pipeline.scopedRest other1
  rw [bigSep_erase (i := cc1_scratch0) (by decide)]
  simp only [scM1, owns_whole]
  rfl

/-- The region invariant before position `n`: before the first point what the launch hands over; afterwards the
    scratch at the accumulator the point before left, the other scoped buffers, the generator register. -/
def Phi1 (c : Dev nD) : (n : ℕ) → n ≤ cfg1.N → sProp 𝕄
  | 0, _ => Pipeline.ΦA spec1 c
  | n + 1, hn => iprop((owns (c : Thread nD τ) scM1 fullShare (acc1 V c n hn) ∗ other1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1 fullShare (acc1 V c n hn) ∗ other1 (F := F) c) ∗ (∃ r, prngReg c r)) := rfl
theorem Phi1_pos (c : Dev nD) (n : ℕ) (h : n ≤ cfg1.N) (hz : n ≠ 0) :
    Phi1 V c n h = iprop((owns (c : Thread nD τ) scM1 fullShare (acc1 V c (n - 1) (by omega)) ∗ other1 (F := F) c) ∗ (∃ r, prngReg c r)) := by
  cases n with
  | zero => exact absurd rfl hz
  | succ n => rfl
theorem PhiA1_eq (c : Dev nD) :
    (Pipeline.ΦA spec1 c : sProp 𝕄) = iprop(((∃ d, owns (c : Thread nD τ) scM1 fullShare d) ∗ other1 (F := F) c) ∗ (∃ r, prngReg c r)) := by
  unfold Pipeline.ΦA; rw [scopedRest1_split]

/-! ## The proof data -/

/-- The proof data of pallas_call 1 on core `c`: the arrays as the region finds them; after the body each input's
    buffer at its block and the output's at the finished block; the invariant above; nothing owed; the array behind
    windows 1 and 2 held in halves, every other input whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ t := Phi1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' buffers hold their blocks; the point's position in its row block says which of the
    three runs applies; the invariant hands over the scratch (at anything before the first point, at the previous
    accumulator afterwards) and takes it back at this point's accumulator; at the last tile the output's buffer is
    left at the finished block, elsewhere as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 32 := lt_of_lt_of_eq t.isLt (show cfg1.N = 32 from N_1)
  by_cases h1 : t.val % 4 = 3
  · -- the last tile of a row block
    have h0 : ¬t.val % 4 = 0 := by omega
    have hz : t.val ≠ 0 := by omega
    rw [show (dat1 V c).leavesExact 5 t = owns (c : Thread nD τ) (ms1_5 t) fullShare ((dat1 V c).after 5 t) from by
      unfold Dat.leavesExact; rw [liveAt1_5 t ((hcond1_1 t).mpr h1)], after1_5]
    unfold out1
    rw [acc1_step V c t h0, Phi1_castSucc V c t, Phi1_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run1_C c Set.univ (grid1.coords t) (fun h => h0 ((hcond1_0 t).mp h)) ((hcond1_1 t).mpr h1)
      (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
      (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat1 V c) 5 t (idleAt1_5 t (fun h => h1 ((hcond1_1 t).mp h))) (noFlush1_5 t (fun h => h1 ((hcond1_1 t).mp h)))]
    by_cases h0 : t.val % 4 = 0
    · -- the first tile of a row block
      rw [acc1_reset V c t h0]
      by_cases hz : t.val = 0
      · rw [Phi1_castSucc V c t, Phi1_zero V c _ _ hz, PhiA1_eq]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run1_A c Set.univ (grid1.coords t) ((hcond1_0 t).mpr h0) (fun h => h1 ((hcond1_1 t).mp h))
          (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
          (iblk1 V c 0 t) (iblk1 V c 1 t) _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi1_castSucc V c t, Phi1_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run1_A c Set.univ (grid1.coords t) ((hcond1_0 t).mpr h0) (fun h => h1 ((hcond1_1 t).mp h))
          (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
          (iblk1 V c 0 t) (iblk1 V c 1 t) _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- a middle tile
      have hz : t.val ≠ 0 := fun e => h0 (by rw [e])
      rw [acc1_step V c t h0, Phi1_castSucc V c t, Phi1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run1_B c Set.univ (grid1.coords t) (fun h => h0 ((hcond1_0 t).mp h)) (fun h => h1 ((hcond1_1 t).mp h))
        (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
        (iblk1 V c 0 t) (iblk1 V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨HS, Hoth⟩, Hg⟩
  isplitl [HS Hoth]
  · isplitl [HS]; · iexists _; iexact HS
    iexact Hoth
  iexact Hg

end Cert.KernelIdeal.Hand

end
-- ==== Proof.Arr1.lean ====
import proofs.«155579_j31937376813550_1_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 1: its arrays taken out of the core's unscoped buffers at entry and put back at exit

Five distinct buffers stand behind the six windows: windows 1 and 2 read the same array. At entry that array's full
share is dealt to the two windows in halves; at exit the halves, both still at the array's entry contents (an input
is never written), are joined again. Only the output's array changes. -/

variable (V : (c : Dev nD) → (b : Ref sig .tc) → Buf (Elt F) ((c : Thread nD τ).loc b))

set_option maxRecDepth 4000 in
/-- The five buffers behind the windows' arrays, each whole at contents `V'`, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v26) ↦{fullShare} V' main_v26) ∗ (((c : Thread nD τ).loc main_arg8) ↦{fullShare} V' main_arg8) ∗ (((c : Thread nD τ).loc main_v27) ↦{fullShare} V' main_v27) ∗ (((c : Thread nD τ).loc main_v28) ↦{fullShare} V' main_v28)) := by
  unfold Pipeline.arrBufs
  exact bigSep_eq_bigSepL_of_eq [main_arg1, main_v26, main_arg8, main_v27, main_v28] (by decide) (by decide) _

/-- An input window's array is never written: after any number of write-backs it is as the region found it. -/
theorem arrAt1_in (c : Dev nD) (w : Fin cfg1.W) (hw : (cfg1.win w).isOut = false) (n : ℕ) :
    (dat1 V c).arrAt w n = V c (Pipeline.arrRef spec1 w) :=
  ((dat1 V c).arrAt_in w hw n).trans (A_eq1 V c w)

/-- Window `w`'s array held at its share and contents `f`, spelled on the buffer behind it. -/
theorem arr1_pt (c : Dev nD) (w : Fin cfg1.W) (f : Buf (Elt F) ((cfg1.win w).arr.view.loc (c.tc : Thread nD τ))) :
    (((cfg1.win w).arr.view.loc (c.tc : Thread nD τ) ↦[(cfg1.win w).arr.view.set]{(dat1 V c).share w} f) : sProp 𝕄)
      = (((c.tc : Thread nD τ).loc (Pipeline.arrRef spec1 w)) ↦{(dat1 V c).share w} f) := by
  rw [(arr_whole1 w).set_eq_univ]

set_option maxRecDepth 4000 in
/-- ENTRY: the core's unscoped buffers at `V` are the pipeline's arrays at their entry contents and shares, and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  have hA : Finset.univ.image (Pipeline.arrRef spec1) ⊆ Finset.univ.filter fun b : Ref sig .tc => ¬ b.isScoped := by decide
  have hs : (unscopedBufs (Ix := Unit) (Name := ℕ) (U := UR sig nD τ) (Lvl := ℕ) c (V c) : sProp 𝕄)
      = iprop(Pipeline.arrBufs spec1 c (V c) ∗ Pipeline.unscopedRest spec1 c (V c)) := by
    unfold unscopedBufs Pipeline.unscopedRest Pipeline.arrBufs
    rw [bigSep_sdiff_split hA]
    rfl
  rw [hs, arrBufs1_eq]
  unfold Dat.arrays
  rw [bigSep_W1]
  simp only [View.set_whole]
  iintro ⟨⟨H0, Hx, H3, H4, H5⟩, Hrest⟩
  icases Hx with ⟨Hx1, Hx2⟩
  isplitr [Hrest]
  swap; · iexact Hrest
  isplitl [H0]; · iexact H0
  isplitl [Hx1]; · iexact Hx1
  isplitl [Hx2]; · iexact Hx2
  isplitl [H3]; · iexact H3
  isplitl [H4]; · iexact H4
  iexact H5

set_option maxHeartbeats 1000000 in
/-- The pipeline's arrays after its last write-back, window by window: every input's array as the region found it (an
    input is never written), the output's at what the write-backs left. -/
theorem arraysN1_eq (c : Dev nD) :
    ((dat1 V c).arrays ((dat1 V c).arrAt · cfg1.N) : sProp 𝕄)
      = iprop((((c : Thread nD τ).loc main_arg1) ↦{fullShare} V c main_arg1) ∗ (((c : Thread nD τ).loc main_v26) ↦{fullShare.left} V c main_v26) ∗ (((c : Thread nD τ).loc main_v26) ↦{fullShare.right} V c main_v26) ∗ (((c : Thread nD τ).loc main_arg8) ↦{fullShare} V c main_arg8) ∗ (((c : Thread nD τ).loc main_v27) ↦{fullShare} V c main_v27) ∗ (((c : Thread nD τ).loc main_v28) ↦{fullShare} (dat1 V c).arrAt 5 cfg1.N)) := by
  unfold Dat.arrays
  rw [bigSep_W1]
  refine congrArg₂ BI.sep ?_ (congrArg₂ BI.sep ?_ (congrArg₂ BI.sep ?_ (congrArg₂ BI.sep ?_ (congrArg₂ BI.sep ?_ ?_))))
  · dsimp only; rw [arrAt1_in V c 0 rfl]; simp only [View.set_whole]; rfl
  · dsimp only; rw [arrAt1_in V c 1 rfl]; simp only [View.set_whole]; rfl
  · dsimp only; rw [arrAt1_in V c 2 rfl]; simp only [View.set_whole]; rfl
  · dsimp only; rw [arrAt1_in V c 3 rfl]; simp only [View.set_whole]; rfl
  · dsimp only; rw [arrAt1_in V c 4 rfl]; simp only [View.set_whole]; rfl
  · simp only [View.set_whole]; rfl

set_option maxRecDepth 4000 in
set_option maxHeartbeats 1000000 in
/-- EXIT: the pipeline's arrays after its last write-back and the rest at `V` are the core's unscoped buffers at any
    `V'` that has the output's array at what the write-backs left and agrees with `V` everywhere else. -/
theorem exit1 (c : Dev nD) (V' : (b : Ref sig .tc) → Buf (Elt F) ((c : Thread nD τ).loc b))
    (hout : V' main_v28 = (dat1 V c).arrAt 5 cfg1.N) (hrest : ∀ b : Ref sig .tc, b ≠ main_v28 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have hA : Finset.univ.image (Pipeline.arrRef spec1) ⊆ Finset.univ.filter fun b : Ref sig .tc => ¬ b.isScoped := by decide
  have hs : (unscopedBufs (Ix := Unit) (Name := ℕ) (U := UR sig nD τ) (Lvl := ℕ) c V' : sProp 𝕄)
      = iprop(Pipeline.arrBufs spec1 c V' ∗ Pipeline.unscopedRest spec1 c V') := by
    unfold unscopedBufs Pipeline.unscopedRest Pipeline.arrBufs
    rw [bigSep_sdiff_split hA]
    rfl
  have hr : (Pipeline.unscopedRest (Ix := Unit) (Name := ℕ) (U := UR sig nD τ) (Lvl := ℕ) spec1 c V' : sProp 𝕄)
      = Pipeline.unscopedRest spec1 c (V c) := by
    unfold Pipeline.unscopedRest
    refine bigSep_congr fun b hb => ?_
    rw [hrest b (fun e => (Finset.mem_sdiff.mp hb).2 (e ▸ (by decide : main_v28 ∈ Finset.univ.image (Pipeline.arrRef spec1))))]
  rw [hs, hr, arrBufs1_eq, arraysN1_eq, hout, hrest main_arg1 (by decide), hrest main_v26 (by decide), hrest main_arg8 (by decide), hrest main_v27 (by decide)]
  iintro ⟨⟨H0, Hx1, Hx2, H3, H4, H5⟩, Hrest⟩
  icombine Hx1 Hx2 as Hx
  isplitr [Hrest]
  swap; · iexact Hrest
  isplitl [H0]; · iexact H0
  isplitl [Hx]; · iexact Hx
  isplitl [H3]; · iexact H3
  isplitl [H4]; · iexact H4
  iexact H5

end Cert.KernelIdeal.Hand

end
-- ==== Proof.Body2.lean ====
import proofs.«155579_j31937376813550_1_alg».proof.Proof.Gen.KernelIdeal.Launch
import proofs.«155579_j31937376813550_1_alg».proof.Proof.Gen.KernelIdeal.Skeleton
import proofs.«155579_j31937376813550_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«155579_j31937376813550_1_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pallas_call 2 at one grid point, in its three control cases

The grid is 8 row blocks (first coordinate) by 4 contraction tiles (second coordinate). At a point the body
adds this tile's product (the 0/1 pattern of the adjacency tile, transposed, times the tile's rows of x) to an
accumulator it keeps in scratch memory; at the first tile (second coordinate 0) it first resets the accumulator to
zero, and at the last (second coordinate 3) it also finishes the row block: (own rows + accumulator) times the
weights, plus the bias, stored into the output block. The three runs below say what the scratch and the output
buffer hold afterwards, as the body's own value terms (`k2_pay1` the zero block, `k2_pay2` the accumulator's
update, `k2_pay3` the finished block); every other buffer is left as it was. -/

/-- The body's first conditional (reset): the second grid coordinate is 0. -/
abbrev cond2_0 (i : grid2.Coords) : Prop := (Scalar.cmpi .ne (Scalar.extui (Scalar.cmpi .eq (BitVec.ofNat 32 (i 1).val) 0#32)) 0#32) = 1#1
/-- The body's second conditional (finish and store): the second grid coordinate is 3. -/
abbrev cond2_1 (i : grid2.Coords) : Prop := k2_cond2 i = 1#1

/-- Points are numbered row block by row block, so the reset happens at the points ≡ 0 (mod 4), -/
theorem hcond2_0 : ∀ t : Fin cfg2.N, cond2_0 (grid2.coords t) ↔ t.val % 4 = 0 :=
  (by decide +kernel : ∀ t : Fin grid2.N, cond2_0 (grid2.coords t) ↔ t.val % 4 = 0)
/-- and the finish at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

set_option maxHeartbeats 1000000 in
/-- First tile of a row block: whatever the accumulator held, it is left at zero plus this tile's product. -/
theorem run2_A (c : Dev nD) (E : Set ℕ) (i : grid2.Coords) (hc0 : cond2_0 i) (hc1 : ¬cond2_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (K : PUnit → sProp 𝕄) :
    iprop(owns (c : Thread nD τ) arg2 fullShare xa ∗ owns (c : Thread nD τ) arg3 fullShare xj ∗ (∃ d, owns (c : Thread nD τ) arg8 fullShare d)
        ∗ (iprop(owns (c : Thread nD τ) arg2 fullShare xa ∗ owns (c : Thread nD τ) arg3 fullShare xj
            ∗ owns (c : Thread nD τ) arg8 fullShare (k2_pay2 xa xj (k2_pay1 (F := F)))) -∗ K ⟨⟩))
      ⊢ wp frame (wpE (defs₀ (F := F)) Variants.none c none) E
          (cc2__gin_agg_linear1_kernel i arg2 harg2 arg3 harg3 arg4 harg4 arg5 harg5 arg6 harg6 arg7 harg7 arg8 harg8) K := by
  simp only [cc2__gin_agg_linear1_kernel_eq_skeleton]; unfold cc2__gin_agg_linear1_kernel_skel
  unfold owns
  iintro ⟨⟨%f2, %hf2, H2⟩, ⟨%f3, %hf3, H3⟩, ⟨%d8, %f8, -, H8⟩, Hk⟩
  obtain rfl := harg2.eq_unread hf2; obtain rfl := harg3.eq_unread hf3
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole_cons _ hz]
  sl_unfold_run_names
  rw [View.readCov_unit_zero _ hz]
  simp only [View.readAt_eq_ld, hf2, hf3, View.ld_unit_zero (S := S2048x1024) hz, View.ld_unit_zero (S := S2048x128) hz, View.ld_unit_zero (S := S1024x128) hz, View.ld_unit_zero (S := S128x128) hz, View.ld_unit_zero (S := S1x128) hz]

set_option maxHeartbeats 1000000 in
/-- A middle tile: the accumulator, found at `a`, is left at `a` plus this tile's product. -/
theorem run2_B (c : Dev nD) (E : Set ℕ) (i : grid2.Coords) (hc0 : ¬cond2_0 i) (hc1 : ¬cond2_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (a : Vec F S1024x128 .f32) (K : PUnit → sProp 𝕄) :
    iprop(owns (c : Thread nD τ) arg2 fullShare xa ∗ owns (c : Thread nD τ) arg3 fullShare xj ∗ owns (c : Thread nD τ) arg8 fullShare a
        ∗ (iprop(owns (c : Thread nD τ) arg2 fullShare xa ∗ owns (c : Thread nD τ) arg3 fullShare xj
            ∗ owns (c : Thread nD τ) arg8 fullShare (k2_pay2 xa xj a)) -∗ K ⟨⟩))
      ⊢ wp frame (wpE (defs₀ (F := F)) Variants.none c none) E
          (cc2__gin_agg_linear1_kernel i arg2 harg2 arg3 harg3 arg4 harg4 arg5 harg5 arg6 harg6 arg7 harg7 arg8 harg8) K := by
  simp only [cc2__gin_agg_linear1_kernel_eq_skeleton]; unfold cc2__gin_agg_linear1_kernel_skel
  unfold owns
  iintro ⟨⟨%f2, %hf2, H2⟩, ⟨%f3, %hf3, H3⟩, ⟨%f8, %hf8, H8⟩, Hk⟩
  obtain rfl := harg2.eq_unread hf2; obtain rfl := harg3.eq_unread hf3; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole _ hz]
  simp only [View.readAt_eq_ld, hf2, hf3, hf8, View.ld_unit_zero (S := S2048x1024) hz, View.ld_unit_zero (S := S2048x128) hz, View.ld_unit_zero (S := S1024x128) hz, View.ld_unit_zero (S := S128x128) hz, View.ld_unit_zero (S := S1x128) hz]

set_option maxHeartbeats 1000000 in
/-- Last tile of a row block: the accumulator is updated as at a middle tile, and the output buffer, whatever it held,
    is left at the finished block computed from the own rows, the updated accumulator, the weights and the bias. -/
theorem run2_C (c : Dev nD) (E : Set ℕ) (i : grid2.Coords) (hc0 : ¬cond2_0 i) (hc1 : cond2_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (xi : Vec F S1024x128 .f32) (w : Vec F S128x128 .f32) (b : Vec F S1x128 .f32)
    (a : Vec F S1024x128 .f32) (K : PUnit → sProp 𝕄) :
    iprop(owns (c : Thread nD τ) arg2 fullShare xa ∗ owns (c : Thread nD τ) arg3 fullShare xj ∗ owns (c : Thread nD τ) arg4 fullShare xi
        ∗ owns (c : Thread nD τ) arg5 fullShare w ∗ owns (c : Thread nD τ) arg6 fullShare b ∗ (∃ d, owns (c : Thread nD τ) arg7 fullShare d)
        ∗ owns (c : Thread nD τ) arg8 fullShare a
        ∗ (iprop(owns (c : Thread nD τ) arg2 fullShare xa ∗ owns (c : Thread nD τ) arg3 fullShare xj ∗ owns (c : Thread nD τ) arg4 fullShare xi
            ∗ owns (c : Thread nD τ) arg5 fullShare w ∗ owns (c : Thread nD τ) arg6 fullShare b
            ∗ owns (c : Thread nD τ) arg7 fullShare (k2_pay3 xi (k2_pay2 xa xj a) w b)
            ∗ owns (c : Thread nD τ) arg8 fullShare (k2_pay2 xa xj a)) -∗ K ⟨⟩))
      ⊢ wp frame (wpE (defs₀ (F := F)) Variants.none c none) E
          (cc2__gin_agg_linear1_kernel i arg2 harg2 arg3 harg3 arg4 harg4 arg5 harg5 arg6 harg6 arg7 harg7 arg8 harg8) K := by
  simp only [cc2__gin_agg_linear1_kernel_eq_skeleton]; unfold cc2__gin_agg_linear1_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg8.eq_unread hf8
  sl_exec (disch := first | exact hc0 | exact hc1)
  sl_step
  have hz : (![0, 0] : Fin 2 → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [View.read_writes_unit_whole _ hz]
    sl_unfold_run_names
    rw [View.readCov_unit_zero _ hz]
    simp only [View.readAt_eq_ld, hf2, hf3, hf4, hf5, hf6, hf8, View.ld_unit_zero (S := S2048x1024) hz, View.ld_unit_zero (S := S2048x128) hz, View.ld_unit_zero (S := S1024x128) hz, View.ld_unit_zero (S := S128x128) hz, View.ld_unit_zero (S := S1x128) hz]
  iexists _; isplitr
  swap; · iexact H8
  ipureintro
  sl_unfold_run_names
  rw [View.read_writes_unit_whole _ hz]
  simp only [View.readAt_eq_ld, hf2, hf3, hf8, View.ld_unit_zero (S := S2048x1024) hz, View.ld_unit_zero (S := S2048x128) hz, View.ld_unit_zero (S := S1024x128) hz, View.ld_unit_zero (S := S128x128) hz, View.ld_unit_zero (S := S1x128) hz]

end Cert.KernelIdeal.Hand

end
-- ==== Proof.Region2.lean ====
import proofs.«155579_j31937376813550_1_alg».proof.Proof.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 2: what its buffers hold point by point, and the body obligation

Stated at a parameter `V`: the TensorCore's buffer contents when the region is entered. The adjacency tile (window 0)
and the contraction-side rows of x (window 1) change at every point; the own rows (window 2) change with the row block;
the weights and bias (windows 3, 4) are fetched once. Windows 1 and 2 read ONE array, so each holds half of it. The
accumulator lives in a scratch buffer the invariant carries from point to point; the output block (window 5) is
stored at the last tile of each row block only and written back there. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched its block index has not moved since the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is not
    fetched its block index has not moved since the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, as the pipeline passes it to the body, and its wholeness. -/
abbrev ms2_0 (t : Fin cfg2.N) : Memref sig .tc .vmem S2048x1024 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x128 .f32 := win2_5.stage (cfg2.slots t 5)
abbrev hs2_5 (t : Fin cfg2.N) : (ms2_5 t).IsWhole := hstage2_5 ((cfg2.slots t 5).cast nbuf2_5)
/-- The scratch accumulator: a whole scoped buffer of the kernel's own. -/
abbrev scM2 : Memref sig .tc .vmem S1024x128 .f32 := Memref.whole cc2_scratch0

/-- THE ACCUMULATOR after point `n`: this tile's product added to zero at the first tile of a row block, and to
    what the point before left otherwise. -/
def acc2 (c : Dev nD) : (n : ℕ) → n < cfg2.N → Vec F S1024x128 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩)
      (if (n + 1) % 4 = 0 then (k2_pay1 (F := F)) else acc2 c n (Nat.lt_of_succ_lt hn))

theorem acc2_reset (c : Dev nD) (t : Fin cfg2.N) (h0 : t.val % 4 = 0) :
    acc2 V c t.val t.isLt = k2_pay2 (iblk2 V c 0 t) (iblk2 V c 1 t) (k2_pay1 (F := F)) := by
  obtain ⟨n, hn⟩ := t
  cases n with
  | zero => rfl
  | succ n => exact (show acc2 V c (n + 1) hn = _ from by rw [acc2, if_pos h0])

theorem acc2_step (c : Dev nD) (t : Fin cfg2.N) (h0 : ¬t.val % 4 = 0) :
    acc2 V c t.val t.isLt = k2_pay2 (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact (show acc2 V c (n + 1) hn = _ from by rw [acc2, if_neg h0]; rfl)

/-- THE FINISHED BLOCK at point `t` (stored at the last tile of a row block): own rows plus accumulator, times the
    weights, plus the bias. -/
def out2 (c : Dev nD) (t : Fin cfg2.N) : Vec F S1024x128 .f32 :=
  k2_pay3 (iblk2 V c 2 t) (acc2 V c t.val t.isLt) (iblk2 V c 3 t) (iblk2 V c 4 t)

/-- The scoped buffers that are neither a staging buffer of this pallas_call nor its scratch, each at some contents. -/
def other2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

set_option maxRecDepth 4000 in
/-- The scoped rest the launch hands the region is the scratch at some contents beside the others. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ other2 (F := F) c) := by
  unfold Pipeline.scopedRest other2
  rw [bigSep_erase (i := cc2_scratch0) (by decide)]
  simp only [scM2, owns_whole]
  rfl

/-- The region invariant before position `n`: before the first point what the launch hands over; afterwards the
    scratch at the accumulator the point before left, the other scoped buffers, the generator register. -/
def Phi2 (c : Dev nD) : (n : ℕ) → n ≤ cfg2.N → sProp 𝕄
  | 0, _ => Pipeline.ΦA spec2 c
  | n + 1, hn => iprop((owns (c : Thread nD τ) scM2 fullShare (acc2 V c n hn) ∗ other2 (F := F) c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((owns (c : Thread nD τ) scM2 fullShare (acc2 V c n hn) ∗ other2 (F := F) c) ∗ (∃ r, prngReg c r)) := rfl
theorem Phi2_pos (c : Dev nD) (n : ℕ) (h : n ≤ cfg2.N) (hz : n ≠ 0) :
    Phi2 V c n h = iprop((owns (c : Thread nD τ) scM2 fullShare (acc2 V c (n - 1) (by omega)) ∗ other2 (F := F) c) ∗ (∃ r, prngReg c r)) := by
  cases n with
  | zero => exact absurd rfl hz
  | succ n => rfl
theorem PhiA2_eq (c : Dev nD) :
    (Pipeline.ΦA spec2 c : sProp 𝕄) = iprop(((∃ d, owns (c : Thread nD τ) scM2 fullShare d) ∗ other2 (F := F) c) ∗ (∃ r, prngReg c r)) := by
  unfold Pipeline.ΦA; rw [scopedRest2_split]

/-! ## The proof data -/

/-- The proof data of pallas_call 2 on core `c`: the arrays as the region finds them; after the body each input's
    buffer at its block and the output's at the finished block; the invariant above; nothing owed; the array behind
    windows 1 and 2 held in halves, every other input whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ t := Phi2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' buffers hold their blocks; the point's position in its row block says which of the
    three runs applies; the invariant hands over the scratch (at anything before the first point, at the previous
    accumulator afterwards) and takes it back at this point's accumulator; at the last tile the output's buffer is
    left at the finished block, elsewhere as it was found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 32 := lt_of_lt_of_eq t.isLt (show cfg2.N = 32 from N_2)
  by_cases h1 : t.val % 4 = 3
  · -- the last tile of a row block
    have h0 : ¬t.val % 4 = 0 := by omega
    have hz : t.val ≠ 0 := by omega
    rw [show (dat2 V c).leavesExact 5 t = owns (c : Thread nD τ) (ms2_5 t) fullShare ((dat2 V c).after 5 t) from by
      unfold Dat.leavesExact; rw [liveAt2_5 t ((hcond2_1 t).mpr h1)], after2_5]
    unfold out2
    rw [acc2_step V c t h0, Phi2_castSucc V c t, Phi2_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run2_C c Set.univ (grid2.coords t) (fun h => h0 ((hcond2_0 t).mp h)) ((hcond2_1 t).mpr h1)
      (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
      (iblk2 V c 0 t) (iblk2 V c 1 t) (iblk2 V c 2 t) (iblk2 V c 3 t) (iblk2 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat2 V c) 5 t (idleAt2_5 t (fun h => h1 ((hcond2_1 t).mp h))) (noFlush2_5 t (fun h => h1 ((hcond2_1 t).mp h)))]
    by_cases h0 : t.val % 4 = 0
    · -- the first tile of a row block
      rw [acc2_reset V c t h0]
      by_cases hz : t.val = 0
      · rw [Phi2_castSucc V c t, Phi2_zero V c _ _ hz, PhiA2_eq]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run2_A c Set.univ (grid2.coords t) ((hcond2_0 t).mpr h0) (fun h => h1 ((hcond2_1 t).mp h))
          (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
          (iblk2 V c 0 t) (iblk2 V c 1 t) _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi2_castSucc V c t, Phi2_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run2_A c Set.univ (grid2.coords t) ((hcond2_0 t).mpr h0) (fun h => h1 ((hcond2_1 t).mp h))
          (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
          (iblk2 V c 0 t) (iblk2 V c 1 t) _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- a middle tile
      have hz : t.val ≠ 0 := fun e => h0 (by rw [e])
      rw [acc2_step V c t h0, Phi2_castSucc V c t, Phi2_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run2_B c Set.univ (grid2.coords t) (fun h => h0 ((hcond2_0 t).mp h)) (fun h => h1 ((hcond2_1 t).mp h))
        (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
        (iblk2 V c 0 t) (iblk2 V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- and after the last point the invariant gives it back, the accumulator's contents forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), PhiA2_eq]
  iintro ⟨⟨HS, Hoth⟩, Hg⟩
  isplitl [HS Hoth]
  · isplitl [HS]; · iexists _; iexact HS
    iexact Hoth
  iexact Hg

end Cert.KernelIdeal.Hand

end
-- ==== Proof.Arr2.lean ====
import proofs.«155579_j31937376813550_1_alg».proof.Proof.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 2: its arrays taken out of the core's unscoped buffers at entry and put back at exit

Five distinct buffers stand behind the six windows: windows 1 and 2 read the same array. At entry that array's full
share is dealt to the two windows in halves; at exit the halves, both still at the array's entry contents (an input
is never written), are joined again. Only the output's array changes. -/

variable (V : (c : Dev nD) → (b : Ref sig .tc) → Buf (Elt F) ((c : Thread nD τ).loc b))

set_option maxRecDepth 4000 in
/-- The five buffers behind the windows' arrays, each whole at contents `V'`, one by one. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_arg1) ↦{fullShare} V' main_arg1) ∗ (((c : Thread nD τ).loc main_v53) ↦{fullShare} V' main_v53) ∗ (((c : Thread nD τ).loc main_arg14) ↦{fullShare} V' main_arg14) ∗ (((c : Thread nD τ).loc main_v54) ↦{fullShare} V' main_v54) ∗ (((c : Thread nD τ).loc main_v55) ↦{fullShare} V' main_v55)) := by
  unfold Pipeline.arrBufs
  exact bigSep_eq_bigSepL_of_eq [main_arg1, main_v53, main_arg14, main_v54, main_v55] (by decide) (by decide) _

/-- An input window's array is never written: after any number of write-backs it is as the region found it. -/
theorem arrAt2_in (c : Dev nD) (w : Fin cfg2.W) (hw : (cfg2.win w).isOut = false) (n : ℕ) :
    (dat2 V c).arrAt w n = V c (Pipeline.arrRef spec2 w) :=
  ((dat2 V c).arrAt_in w hw n).trans (A_eq2 V c w)

/-- Window `w`'s array held at its share and contents `f`, spelled on the buffer behind it. -/
theorem arr2_pt (c : Dev nD) (w : Fin cfg2.W) (f : Buf (Elt F) ((cfg2.win w).arr.view.loc (c.tc : Thread nD τ))) :
    (((cfg2.win w).arr.view.loc (c.tc : Thread nD τ) ↦[(cfg2.win w).arr.view.set]{(dat2 V c).share w} f) : sProp 𝕄)
      = (((c.tc : Thread nD τ).loc (Pipeline.arrRef spec2 w)) ↦{(dat2 V c).share w} f) := by
  rw [(arr_whole2 w).set_eq_univ]

set_option maxRecDepth 4000 in
/-- ENTRY: the core's unscoped buffers at `V` are the pipeline's arrays at their entry contents and shares, and the rest. -/
theorem entry2 (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest spec2 c (V c)) := by
  have hA : Finset.univ.image (Pipeline.arrRef spec2) ⊆ Finset.univ.filter fun b : Ref sig .tc => ¬ b.isScoped := by decide
  have hs : (unscopedBufs (Ix := Unit) (Name := ℕ) (U := UR sig nD τ) (Lvl := ℕ) c (V c) : sProp 𝕄)
      = iprop(Pipeline.arrBufs spec2 c (V c) ∗ Pipeline.unscopedRest spec2 c (V c)) := by
    unfold unscopedBufs Pipeline.unscopedRest Pipeline.arrBufs
    rw [bigSep_sdiff_split hA]
    rfl
  rw [hs, arrBufs2_eq]
  unfold Dat.arrays
  rw [bigSep_W2]
  simp only [View.set_whole]
  iintro ⟨⟨H0, Hx, H3, H4, H5⟩, Hrest⟩
  icases Hx with ⟨Hx1, Hx2⟩
  isplitr [Hrest]
  swap; · iexact Hrest
  isplitl [H0]; · iexact H0
  isplitl [Hx1]; · iexact Hx1
  isplitl [Hx2]; · iexact Hx2
  isplitl [H3]; · iexact H3
  isplitl [H4]; · iexact H4
  iexact H5

set_option maxHeartbeats 1000000 in
/-- The pipeline's arrays after its last write-back, window by window: every input's array as the region found it (an
    input is never written), the output's at what the write-backs left. -/
theorem arraysN2_eq (c : Dev nD) :
    ((dat2 V c).arrays ((dat2 V c).arrAt · cfg2.N) : sProp 𝕄)
      = iprop((((c : Thread nD τ).loc main_arg1) ↦{fullShare} V c main_arg1) ∗ (((c : Thread nD τ).loc main_v53) ↦{fullShare.left} V c main_v53) ∗ (((c : Thread nD τ).loc main_v53) ↦{fullShare.right} V c main_v53) ∗ (((c : Thread nD τ).loc main_arg14) ↦{fullShare} V c main_arg14) ∗ (((c : Thread nD τ).loc main_v54) ↦{fullShare} V c main_v54) ∗ (((c : Thread nD τ).loc main_v55) ↦{fullShare} (dat2 V c).arrAt 5 cfg2.N)) := by
  unfold Dat.arrays
  rw [bigSep_W2]
  refine congrArg₂ BI.sep ?_ (congrArg₂ BI.sep ?_ (congrArg₂ BI.sep ?_ (congrArg₂ BI.sep ?_ (congrArg₂ BI.sep ?_ ?_))))
  · dsimp only; rw [arrAt2_in V c 0 rfl]; simp only [View.set_whole]; rfl
  · dsimp only; rw [arrAt2_in V c 1 rfl]; simp only [View.set_whole]; rfl
  · dsimp only; rw [arrAt2_in V c 2 rfl]; simp only [View.set_whole]; rfl
  · dsimp only; rw [arrAt2_in V c 3 rfl]; simp only [View.set_whole]; rfl
  · dsimp only; rw [arrAt2_in V c 4 rfl]; simp only [View.set_whole]; rfl
  · simp only [View.set_whole]; rfl

set_option maxRecDepth 4000 in
set_option maxHeartbeats 1000000 in
/-- EXIT: the pipeline's arrays after its last write-back and the rest at `V` are the core's unscoped buffers at any
    `V'` that has the output's array at what the write-backs left and agrees with `V` everywhere else. -/
theorem exit2 (c : Dev nD) (V' : (b : Ref sig .tc) → Buf (Elt F) ((c : Thread nD τ).loc b))
    (hout : V' main_v55 = (dat2 V c).arrAt 5 cfg2.N) (hrest : ∀ b : Ref sig .tc, b ≠ main_v55 → V' b = V c b) :
    iprop((dat2 V c).arrays ((dat2 V c).arrAt · cfg2.N) ∗ Pipeline.unscopedRest spec2 c (V c))
      ⊢ (unscopedBufs (Ix := Unit) (Name := ℕ) (U := UR sig nD τ) (Lvl := ℕ) c V' : sProp 𝕄) := by
  have hA : Finset.univ.image (Pipeline.arrRef spec2) ⊆ Finset.univ.filter fun b : Ref sig .tc => ¬ b.isScoped := by decide
  have hs : (unscopedBufs (Ix := Unit) (Name := ℕ) (U := UR sig nD τ) (Lvl := ℕ) c V' : sProp 𝕄)
      = iprop(Pipeline.arrBufs spec2 c V' ∗ Pipeline.unscopedRest spec2 c V') := by
    unfold unscopedBufs Pipeline.unscopedRest Pipeline.arrBufs
    rw [bigSep_sdiff_split hA]
    rfl
  have hr : (Pipeline.unscopedRest (Ix := Unit) (Name := ℕ) (U := UR sig nD τ) (Lvl := ℕ) spec2 c V' : sProp 𝕄)
      = Pipeline.unscopedRest spec2 c (V c) := by
    unfold Pipeline.unscopedRest
    refine bigSep_congr fun b hb => ?_
    rw [hrest b (fun e => (Finset.mem_sdiff.mp hb).2 (e ▸ (by decide : main_v55 ∈ Finset.univ.image (Pipeline.arrRef spec2))))]
  rw [hs, hr, arrBufs2_eq, arraysN2_eq, hout, hrest main_arg1 (by decide), hrest main_v53 (by decide), hrest main_arg14 (by decide), hrest main_v54 (by decide)]
  iintro ⟨⟨H0, Hx1, Hx2, H3, H4, H5⟩, Hrest⟩
  icombine Hx1 Hx2 as Hx
  isplitr [Hrest]
  swap; · iexact Hrest
  isplitl [H0]; · iexact H0
  isplitl [Hx]; · iexact Hx
  isplitl [H3]; · iexact H3
  isplitl [H4]; · iexact H4
  iexact H5

end Cert.KernelIdeal.Hand

end
-- ==== Proof.RunAll.lean ====
import proofs.«155579_j31937376813550_1_alg».proof.Proof.Gen.KernelIdeal.Regions

set_option maxRecDepth 1580

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! # The whole run, given the three regions' records

Every weakly fair execution of the program terminates and EVERY unscoped buffer of the core ends at the last of the
boundary valuations (the launch memory folded through each host stretch and updated by what each region leaves),
given one segment record per region entered from the valuation before it and left at the one after it. The frame
(the arguments unchanged) and the result's value are both read off this one statement. -/

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V17 m outs c) ∗ E 2 c) ⊢ R2.pre c)
    (hpost2 : ∀ c : Dev nD, R2.post c ⊢ iprop(StableHlo.held (c : Thread nD τ) (Pipeline.ucRefs τ sig) (V18 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V29 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5, StableHlo.seq hostOps1_6,
          Prog.lift (.customCall (Pipeline.entry 1) ()),
          StableHlo.seq hostOps2, StableHlo.seq hostOps2_1, StableHlo.seq hostOps2_2, StableHlo.seq hostOps2_3,
          StableHlo.seq hostOps2_4, StableHlo.seq hostOps2_5, StableHlo.seq hostOps2_6,
          Prog.lift (.customCall (Pipeline.entry 2) ()),
          StableHlo.seq hostOps3, StableHlo.seq hostOps3_1, StableHlo.seq hostOps3_2, StableHlo.seq hostOps3_3,
          StableHlo.seq hostOps3_4, StableHlo.seq hostOps3_5, StableHlo.seq hostOps3_6, StableHlo.seq hostOps3_7,
          StableHlo.seq hostOps3_8, StableHlo.seq hostOps3_9, StableHlo.seq hostOps3_10 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, hpre0 c, hpost0 c, .rfl, .rfl, .rfl, .rfl, .rfl, .rfl, hpre1 c, hpost1 c, .rfl, .rfl, .rfl, .rfl, .rfl, .rfl, hpre2 c, hpost2 c, .rfl, .rfl, .rfl, .rfl, .rfl, .rfl, .rfl, .rfl, .rfl, .rfl, sep_mono .rfl (hE3 c)⟩)
    (hinit := ?_) (QY := fun c s => ∀ b ∈ Pipeline.ucRefs τ sig, s.mem (((c : Thread nD τ)).1, b) = V29 m outs c b)
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V29 m outs c) s')
    isplitl [Hh] <;> iassumption

end Cert.KernelIdeal.Hand

end
-- ==== Proof.Segs.lean ====
import proofs.«155579_j31937376813550_1_alg».proof.Proof.Arr0
import proofs.«155579_j31937376813550_1_alg».proof.Proof.Arr1
import proofs.«155579_j31937376813550_1_alg».proof.Proof.Arr2
import proofs.«155579_j31937376813550_1_alg».proof.Proof.RunAll

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The program's run: the three pallas_calls as segments, and what every buffer holds at the end

The valuations `B0 … B29` are the core's unscoped buffers at each boundary of @main's 29 items: the launch memory,
folded through each host stretch, and updated at each region's output array by what that region's write-backs leave
(every other buffer passes a region unchanged). -/

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every segment: the generator register at some state, and the core owing nothing. -/
abbrev Rst (c : Dev nD) : sProp 𝕄 := iprop((∃ r, prngReg c r) ∗ ∃ W, owes (c : Thread nD τ) (0 : CellTallies nD τ sig Unit) W)

/-- Region 0 is entered from the launch memory after the first host stretch. -/
abbrev Vr0 : (c : Dev nD) → (b : Ref sig .tc) → Buf (Elt F) ((c : Thread nD τ).loc b) := fun c b => V1 m c b
/-- After region 0: its output array at what its write-backs leave. -/
def B2 (c : Dev nD) : Valuation τ sig (Elt F) := Function.update (V1 m c) main_v1 ((dat0 (Vr0 m) c).arrAt 5 cfg0.N)
abbrev B3 (c : Dev nD) : Valuation τ sig (Elt F) := StableHlo.after hostOps1 (B2 m c)
abbrev B4 (c : Dev nD) : Valuation τ sig (Elt F) := StableHlo.after hostOps1_1 (B3 m c)
abbrev B5 (c : Dev nD) : Valuation τ sig (Elt F) := StableHlo.after hostOps1_2 (B4 m c)
abbrev B6 (c : Dev nD) : Valuation τ sig (Elt F) := StableHlo.after hostOps1_3 (B5 m c)
abbrev B7 (c : Dev nD) : Valuation τ sig (Elt F) := StableHlo.after hostOps1_4 (B6 m c)
abbrev B8 (c : Dev nD) : Valuation τ sig (Elt F) := StableHlo.after hostOps1_5 (B7 m c)
abbrev B9 (c : Dev nD) : Valuation τ sig (Elt F) := StableHlo.after hostOps1_6 (B8 m c)
abbrev Vr1 : (c : Dev nD) → (b : Ref sig .tc) → Buf (Elt F) ((c : Thread nD τ).loc b) := fun c b => B9 m c b
/-- After region 1. -/
def B10 (c : Dev nD) : Valuation τ sig (Elt F) := Function.update (B9 m c) main_v28 ((dat1 (Vr1 m) c).arrAt 5 cfg1.N)
abbrev B11 (c : Dev nD) : Valuation τ sig (Elt F) := StableHlo.after hostOps2 (B10 m c)
abbrev B12 (c : Dev nD) : Valuation τ sig (Elt F) := StableHlo.after hostOps2_1 (B11 m c)
abbrev B13 (c : Dev nD) : Valuation τ sig (Elt F) := StableHlo.after hostOps2_2 (B12 m c)
abbrev B14 (c : Dev nD) : Valuation τ sig (Elt F) := StableHlo.after hostOps2_3 (B13 m c)
abbrev B15 (c : Dev nD) : Valuation τ sig (Elt F) := StableHlo.after hostOps2_4 (B14 m c)
abbrev B16 (c : Dev nD) : Valuation τ sig (Elt F) := StableHlo.after hostOps2_5 (B15 m c)
abbrev B17 (c : Dev nD) : Valuation τ sig (Elt F) := StableHlo.after hostOps2_6 (B16 m c)
abbrev Vr2 : (c : Dev nD) → (b : Ref sig .tc) → Buf (Elt F) ((c : Thread nD τ).loc b) := fun c b => B17 m c b
/-- After region 2. -/
def B18 (c : Dev nD) : Valuation τ sig (Elt F) := Function.update (B17 m c) main_v55 ((dat2 (Vr2 m) c).arrAt 5 cfg2.N)
abbrev B19 (c : Dev nD) : Valuation τ sig (Elt F) := StableHlo.after hostOps3 (B18 m c)
abbrev B20 (c : Dev nD) : Valuation τ sig (Elt F) := StableHlo.after hostOps3_1 (B19 m c)
abbrev B21 (c : Dev nD) : Valuation τ sig (Elt F) := StableHlo.after hostOps3_2 (B20 m c)
abbrev B22 (c : Dev nD) : Valuation τ sig (Elt F) := StableHlo.after hostOps3_3 (B21 m c)
abbrev B23 (c : Dev nD) : Valuation τ sig (Elt F) := StableHlo.after hostOps3_4 (B22 m c)
abbrev B24 (c : Dev nD) : Valuation τ sig (Elt F) := StableHlo.after hostOps3_5 (B23 m c)
abbrev B25 (c : Dev nD) : Valuation τ sig (Elt F) := StableHlo.after hostOps3_6 (B24 m c)
abbrev B26 (c : Dev nD) : Valuation τ sig (Elt F) := StableHlo.after hostOps3_7 (B25 m c)
abbrev B27 (c : Dev nD) : Valuation τ sig (Elt F) := StableHlo.after hostOps3_8 (B26 m c)
abbrev B28 (c : Dev nD) : Valuation τ sig (Elt F) := StableHlo.after hostOps3_9 (B27 m c)
abbrev B29 (c : Dev nD) : Valuation τ sig (Elt F) := StableHlo.after hostOps3_10 (B28 m c)

/-- What each region leaves in the buffers it may change, as the boundary valuations name it. -/
def outs : Outs (F := F) := fun J r c =>
  if J = 2 then B2 m c r else if J = 10 then B10 m c r else if J = 18 then B18 m c r else V0 m c r

/-! The boundary valuations are the ones the several-regions frame is stated over, at these `outs`. -/
theorem e2 (c : Dev nD) : V2 m (outs m) c = B2 m c := by
  show Function.update (V1 m c) main_v1 (B2 m c main_v1) = B2 m c
  unfold B2; rw [Function.update_self]
theorem e3 (c : Dev nD) : V3 m (outs m) c = B3 m c := congrArg (StableHlo.after hostOps1) (e2 m c)
theorem e4 (c : Dev nD) : V4 m (outs m) c = B4 m c := congrArg (StableHlo.after hostOps1_1) (e3 m c)
theorem e5 (c : Dev nD) : V5 m (outs m) c = B5 m c := congrArg (StableHlo.after hostOps1_2) (e4 m c)
theorem e6 (c : Dev nD) : V6 m (outs m) c = B6 m c := congrArg (StableHlo.after hostOps1_3) (e5 m c)
theorem e7 (c : Dev nD) : V7 m (outs m) c = B7 m c := congrArg (StableHlo.after hostOps1_4) (e6 m c)
theorem e8 (c : Dev nD) : V8 m (outs m) c = B8 m c := congrArg (StableHlo.after hostOps1_5) (e7 m c)
theorem e9 (c : Dev nD) : V9 m (outs m) c = B9 m c := congrArg (StableHlo.after hostOps1_6) (e8 m c)
theorem e10 (c : Dev nD) : V10 m (outs m) c = B10 m c := by
  show Function.update (V9 m (outs m) c) main_v28 (B10 m c main_v28) = B10 m c
  rw [e9]; unfold B10; rw [Function.update_self]
theorem e11 (c : Dev nD) : V11 m (outs m) c = B11 m c := congrArg (StableHlo.after hostOps2) (e10 m c)
theorem e12 (c : Dev nD) : V12 m (outs m) c = B12 m c := congrArg (StableHlo.after hostOps2_1) (e11 m c)
theorem e13 (c : Dev nD) : V13 m (outs m) c = B13 m c := congrArg (StableHlo.after hostOps2_2) (e12 m c)
theorem e14 (c : Dev nD) : V14 m (outs m) c = B14 m c := congrArg (StableHlo.after hostOps2_3) (e13 m c)
theorem e15 (c : Dev nD) : V15 m (outs m) c = B15 m c := congrArg (StableHlo.after hostOps2_4) (e14 m c)
theorem e16 (c : Dev nD) : V16 m (outs m) c = B16 m c := congrArg (StableHlo.after hostOps2_5) (e15 m c)
theorem e17 (c : Dev nD) : V17 m (outs m) c = B17 m c := congrArg (StableHlo.after hostOps2_6) (e16 m c)
theorem e18 (c : Dev nD) : V18 m (outs m) c = B18 m c := by
  show Function.update (V17 m (outs m) c) main_v55 (B18 m c main_v55) = B18 m c
  rw [e17]; unfold B18; rw [Function.update_self]
theorem e19 (c : Dev nD) : V19 m (outs m) c = B19 m c := congrArg (StableHlo.after hostOps3) (e18 m c)
theorem e20 (c : Dev nD) : V20 m (outs m) c = B20 m c := congrArg (StableHlo.after hostOps3_1) (e19 m c)
theorem e21 (c : Dev nD) : V21 m (outs m) c = B21 m c := congrArg (StableHlo.after hostOps3_2) (e20 m c)
theorem e22 (c : Dev nD) : V22 m (outs m) c = B22 m c := congrArg (StableHlo.after hostOps3_3) (e21 m c)
theorem e23 (c : Dev nD) : V23 m (outs m) c = B23 m c := congrArg (StableHlo.after hostOps3_4) (e22 m c)
theorem e24 (c : Dev nD) : V24 m (outs m) c = B24 m c := congrArg (StableHlo.after hostOps3_5) (e23 m c)
theorem e25 (c : Dev nD) : V25 m (outs m) c = B25 m c := congrArg (StableHlo.after hostOps3_6) (e24 m c)
theorem e26 (c : Dev nD) : V26 m (outs m) c = B26 m c := congrArg (StableHlo.after hostOps3_7) (e25 m c)
theorem e27 (c : Dev nD) : V27 m (outs m) c = B27 m c := congrArg (StableHlo.after hostOps3_8) (e26 m c)
theorem e28 (c : Dev nD) : V28 m (outs m) c = B28 m c := congrArg (StableHlo.after hostOps3_9) (e27 m c)
theorem e29 (c : Dev nD) : V29 m (outs m) c = B29 m c := congrArg (StableHlo.after hostOps3_10) (e28 m c)

/-- Every pipeline's proof data, each at its region's entry contents. -/
def pdats : (p : Fin 3) → (c : Dev nD) → Dat τ (Elt F) Unit ℕ (UR sig nD τ) ℕ (cfgs p) c
  | ⟨0, _⟩ => fun c => dat0 (Vr0 m) c
  | ⟨1, _⟩ => fun c => dat1 (Vr1 m) c
  | ⟨2, _⟩ => fun c => dat2 (Vr2 m) c

set_option backward.isDefEq.respectTransparency.types false in
/-- pallas_call 0 as a segment: entered from every unscoped buffer at the valuation before it, left at the one after
    it; its arrays taken out at entry and put back at exit; the generator register into the invariant and out; nothing
    owed; no semaphore of the kernel's own. -/
def reg0 : RegionSeg (pcfgs (F := F)) adm (pdats m) () defs₀ Variants.none Lz lvz 0 where
  win := winFacts₀0
  block_pos := block_pos0
  stage_whole := stage_whole0
  K := PEmpty
  osem k := k.elim
  ho := Pipeline.OwnSemFacts.none _
  hbody c := (body_obligation0 (Vr0 m) c).loose
  hwaits := Pipeline.hwaits_of_owed_zero _ _ _ _ Lz lvz 0 fun _ _ => rfl
  pre c := iprop(StableHlo.held (c : Thread nD τ) (Pipeline.ucRefs τ sig) (V1 m c) ∗ Rst c)
  post c := iprop(StableHlo.held (c : Thread nD τ) (Pipeline.ucRefs τ sig) (B2 m c) ∗ Rst c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := entry0 (Vr0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine (hout0 (Vr0 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (Vr0 m c))
        ⊢ (unscopedBufs (Ix := Unit) (Name := ℕ) (U := UR sig nD τ) (Lvl := ℕ) c (fun b => B2 m c b) : sProp 𝕄) :=
      exit0 (Vr0 m) c (fun b => B2 m c b)
        (by unfold B2; exact Function.update_self ..)
        (fun b hb => by unfold B2; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- pallas_call 1 as a segment: entered from every unscoped buffer at the valuation before it, left at the one after
    it; its arrays taken out at entry and put back at exit; the generator register into the invariant and out; nothing
    owed; no semaphore of the kernel's own. -/
def reg1 : RegionSeg (pcfgs (F := F)) adm (pdats m) () defs₀ Variants.none Lz lvz 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ Lz lvz 1 fun _ _ => rfl
  pre c := iprop(StableHlo.held (c : Thread nD τ) (Pipeline.ucRefs τ sig) (B9 m c) ∗ Rst c)
  post c := iprop(StableHlo.held (c : Thread nD τ) (Pipeline.ucRefs τ sig) (B10 m c) ∗ Rst c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := entry1 (Vr1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine (hout1 (Vr1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (Vr1 m c))
        ⊢ (unscopedBufs (Ix := Unit) (Name := ℕ) (U := UR sig nD τ) (Lvl := ℕ) c (fun b => B10 m c b) : sProp 𝕄) :=
      exit1 (Vr1 m) c (fun b => B10 m c b)
        (by unfold B10; exact Function.update_self ..)
        (fun b hb => by unfold B10; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- pallas_call 2 as a segment: entered from every unscoped buffer at the valuation before it, left at the one after
    it; its arrays taken out at entry and put back at exit; the generator register into the invariant and out; nothing
    owed; no semaphore of the kernel's own. -/
def reg2 : RegionSeg (pcfgs (F := F)) adm (pdats m) () defs₀ Variants.none Lz lvz 2 where
  win := winFacts₀2
  block_pos := block_pos2
  stage_whole := stage_whole2
  K := PEmpty
  osem k := k.elim
  ho := Pipeline.OwnSemFacts.none _
  hbody c := (body_obligation2 (Vr2 m) c).loose
  hwaits := Pipeline.hwaits_of_owed_zero _ _ _ _ Lz lvz 2 fun _ _ => rfl
  pre c := iprop(StableHlo.held (c : Thread nD τ) (Pipeline.ucRefs τ sig) (B17 m c) ∗ Rst c)
  post c := iprop(StableHlo.held (c : Thread nD τ) (Pipeline.ucRefs τ sig) (B18 m c) ∗ Rst c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := entry2 (Vr2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr2 m) c)
    unfold Pipeline.ΦA
    iintro ⟨Hp, -, Hr⟩
    isplitl [Hr]; · iexact Hr
    iexact Hp
  hout c := by
    rw [Pipeline.ownSems0_none]
    refine (hout2 (Vr2 m) c).trans ?_
    unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (Vr2 m c))
        ⊢ (unscopedBufs (Ix := Unit) (Name := ℕ) (U := UR sig nD τ) (Lvl := ℕ) c (fun b => B18 m c b) : sProp 𝕄) :=
      exit2 (Vr2 m) c (fun b => B18 m c b)
        (by unfold B18; exact Function.update_self ..)
        (fun b hb => by unfold B18; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.Run.lean ====
import proofs.«155579_j31937376813550_1_alg».proof.Proof.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The program's run: termination, the frame, and the result buffer's value -/

variable (m : (ℓ : Loc nD τ sig) → Buf (Elt F) ℓ) (ρ : Dev nD → PrngReg)

set_option backward.isDefEq.respectTransparency.types false in
/-- From any memory with zero counters every weakly fair execution of @main terminates, faulting nowhere, and every
    unscoped buffer of the core ends at the last boundary valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V29 m (outs m) c b) :=
  run_cond m (Ix := Unit) (U := UR sig nD τ) (Lvl := ℕ) emb₁ () Variants.none Lz lvz (fun _ _ => rfl) ρ (outs m) (pdats m)
    (O₀ := 0) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => by rw [e2]; exact .rfl)
    (reg1 m) (fun c => by rw [e9]; exact .rfl) (fun c => by rw [e10]; exact .rfl)
    (reg2 m) (fun c => by rw [e17]; exact .rfl) (fun c => by rw [e18]; exact .rfl)

/-- THE FRAME: every argument array ends as launched (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c (Proc.devRef .tc main_arg0) (Finset.mem_filter.mpr ⟨StableHlo.devRef_mem_tcRefs main_arg0, by decide⟩)).trans (V29_main_arg0 m (outs m) c),
     (h c (Proc.devRef .tc main_arg1) (Finset.mem_filter.mpr ⟨StableHlo.devRef_mem_tcRefs main_arg1, by decide⟩)).trans (V29_main_arg1 m (outs m) c),
     (h c (Proc.devRef .tc main_arg2) (Finset.mem_filter.mpr ⟨StableHlo.devRef_mem_tcRefs main_arg2, by decide⟩)).trans (V29_main_arg2 m (outs m) c),
     (h c (Proc.devRef .tc main_arg3) (Finset.mem_filter.mpr ⟨StableHlo.devRef_mem_tcRefs main_arg3, by decide⟩)).trans (V29_main_arg3 m (outs m) c),
     (h c (Proc.devRef .tc main_arg4) (Finset.mem_filter.mpr ⟨StableHlo.devRef_mem_tcRefs main_arg4, by decide⟩)).trans (V29_main_arg4 m (outs m) c),
     (h c (Proc.devRef .tc main_arg5) (Finset.mem_filter.mpr ⟨StableHlo.devRef_mem_tcRefs main_arg5, by decide⟩)).trans (V29_main_arg5 m (outs m) c),
     (h c (Proc.devRef .tc main_arg6) (Finset.mem_filter.mpr ⟨StableHlo.devRef_mem_tcRefs main_arg6, by decide⟩)).trans (V29_main_arg6 m (outs m) c),
     (h c (Proc.devRef .tc main_arg7) (Finset.mem_filter.mpr ⟨StableHlo.devRef_mem_tcRefs main_arg7, by decide⟩)).trans (V29_main_arg7 m (outs m) c),
     (h c (Proc.devRef .tc main_arg8) (Finset.mem_filter.mpr ⟨StableHlo.devRef_mem_tcRefs main_arg8, by decide⟩)).trans (V29_main_arg8 m (outs m) c),
     (h c (Proc.devRef .tc main_arg9) (Finset.mem_filter.mpr ⟨StableHlo.devRef_mem_tcRefs main_arg9, by decide⟩)).trans (V29_main_arg9 m (outs m) c),
     (h c (Proc.devRef .tc main_arg10) (Finset.mem_filter.mpr ⟨StableHlo.devRef_mem_tcRefs main_arg10, by decide⟩)).trans (V29_main_arg10 m (outs m) c),
     (h c (Proc.devRef .tc main_arg11) (Finset.mem_filter.mpr ⟨StableHlo.devRef_mem_tcRefs main_arg11, by decide⟩)).trans (V29_main_arg11 m (outs m) c),
     (h c (Proc.devRef .tc main_arg12) (Finset.mem_filter.mpr ⟨StableHlo.devRef_mem_tcRefs main_arg12, by decide⟩)).trans (V29_main_arg12 m (outs m) c),
     (h c (Proc.devRef .tc main_arg13) (Finset.mem_filter.mpr ⟨StableHlo.devRef_mem_tcRefs main_arg13, by decide⟩)).trans (V29_main_arg13 m (outs m) c),
     (h c (Proc.devRef .tc main_arg14) (Finset.mem_filter.mpr ⟨StableHlo.devRef_mem_tcRefs main_arg14, by decide⟩)).trans (V29_main_arg14 m (outs m) c),
     (h c (Proc.devRef .tc main_arg15) (Finset.mem_filter.mpr ⟨StableHlo.devRef_mem_tcRefs main_arg15, by decide⟩)).trans (V29_main_arg15 m (outs m) c),
     (h c (Proc.devRef .tc main_arg16) (Finset.mem_filter.mpr ⟨StableHlo.devRef_mem_tcRefs main_arg16, by decide⟩)).trans (V29_main_arg16 m (outs m) c),
     (h c (Proc.devRef .tc main_arg17) (Finset.mem_filter.mpr ⟨StableHlo.devRef_mem_tcRefs main_arg17, by decide⟩)).trans (V29_main_arg17 m (outs m) c),
     (h c (Proc.devRef .tc main_arg18) (Finset.mem_filter.mpr ⟨StableHlo.devRef_mem_tcRefs main_arg18, by decide⟩)).trans (V29_main_arg18 m (outs m) c),
     (h c (Proc.devRef .tc main_arg19) (Finset.mem_filter.mpr ⟨StableHlo.devRef_mem_tcRefs main_arg19, by decide⟩)).trans (V29_main_arg19 m (outs m) c),
     (h c (Proc.devRef .tc main_arg20) (Finset.mem_filter.mpr ⟨StableHlo.devRef_mem_tcRefs main_arg20, by decide⟩)).trans (V29_main_arg20 m (outs m) c),
     (h c (Proc.devRef .tc main_arg21) (Finset.mem_filter.mpr ⟨StableHlo.devRef_mem_tcRefs main_arg21, by decide⟩)).trans (V29_main_arg21 m (outs m) c),
     (h c (Proc.devRef .tc main_arg22) (Finset.mem_filter.mpr ⟨StableHlo.devRef_mem_tcRefs main_arg22, by decide⟩)).trans (V29_main_arg22 m (outs m) c),
     (h c (Proc.devRef .tc main_arg23) (Finset.mem_filter.mpr ⟨StableHlo.devRef_mem_tcRefs main_arg23, by decide⟩)).trans (V29_main_arg23 m (outs m) c)⟩)
    (run_all m ρ)

/-- THE RESULT: the result buffer ends at the last boundary valuation's contents. -/
theorem result : θ_run defs (onTc (τ := τ) (main (F := F))) ⟨m, fun _ => 0, ρ⟩ (fun r => ∀ c : Dev nD,
      r.2.mem ((c.tc : Thread nD τ).loc main_v102) = B29 m c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c (Proc.devRef .tc main_v102) (Finset.mem_filter.mpr ⟨StableHlo.devRef_mem_tcRefs main_v102, by decide⟩)).trans (congrFun (e29 m c) _),
     (h c (Proc.devRef .tc main_arg0) (Finset.mem_filter.mpr ⟨StableHlo.devRef_mem_tcRefs main_arg0, by decide⟩)).trans (V29_main_arg0 m (outs m) c),
     (h c (Proc.devRef .tc main_arg1) (Finset.mem_filter.mpr ⟨StableHlo.devRef_mem_tcRefs main_arg1, by decide⟩)).trans (V29_main_arg1 m (outs m) c),
     (h c (Proc.devRef .tc main_arg2) (Finset.mem_filter.mpr ⟨StableHlo.devRef_mem_tcRefs main_arg2, by decide⟩)).trans (V29_main_arg2 m (outs m) c),
     (h c (Proc.devRef .tc main_arg3) (Finset.mem_filter.mpr ⟨StableHlo.devRef_mem_tcRefs main_arg3, by decide⟩)).trans (V29_main_arg3 m (outs m) c),
     (h c (Proc.devRef .tc main_arg4) (Finset.mem_filter.mpr ⟨StableHlo.devRef_mem_tcRefs main_arg4, by decide⟩)).trans (V29_main_arg4 m (outs m) c),
     (h c (Proc.devRef .tc main_arg5) (Finset.mem_filter.mpr ⟨StableHlo.devRef_mem_tcRefs main_arg5, by decide⟩)).trans (V29_main_arg5 m (outs m) c),
     (h c (Proc.devRef .tc main_arg6) (Finset.mem_filter.mpr ⟨StableHlo.devRef_mem_tcRefs main_arg6, by decide⟩)).trans (V29_main_arg6 m (outs m) c),
     (h c (Proc.devRef .tc main_arg7) (Finset.mem_filter.mpr ⟨StableHlo.devRef_mem_tcRefs main_arg7, by decide⟩)).trans (V29_main_arg7 m (outs m) c),
     (h c (Proc.devRef .tc main_arg8) (Finset.mem_filter.mpr ⟨StableHlo.devRef_mem_tcRefs main_arg8, by decide⟩)).trans (V29_main_arg8 m (outs m) c),
     (h c (Proc.devRef .tc main_arg9) (Finset.mem_filter.mpr ⟨StableHlo.devRef_mem_tcRefs main_arg9, by decide⟩)).trans (V29_main_arg9 m (outs m) c),
     (h c (Proc.devRef .tc main_arg10) (Finset.mem_filter.mpr ⟨StableHlo.devRef_mem_tcRefs main_arg10, by decide⟩)).trans (V29_main_arg10 m (outs m) c),
     (h c (Proc.devRef .tc main_arg11) (Finset.mem_filter.mpr ⟨StableHlo.devRef_mem_tcRefs main_arg11, by decide⟩)).trans (V29_main_arg11 m (outs m) c),
     (h c (Proc.devRef .tc main_arg12) (Finset.mem_filter.mpr ⟨StableHlo.devRef_mem_tcRefs main_arg12, by decide⟩)).trans (V29_main_arg12 m (outs m) c),
     (h c (Proc.devRef .tc main_arg13) (Finset.mem_filter.mpr ⟨StableHlo.devRef_mem_tcRefs main_arg13, by decide⟩)).trans (V29_main_arg13 m (outs m) c),
     (h c (Proc.devRef .tc main_arg14) (Finset.mem_filter.mpr ⟨StableHlo.devRef_mem_tcRefs main_arg14, by decide⟩)).trans (V29_main_arg14 m (outs m) c),
     (h c (Proc.devRef .tc main_arg15) (Finset.mem_filter.mpr ⟨StableHlo.devRef_mem_tcRefs main_arg15, by decide⟩)).trans (V29_main_arg15 m (outs m) c),
     (h c (Proc.devRef .tc main_arg16) (Finset.mem_filter.mpr ⟨StableHlo.devRef_mem_tcRefs main_arg16, by decide⟩)).trans (V29_main_arg16 m (outs m) c),
     (h c (Proc.devRef .tc main_arg17) (Finset.mem_filter.mpr ⟨StableHlo.devRef_mem_tcRefs main_arg17, by decide⟩)).trans (V29_main_arg17 m (outs m) c),
     (h c (Proc.devRef .tc main_arg18) (Finset.mem_filter.mpr ⟨StableHlo.devRef_mem_tcRefs main_arg18, by decide⟩)).trans (V29_main_arg18 m (outs m) c),
     (h c (Proc.devRef .tc main_arg19) (Finset.mem_filter.mpr ⟨StableHlo.devRef_mem_tcRefs main_arg19, by decide⟩)).trans (V29_main_arg19 m (outs m) c),
     (h c (Proc.devRef .tc main_arg20) (Finset.mem_filter.mpr ⟨StableHlo.devRef_mem_tcRefs main_arg20, by decide⟩)).trans (V29_main_arg20 m (outs m) c),
     (h c (Proc.devRef .tc main_arg21) (Finset.mem_filter.mpr ⟨StableHlo.devRef_mem_tcRefs main_arg21, by decide⟩)).trans (V29_main_arg21 m (outs m) c),
     (h c (Proc.devRef .tc main_arg22) (Finset.mem_filter.mpr ⟨StableHlo.devRef_mem_tcRefs main_arg22, by decide⟩)).trans (V29_main_arg22 m (outs m) c),
     (h c (Proc.devRef .tc main_arg23) (Finset.mem_filter.mpr ⟨StableHlo.devRef_mem_tcRefs main_arg23, by decide⟩)).trans (V29_main_arg23 m (outs m) c)⟩)
    (run_all m ρ)

end Cert.KernelIdeal.Hand

end
-- ==== Proof.KBody0.lean ====
import proofs.«155579_j31937376813550_1_alg».proof.Proof.Gen.Kernel.Launch
import proofs.«155579_j31937376813550_1_alg».proof.Proof.Gen.Kernel.Skeleton
import proofs.«155579_j31937376813550_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«155579_j31937376813550_1_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pallas_call 0 at one grid point, in its three control cases

The grid is 8 row blocks (first coordinate) by 4 contraction tiles (second coordinate). At a point the body
adds this tile's product (the 0/1 pattern of the adjacency tile, transposed, times the tile's rows of x) to an
accumulator it keeps in scratch memory; at the first tile (second coordinate 0) it first resets the accumulator to
zero, and at the last (second coordinate 3) it also finishes the row block: (own rows + accumulator) times the
weights, plus the bias, stored into the output block. The three runs below say what the scratch and the output
buffer hold afterwards, as the body's own value terms (`k0_pay1` the zero block, `k0_pay2` the accumulator's
update, `k0_pay3` the finished block); every other buffer is left as it was. -/

/-- The body's first conditional (reset): the second grid coordinate is 0. -/
abbrev cond0_0 (i : grid0.Coords) : Prop := (Scalar.cmpi .ne (Scalar.extui (Scalar.cmpi .eq (BitVec.ofNat 32 (i 1).val) 0#32)) 0#32) = 1#1
/-- The body's second conditional (finish and store): the second grid coordinate is 3. -/
abbrev cond0_1 (i : grid0.Coords) : Prop := k0_cond2 i = 1#1

/-- Points are numbered row block by row block, so the reset happens at the points ≡ 0 (mod 4), -/
theorem hcond0_0 : ∀ t : Fin cfg0.N, cond0_0 (grid0.coords t) ↔ t.val % 4 = 0 :=
  (by decide +kernel : ∀ t : Fin grid0.N, cond0_0 (grid0.coords t) ↔ t.val % 4 = 0)
/-- and the finish at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

set_option maxHeartbeats 1000000 in
/-- First tile of a row block: whatever the accumulator held, it is left at zero plus this tile's product. -/
theorem run0_A (c : Dev nD) (E : Set ℕ) (i : grid0.Coords) (hc0 : cond0_0 i) (hc1 : ¬cond0_1 i)
    (arg2 : Memref sig .tc .vmem S2048x1024 .i32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S64x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x64 .f32) (harg8 : arg8.IsWhole)
    (xa : Vec F S2048x1024 .i32) (xj : Vec F S2048x64 .f32) (K : PUnit → sProp 𝕄) :
    iprop(owns (c : Thread nD τ) arg2 fullShare xa ∗ owns (c : Thread nD τ) arg3 fullShare xj ∗ (∃ d, owns (c : Thread nD τ) arg8 fullShare d)
        ∗ (iprop(owns (c : Thread nD τ) arg2 fullShare xa ∗ owns (c : Thread nD τ) arg3 fullShare xj
            ∗ owns (c : Thread nD τ) arg8 fullShare (k0_pay2 xa xj (k0_pay1 (F := F)))) -∗ K ⟨⟩))
      ⊢ wp frame (wpE (defs₀ (F := F)) Variants.none c none) E
          (cc0__gin_agg_linear1_kernel i arg2 harg2 arg3 harg3 arg4 harg4 arg5 harg5 arg6 harg6 arg7 harg7 arg8 harg8) K := by
  simp only [cc0__gin_agg_linear1_kernel_eq_skeleton]; unfold cc0__gin_agg_linear1_kernel_skel
  unfold owns
  iintro ⟨⟨%f2, %hf2, H2⟩, ⟨%f3, %hf3, H3⟩, ⟨%d8, %f8, -, H8⟩, Hk⟩
  obtain rfl := harg2.eq_unread hf2; obtain rfl := harg3.eq_unread hf3
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole_cons _ hz]
  sl_unfold_run_names
  rw [View.readCov_unit_zero _ hz]
  simp only [View.readAt_eq_ld, hf2, hf3, View.ld_unit_zero (S := S2048x1024) hz, View.ld_unit_zero (S := S2048x64) hz, View.ld_unit_zero (S := S1024x64) hz, View.ld_unit_zero (S := S64x128) hz, View.ld_unit_zero (S := S1x128) hz, View.ld_unit_zero (S := S1024x128) hz]

set_option maxHeartbeats 1000000 in
/-- A middle tile: the accumulator, found at `a`, is left at `a` plus this tile's product. -/
theorem run0_B (c : Dev nD) (E : Set ℕ) (i : grid0.Coords) (hc0 : ¬cond0_0 i) (hc1 : ¬cond0_1 i)
    (arg2 : Memref sig .tc .vmem S2048x1024 .i32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S64x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x64 .f32) (harg8 : arg8.IsWhole)
    (xa : Vec F S2048x1024 .i32) (xj : Vec F S2048x64 .f32) (a : Vec F S1024x64 .f32) (K : PUnit → sProp 𝕄) :
    iprop(owns (c : Thread nD τ) arg2 fullShare xa ∗ owns (c : Thread nD τ) arg3 fullShare xj ∗ owns (c : Thread nD τ) arg8 fullShare a
        ∗ (iprop(owns (c : Thread nD τ) arg2 fullShare xa ∗ owns (c : Thread nD τ) arg3 fullShare xj
            ∗ owns (c : Thread nD τ) arg8 fullShare (k0_pay2 xa xj a)) -∗ K ⟨⟩))
      ⊢ wp frame (wpE (defs₀ (F := F)) Variants.none c none) E
          (cc0__gin_agg_linear1_kernel i arg2 harg2 arg3 harg3 arg4 harg4 arg5 harg5 arg6 harg6 arg7 harg7 arg8 harg8) K := by
  simp only [cc0__gin_agg_linear1_kernel_eq_skeleton]; unfold cc0__gin_agg_linear1_kernel_skel
  unfold owns
  iintro ⟨⟨%f2, %hf2, H2⟩, ⟨%f3, %hf3, H3⟩, ⟨%f8, %hf8, H8⟩, Hk⟩
  obtain rfl := harg2.eq_unread hf2; obtain rfl := harg3.eq_unread hf3; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole _ hz]
  simp only [View.readAt_eq_ld, hf2, hf3, hf8, View.ld_unit_zero (S := S2048x1024) hz, View.ld_unit_zero (S := S2048x64) hz, View.ld_unit_zero (S := S1024x64) hz, View.ld_unit_zero (S := S64x128) hz, View.ld_unit_zero (S := S1x128) hz, View.ld_unit_zero (S := S1024x128) hz]

set_option maxHeartbeats 1000000 in
/-- Last tile of a row block: the accumulator is updated as at a middle tile, and the output buffer, whatever it held,
    is left at the finished block computed from the own rows, the updated accumulator, the weights and the bias. -/
theorem run0_C (c : Dev nD) (E : Set ℕ) (i : grid0.Coords) (hc0 : ¬cond0_0 i) (hc1 : cond0_1 i)
    (arg2 : Memref sig .tc .vmem S2048x1024 .i32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S64x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x64 .f32) (harg8 : arg8.IsWhole)
    (xa : Vec F S2048x1024 .i32) (xj : Vec F S2048x64 .f32) (xi : Vec F S1024x64 .f32) (w : Vec F S64x128 .f32) (b : Vec F S1x128 .f32)
    (a : Vec F S1024x64 .f32) (K : PUnit → sProp 𝕄) :
    iprop(owns (c : Thread nD τ) arg2 fullShare xa ∗ owns (c : Thread nD τ) arg3 fullShare xj ∗ owns (c : Thread nD τ) arg4 fullShare xi
        ∗ owns (c : Thread nD τ) arg5 fullShare w ∗ owns (c : Thread nD τ) arg6 fullShare b ∗ (∃ d, owns (c : Thread nD τ) arg7 fullShare d)
        ∗ owns (c : Thread nD τ) arg8 fullShare a
        ∗ (iprop(owns (c : Thread nD τ) arg2 fullShare xa ∗ owns (c : Thread nD τ) arg3 fullShare xj ∗ owns (c : Thread nD τ) arg4 fullShare xi
            ∗ owns (c : Thread nD τ) arg5 fullShare w ∗ owns (c : Thread nD τ) arg6 fullShare b
            ∗ owns (c : Thread nD τ) arg7 fullShare (k0_pay3 xi (k0_pay2 xa xj a) w b)
            ∗ owns (c : Thread nD τ) arg8 fullShare (k0_pay2 xa xj a)) -∗ K ⟨⟩))
      ⊢ wp frame (wpE (defs₀ (F := F)) Variants.none c none) E
          (cc0__gin_agg_linear1_kernel i arg2 harg2 arg3 harg3 arg4 harg4 arg5 harg5 arg6 harg6 arg7 harg7 arg8 harg8) K := by
  simp only [cc0__gin_agg_linear1_kernel_eq_skeleton]; unfold cc0__gin_agg_linear1_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg8.eq_unread hf8
  sl_exec (disch := first | exact hc0 | exact hc1)
  sl_step
  have hz : (![0, 0] : Fin 2 → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [View.read_writes_unit_whole _ hz]
    sl_unfold_run_names
    rw [View.readCov_unit_zero _ hz]
    simp only [View.readAt_eq_ld, hf2, hf3, hf4, hf5, hf6, hf8, View.ld_unit_zero (S := S2048x1024) hz, View.ld_unit_zero (S := S2048x64) hz, View.ld_unit_zero (S := S1024x64) hz, View.ld_unit_zero (S := S64x128) hz, View.ld_unit_zero (S := S1x128) hz, View.ld_unit_zero (S := S1024x128) hz]
  iexists _; isplitr
  swap; · iexact H8
  ipureintro
  sl_unfold_run_names
  rw [View.read_writes_unit_whole _ hz]
  simp only [View.readAt_eq_ld, hf2, hf3, hf8, View.ld_unit_zero (S := S2048x1024) hz, View.ld_unit_zero (S := S2048x64) hz, View.ld_unit_zero (S := S1024x64) hz, View.ld_unit_zero (S := S64x128) hz, View.ld_unit_zero (S := S1x128) hz, View.ld_unit_zero (S := S1024x128) hz]

end Cert.Kernel.Hand

end
-- ==== Proof.KRegion0.lean ====
import proofs.«155579_j31937376813550_1_alg».proof.Proof.KBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 0: what its buffers hold point by point, and the body obligation

Stated at a parameter `V`: the TensorCore's buffer contents when the region is entered. The adjacency tile (window 0)
and the contraction-side rows of x (window 1) change at every point; the own rows (window 2) change with the row block;
the weights and bias (windows 3, 4) are fetched once. Windows 1 and 2 read ONE array, so each holds half of it. The
accumulator lives in a scratch buffer the invariant carries from point to point; the output block (window 5) is
stored at the last tile of each row block only and written back there. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it to the body, and its wholeness. -/
abbrev ms0_0 (t : Fin cfg0.N) : Memref sig .tc .vmem S2048x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The scratch accumulator: a whole scoped buffer of the kernel's own. -/
abbrev scM0 : Memref sig .tc .vmem S1024x64 .f32 := Memref.whole cc0_scratch0

/-- THE ACCUMULATOR after point `n`: this tile's product added to zero at the first tile of a row block, and to
    what the point before left otherwise. -/
def acc0 (c : Dev nD) : (n : ℕ) → n < cfg0.N → Vec F S1024x64 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩)
      (if (n + 1) % 4 = 0 then (k0_pay1 (F := F)) else acc0 c n (Nat.lt_of_succ_lt hn))

theorem acc0_reset (c : Dev nD) (t : Fin cfg0.N) (h0 : t.val % 4 = 0) :
    acc0 V c t.val t.isLt = k0_pay2 (iblk0 V c 0 t) (iblk0 V c 1 t) (k0_pay1 (F := F)) := by
  obtain ⟨n, hn⟩ := t
  cases n with
  | zero => rfl
  | succ n => exact (show acc0 V c (n + 1) hn = _ from by rw [acc0, if_pos h0])

theorem acc0_step (c : Dev nD) (t : Fin cfg0.N) (h0 : ¬t.val % 4 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact (show acc0 V c (n + 1) hn = _ from by rw [acc0, if_neg h0]; rfl)

/-- THE FINISHED BLOCK at point `t` (stored at the last tile of a row block): own rows plus accumulator, times the
    weights, plus the bias. -/
def out0 (c : Dev nD) (t : Fin cfg0.N) : Vec F S1024x128 .f32 :=
  k0_pay3 (iblk0 V c 2 t) (acc0 V c t.val t.isLt) (iblk0 V c 3 t) (iblk0 V c 4 t)

/-- The scoped buffers that are neither a staging buffer of this pallas_call nor its scratch, each at some contents. -/
def other0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

set_option maxRecDepth 4000 in
/-- The scoped rest the launch hands the region is the scratch at some contents beside the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ other0 (F := F) c) := by
  unfold Pipeline.scopedRest other0
  rw [bigSep_erase (i := cc0_scratch0) (by decide)]
  simp only [scM0, owns_whole]
  rfl

/-- The region invariant before position `n`: before the first point what the launch hands over; afterwards the
    scratch at the accumulator the point before left, the other scoped buffers, the generator register. -/
def Phi0 (c : Dev nD) : (n : ℕ) → n ≤ cfg0.N → sProp 𝕄
  | 0, _ => Pipeline.ΦA spec0 c
  | n + 1, hn => iprop((owns (c : Thread nD τ) scM0 fullShare (acc0 V c n hn) ∗ other0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (acc0 V c n hn) ∗ other0 (F := F) c) ∗ (∃ r, prngReg c r)) := rfl
theorem Phi0_pos (c : Dev nD) (n : ℕ) (h : n ≤ cfg0.N) (hz : n ≠ 0) :
    Phi0 V c n h = iprop((owns (c : Thread nD τ) scM0 fullShare (acc0 V c (n - 1) (by omega)) ∗ other0 (F := F) c) ∗ (∃ r, prngReg c r)) := by
  cases n with
  | zero => exact absurd rfl hz
  | succ n => rfl
theorem PhiA0_eq (c : Dev nD) :
    (Pipeline.ΦA spec0 c : sProp 𝕄) = iprop(((∃ d, owns (c : Thread nD τ) scM0 fullShare d) ∗ other0 (F := F) c) ∗ (∃ r, prngReg c r)) := by
  unfold Pipeline.ΦA; rw [scopedRest0_split]

/-! ## The proof data -/

/-- The proof data of pallas_call 0 on core `c`: the arrays as the region finds them; after the body each input's
    buffer at its block and the output's at the finished block; the invariant above; nothing owed; the array behind
    windows 1 and 2 held in halves, every other input whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 V c t
  Φ t := Phi0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks; the point's position in its row block says which of the
    three runs applies; the invariant hands over the scratch (at anything before the first point, at the previous
    accumulator afterwards) and takes it back at this point's accumulator; at the last tile the output's buffer is
    left at the finished block, elsewhere as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 32 := lt_of_lt_of_eq t.isLt (show cfg0.N = 32 from N_0)
  by_cases h1 : t.val % 4 = 3
  · -- the last tile of a row block
    have h0 : ¬t.val % 4 = 0 := by omega
    have hz : t.val ≠ 0 := by omega
    rw [show (dat0 V c).leavesExact 5 t = owns (c : Thread nD τ) (ms0_5 t) fullShare ((dat0 V c).after 5 t) from by
      unfold Dat.leavesExact; rw [liveAt0_5 t ((hcond0_1 t).mpr h1)], after0_5]
    unfold out0
    rw [acc0_step V c t h0, Phi0_castSucc V c t, Phi0_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run0_C c Set.univ (grid0.coords t) (fun h => h0 ((hcond0_0 t).mp h)) ((hcond0_1 t).mpr h1)
      (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
      (iblk0 V c 0 t) (iblk0 V c 1 t) (iblk0 V c 2 t) (iblk0 V c 3 t) (iblk0 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat0 V c) 5 t (idleAt0_5 t (fun h => h1 ((hcond0_1 t).mp h))) (noFlush0_5 t (fun h => h1 ((hcond0_1 t).mp h)))]
    by_cases h0 : t.val % 4 = 0
    · -- the first tile of a row block
      rw [acc0_reset V c t h0]
      by_cases hz : t.val = 0
      · rw [Phi0_castSucc V c t, Phi0_zero V c _ _ hz, PhiA0_eq]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run0_A c Set.univ (grid0.coords t) ((hcond0_0 t).mpr h0) (fun h => h1 ((hcond0_1 t).mp h))
          (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
          (iblk0 V c 0 t) (iblk0 V c 1 t) _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi0_castSucc V c t, Phi0_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run0_A c Set.univ (grid0.coords t) ((hcond0_0 t).mpr h0) (fun h => h1 ((hcond0_1 t).mp h))
          (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
          (iblk0 V c 0 t) (iblk0 V c 1 t) _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- a middle tile
      have hz : t.val ≠ 0 := fun e => h0 (by rw [e])
      rw [acc0_step V c t h0, Phi0_castSucc V c t, Phi0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run0_B c Set.univ (grid0.coords t) (fun h => h0 ((hcond0_0 t).mp h)) (fun h => h1 ((hcond0_1 t).mp h))
        (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _)
        (iblk0 V c 0 t) (iblk0 V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨HS, Hoth⟩, Hg⟩
  isplitl [HS Hoth]
  · isplitl [HS]; · iexists _; iexact HS
    iexact Hoth
  iexact Hg

end Cert.Kernel.Hand

end
-- ==== Proof.KArr0.lean ====
import proofs.«155579_j31937376813550_1_alg».proof.Proof.KRegion0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 0: its arrays taken out of the core's unscoped buffers at entry and put back at exit

Five distinct buffers stand behind the six windows: windows 1 and 2 read the same array. At entry that array's full
share is dealt to the two windows in halves; at exit the halves, both still at the array's entry contents (an input
is never written), are joined again. Only the output's array changes. -/

variable (V : (c : Dev nD) → (b : Ref sig .tc) → Buf (Elt F) ((c : Thread nD τ).loc b))

set_option maxRecDepth 4000 in
/-- The five buffers behind the windows' arrays, each whole at contents `V'`, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg1) ↦{fullShare} V' main_arg1) ∗ (((c : Thread nD τ).loc main_arg0) ↦{fullShare} V' main_arg0) ∗ (((c : Thread nD τ).loc main_arg2) ↦{fullShare} V' main_arg2) ∗ (((c : Thread nD τ).loc main_v0) ↦{fullShare} V' main_v0) ∗ (((c : Thread nD τ).loc main_v1) ↦{fullShare} V' main_v1)) := by
  unfold Pipeline.arrBufs
  exact bigSep_eq_bigSepL_of_eq [main_arg1, main_arg0, main_arg2, main_v0, main_v1] (by decide) (by decide) _

/-- An input window's array is never written: after any number of write-backs it is as the region found it. -/
theorem arrAt0_in (c : Dev nD) (w : Fin cfg0.W) (hw : (cfg0.win w).isOut = false) (n : ℕ) :
    (dat0 V c).arrAt w n = V c (Pipeline.arrRef spec0 w) :=
  ((dat0 V c).arrAt_in w hw n).trans (A_eq0 V c w)

/-- Window `w`'s array held at its share and contents `f`, spelled on the buffer behind it. -/
theorem arr0_pt (c : Dev nD) (w : Fin cfg0.W) (f : Buf (Elt F) ((cfg0.win w).arr.view.loc (c.tc : Thread nD τ))) :
    (((cfg0.win w).arr.view.loc (c.tc : Thread nD τ) ↦[(cfg0.win w).arr.view.set]{(dat0 V c).share w} f) : sProp 𝕄)
      = (((c.tc : Thread nD τ).loc (Pipeline.arrRef spec0 w)) ↦{(dat0 V c).share w} f) := by
  rw [(arr_whole0 w).set_eq_univ]

set_option maxRecDepth 4000 in
/-- ENTRY: the core's unscoped buffers at `V` are the pipeline's arrays at their entry contents and shares, and the rest. -/
theorem entry0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest spec0 c (V c)) := by
  have hA : Finset.univ.image (Pipeline.arrRef spec0) ⊆ Finset.univ.filter fun b : Ref sig .tc => ¬ b.isScoped := by decide
  have hs : (unscopedBufs (Ix := Unit) (Name := ℕ) (U := UR sig nD τ) (Lvl := ℕ) c (V c) : sProp 𝕄)
      = iprop(Pipeline.arrBufs spec0 c (V c) ∗ Pipeline.unscopedRest spec0 c (V c)) := by
    unfold unscopedBufs Pipeline.unscopedRest Pipeline.arrBufs
    rw [bigSep_sdiff_split hA]
    rfl
  rw [hs, arrBufs0_eq]
  unfold Dat.arrays
  rw [bigSep_W0]
  simp only [View.set_whole]
  iintro ⟨⟨H0, Hx, H3, H4, H5⟩, Hrest⟩
  icases Hx with ⟨Hx1, Hx2⟩
  isplitr [Hrest]
  swap; · iexact Hrest
  isplitl [H0]; · iexact H0
  isplitl [Hx1]; · iexact Hx1
  isplitl [Hx2]; · iexact Hx2
  isplitl [H3]; · iexact H3
  isplitl [H4]; · iexact H4
  iexact H5

set_option maxHeartbeats 1000000 in
/-- The pipeline's arrays after its last write-back, window by window: every input's array as the region found it (an
    input is never written), the output's at what the write-backs left. -/
theorem arraysN0_eq (c : Dev nD) :
    ((dat0 V c).arrays ((dat0 V c).arrAt · cfg0.N) : sProp 𝕄)
      = iprop((((c : Thread nD τ).loc main_arg1) ↦{fullShare} V c main_arg1) ∗ (((c : Thread nD τ).loc main_arg0) ↦{fullShare.left} V c main_arg0) ∗ (((c : Thread nD τ).loc main_arg0) ↦{fullShare.right} V c main_arg0) ∗ (((c : Thread nD τ).loc main_arg2) ↦{fullShare} V c main_arg2) ∗ (((c : Thread nD τ).loc main_v0) ↦{fullShare} V c main_v0) ∗ (((c : Thread nD τ).loc main_v1) ↦{fullShare} (dat0 V c).arrAt 5 cfg0.N)) := by
  unfold Dat.arrays
  rw [bigSep_W0]
  refine congrArg₂ BI.sep ?_ (congrArg₂ BI.sep ?_ (congrArg₂ BI.sep ?_ (congrArg₂ BI.sep ?_ (congrArg₂ BI.sep ?_ ?_))))
  · dsimp only; rw [arrAt0_in V c 0 rfl]; simp only [View.set_whole]; rfl
  · dsimp only; rw [arrAt0_in V c 1 rfl]; simp only [View.set_whole]; rfl
  · dsimp only; rw [arrAt0_in V c 2 rfl]; simp only [View.set_whole]; rfl
  · dsimp only; rw [arrAt0_in V c 3 rfl]; simp only [View.set_whole]; rfl
  · dsimp only; rw [arrAt0_in V c 4 rfl]; simp only [View.set_whole]; rfl
  · simp only [View.set_whole]; rfl

set_option maxRecDepth 4000 in
set_option maxHeartbeats 1000000 in
/-- EXIT: the pipeline's arrays after its last write-back and the rest at `V` are the core's unscoped buffers at any
    `V'` that has the output's array at what the write-backs left and agrees with `V` everywhere else. -/
theorem exit0 (c : Dev nD) (V' : (b : Ref sig .tc) → Buf (Elt F) ((c : Thread nD τ).loc b))
    (hout : V' main_v1 = (dat0 V c).arrAt 5 cfg0.N) (hrest : ∀ b : Ref sig .tc, b ≠ main_v1 → V' b = V c b) :
    iprop((dat0 V c).arrays ((dat0 V c).arrAt · cfg0.N) ∗ Pipeline.unscopedRest spec0 c (V c))
      ⊢ (unscopedBufs (Ix := Unit) (Name := ℕ) (U := UR sig nD τ) (Lvl := ℕ) c V' : sProp 𝕄) := by
  have hA : Finset.univ.image (Pipeline.arrRef spec0) ⊆ Finset.univ.filter fun b : Ref sig .tc => ¬ b.isScoped := by decide
  have hs : (unscopedBufs (Ix := Unit) (Name := ℕ) (U := UR sig nD τ) (Lvl := ℕ) c V' : sProp 𝕄)
      = iprop(Pipeline.arrBufs spec0 c V' ∗ Pipeline.unscopedRest spec0 c V') := by
    unfold unscopedBufs Pipeline.unscopedRest Pipeline.arrBufs
    rw [bigSep_sdiff_split hA]
    rfl
  have hr : (Pipeline.unscopedRest (Ix := Unit) (Name := ℕ) (U := UR sig nD τ) (Lvl := ℕ) spec0 c V' : sProp 𝕄)
      = Pipeline.unscopedRest spec0 c (V c) := by
    unfold Pipeline.unscopedRest
    refine bigSep_congr fun b hb => ?_
    rw [hrest b (fun e => (Finset.mem_sdiff.mp hb).2 (e ▸ (by decide : main_v1 ∈ Finset.univ.image (Pipeline.arrRef spec0))))]
  rw [hs, hr, arrBufs0_eq, arraysN0_eq, hout, hrest main_arg1 (by decide), hrest main_arg0 (by decide), hrest main_arg2 (by decide), hrest main_v0 (by decide)]
  iintro ⟨⟨H0, Hx1, Hx2, H3, H4, H5⟩, Hrest⟩
  icombine Hx1 Hx2 as Hx
  isplitr [Hrest]
  swap; · iexact Hrest
  isplitl [H0]; · iexact H0
  isplitl [Hx]; · iexact Hx
  isplitl [H3]; · iexact H3
  isplitl [H4]; · iexact H4
  iexact H5

end Cert.Kernel.Hand

end
-- ==== Proof.KBody1.lean ====
import proofs.«155579_j31937376813550_1_alg».proof.Proof.Gen.Kernel.Launch
import proofs.«155579_j31937376813550_1_alg».proof.Proof.Gen.Kernel.Skeleton
import proofs.«155579_j31937376813550_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«155579_j31937376813550_1_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pallas_call 1 at one grid point, in its three control cases

The grid is 8 row blocks (first coordinate) by 4 contraction tiles (second coordinate). At a point the body
adds this tile's product (the 0/1 pattern of the adjacency tile, transposed, times the tile's rows of x) to an
accumulator it keeps in scratch memory; at the first tile (second coordinate 0) it first resets the accumulator to
zero, and at the last (second coordinate 3) it also finishes the row block: (own rows + accumulator) times the
weights, plus the bias, stored into the output block. The three runs below say what the scratch and the output
buffer hold afterwards, as the body's own value terms (`k1_pay1` the zero block, `k1_pay2` the accumulator's
update, `k1_pay3` the finished block); every other buffer is left as it was. -/

/-- The body's first conditional (reset): the second grid coordinate is 0. -/
abbrev cond1_0 (i : grid1.Coords) : Prop := (Scalar.cmpi .ne (Scalar.extui (Scalar.cmpi .eq (BitVec.ofNat 32 (i 1).val) 0#32)) 0#32) = 1#1
/-- The body's second conditional (finish and store): the second grid coordinate is 3. -/
abbrev cond1_1 (i : grid1.Coords) : Prop := k1_cond2 i = 1#1

/-- Points are numbered row block by row block, so the reset happens at the points ≡ 0 (mod 4), -/
theorem hcond1_0 : ∀ t : Fin cfg1.N, cond1_0 (grid1.coords t) ↔ t.val % 4 = 0 :=
  (by decide +kernel : ∀ t : Fin grid1.N, cond1_0 (grid1.coords t) ↔ t.val % 4 = 0)
/-- and the finish at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

set_option maxHeartbeats 1000000 in
/-- First tile of a row block: whatever the accumulator held, it is left at zero plus this tile's product. -/
theorem run1_A (c : Dev nD) (E : Set ℕ) (i : grid1.Coords) (hc0 : cond1_0 i) (hc1 : ¬cond1_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (K : PUnit → sProp 𝕄) :
    iprop(owns (c : Thread nD τ) arg2 fullShare xa ∗ owns (c : Thread nD τ) arg3 fullShare xj ∗ (∃ d, owns (c : Thread nD τ) arg8 fullShare d)
        ∗ (iprop(owns (c : Thread nD τ) arg2 fullShare xa ∗ owns (c : Thread nD τ) arg3 fullShare xj
            ∗ owns (c : Thread nD τ) arg8 fullShare (k1_pay2 xa xj (k1_pay1 (F := F)))) -∗ K ⟨⟩))
      ⊢ wp frame (wpE (defs₀ (F := F)) Variants.none c none) E
          (cc1__gin_agg_linear1_kernel i arg2 harg2 arg3 harg3 arg4 harg4 arg5 harg5 arg6 harg6 arg7 harg7 arg8 harg8) K := by
  simp only [cc1__gin_agg_linear1_kernel_eq_skeleton]; unfold cc1__gin_agg_linear1_kernel_skel
  unfold owns
  iintro ⟨⟨%f2, %hf2, H2⟩, ⟨%f3, %hf3, H3⟩, ⟨%d8, %f8, -, H8⟩, Hk⟩
  obtain rfl := harg2.eq_unread hf2; obtain rfl := harg3.eq_unread hf3
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole_cons _ hz]
  sl_unfold_run_names
  rw [View.readCov_unit_zero _ hz]
  simp only [View.readAt_eq_ld, hf2, hf3, View.ld_unit_zero (S := S2048x1024) hz, View.ld_unit_zero (S := S2048x128) hz, View.ld_unit_zero (S := S1024x128) hz, View.ld_unit_zero (S := S128x128) hz, View.ld_unit_zero (S := S1x128) hz]

set_option maxHeartbeats 1000000 in
/-- A middle tile: the accumulator, found at `a`, is left at `a` plus this tile's product. -/
theorem run1_B (c : Dev nD) (E : Set ℕ) (i : grid1.Coords) (hc0 : ¬cond1_0 i) (hc1 : ¬cond1_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (a : Vec F S1024x128 .f32) (K : PUnit → sProp 𝕄) :
    iprop(owns (c : Thread nD τ) arg2 fullShare xa ∗ owns (c : Thread nD τ) arg3 fullShare xj ∗ owns (c : Thread nD τ) arg8 fullShare a
        ∗ (iprop(owns (c : Thread nD τ) arg2 fullShare xa ∗ owns (c : Thread nD τ) arg3 fullShare xj
            ∗ owns (c : Thread nD τ) arg8 fullShare (k1_pay2 xa xj a)) -∗ K ⟨⟩))
      ⊢ wp frame (wpE (defs₀ (F := F)) Variants.none c none) E
          (cc1__gin_agg_linear1_kernel i arg2 harg2 arg3 harg3 arg4 harg4 arg5 harg5 arg6 harg6 arg7 harg7 arg8 harg8) K := by
  simp only [cc1__gin_agg_linear1_kernel_eq_skeleton]; unfold cc1__gin_agg_linear1_kernel_skel
  unfold owns
  iintro ⟨⟨%f2, %hf2, H2⟩, ⟨%f3, %hf3, H3⟩, ⟨%f8, %hf8, H8⟩, Hk⟩
  obtain rfl := harg2.eq_unread hf2; obtain rfl := harg3.eq_unread hf3; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole _ hz]
  simp only [View.readAt_eq_ld, hf2, hf3, hf8, View.ld_unit_zero (S := S2048x1024) hz, View.ld_unit_zero (S := S2048x128) hz, View.ld_unit_zero (S := S1024x128) hz, View.ld_unit_zero (S := S128x128) hz, View.ld_unit_zero (S := S1x128) hz]

set_option maxHeartbeats 1000000 in
/-- Last tile of a row block: the accumulator is updated as at a middle tile, and the output buffer, whatever it held,
    is left at the finished block computed from the own rows, the updated accumulator, the weights and the bias. -/
theorem run1_C (c : Dev nD) (E : Set ℕ) (i : grid1.Coords) (hc0 : ¬cond1_0 i) (hc1 : cond1_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (xi : Vec F S1024x128 .f32) (w : Vec F S128x128 .f32) (b : Vec F S1x128 .f32)
    (a : Vec F S1024x128 .f32) (K : PUnit → sProp 𝕄) :
    iprop(owns (c : Thread nD τ) arg2 fullShare xa ∗ owns (c : Thread nD τ) arg3 fullShare xj ∗ owns (c : Thread nD τ) arg4 fullShare xi
        ∗ owns (c : Thread nD τ) arg5 fullShare w ∗ owns (c : Thread nD τ) arg6 fullShare b ∗ (∃ d, owns (c : Thread nD τ) arg7 fullShare d)
        ∗ owns (c : Thread nD τ) arg8 fullShare a
        ∗ (iprop(owns (c : Thread nD τ) arg2 fullShare xa ∗ owns (c : Thread nD τ) arg3 fullShare xj ∗ owns (c : Thread nD τ) arg4 fullShare xi
            ∗ owns (c : Thread nD τ) arg5 fullShare w ∗ owns (c : Thread nD τ) arg6 fullShare b
            ∗ owns (c : Thread nD τ) arg7 fullShare (k1_pay3 xi (k1_pay2 xa xj a) w b)
            ∗ owns (c : Thread nD τ) arg8 fullShare (k1_pay2 xa xj a)) -∗ K ⟨⟩))
      ⊢ wp frame (wpE (defs₀ (F := F)) Variants.none c none) E
          (cc1__gin_agg_linear1_kernel i arg2 harg2 arg3 harg3 arg4 harg4 arg5 harg5 arg6 harg6 arg7 harg7 arg8 harg8) K := by
  simp only [cc1__gin_agg_linear1_kernel_eq_skeleton]; unfold cc1__gin_agg_linear1_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg8.eq_unread hf8
  sl_exec (disch := first | exact hc0 | exact hc1)
  sl_step
  have hz : (![0, 0] : Fin 2 → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [View.read_writes_unit_whole _ hz]
    sl_unfold_run_names
    rw [View.readCov_unit_zero _ hz]
    simp only [View.readAt_eq_ld, hf2, hf3, hf4, hf5, hf6, hf8, View.ld_unit_zero (S := S2048x1024) hz, View.ld_unit_zero (S := S2048x128) hz, View.ld_unit_zero (S := S1024x128) hz, View.ld_unit_zero (S := S128x128) hz, View.ld_unit_zero (S := S1x128) hz]
  iexists _; isplitr
  swap; · iexact H8
  ipureintro
  sl_unfold_run_names
  rw [View.read_writes_unit_whole _ hz]
  simp only [View.readAt_eq_ld, hf2, hf3, hf8, View.ld_unit_zero (S := S2048x1024) hz, View.ld_unit_zero (S := S2048x128) hz, View.ld_unit_zero (S := S1024x128) hz, View.ld_unit_zero (S := S128x128) hz, View.ld_unit_zero (S := S1x128) hz]

end Cert.Kernel.Hand

end
-- ==== Proof.KRegion1.lean ====
import proofs.«155579_j31937376813550_1_alg».proof.Proof.KBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 1: what its buffers hold point by point, and the body obligation

Stated at a parameter `V`: the TensorCore's buffer contents when the region is entered. The adjacency tile (window 0)
and the contraction-side rows of x (window 1) change at every point; the own rows (window 2) change with the row block;
the weights and bias (windows 3, 4) are fetched once. Windows 1 and 2 read ONE array, so each holds half of it. The
accumulator lives in a scratch buffer the invariant carries from point to point; the output block (window 5) is
stored at the last tile of each row block only and written back there. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body, and its wholeness. -/
abbrev ms1_0 (t : Fin cfg1.N) : Memref sig .tc .vmem S2048x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
/-- The scratch accumulator: a whole scoped buffer of the kernel's own. -/
abbrev scM1 : Memref sig .tc .vmem S1024x128 .f32 := Memref.whole cc1_scratch0

/-- THE ACCUMULATOR after point `n`: this tile's product added to zero at the first tile of a row block, and to
    what the point before left otherwise. -/
def acc1 (c : Dev nD) : (n : ℕ) → n < cfg1.N → Vec F S1024x128 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 4 = 0 then (k1_pay1 (F := F)) else acc1 c n (Nat.lt_of_succ_lt hn))

theorem acc1_reset (c : Dev nD) (t : Fin cfg1.N) (h0 : t.val % 4 = 0) :
    acc1 V c t.val t.isLt = k1_pay2 (iblk1 V c 0 t) (iblk1 V c 1 t) (k1_pay1 (F := F)) := by
  obtain ⟨n, hn⟩ := t
  cases n with
  | zero => rfl
  | succ n => exact (show acc1 V c (n + 1) hn = _ from by rw [acc1, if_pos h0])

theorem acc1_step (c : Dev nD) (t : Fin cfg1.N) (h0 : ¬t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (show acc1 V c (n + 1) hn = _ from by rw [acc1, if_neg h0]; rfl)

/-- THE FINISHED BLOCK at point `t` (stored at the last tile of a row block): own rows plus accumulator, times the
    weights, plus the bias. -/
def out1 (c : Dev nD) (t : Fin cfg1.N) : Vec F S1024x128 .f32 :=
  k1_pay3 (iblk1 V c 2 t) (acc1 V c t.val t.isLt) (iblk1 V c 3 t) (iblk1 V c 4 t)

/-- The scoped buffers that are neither a staging buffer of this pallas_call nor its scratch, each at some contents. -/
def other1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

set_option maxRecDepth 4000 in
/-- The scoped rest the launch hands the region is the scratch at some contents beside the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ other1 (F := F) c) := by
  unfold Pipeline.scopedRest other1
  rw [bigSep_erase (i := cc1_scratch0) (by decide)]
  simp only [scM1, owns_whole]
  rfl

/-- The region invariant before position `n`: before the first point what the launch hands over; afterwards the
    scratch at the accumulator the point before left, the other scoped buffers, the generator register. -/
def Phi1 (c : Dev nD) : (n : ℕ) → n ≤ cfg1.N → sProp 𝕄
  | 0, _ => Pipeline.ΦA spec1 c
  | n + 1, hn => iprop((owns (c : Thread nD τ) scM1 fullShare (acc1 V c n hn) ∗ other1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1 fullShare (acc1 V c n hn) ∗ other1 (F := F) c) ∗ (∃ r, prngReg c r)) := rfl
theorem Phi1_pos (c : Dev nD) (n : ℕ) (h : n ≤ cfg1.N) (hz : n ≠ 0) :
    Phi1 V c n h = iprop((owns (c : Thread nD τ) scM1 fullShare (acc1 V c (n - 1) (by omega)) ∗ other1 (F := F) c) ∗ (∃ r, prngReg c r)) := by
  cases n with
  | zero => exact absurd rfl hz
  | succ n => rfl
theorem PhiA1_eq (c : Dev nD) :
    (Pipeline.ΦA spec1 c : sProp 𝕄) = iprop(((∃ d, owns (c : Thread nD τ) scM1 fullShare d) ∗ other1 (F := F) c) ∗ (∃ r, prngReg c r)) := by
  unfold Pipeline.ΦA; rw [scopedRest1_split]

/-! ## The proof data -/

/-- The proof data of pallas_call 1 on core `c`: the arrays as the region finds them; after the body each input's
    buffer at its block and the output's at the finished block; the invariant above; nothing owed; the array behind
    windows 1 and 2 held in halves, every other input whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ t := Phi1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' buffers hold their blocks; the point's position in its row block says which of the
    three runs applies; the invariant hands over the scratch (at anything before the first point, at the previous
    accumulator afterwards) and takes it back at this point's accumulator; at the last tile the output's buffer is
    left at the finished block, elsewhere as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 32 := lt_of_lt_of_eq t.isLt (show cfg1.N = 32 from N_1)
  by_cases h1 : t.val % 4 = 3
  · -- the last tile of a row block
    have h0 : ¬t.val % 4 = 0 := by omega
    have hz : t.val ≠ 0 := by omega
    rw [show (dat1 V c).leavesExact 5 t = owns (c : Thread nD τ) (ms1_5 t) fullShare ((dat1 V c).after 5 t) from by
      unfold Dat.leavesExact; rw [liveAt1_5 t ((hcond1_1 t).mpr h1)], after1_5]
    unfold out1
    rw [acc1_step V c t h0, Phi1_castSucc V c t, Phi1_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run1_C c Set.univ (grid1.coords t) (fun h => h0 ((hcond1_0 t).mp h)) ((hcond1_1 t).mpr h1)
      (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
      (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat1 V c) 5 t (idleAt1_5 t (fun h => h1 ((hcond1_1 t).mp h))) (noFlush1_5 t (fun h => h1 ((hcond1_1 t).mp h)))]
    by_cases h0 : t.val % 4 = 0
    · -- the first tile of a row block
      rw [acc1_reset V c t h0]
      by_cases hz : t.val = 0
      · rw [Phi1_castSucc V c t, Phi1_zero V c _ _ hz, PhiA1_eq]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run1_A c Set.univ (grid1.coords t) ((hcond1_0 t).mpr h0) (fun h => h1 ((hcond1_1 t).mp h))
          (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
          (iblk1 V c 0 t) (iblk1 V c 1 t) _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi1_castSucc V c t, Phi1_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run1_A c Set.univ (grid1.coords t) ((hcond1_0 t).mpr h0) (fun h => h1 ((hcond1_1 t).mp h))
          (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
          (iblk1 V c 0 t) (iblk1 V c 1 t) _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- a middle tile
      have hz : t.val ≠ 0 := fun e => h0 (by rw [e])
      rw [acc1_step V c t h0, Phi1_castSucc V c t, Phi1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run1_B c Set.univ (grid1.coords t) (fun h => h0 ((hcond1_0 t).mp h)) (fun h => h1 ((hcond1_1 t).mp h))
        (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
        (iblk1 V c 0 t) (iblk1 V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨HS, Hoth⟩, Hg⟩
  isplitl [HS Hoth]
  · isplitl [HS]; · iexists _; iexact HS
    iexact Hoth
  iexact Hg

end Cert.Kernel.Hand

end
-- ==== Proof.KArr1.lean ====
import proofs.«155579_j31937376813550_1_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 1: its arrays taken out of the core's unscoped buffers at entry and put back at exit

Five distinct buffers stand behind the six windows: windows 1 and 2 read the same array. At entry that array's full
share is dealt to the two windows in halves; at exit the halves, both still at the array's entry contents (an input
is never written), are joined again. Only the output's array changes. -/

variable (V : (c : Dev nD) → (b : Ref sig .tc) → Buf (Elt F) ((c : Thread nD τ).loc b))

set_option maxRecDepth 4000 in
/-- The five buffers behind the windows' arrays, each whole at contents `V'`, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v26) ↦{fullShare} V' main_v26) ∗ (((c : Thread nD τ).loc main_arg8) ↦{fullShare} V' main_arg8) ∗ (((c : Thread nD τ).loc main_v27) ↦{fullShare} V' main_v27) ∗ (((c : Thread nD τ).loc main_v28) ↦{fullShare} V' main_v28)) := by
  unfold Pipeline.arrBufs
  exact bigSep_eq_bigSepL_of_eq [main_arg1, main_v26, main_arg8, main_v27, main_v28] (by decide) (by decide) _

/-- An input window's array is never written: after any number of write-backs it is as the region found it. -/
theorem arrAt1_in (c : Dev nD) (w : Fin cfg1.W) (hw : (cfg1.win w).isOut = false) (n : ℕ) :
    (dat1 V c).arrAt w n = V c (Pipeline.arrRef spec1 w) :=
  ((dat1 V c).arrAt_in w hw n).trans (A_eq1 V c w)

/-- Window `w`'s array held at its share and contents `f`, spelled on the buffer behind it. -/
theorem arr1_pt (c : Dev nD) (w : Fin cfg1.W) (f : Buf (Elt F) ((cfg1.win w).arr.view.loc (c.tc : Thread nD τ))) :
    (((cfg1.win w).arr.view.loc (c.tc : Thread nD τ) ↦[(cfg1.win w).arr.view.set]{(dat1 V c).share w} f) : sProp 𝕄)
      = (((c.tc : Thread nD τ).loc (Pipeline.arrRef spec1 w)) ↦{(dat1 V c).share w} f) := by
  rw [(arr_whole1 w).set_eq_univ]

set_option maxRecDepth 4000 in
/-- ENTRY: the core's unscoped buffers at `V` are the pipeline's arrays at their entry contents and shares, and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  have hA : Finset.univ.image (Pipeline.arrRef spec1) ⊆ Finset.univ.filter fun b : Ref sig .tc => ¬ b.isScoped := by decide
  have hs : (unscopedBufs (Ix := Unit) (Name := ℕ) (U := UR sig nD τ) (Lvl := ℕ) c (V c) : sProp 𝕄)
      = iprop(Pipeline.arrBufs spec1 c (V c) ∗ Pipeline.unscopedRest spec1 c (V c)) := by
    unfold unscopedBufs Pipeline.unscopedRest Pipeline.arrBufs
    rw [bigSep_sdiff_split hA]
    rfl
  rw [hs, arrBufs1_eq]
  unfold Dat.arrays
  rw [bigSep_W1]
  simp only [View.set_whole]
  iintro ⟨⟨H0, Hx, H3, H4, H5⟩, Hrest⟩
  icases Hx with ⟨Hx1, Hx2⟩
  isplitr [Hrest]
  swap; · iexact Hrest
  isplitl [H0]; · iexact H0
  isplitl [Hx1]; · iexact Hx1
  isplitl [Hx2]; · iexact Hx2
  isplitl [H3]; · iexact H3
  isplitl [H4]; · iexact H4
  iexact H5

set_option maxHeartbeats 1000000 in
/-- The pipeline's arrays after its last write-back, window by window: every input's array as the region found it (an
    input is never written), the output's at what the write-backs left. -/
theorem arraysN1_eq (c : Dev nD) :
    ((dat1 V c).arrays ((dat1 V c).arrAt · cfg1.N) : sProp 𝕄)
      = iprop((((c : Thread nD τ).loc main_arg1) ↦{fullShare} V c main_arg1) ∗ (((c : Thread nD τ).loc main_v26) ↦{fullShare.left} V c main_v26) ∗ (((c : Thread nD τ).loc main_v26) ↦{fullShare.right} V c main_v26) ∗ (((c : Thread nD τ).loc main_arg8) ↦{fullShare} V c main_arg8) ∗ (((c : Thread nD τ).loc main_v27) ↦{fullShare} V c main_v27) ∗ (((c : Thread nD τ).loc main_v28) ↦{fullShare} (dat1 V c).arrAt 5 cfg1.N)) := by
  unfold Dat.arrays
  rw [bigSep_W1]
  refine congrArg₂ BI.sep ?_ (congrArg₂ BI.sep ?_ (congrArg₂ BI.sep ?_ (congrArg₂ BI.sep ?_ (congrArg₂ BI.sep ?_ ?_))))
  · dsimp only; rw [arrAt1_in V c 0 rfl]; simp only [View.set_whole]; rfl
  · dsimp only; rw [arrAt1_in V c 1 rfl]; simp only [View.set_whole]; rfl
  · dsimp only; rw [arrAt1_in V c 2 rfl]; simp only [View.set_whole]; rfl
  · dsimp only; rw [arrAt1_in V c 3 rfl]; simp only [View.set_whole]; rfl
  · dsimp only; rw [arrAt1_in V c 4 rfl]; simp only [View.set_whole]; rfl
  · simp only [View.set_whole]; rfl

set_option maxRecDepth 4000 in
set_option maxHeartbeats 1000000 in
/-- EXIT: the pipeline's arrays after its last write-back and the rest at `V` are the core's unscoped buffers at any
    `V'` that has the output's array at what the write-backs left and agrees with `V` everywhere else. -/
theorem exit1 (c : Dev nD) (V' : (b : Ref sig .tc) → Buf (Elt F) ((c : Thread nD τ).loc b))
    (hout : V' main_v28 = (dat1 V c).arrAt 5 cfg1.N) (hrest : ∀ b : Ref sig .tc, b ≠ main_v28 → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have hA : Finset.univ.image (Pipeline.arrRef spec1) ⊆ Finset.univ.filter fun b : Ref sig .tc => ¬ b.isScoped := by decide
  have hs : (unscopedBufs (Ix := Unit) (Name := ℕ) (U := UR sig nD τ) (Lvl := ℕ) c V' : sProp 𝕄)
      = iprop(Pipeline.arrBufs spec1 c V' ∗ Pipeline.unscopedRest spec1 c V') := by
    unfold unscopedBufs Pipeline.unscopedRest Pipeline.arrBufs
    rw [bigSep_sdiff_split hA]
    rfl
  have hr : (Pipeline.unscopedRest (Ix := Unit) (Name := ℕ) (U := UR sig nD τ) (Lvl := ℕ) spec1 c V' : sProp 𝕄)
      = Pipeline.unscopedRest spec1 c (V c) := by
    unfold Pipeline.unscopedRest
    refine bigSep_congr fun b hb => ?_
    rw [hrest b (fun e => (Finset.mem_sdiff.mp hb).2 (e ▸ (by decide : main_v28 ∈ Finset.univ.image (Pipeline.arrRef spec1))))]
  rw [hs, hr, arrBufs1_eq, arraysN1_eq, hout, hrest main_arg1 (by decide), hrest main_v26 (by decide), hrest main_arg8 (by decide), hrest main_v27 (by decide)]
  iintro ⟨⟨H0, Hx1, Hx2, H3, H4, H5⟩, Hrest⟩
  icombine Hx1 Hx2 as Hx
  isplitr [Hrest]
  swap; · iexact Hrest
  isplitl [H0]; · iexact H0
  isplitl [Hx]; · iexact Hx
  isplitl [H3]; · iexact H3
  isplitl [H4]; · iexact H4
  iexact H5

end Cert.Kernel.Hand

end
-- ==== Proof.KBody2.lean ====
import proofs.«155579_j31937376813550_1_alg».proof.Proof.Gen.Kernel.Launch
import proofs.«155579_j31937376813550_1_alg».proof.Proof.Gen.Kernel.Skeleton
import proofs.«155579_j31937376813550_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«155579_j31937376813550_1_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of pallas_call 2 at one grid point, in its three control cases

The grid is 8 row blocks (first coordinate) by 4 contraction tiles (second coordinate). At a point the body
adds this tile's product (the 0/1 pattern of the adjacency tile, transposed, times the tile's rows of x) to an
accumulator it keeps in scratch memory; at the first tile (second coordinate 0) it first resets the accumulator to
zero, and at the last (second coordinate 3) it also finishes the row block: (own rows + accumulator) times the
weights, plus the bias, stored into the output block. The three runs below say what the scratch and the output
buffer hold afterwards, as the body's own value terms (`k2_pay1` the zero block, `k2_pay2` the accumulator's
update, `k2_pay3` the finished block); every other buffer is left as it was. -/

/-- The body's first conditional (reset): the second grid coordinate is 0. -/
abbrev cond2_0 (i : grid2.Coords) : Prop := (Scalar.cmpi .ne (Scalar.extui (Scalar.cmpi .eq (BitVec.ofNat 32 (i 1).val) 0#32)) 0#32) = 1#1
/-- The body's second conditional (finish and store): the second grid coordinate is 3. -/
abbrev cond2_1 (i : grid2.Coords) : Prop := k2_cond2 i = 1#1

/-- Points are numbered row block by row block, so the reset happens at the points ≡ 0 (mod 4), -/
theorem hcond2_0 : ∀ t : Fin cfg2.N, cond2_0 (grid2.coords t) ↔ t.val % 4 = 0 :=
  (by decide +kernel : ∀ t : Fin grid2.N, cond2_0 (grid2.coords t) ↔ t.val % 4 = 0)
/-- and the finish at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

set_option maxHeartbeats 1000000 in
/-- First tile of a row block: whatever the accumulator held, it is left at zero plus this tile's product. -/
theorem run2_A (c : Dev nD) (E : Set ℕ) (i : grid2.Coords) (hc0 : cond2_0 i) (hc1 : ¬cond2_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (K : PUnit → sProp 𝕄) :
    iprop(owns (c : Thread nD τ) arg2 fullShare xa ∗ owns (c : Thread nD τ) arg3 fullShare xj ∗ (∃ d, owns (c : Thread nD τ) arg8 fullShare d)
        ∗ (iprop(owns (c : Thread nD τ) arg2 fullShare xa ∗ owns (c : Thread nD τ) arg3 fullShare xj
            ∗ owns (c : Thread nD τ) arg8 fullShare (k2_pay2 xa xj (k2_pay1 (F := F)))) -∗ K ⟨⟩))
      ⊢ wp frame (wpE (defs₀ (F := F)) Variants.none c none) E
          (cc2__gin_agg_linear1_kernel i arg2 harg2 arg3 harg3 arg4 harg4 arg5 harg5 arg6 harg6 arg7 harg7 arg8 harg8) K := by
  simp only [cc2__gin_agg_linear1_kernel_eq_skeleton]; unfold cc2__gin_agg_linear1_kernel_skel
  unfold owns
  iintro ⟨⟨%f2, %hf2, H2⟩, ⟨%f3, %hf3, H3⟩, ⟨%d8, %f8, -, H8⟩, Hk⟩
  obtain rfl := harg2.eq_unread hf2; obtain rfl := harg3.eq_unread hf3
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole_cons _ hz]
  sl_unfold_run_names
  rw [View.readCov_unit_zero _ hz]
  simp only [View.readAt_eq_ld, hf2, hf3, View.ld_unit_zero (S := S2048x1024) hz, View.ld_unit_zero (S := S2048x128) hz, View.ld_unit_zero (S := S1024x128) hz, View.ld_unit_zero (S := S128x128) hz, View.ld_unit_zero (S := S1x128) hz]

set_option maxHeartbeats 1000000 in
/-- A middle tile: the accumulator, found at `a`, is left at `a` plus this tile's product. -/
theorem run2_B (c : Dev nD) (E : Set ℕ) (i : grid2.Coords) (hc0 : ¬cond2_0 i) (hc1 : ¬cond2_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (a : Vec F S1024x128 .f32) (K : PUnit → sProp 𝕄) :
    iprop(owns (c : Thread nD τ) arg2 fullShare xa ∗ owns (c : Thread nD τ) arg3 fullShare xj ∗ owns (c : Thread nD τ) arg8 fullShare a
        ∗ (iprop(owns (c : Thread nD τ) arg2 fullShare xa ∗ owns (c : Thread nD τ) arg3 fullShare xj
            ∗ owns (c : Thread nD τ) arg8 fullShare (k2_pay2 xa xj a)) -∗ K ⟨⟩))
      ⊢ wp frame (wpE (defs₀ (F := F)) Variants.none c none) E
          (cc2__gin_agg_linear1_kernel i arg2 harg2 arg3 harg3 arg4 harg4 arg5 harg5 arg6 harg6 arg7 harg7 arg8 harg8) K := by
  simp only [cc2__gin_agg_linear1_kernel_eq_skeleton]; unfold cc2__gin_agg_linear1_kernel_skel
  unfold owns
  iintro ⟨⟨%f2, %hf2, H2⟩, ⟨%f3, %hf3, H3⟩, ⟨%f8, %hf8, H8⟩, Hk⟩
  obtain rfl := harg2.eq_unread hf2; obtain rfl := harg3.eq_unread hf3; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H8
  ipureintro
  have hz : (![0, 0] : Fin 2 → Nat) = fun _ => 0 := by funext a; fin_cases a <;> rfl
  rw [View.read_writes_unit_whole _ hz]
  simp only [View.readAt_eq_ld, hf2, hf3, hf8, View.ld_unit_zero (S := S2048x1024) hz, View.ld_unit_zero (S := S2048x128) hz, View.ld_unit_zero (S := S1024x128) hz, View.ld_unit_zero (S := S128x128) hz, View.ld_unit_zero (S := S1x128) hz]

set_option maxHeartbeats 1000000 in
/-- Last tile of a row block: the accumulator is updated as at a middle tile, and the output buffer, whatever it held,
    is left at the finished block computed from the own rows, the updated accumulator, the weights and the bias. -/
theorem run2_C (c : Dev nD) (E : Set ℕ) (i : grid2.Coords) (hc0 : ¬cond2_0 i) (hc1 : cond2_1 i)
    (arg2 : Memref sig .tc .vmem S2048x1024 .i32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (xa : Vec F S2048x1024 .i32) (xj : Vec F S2048x128 .f32) (xi : Vec F S1024x128 .f32) (w : Vec F S128x128 .f32) (b : Vec F S1x128 .f32)
    (a : Vec F S1024x128 .f32) (K : PUnit → sProp 𝕄) :
    iprop(owns (c : Thread nD τ) arg2 fullShare xa ∗ owns (c : Thread nD τ) arg3 fullShare xj ∗ owns (c : Thread nD τ) arg4 fullShare xi
        ∗ owns (c : Thread nD τ) arg5 fullShare w ∗ owns (c : Thread nD τ) arg6 fullShare b ∗ (∃ d, owns (c : Thread nD τ) arg7 fullShare d)
        ∗ owns (c : Thread nD τ) arg8 fullShare a
        ∗ (iprop(owns (c : Thread nD τ) arg2 fullShare xa ∗ owns (c : Thread nD τ) arg3 fullShare xj ∗ owns (c : Thread nD τ) arg4 fullShare xi
            ∗ owns (c : Thread nD τ) arg5 fullShare w ∗ owns (c : Thread nD τ) arg6 fullShare b
            ∗ owns (c : Thread nD τ) arg7 fullShare (k2_pay3 xi (k2_pay2 xa xj a) w b)
            ∗ owns (c : Thread nD τ) arg8 fullShare (k2_pay2 xa xj a)) -∗ K ⟨⟩))
      ⊢ wp frame (wpE (defs₀ (F := F)) Variants.none c none) E
          (cc2__gin_agg_linear1_kernel i arg2 harg2 arg3 harg3 arg4 harg4 arg5 harg5 arg6 harg6 arg7 harg7 arg8 harg8) K := by
  simp only [cc2__gin_agg_linear1_kernel_eq_skeleton]; unfold cc2__gin_agg_linear1_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg8.eq_unread hf8
  sl_exec (disch := first | exact hc0 | exact hc1)
  sl_step
  have hz : (![0, 0] : Fin 2 → Nat) = fun _ => 0 := by funext a; fin_cases a <;> rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [View.read_writes_unit_whole _ hz]
    sl_unfold_run_names
    rw [View.readCov_unit_zero _ hz]
    simp only [View.readAt_eq_ld, hf2, hf3, hf4, hf5, hf6, hf8, View.ld_unit_zero (S := S2048x1024) hz, View.ld_unit_zero (S := S2048x128) hz, View.ld_unit_zero (S := S1024x128) hz, View.ld_unit_zero (S := S128x128) hz, View.ld_unit_zero (S := S1x128) hz]
  iexists _; isplitr
  swap; · iexact H8
  ipureintro
  sl_unfold_run_names
  rw [View.read_writes_unit_whole _ hz]
  simp only [View.readAt_eq_ld, hf2, hf3, hf8, View.ld_unit_zero (S := S2048x1024) hz, View.ld_unit_zero (S := S2048x128) hz, View.ld_unit_zero (S := S1024x128) hz, View.ld_unit_zero (S := S128x128) hz, View.ld_unit_zero (S := S1x128) hz]

end Cert.Kernel.Hand

end
-- ==== Proof.KRegion2.lean ====
import proofs.«155579_j31937376813550_1_alg».proof.Proof.KBody2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 2: what its buffers hold point by point, and the body obligation

Stated at a parameter `V`: the TensorCore's buffer contents when the region is entered. The adjacency tile (window 0)
and the contraction-side rows of x (window 1) change at every point; the own rows (window 2) change with the row block;
the weights and bias (windows 3, 4) are fetched once. Windows 1 and 2 read ONE array, so each holds half of it. The
accumulator lives in a scratch buffer the invariant carries from point to point; the output block (window 5) is
stored at the last tile of each row block only and written back there. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched its block index has not moved since the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is not
    fetched its block index has not moved since the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, as the pipeline passes it to the body, and its wholeness. -/
abbrev ms2_0 (t : Fin cfg2.N) : Memref sig .tc .vmem S2048x1024 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x128 .f32 := win2_5.stage (cfg2.slots t 5)
abbrev hs2_5 (t : Fin cfg2.N) : (ms2_5 t).IsWhole := hstage2_5 ((cfg2.slots t 5).cast nbuf2_5)
/-- The scratch accumulator: a whole scoped buffer of the kernel's own. -/
abbrev scM2 : Memref sig .tc .vmem S1024x128 .f32 := Memref.whole cc2_scratch0

/-- THE ACCUMULATOR after point `n`: this tile's product added to zero at the first tile of a row block, and to
    what the point before left otherwise. -/
def acc2 (c : Dev nD) : (n : ℕ) → n < cfg2.N → Vec F S1024x128 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩)
      (if (n + 1) % 4 = 0 then (k2_pay1 (F := F)) else acc2 c n (Nat.lt_of_succ_lt hn))

theorem acc2_reset (c : Dev nD) (t : Fin cfg2.N) (h0 : t.val % 4 = 0) :
    acc2 V c t.val t.isLt = k2_pay2 (iblk2 V c 0 t) (iblk2 V c 1 t) (k2_pay1 (F := F)) := by
  obtain ⟨n, hn⟩ := t
  cases n with
  | zero => rfl
  | succ n => exact (show acc2 V c (n + 1) hn = _ from by rw [acc2, if_pos h0])

theorem acc2_step (c : Dev nD) (t : Fin cfg2.N) (h0 : ¬t.val % 4 = 0) :
    acc2 V c t.val t.isLt = k2_pay2 (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact (show acc2 V c (n + 1) hn = _ from by rw [acc2, if_neg h0]; rfl)

/-- THE FINISHED BLOCK at point `t` (stored at the last tile of a row block): own rows plus accumulator, times the
    weights, plus the bias. -/
def out2 (c : Dev nD) (t : Fin cfg2.N) : Vec F S1024x128 .f32 :=
  k2_pay3 (iblk2 V c 2 t) (acc2 V c t.val t.isLt) (iblk2 V c 3 t) (iblk2 V c 4 t)

/-- The scoped buffers that are neither a staging buffer of this pallas_call nor its scratch, each at some contents. -/
def other2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

set_option maxRecDepth 4000 in
/-- The scoped rest the launch hands the region is the scratch at some contents beside the others. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ other2 (F := F) c) := by
  unfold Pipeline.scopedRest other2
  rw [bigSep_erase (i := cc2_scratch0) (by decide)]
  simp only [scM2, owns_whole]
  rfl

/-- The region invariant before position `n`: before the first point what the launch hands over; afterwards the
    scratch at the accumulator the point before left, the other scoped buffers, the generator register. -/
def Phi2 (c : Dev nD) : (n : ℕ) → n ≤ cfg2.N → sProp 𝕄
  | 0, _ => Pipeline.ΦA spec2 c
  | n + 1, hn => iprop((owns (c : Thread nD τ) scM2 fullShare (acc2 V c n hn) ∗ other2 (F := F) c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((owns (c : Thread nD τ) scM2 fullShare (acc2 V c n hn) ∗ other2 (F := F) c) ∗ (∃ r, prngReg c r)) := rfl
theorem Phi2_pos (c : Dev nD) (n : ℕ) (h : n ≤ cfg2.N) (hz : n ≠ 0) :
    Phi2 V c n h = iprop((owns (c : Thread nD τ) scM2 fullShare (acc2 V c (n - 1) (by omega)) ∗ other2 (F := F) c) ∗ (∃ r, prngReg c r)) := by
  cases n with
  | zero => exact absurd rfl hz
  | succ n => rfl
theorem PhiA2_eq (c : Dev nD) :
    (Pipeline.ΦA spec2 c : sProp 𝕄) = iprop(((∃ d, owns (c : Thread nD τ) scM2 fullShare d) ∗ other2 (F := F) c) ∗ (∃ r, prngReg c r)) := by
  unfold Pipeline.ΦA; rw [scopedRest2_split]

/-! ## The proof data -/

/-- The proof data of pallas_call 2 on core `c`: the arrays as the region finds them; after the body each input's
    buffer at its block and the output's at the finished block; the invariant above; nothing owed; the array behind
    windows 1 and 2 held in halves, every other input whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ t := Phi2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' buffers hold their blocks; the point's position in its row block says which of the
    three runs applies; the invariant hands over the scratch (at anything before the first point, at the previous
    accumulator afterwards) and takes it back at this point's accumulator; at the last tile the output's buffer is
    left at the finished block, elsewhere as it was found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 32 := lt_of_lt_of_eq t.isLt (show cfg2.N = 32 from N_2)
  by_cases h1 : t.val % 4 = 3
  · -- the last tile of a row block
    have h0 : ¬t.val % 4 = 0 := by omega
    have hz : t.val ≠ 0 := by omega
    rw [show (dat2 V c).leavesExact 5 t = owns (c : Thread nD τ) (ms2_5 t) fullShare ((dat2 V c).after 5 t) from by
      unfold Dat.leavesExact; rw [liveAt2_5 t ((hcond2_1 t).mpr h1)], after2_5]
    unfold out2
    rw [acc2_step V c t h0, Phi2_castSucc V c t, Phi2_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run2_C c Set.univ (grid2.coords t) (fun h => h0 ((hcond2_0 t).mp h)) ((hcond2_1 t).mpr h1)
      (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
      (iblk2 V c 0 t) (iblk2 V c 1 t) (iblk2 V c 2 t) (iblk2 V c 3 t) (iblk2 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat2 V c) 5 t (idleAt2_5 t (fun h => h1 ((hcond2_1 t).mp h))) (noFlush2_5 t (fun h => h1 ((hcond2_1 t).mp h)))]
    by_cases h0 : t.val % 4 = 0
    · -- the first tile of a row block
      rw [acc2_reset V c t h0]
      by_cases hz : t.val = 0
      · rw [Phi2_castSucc V c t, Phi2_zero V c _ _ hz, PhiA2_eq]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run2_A c Set.univ (grid2.coords t) ((hcond2_0 t).mpr h0) (fun h => h1 ((hcond2_1 t).mp h))
          (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
          (iblk2 V c 0 t) (iblk2 V c 1 t) _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi2_castSucc V c t, Phi2_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩⟩
        iapply (run2_A c Set.univ (grid2.coords t) ((hcond2_0 t).mpr h0) (fun h => h1 ((hcond2_1 t).mp h))
          (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
          (iblk2 V c 0 t) (iblk2 V c 1 t) _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- a middle tile
      have hz : t.val ≠ 0 := fun e => h0 (by rw [e])
      rw [acc2_step V c t h0, Phi2_castSucc V c t, Phi2_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run2_B c Set.univ (grid2.coords t) (fun h => h0 ((hcond2_0 t).mp h)) (fun h => h1 ((hcond2_1 t).mp h))
        (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
        (iblk2 V c 0 t) (iblk2 V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- and after the last point the invariant gives it back, the accumulator's contents forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), PhiA2_eq]
  iintro ⟨⟨HS, Hoth⟩, Hg⟩
  isplitl [HS Hoth]
  · isplitl [HS]; · iexists _; iexact HS
    iexact Hoth
  iexact Hg

end Cert.Kernel.Hand

end
-- ==== Proof.KArr2.lean ====
import proofs.«155579_j31937376813550_1_alg».proof.Proof.KRegion2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 2: its arrays taken out of the core's unscoped buffers at entry and put back at exit

Five distinct buffers stand behind the six windows: windows 1 and 2 read the same array. At entry that array's full
share is dealt to the two windows in halves; at exit the halves, both still at the array's entry contents (an input
is never written), are joined again. Only the output's array changes. -/

variable (V : (c : Dev nD) → (b : Ref sig .tc) → Buf (Elt F) ((c : Thread nD τ).loc b))

set_option maxRecDepth 4000 in
/-- The five buffers behind the windows' arrays, each whole at contents `V'`, one by one. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_arg1) ↦{fullShare} V' main_arg1) ∗ (((c : Thread nD τ).loc main_v53) ↦{fullShare} V' main_v53) ∗ (((c : Thread nD τ).loc main_arg14) ↦{fullShare} V' main_arg14) ∗ (((c : Thread nD τ).loc main_v54) ↦{fullShare} V' main_v54) ∗ (((c : Thread nD τ).loc main_v55) ↦{fullShare} V' main_v55)) := by
  unfold Pipeline.arrBufs
  exact bigSep_eq_bigSepL_of_eq [main_arg1, main_v53, main_arg14, main_v54, main_v55] (by decide) (by decide) _

/-- An input window's array is never written: after any number of write-backs it is as the region found it. -/
theorem arrAt2_in (c : Dev nD) (w : Fin cfg2.W) (hw : (cfg2.win w).isOut = false) (n : ℕ) :
    (dat2 V c).arrAt w n = V c (Pipeline.arrRef spec2 w) :=
  ((dat2 V c).arrAt_in w hw n).trans (A_eq2 V c w)

/-- Window `w`'s array held at its share and contents `f`, spelled on the buffer behind it. -/
theorem arr2_pt (c : Dev nD) (w : Fin cfg2.W) (f : Buf (Elt F) ((cfg2.win w).arr.view.loc (c.tc : Thread nD τ))) :
    (((cfg2.win w).arr.view.loc (c.tc : Thread nD τ) ↦[(cfg2.win w).arr.view.set]{(dat2 V c).share w} f) : sProp 𝕄)
      = (((c.tc : Thread nD τ).loc (Pipeline.arrRef spec2 w)) ↦{(dat2 V c).share w} f) := by
  rw [(arr_whole2 w).set_eq_univ]

set_option maxRecDepth 4000 in
/-- ENTRY: the core's unscoped buffers at `V` are the pipeline's arrays at their entry contents and shares, and the rest. -/
theorem entry2 (c : Dev nD) :
    (unscopedBufs (Ix := Unit) (Name := ℕ) (U := UR sig nD τ) (Lvl := ℕ) c (V c) : sProp 𝕄)
      ⊢ iprop((dat2 V c).arrays ((dat2 V c).arrAt · 0) ∗ Pipeline.unscopedRest spec2 c (V c)) := by
  have hA : Finset.univ.image (Pipeline.arrRef spec2) ⊆ Finset.univ.filter fun b : Ref sig .tc => ¬ b.isScoped := by decide
  have hs : (unscopedBufs (Ix := Unit) (Name := ℕ) (U := UR sig nD τ) (Lvl := ℕ) c (V c) : sProp 𝕄)
      = iprop(Pipeline.arrBufs spec2 c (V c) ∗ Pipeline.unscopedRest spec2 c (V c)) := by
    unfold unscopedBufs Pipeline.unscopedRest Pipeline.arrBufs
    rw [bigSep_sdiff_split hA]
    rfl
  rw [hs, arrBufs2_eq]
  unfold Dat.arrays
  rw [bigSep_W2]
  simp only [View.set_whole]
  iintro ⟨⟨H0, Hx, H3, H4, H5⟩, Hrest⟩
  icases Hx with ⟨Hx1, Hx2⟩
  isplitr [Hrest]
  swap; · iexact Hrest
  isplitl [H0]; · iexact H0
  isplitl [Hx1]; · iexact Hx1
  isplitl [Hx2]; · iexact Hx2
  isplitl [H3]; · iexact H3
  isplitl [H4]; · iexact H4
  iexact H5

set_option maxHeartbeats 1000000 in
/-- The pipeline's arrays after its last write-back, window by window: every input's array as the region found it (an
    input is never written), the output's at what the write-backs left. -/
theorem arraysN2_eq (c : Dev nD) :
    ((dat2 V c).arrays ((dat2 V c).arrAt · cfg2.N) : sProp 𝕄)
      = iprop((((c : Thread nD τ).loc main_arg1) ↦{fullShare} V c main_arg1) ∗ (((c : Thread nD τ).loc main_v53) ↦{fullShare.left} V c main_v53) ∗ (((c : Thread nD τ).loc main_v53) ↦{fullShare.right} V c main_v53) ∗ (((c : Thread nD τ).loc main_arg14) ↦{fullShare} V c main_arg14) ∗ (((c : Thread nD τ).loc main_v54) ↦{fullShare} V c main_v54) ∗ (((c : Thread nD τ).loc main_v55) ↦{fullShare} (dat2 V c).arrAt 5 cfg2.N)) := by
  unfold Dat.arrays
  rw [bigSep_W2]
  refine congrArg₂ BI.sep ?_ (congrArg₂ BI.sep ?_ (congrArg₂ BI.sep ?_ (congrArg₂ BI.sep ?_ (congrArg₂ BI.sep ?_ ?_))))
  · dsimp only; rw [arrAt2_in V c 0 rfl]; simp only [View.set_whole]; rfl
  · dsimp only; rw [arrAt2_in V c 1 rfl]; simp only [View.set_whole]; rfl
  · dsimp only; rw [arrAt2_in V c 2 rfl]; simp only [View.set_whole]; rfl
  · dsimp only; rw [arrAt2_in V c 3 rfl]; simp only [View.set_whole]; rfl
  · dsimp only; rw [arrAt2_in V c 4 rfl]; simp only [View.set_whole]; rfl
  · simp only [View.set_whole]; rfl

set_option maxRecDepth 4000 in
set_option maxHeartbeats 1000000 in
/-- EXIT: the pipeline's arrays after its last write-back and the rest at `V` are the core's unscoped buffers at any
    `V'` that has the output's array at what the write-backs left and agrees with `V` everywhere else. -/
theorem exit2 (c : Dev nD) (V' : (b : Ref sig .tc) → Buf (Elt F) ((c : Thread nD τ).loc b))
    (hout : V' main_v55 = (dat2 V c).arrAt 5 cfg2.N) (hrest : ∀ b : Ref sig .tc, b ≠ main_v55 → V' b = V c b) :
    iprop((dat2 V c).arrays ((dat2 V c).arrAt · cfg2.N) ∗ Pipeline.unscopedRest spec2 c (V c))
      ⊢ (unscopedBufs (Ix := Unit) (Name := ℕ) (U := UR sig nD τ) (Lvl := ℕ) c V' : sProp 𝕄) := by
  have hA : Finset.univ.image (Pipeline.arrRef spec2) ⊆ Finset.univ.filter fun b : Ref sig .tc => ¬ b.isScoped := by decide
  have hs : (unscopedBufs (Ix := Unit) (Name := ℕ) (U := UR sig nD τ) (Lvl := ℕ) c V' : sProp 𝕄)
      = iprop(Pipeline.arrBufs spec2 c V' ∗ Pipeline.unscopedRest spec2 c V') := by
    unfold unscopedBufs Pipeline.unscopedRest Pipeline.arrBufs
    rw [bigSep_sdiff_split hA]
    rfl
  have hr : (Pipeline.unscopedRest (Ix := Unit) (Name := ℕ) (U := UR sig nD τ) (Lvl := ℕ) spec2 c V' : sProp 𝕄)
      = Pipeline.unscopedRest spec2 c (V c) := by
    unfold Pipeline.unscopedRest
    refine bigSep_congr fun b hb => ?_
    rw [hrest b (fun e => (Finset.mem_sdiff.mp hb).2 (e ▸ (by decide : main_v55 ∈ Finset.univ.image (Pipeline.arrRef spec2))))]
  rw [hs, hr, arrBufs2_eq, arraysN2_eq, hout, hrest main_arg1 (by decide), hrest main_v53 (by decide), hrest main_arg14 (by decide), hrest main_v54 (by decide)]
  iintro ⟨⟨H0, Hx1, Hx2, H3, H4, H5⟩, Hrest⟩
  icombine Hx1 Hx2 as Hx
  isplitr [Hrest]
  swap; · iexact Hrest
  isplitl [H0]; · iexact H0
  isplitl [Hx]; · iexact Hx
  isplitl [H3]; · iexact H3
  isplitl [H4]; · iexact H4
  iexact H5

end Cert.Kernel.Hand

end
-- ==== Proof.KRunAll.lean ====
import proofs.«155579_j31937376813550_1_alg».proof.Proof.Gen.Kernel.Regions

set_option maxRecDepth 1580

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! # The whole run, given the three regions' records

Every weakly fair execution of the program terminates and EVERY unscoped buffer of the core ends at the last of the
boundary valuations (the launch memory folded through each host stretch and updated by what each region leaves),
given one segment record per region entered from the valuation before it and left at the one after it. The frame
(the arguments unchanged) and the result's value are both read off this one statement. -/

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V17 m outs c) ∗ E 2 c) ⊢ R2.pre c)
    (hpost2 : ∀ c : Dev nD, R2.post c ⊢ iprop(StableHlo.held (c : Thread nD τ) (Pipeline.ucRefs τ sig) (V18 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V29 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5, StableHlo.seq hostOps1_6,
          Prog.lift (.customCall (Pipeline.entry 1) ()),
          StableHlo.seq hostOps2, StableHlo.seq hostOps2_1, StableHlo.seq hostOps2_2, StableHlo.seq hostOps2_3,
          StableHlo.seq hostOps2_4, StableHlo.seq hostOps2_5, StableHlo.seq hostOps2_6,
          Prog.lift (.customCall (Pipeline.entry 2) ()),
          StableHlo.seq hostOps3, StableHlo.seq hostOps3_1, StableHlo.seq hostOps3_2, StableHlo.seq hostOps3_3,
          StableHlo.seq hostOps3_4, StableHlo.seq hostOps3_5, StableHlo.seq hostOps3_6, StableHlo.seq hostOps3_7,
          StableHlo.seq hostOps3_8, StableHlo.seq hostOps3_9, StableHlo.seq hostOps3_10 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, hpre0 c, hpost0 c, .rfl, .rfl, .rfl, .rfl, .rfl, .rfl, hpre1 c, hpost1 c, .rfl, .rfl, .rfl, .rfl, .rfl, .rfl, hpre2 c, hpost2 c, .rfl, .rfl, .rfl, .rfl, .rfl, .rfl, .rfl, .rfl, .rfl, .rfl, sep_mono .rfl (hE3 c)⟩)
    (hinit := ?_) (QY := fun c s => ∀ b ∈ Pipeline.ucRefs τ sig, s.mem (((c : Thread nD τ)).1, b) = V29 m outs c b)
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V29 m outs c) s')
    isplitl [Hh] <;> iassumption

end Cert.Kernel.Hand

end
-- ==== Proof.KSegs.lean ====
import proofs.«155579_j31937376813550_1_alg».proof.Proof.KArr0
import proofs.«155579_j31937376813550_1_alg».proof.Proof.KArr1
import proofs.«155579_j31937376813550_1_alg».proof.Proof.KArr2
import proofs.«155579_j31937376813550_1_alg».proof.Proof.KRunAll

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The program's run: the three pallas_calls as segments, and what every buffer holds at the end

The valuations `B0 … B29` are the core's unscoped buffers at each boundary of @main's 29 items: the launch memory,
folded through each host stretch, and updated at each region's output array by what that region's write-backs leave
(every other buffer passes a region unchanged). -/

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every segment: the generator register at some state, and the core owing nothing. -/
abbrev Rst (c : Dev nD) : sProp 𝕄 := iprop((∃ r, prngReg c r) ∗ ∃ W, owes (c : Thread nD τ) (0 : CellTallies nD τ sig Unit) W)

/-- Region 0 is entered from the launch memory after the first host stretch. -/
abbrev Vr0 : (c : Dev nD) → (b : Ref sig .tc) → Buf (Elt F) ((c : Thread nD τ).loc b) := fun c b => V1 m c b
/-- After region 0: its output array at what its write-backs leave. -/
def B2 (c : Dev nD) : Valuation τ sig (Elt F) := Function.update (V1 m c) main_v1 ((dat0 (Vr0 m) c).arrAt 5 cfg0.N)
abbrev B3 (c : Dev nD) : Valuation τ sig (Elt F) := StableHlo.after hostOps1 (B2 m c)
abbrev B4 (c : Dev nD) : Valuation τ sig (Elt F) := StableHlo.after hostOps1_1 (B3 m c)
abbrev B5 (c : Dev nD) : Valuation τ sig (Elt F) := StableHlo.after hostOps1_2 (B4 m c)
abbrev B6 (c : Dev nD) : Valuation τ sig (Elt F) := StableHlo.after hostOps1_3 (B5 m c)
abbrev B7 (c : Dev nD) : Valuation τ sig (Elt F) := StableHlo.after hostOps1_4 (B6 m c)
abbrev B8 (c : Dev nD) : Valuation τ sig (Elt F) := StableHlo.after hostOps1_5 (B7 m c)
abbrev B9 (c : Dev nD) : Valuation τ sig (Elt F) := StableHlo.after hostOps1_6 (B8 m c)
abbrev Vr1 : (c : Dev nD) → (b : Ref sig .tc) → Buf (Elt F) ((c : Thread nD τ).loc b) := fun c b => B9 m c b
/-- After region 1. -/
def B10 (c : Dev nD) : Valuation τ sig (Elt F) := Function.update (B9 m c) main_v28 ((dat1 (Vr1 m) c).arrAt 5 cfg1.N)
abbrev B11 (c : Dev nD) : Valuation τ sig (Elt F) := StableHlo.after hostOps2 (B10 m c)
abbrev B12 (c : Dev nD) : Valuation τ sig (Elt F) := StableHlo.after hostOps2_1 (B11 m c)
abbrev B13 (c : Dev nD) : Valuation τ sig (Elt F) := StableHlo.after hostOps2_2 (B12 m c)
abbrev B14 (c : Dev nD) : Valuation τ sig (Elt F) := StableHlo.after hostOps2_3 (B13 m c)
abbrev B15 (c : Dev nD) : Valuation τ sig (Elt F) := StableHlo.after hostOps2_4 (B14 m c)
abbrev B16 (c : Dev nD) : Valuation τ sig (Elt F) := StableHlo.after hostOps2_5 (B15 m c)
abbrev B17 (c : Dev nD) : Valuation τ sig (Elt F) := StableHlo.after hostOps2_6 (B16 m c)
abbrev Vr2 : (c : Dev nD) → (b : Ref sig .tc) → Buf (Elt F) ((c : Thread nD τ).loc b) := fun c b => B17 m c b
/-- After region 2. -/
def B18 (c : Dev nD) : Valuation τ sig (Elt F) := Function.update (B17 m c) main_v55 ((dat2 (Vr2 m) c).arrAt 5 cfg2.N)
abbrev B19 (c : Dev nD) : Valuation τ sig (Elt F) := StableHlo.after hostOps3 (B18 m c)
abbrev B20 (c : Dev nD) : Valuation τ sig (Elt F) := StableHlo.after hostOps3_1 (B19 m c)
abbrev B21 (c : Dev nD) : Valuation τ sig (Elt F) := StableHlo.after hostOps3_2 (B20 m c)
abbrev B22 (c : Dev nD) : Valuation τ sig (Elt F) := StableHlo.after hostOps3_3 (B21 m c)
abbrev B23 (c : Dev nD) : Valuation τ sig (Elt F) := StableHlo.after hostOps3_4 (B22 m c)
abbrev B24 (c : Dev nD) : Valuation τ sig (Elt F) := StableHlo.after hostOps3_5 (B23 m c)
abbrev B25 (c : Dev nD) : Valuation τ sig (Elt F) := StableHlo.after hostOps3_6 (B24 m c)
abbrev B26 (c : Dev nD) : Valuation τ sig (Elt F) := StableHlo.after hostOps3_7 (B25 m c)
abbrev B27 (c : Dev nD) : Valuation τ sig (Elt F) := StableHlo.after hostOps3_8 (B26 m c)
abbrev B28 (c : Dev nD) : Valuation τ sig (Elt F) := StableHlo.after hostOps3_9 (B27 m c)
abbrev B29 (c : Dev nD) : Valuation τ sig (Elt F) := StableHlo.after hostOps3_10 (B28 m c)

/-- What each region leaves in the buffers it may change, as the boundary valuations name it. -/
def outs : Outs (F := F) := fun J r c =>
  if J = 2 then B2 m c r else if J = 10 then B10 m c r else if J = 18 then B18 m c r else V0 m c r

/-! The boundary valuations are the ones the several-regions frame is stated over, at these `outs`. -/
theorem e2 (c : Dev nD) : V2 m (outs m) c = B2 m c := by
  show Function.update (V1 m c) main_v1 (B2 m c main_v1) = B2 m c
  unfold B2; rw [Function.update_self]
theorem e3 (c : Dev nD) : V3 m (outs m) c = B3 m c := congrArg (StableHlo.after hostOps1) (e2 m c)
theorem e4 (c : Dev nD) : V4 m (outs m) c = B4 m c := congrArg (StableHlo.after hostOps1_1) (e3 m c)
theorem e5 (c : Dev nD) : V5 m (outs m) c = B5 m c := congrArg (StableHlo.after hostOps1_2) (e4 m c)
theorem e6 (c : Dev nD) : V6 m (outs m) c = B6 m c := congrArg (StableHlo.after hostOps1_3) (e5 m c)
theorem e7 (c : Dev nD) : V7 m (outs m) c = B7 m c := congrArg (StableHlo.after hostOps1_4) (e6 m c)
theorem e8 (c : Dev nD) : V8 m (outs m) c = B8 m c := congrArg (StableHlo.after hostOps1_5) (e7 m c)
theorem e9 (c : Dev nD) : V9 m (outs m) c = B9 m c := congrArg (StableHlo.after hostOps1_6) (e8 m c)
theorem e10 (c : Dev nD) : V10 m (outs m) c = B10 m c := by
  show Function.update (V9 m (outs m) c) main_v28 (B10 m c main_v28) = B10 m c
  rw [e9]; unfold B10; rw [Function.update_self]
theorem e11 (c : Dev nD) : V11 m (outs m) c = B11 m c := congrArg (StableHlo.after hostOps2) (e10 m c)
theorem e12 (c : Dev nD) : V12 m (outs m) c = B12 m c := congrArg (StableHlo.after hostOps2_1) (e11 m c)
theorem e13 (c : Dev nD) : V13 m (outs m) c = B13 m c := congrArg (StableHlo.after hostOps2_2) (e12 m c)
theorem e14 (c : Dev nD) : V14 m (outs m) c = B14 m c := congrArg (StableHlo.after hostOps2_3) (e13 m c)
theorem e15 (c : Dev nD) : V15 m (outs m) c = B15 m c := congrArg (StableHlo.after hostOps2_4) (e14 m c)
theorem e16 (c : Dev nD) : V16 m (outs m) c = B16 m c := congrArg (StableHlo.after hostOps2_5) (e15 m c)
theorem e17 (c : Dev nD) : V17 m (outs m) c = B17 m c := congrArg (StableHlo.after hostOps2_6) (e16 m c)
theorem e18 (c : Dev nD) : V18 m (outs m) c = B18 m c := by
  show Function.update (V17 m (outs m) c) main_v55 (B18 m c main_v55) = B18 m c
  rw [e17]; unfold B18; rw [Function.update_self]
theorem e19 (c : Dev nD) : V19 m (outs m) c = B19 m c := congrArg (StableHlo.after hostOps3) (e18 m c)
theorem e20 (c : Dev nD) : V20 m (outs m) c = B20 m c := congrArg (StableHlo.after hostOps3_1) (e19 m c)
theorem e21 (c : Dev nD) : V21 m (outs m) c = B21 m c := congrArg (StableHlo.after hostOps3_2) (e20 m c)
theorem e22 (c : Dev nD) : V22 m (outs m) c = B22 m c := congrArg (StableHlo.after hostOps3_3) (e21 m c)
theorem e23 (c : Dev nD) : V23 m (outs m) c = B23 m c := congrArg (StableHlo.after hostOps3_4) (e22 m c)
theorem e24 (c : Dev nD) : V24 m (outs m) c = B24 m c := congrArg (StableHlo.after hostOps3_5) (e23 m c)
theorem e25 (c : Dev nD) : V25 m (outs m) c = B25 m c := congrArg (StableHlo.after hostOps3_6) (e24 m c)
theorem e26 (c : Dev nD) : V26 m (outs m) c = B26 m c := congrArg (StableHlo.after hostOps3_7) (e25 m c)
theorem e27 (c : Dev nD) : V27 m (outs m) c = B27 m c := congrArg (StableHlo.after hostOps3_8) (e26 m c)
theorem e28 (c : Dev nD) : V28 m (outs m) c = B28 m c := congrArg (StableHlo.after hostOps3_9) (e27 m c)
theorem e29 (c : Dev nD) : V29 m (outs m) c = B29 m c := congrArg (StableHlo.after hostOps3_10) (e28 m c)

/-- Every pipeline's proof data, each at its region's entry contents. -/
def pdats : (p : Fin 3) → (c : Dev nD) → Dat τ (Elt F) Unit ℕ (UR sig nD τ) ℕ (cfgs p) c
  | ⟨0, _⟩ => fun c => dat0 (Vr0 m) c
  | ⟨1, _⟩ => fun c => dat1 (Vr1 m) c
  | ⟨2, _⟩ => fun c => dat2 (Vr2 m) c

set_option backward.isDefEq.respectTransparency.types false in
/-- pallas_call 0 as a segment: entered from every unscoped buffer at the valuation before it, left at the one after
    it; its arrays taken out at entry and put back at exit; the generator register into the invariant and out; nothing
    owed; no semaphore of the kernel's own. -/
def reg0 : RegionSeg (pcfgs (F := F)) adm (pdats m) () defs₀ Variants.none Lz lvz 0 where
  win := winFacts₀0
  block_pos := block_pos0
  stage_whole := stage_whole0
  K := PEmpty
  osem k := k.elim
  ho := Pipeline.OwnSemFacts.none _
  hbody c := (body_obligation0 (Vr0 m) c).loose
  hwaits := Pipeline.hwaits_of_owed_zero _ _ _ _ Lz lvz 0 fun _ _ => rfl
  pre c := iprop(StableHlo.held (c : Thread nD τ) (Pipeline.ucRefs τ sig) (V1 m c) ∗ Rst c)
  post c := iprop(StableHlo.held (c : Thread nD τ) (Pipeline.ucRefs τ sig) (B2 m c) ∗ Rst c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := entry0 (Vr0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine (hout0 (Vr0 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (Vr0 m c))
        ⊢ (unscopedBufs (Ix := Unit) (Name := ℕ) (U := UR sig nD τ) (Lvl := ℕ) c (fun b => B2 m c b) : sProp 𝕄) :=
      exit0 (Vr0 m) c (fun b => B2 m c b)
        (by unfold B2; exact Function.update_self ..)
        (fun b hb => by unfold B2; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- pallas_call 1 as a segment: entered from every unscoped buffer at the valuation before it, left at the one after
    it; its arrays taken out at entry and put back at exit; the generator register into the invariant and out; nothing
    owed; no semaphore of the kernel's own. -/
def reg1 : RegionSeg (pcfgs (F := F)) adm (pdats m) () defs₀ Variants.none Lz lvz 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ Lz lvz 1 fun _ _ => rfl
  pre c := iprop(StableHlo.held (c : Thread nD τ) (Pipeline.ucRefs τ sig) (B9 m c) ∗ Rst c)
  post c := iprop(StableHlo.held (c : Thread nD τ) (Pipeline.ucRefs τ sig) (B10 m c) ∗ Rst c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := entry1 (Vr1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine (hout1 (Vr1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (Vr1 m c))
        ⊢ (unscopedBufs (Ix := Unit) (Name := ℕ) (U := UR sig nD τ) (Lvl := ℕ) c (fun b => B10 m c b) : sProp 𝕄) :=
      exit1 (Vr1 m) c (fun b => B10 m c b)
        (by unfold B10; exact Function.update_self ..)
        (fun b hb => by unfold B10; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- pallas_call 2 as a segment: entered from every unscoped buffer at the valuation before it, left at the one after
    it; its arrays taken out at entry and put back at exit; the generator register into the invariant and out; nothing
    owed; no semaphore of the kernel's own. -/
def reg2 : RegionSeg (pcfgs (F := F)) adm (pdats m) () defs₀ Variants.none Lz lvz 2 where
  win := winFacts₀2
  block_pos := block_pos2
  stage_whole := stage_whole2
  K := PEmpty
  osem k := k.elim
  ho := Pipeline.OwnSemFacts.none _
  hbody c := (body_obligation2 (Vr2 m) c).loose
  hwaits := Pipeline.hwaits_of_owed_zero _ _ _ _ Lz lvz 2 fun _ _ => rfl
  pre c := iprop(StableHlo.held (c : Thread nD τ) (Pipeline.ucRefs τ sig) (B17 m c) ∗ Rst c)
  post c := iprop(StableHlo.held (c : Thread nD τ) (Pipeline.ucRefs τ sig) (B18 m c) ∗ Rst c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := entry2 (Vr2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr2 m) c)
    unfold Pipeline.ΦA
    iintro ⟨Hp, -, Hr⟩
    isplitl [Hr]; · iexact Hr
    iexact Hp
  hout c := by
    rw [Pipeline.ownSems0_none]
    refine (hout2 (Vr2 m) c).trans ?_
    unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (Vr2 m c))
        ⊢ (unscopedBufs (Ix := Unit) (Name := ℕ) (U := UR sig nD τ) (Lvl := ℕ) c (fun b => B18 m c b) : sProp 𝕄) :=
      exit2 (Vr2 m) c (fun b => B18 m c b)
        (by unfold B18; exact Function.update_self ..)
        (fun b hb => by unfold B18; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.KRun.lean ====
import proofs.«155579_j31937376813550_1_alg».proof.Proof.KSegs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The program's run: termination, the frame, and the result buffer's value -/

variable (m : (ℓ : Loc nD τ sig) → Buf (Elt F) ℓ) (ρ : Dev nD → PrngReg)

set_option backward.isDefEq.respectTransparency.types false in
/-- From any memory with zero counters every weakly fair execution of @main terminates, faulting nowhere, and every
    unscoped buffer of the core ends at the last boundary valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V29 m (outs m) c b) :=
  run_cond m (Ix := Unit) (U := UR sig nD τ) (Lvl := ℕ) emb₁ () Variants.none Lz lvz (fun _ _ => rfl) ρ (outs m) (pdats m)
    (O₀ := 0) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => by rw [e2]; exact .rfl)
    (reg1 m) (fun c => by rw [e9]; exact .rfl) (fun c => by rw [e10]; exact .rfl)
    (reg2 m) (fun c => by rw [e17]; exact .rfl) (fun c => by rw [e18]; exact .rfl)

/-- THE FRAME: every argument array ends as launched (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c (Proc.devRef .tc main_arg0) (Finset.mem_filter.mpr ⟨StableHlo.devRef_mem_tcRefs main_arg0, by decide⟩)).trans (V29_main_arg0 m (outs m) c),
     (h c (Proc.devRef .tc main_arg1) (Finset.mem_filter.mpr ⟨StableHlo.devRef_mem_tcRefs main_arg1, by decide⟩)).trans (V29_main_arg1 m (outs m) c),
     (h c (Proc.devRef .tc main_arg2) (Finset.mem_filter.mpr ⟨StableHlo.devRef_mem_tcRefs main_arg2, by decide⟩)).trans (V29_main_arg2 m (outs m) c),
     (h c (Proc.devRef .tc main_arg3) (Finset.mem_filter.mpr ⟨StableHlo.devRef_mem_tcRefs main_arg3, by decide⟩)).trans (V29_main_arg3 m (outs m) c),
     (h c (Proc.devRef .tc main_arg4) (Finset.mem_filter.mpr ⟨StableHlo.devRef_mem_tcRefs main_arg4, by decide⟩)).trans (V29_main_arg4 m (outs m) c),
     (h c (Proc.devRef .tc main_arg5) (Finset.mem_filter.mpr ⟨StableHlo.devRef_mem_tcRefs main_arg5, by decide⟩)).trans (V29_main_arg5 m (outs m) c),
     (h c (Proc.devRef .tc main_arg6) (Finset.mem_filter.mpr ⟨StableHlo.devRef_mem_tcRefs main_arg6, by decide⟩)).trans (V29_main_arg6 m (outs m) c),
     (h c (Proc.devRef .tc main_arg7) (Finset.mem_filter.mpr ⟨StableHlo.devRef_mem_tcRefs main_arg7, by decide⟩)).trans (V29_main_arg7 m (outs m) c),
     (h c (Proc.devRef .tc main_arg8) (Finset.mem_filter.mpr ⟨StableHlo.devRef_mem_tcRefs main_arg8, by decide⟩)).trans (V29_main_arg8 m (outs m) c),
     (h c (Proc.devRef .tc main_arg9) (Finset.mem_filter.mpr ⟨StableHlo.devRef_mem_tcRefs main_arg9, by decide⟩)).trans (V29_main_arg9 m (outs m) c),
     (h c (Proc.devRef .tc main_arg10) (Finset.mem_filter.mpr ⟨StableHlo.devRef_mem_tcRefs main_arg10, by decide⟩)).trans (V29_main_arg10 m (outs m) c),
     (h c (Proc.devRef .tc main_arg11) (Finset.mem_filter.mpr ⟨StableHlo.devRef_mem_tcRefs main_arg11, by decide⟩)).trans (V29_main_arg11 m (outs m) c),
     (h c (Proc.devRef .tc main_arg12) (Finset.mem_filter.mpr ⟨StableHlo.devRef_mem_tcRefs main_arg12, by decide⟩)).trans (V29_main_arg12 m (outs m) c),
     (h c (Proc.devRef .tc main_arg13) (Finset.mem_filter.mpr ⟨StableHlo.devRef_mem_tcRefs main_arg13, by decide⟩)).trans (V29_main_arg13 m (outs m) c),
     (h c (Proc.devRef .tc main_arg14) (Finset.mem_filter.mpr ⟨StableHlo.devRef_mem_tcRefs main_arg14, by decide⟩)).trans (V29_main_arg14 m (outs m) c),
     (h c (Proc.devRef .tc main_arg15) (Finset.mem_filter.mpr ⟨StableHlo.devRef_mem_tcRefs main_arg15, by decide⟩)).trans (V29_main_arg15 m (outs m) c),
     (h c (Proc.devRef .tc main_arg16) (Finset.mem_filter.mpr ⟨StableHlo.devRef_mem_tcRefs main_arg16, by decide⟩)).trans (V29_main_arg16 m (outs m) c),
     (h c (Proc.devRef .tc main_arg17) (Finset.mem_filter.mpr ⟨StableHlo.devRef_mem_tcRefs main_arg17, by decide⟩)).trans (V29_main_arg17 m (outs m) c),
     (h c (Proc.devRef .tc main_arg18) (Finset.mem_filter.mpr ⟨StableHlo.devRef_mem_tcRefs main_arg18, by decide⟩)).trans (V29_main_arg18 m (outs m) c),
     (h c (Proc.devRef .tc main_arg19) (Finset.mem_filter.mpr ⟨StableHlo.devRef_mem_tcRefs main_arg19, by decide⟩)).trans (V29_main_arg19 m (outs m) c),
     (h c (Proc.devRef .tc main_arg20) (Finset.mem_filter.mpr ⟨StableHlo.devRef_mem_tcRefs main_arg20, by decide⟩)).trans (V29_main_arg20 m (outs m) c),
     (h c (Proc.devRef .tc main_arg21) (Finset.mem_filter.mpr ⟨StableHlo.devRef_mem_tcRefs main_arg21, by decide⟩)).trans (V29_main_arg21 m (outs m) c),
     (h c (Proc.devRef .tc main_arg22) (Finset.mem_filter.mpr ⟨StableHlo.devRef_mem_tcRefs main_arg22, by decide⟩)).trans (V29_main_arg22 m (outs m) c),
     (h c (Proc.devRef .tc main_arg23) (Finset.mem_filter.mpr ⟨StableHlo.devRef_mem_tcRefs main_arg23, by decide⟩)).trans (V29_main_arg23 m (outs m) c)⟩)
    (run_all m ρ)

/-- THE RESULT: the result buffer ends at the last boundary valuation's contents. -/
theorem result : θ_run defs (onTc (τ := τ) (main (F := F))) ⟨m, fun _ => 0, ρ⟩ (fun r => ∀ c : Dev nD,
      r.2.mem ((c.tc : Thread nD τ).loc main_v102) = B29 m c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c (Proc.devRef .tc main_v102) (Finset.mem_filter.mpr ⟨StableHlo.devRef_mem_tcRefs main_v102, by decide⟩)).trans (congrFun (e29 m c) _),
     (h c (Proc.devRef .tc main_arg0) (Finset.mem_filter.mpr ⟨StableHlo.devRef_mem_tcRefs main_arg0, by decide⟩)).trans (V29_main_arg0 m (outs m) c),
     (h c (Proc.devRef .tc main_arg1) (Finset.mem_filter.mpr ⟨StableHlo.devRef_mem_tcRefs main_arg1, by decide⟩)).trans (V29_main_arg1 m (outs m) c),
     (h c (Proc.devRef .tc main_arg2) (Finset.mem_filter.mpr ⟨StableHlo.devRef_mem_tcRefs main_arg2, by decide⟩)).trans (V29_main_arg2 m (outs m) c),
     (h c (Proc.devRef .tc main_arg3) (Finset.mem_filter.mpr ⟨StableHlo.devRef_mem_tcRefs main_arg3, by decide⟩)).trans (V29_main_arg3 m (outs m) c),
     (h c (Proc.devRef .tc main_arg4) (Finset.mem_filter.mpr ⟨StableHlo.devRef_mem_tcRefs main_arg4, by decide⟩)).trans (V29_main_arg4 m (outs m) c),
     (h c (Proc.devRef .tc main_arg5) (Finset.mem_filter.mpr ⟨StableHlo.devRef_mem_tcRefs main_arg5, by decide⟩)).trans (V29_main_arg5 m (outs m) c),
     (h c (Proc.devRef .tc main_arg6) (Finset.mem_filter.mpr ⟨StableHlo.devRef_mem_tcRefs main_arg6, by decide⟩)).trans (V29_main_arg6 m (outs m) c),
     (h c (Proc.devRef .tc main_arg7) (Finset.mem_filter.mpr ⟨StableHlo.devRef_mem_tcRefs main_arg7, by decide⟩)).trans (V29_main_arg7 m (outs m) c),
     (h c (Proc.devRef .tc main_arg8) (Finset.mem_filter.mpr ⟨StableHlo.devRef_mem_tcRefs main_arg8, by decide⟩)).trans (V29_main_arg8 m (outs m) c),
     (h c (Proc.devRef .tc main_arg9) (Finset.mem_filter.mpr ⟨StableHlo.devRef_mem_tcRefs main_arg9, by decide⟩)).trans (V29_main_arg9 m (outs m) c),
     (h c (Proc.devRef .tc main_arg10) (Finset.mem_filter.mpr ⟨StableHlo.devRef_mem_tcRefs main_arg10, by decide⟩)).trans (V29_main_arg10 m (outs m) c),
     (h c (Proc.devRef .tc main_arg11) (Finset.mem_filter.mpr ⟨StableHlo.devRef_mem_tcRefs main_arg11, by decide⟩)).trans (V29_main_arg11 m (outs m) c),
     (h c (Proc.devRef .tc main_arg12) (Finset.mem_filter.mpr ⟨StableHlo.devRef_mem_tcRefs main_arg12, by decide⟩)).trans (V29_main_arg12 m (outs m) c),
     (h c (Proc.devRef .tc main_arg13) (Finset.mem_filter.mpr ⟨StableHlo.devRef_mem_tcRefs main_arg13, by decide⟩)).trans (V29_main_arg13 m (outs m) c),
     (h c (Proc.devRef .tc main_arg14) (Finset.mem_filter.mpr ⟨StableHlo.devRef_mem_tcRefs main_arg14, by decide⟩)).trans (V29_main_arg14 m (outs m) c),
     (h c (Proc.devRef .tc main_arg15) (Finset.mem_filter.mpr ⟨StableHlo.devRef_mem_tcRefs main_arg15, by decide⟩)).trans (V29_main_arg15 m (outs m) c),
     (h c (Proc.devRef .tc main_arg16) (Finset.mem_filter.mpr ⟨StableHlo.devRef_mem_tcRefs main_arg16, by decide⟩)).trans (V29_main_arg16 m (outs m) c),
     (h c (Proc.devRef .tc main_arg17) (Finset.mem_filter.mpr ⟨StableHlo.devRef_mem_tcRefs main_arg17, by decide⟩)).trans (V29_main_arg17 m (outs m) c),
     (h c (Proc.devRef .tc main_arg18) (Finset.mem_filter.mpr ⟨StableHlo.devRef_mem_tcRefs main_arg18, by decide⟩)).trans (V29_main_arg18 m (outs m) c),
     (h c (Proc.devRef .tc main_arg19) (Finset.mem_filter.mpr ⟨StableHlo.devRef_mem_tcRefs main_arg19, by decide⟩)).trans (V29_main_arg19 m (outs m) c),
     (h c (Proc.devRef .tc main_arg20) (Finset.mem_filter.mpr ⟨StableHlo.devRef_mem_tcRefs main_arg20, by decide⟩)).trans (V29_main_arg20 m (outs m) c),
     (h c (Proc.devRef .tc main_arg21) (Finset.mem_filter.mpr ⟨StableHlo.devRef_mem_tcRefs main_arg21, by decide⟩)).trans (V29_main_arg21 m (outs m) c),
     (h c (Proc.devRef .tc main_arg22) (Finset.mem_filter.mpr ⟨StableHlo.devRef_mem_tcRefs main_arg22, by decide⟩)).trans (V29_main_arg22 m (outs m) c),
     (h c (Proc.devRef .tc main_arg23) (Finset.mem_filter.mpr ⟨StableHlo.devRef_mem_tcRefs main_arg23, by decide⟩)).trans (V29_main_arg23 m (outs m) c)⟩)
    (run_all m ρ)

end Cert.Kernel.Hand

end
-- ==== Proof.RefOpsLib.lean ====
/- Two list facts used to assemble the reference's run chunk by chunk.
   (1) A membership form of "this operation writes only references of the list W": every builder writes exactly its
   result reference, so the inclusion of its written set in the image of W follows from the result reference being in
   W, which is decided over references. Chunk by chunk it shows that a reference outside a chunk's written references
   keeps its contents across the chunk.
   (2) A property of every element of two lists holds of every element of their concatenation. -/
import proofs.«155579_j31937376813550_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation whose written set is the single device buffer of the reference `y`, with `y` in the list `W`,
    writes only device buffers of references in `W`. -/
theorem writes_sub_of_mem {τ : Topo} {sig : RefSig} {Val : EltTy → Type} {W : List (Ref sig .tc)} {op : HloOp τ sig Val}
    {y : Ref sig .tc} (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- What holds of every element of `l₁` and of every element of `l₂` holds of every element of `l₁ ++ l₂`. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

end Cert.ReferenceIdeal.Hand

end
-- ==== Proof.RefOps00.lean ====
/- Chunk 00 of the reference program's @main as host operations: 35 operations of main_part0, in program order, every
   call inlined at its call site over that call's buffer record (the callee's operations with its arguments' and the
   record's typed references substituted): main, then fn_var (main_call0).
   With it: every operation touches TensorCore references only and determines its results; the list of references the
   chunk writes (one per operation, its result); and that a reference outside that list keeps its contents across the
   chunk. -/
import proofs.«155579_j31937376813550_1_alg».proof.Proof.RefOpsLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 35 operations, in order. -/
abbrev ops00 : List (HloOp τ sig (Elt F)) :=
  [ StableHlo.nullary main_c (constantI S_ 32 0#32),
    StableHlo.unary main_c main_v0 (broadcastInDim S8192x8192 ![] bcast_S_S8192x8192 : (⟨S_, .i32⟩ : BufTy).Contents (Elt F) → (⟨S8192x8192, .i32⟩ : BufTy).Contents (Elt F)),
    StableHlo.binary main_arg1 main_v0 main_v1 (cmpi .ne : (⟨S8192x8192, .i32⟩ : BufTy).Contents (Elt F) → (⟨S8192x8192, .i32⟩ : BufTy).Contents (Elt F) → (⟨S8192x8192, .i1⟩ : BufTy).Contents (Elt F)),
    StableHlo.unary main_v1 main_v2 (uitofp .f32 : (⟨S8192x8192, .i1⟩ : BufTy).Contents (Elt F) → (⟨S8192x8192, .f32⟩ : BufTy).Contents (Elt F)),
    StableHlo.binary main_v2 main_arg0 main_v3 ((fun l r => Host.dotGeneral dot_S8192x8192_S8192x64_S8192x64_0_0_1_1_n_n none l r) : (⟨S8192x8192, .f32⟩ : BufTy).Contents (Elt F) → (⟨S8192x64, .f32⟩ : BufTy).Contents (Elt F) → (⟨S8192x64, .f32⟩ : BufTy).Contents (Elt F)),
    StableHlo.binary main_arg0 main_v3 main_v4 (addf : (⟨S8192x64, .f32⟩ : BufTy).Contents (Elt F) → (⟨S8192x64, .f32⟩ : BufTy).Contents (Elt F) → (⟨S8192x64, .f32⟩ : BufTy).Contents (Elt F)),
    StableHlo.binary main_v4 main_arg2 main_v5 ((fun l r => Host.dotGeneral dot_S8192x64_S64x128_S8192x128_1_0_0_1_n_n none l r) : (⟨S8192x64, .f32⟩ : BufTy).Contents (Elt F) → (⟨S64x128, .f32⟩ : BufTy).Contents (Elt F) → (⟨S8192x128, .f32⟩ : BufTy).Contents (Elt F)),
    StableHlo.unary main_arg3 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S8192x128 ![0, 1] bcast_S1x128_S8192x128_0_1 : (⟨S1x128, .f32⟩ : BufTy).Contents (Elt F) → (⟨S8192x128, .f32⟩ : BufTy).Contents (Elt F)),
    StableHlo.binary main_v5 main_v7 main_v8 (addf : (⟨S8192x128, .f32⟩ : BufTy).Contents (Elt F) → (⟨S8192x128, .f32⟩ : BufTy).Contents (Elt F) → (⟨S8192x128, .f32⟩ : BufTy).Contents (Elt F)),
    StableHlo.nullary main_cst (constant S_ .f32 0x00000000#32),
    StableHlo.binary main_v8 main_cst main_v9 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.nullary main_cst_0 (constant S_ .f32 0x46000000#32),
    StableHlo.unary main_cst_0 main_v10 (broadcastInDim S128 ![] bcast_S_S128 : (⟨S_, .f32⟩ : BufTy).Contents (Elt F) → (⟨S128, .f32⟩ : BufTy).Contents (Elt F)),
    StableHlo.binary main_v9 main_v10 main_v11 (Host.divf : (⟨S128, .f32⟩ : BufTy).Contents (Elt F) → (⟨S128, .f32⟩ : BufTy).Contents (Elt F) → (⟨S128, .f32⟩ : BufTy).Contents (Elt F)),
    StableHlo.nullary main_c_1 (constantI S_ 32 0#32),
    StableHlo.TRef.nullary (.of main_call0_cst : StableHlo.TRef sig ⟨S_, .f32⟩) (constant S_ .f32 0x00000000#32),
    StableHlo.TRef.binary (.of main_v8 : StableHlo.TRef sig ⟨S8192x128, .f32⟩) (.of main_call0_cst : StableHlo.TRef sig ⟨S_, .f32⟩) (.of main_call0_v0 : StableHlo.TRef sig ⟨S128, .f32⟩) (fun x v => Host.reduceAdd x v reducesTo_S8192x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x46000000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S8192x128, .f32⟩) (broadcastInDim S8192x128 ![0, 1] bcast_S1x128_S8192x128_0_1),
    StableHlo.TRef.binary (.of main_v8 : StableHlo.TRef sig ⟨S8192x128, .f32⟩) (.of main_call0_v4 : StableHlo.TRef sig ⟨S8192x128, .f32⟩) (.of main_call0_v5 : StableHlo.TRef sig ⟨S8192x128, .f32⟩) subf,
    StableHlo.TRef.binary (.of main_call0_v5 : StableHlo.TRef sig ⟨S8192x128, .f32⟩) (.of main_call0_v5 : StableHlo.TRef sig ⟨S8192x128, .f32⟩) (.of main_call0_v6 : StableHlo.TRef sig ⟨S8192x128, .f32⟩) mulf,
    StableHlo.TRef.unary (.of main_c_1 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8192x128, .f32⟩) (.of main_call0_cst_2 : StableHlo.TRef sig ⟨S_, .f32⟩) (.of main_call0_v9 : StableHlo.TRef sig ⟨S128, .f32⟩) (fun x v => Host.reduceAdd x v reducesTo_S8192x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32) ]

theorem ops00_sub : (ops00 : List (HloOp τ sig (Elt F))).Forall fun op => op.bufs ⊆ tcRefs τ sig :=
  ⟨nullary_bufs_sub .., unary_bufs_sub .., binary_bufs_sub .., unary_bufs_sub .., binary_bufs_sub .., binary_bufs_sub ..,
   binary_bufs_sub .., unary_bufs_sub .., unary_bufs_sub .., binary_bufs_sub .., nullary_bufs_sub .., binary_bufs_sub ..,
   nullary_bufs_sub .., unary_bufs_sub .., binary_bufs_sub .., nullary_bufs_sub .., nullary_bufs_sub .., binary_bufs_sub ..,
   unary_bufs_sub .., nullary_bufs_sub .., unary_bufs_sub .., binary_bufs_sub .., unary_bufs_sub .., binary_bufs_sub ..,
   binary_bufs_sub .., unary_bufs_sub .., nullary_bufs_sub .., binary_bufs_sub .., nullary_bufs_sub .., binary_bufs_sub ..,
   unary_bufs_sub .., binary_bufs_sub .., nullary_bufs_sub .., binary_bufs_sub .., nullary_bufs_sub ..⟩

/-- Every operation determines its results: none leaves a buffer at contents not chosen. -/
theorem ops00_fresh : (ops00 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl⟩

/-- The references the chunk writes: each operation's result, in order. -/
abbrev writes00 : List (Ref sig .tc) :=
  [ main_c, main_v0, main_v1, main_v2, main_v3, main_v4, main_v5, main_v6,
    main_v7, main_v8, main_cst, main_v9, main_cst_0, main_v10, main_v11, main_c_1,
    main_call0_cst, main_call0_v0, main_call0_v1, main_call0_cst_0, main_call0_v2, main_call0_v3, main_call0_v4, main_call0_v5,
    main_call0_v6, main_call0_v7, main_call0_cst_1, main_call0_v8, main_call0_cst_2, main_call0_v9, main_call0_v10, main_call0_v11,
    main_call0_cst_3, main_call0_v12, main_call0_cst_4 ]

theorem ops00_writes : (ops00 : List (HloOp τ sig (Elt F))).Forall fun op =>
    op.writes ⊆ (writes00.map (Proc.devRef (τ := τ) .tc)).toFinset :=
  ⟨writes_sub_of_mem (nullary_writes ..) (by decide), writes_sub_of_mem (unary_writes ..) (by decide), writes_sub_of_mem (binary_writes ..) (by decide),
   writes_sub_of_mem (unary_writes ..) (by decide), writes_sub_of_mem (binary_writes ..) (by decide), writes_sub_of_mem (binary_writes ..) (by decide),
   writes_sub_of_mem (binary_writes ..) (by decide), writes_sub_of_mem (unary_writes ..) (by decide), writes_sub_of_mem (unary_writes ..) (by decide),
   writes_sub_of_mem (binary_writes ..) (by decide), writes_sub_of_mem (nullary_writes ..) (by decide), writes_sub_of_mem (binary_writes ..) (by decide),
   writes_sub_of_mem (nullary_writes ..) (by decide), writes_sub_of_mem (unary_writes ..) (by decide), writes_sub_of_mem (binary_writes ..) (by decide),
   writes_sub_of_mem (nullary_writes ..) (by decide), writes_sub_of_mem (nullary_writes ..) (by decide), writes_sub_of_mem (binary_writes ..) (by decide),
   writes_sub_of_mem (unary_writes ..) (by decide), writes_sub_of_mem (nullary_writes ..) (by decide), writes_sub_of_mem (unary_writes ..) (by decide),
   writes_sub_of_mem (binary_writes ..) (by decide), writes_sub_of_mem (unary_writes ..) (by decide), writes_sub_of_mem (binary_writes ..) (by decide),
   writes_sub_of_mem (binary_writes ..) (by decide), writes_sub_of_mem (unary_writes ..) (by decide), writes_sub_of_mem (nullary_writes ..) (by decide),
   writes_sub_of_mem (binary_writes ..) (by decide), writes_sub_of_mem (nullary_writes ..) (by decide), writes_sub_of_mem (binary_writes ..) (by decide),
   writes_sub_of_mem (unary_writes ..) (by decide), writes_sub_of_mem (binary_writes ..) (by decide), writes_sub_of_mem (nullary_writes ..) (by decide),
   writes_sub_of_mem (binary_writes ..) (by decide), writes_sub_of_mem (nullary_writes ..) (by decide)⟩

/-- A reference the chunk does not write keeps its contents across it. -/
theorem keep00 (V : Valuation τ sig (Elt F)) {r : Ref sig .tc} (hr : r ∉ writes00) :
    after ops00 V (Proc.devRef .tc r) = V (Proc.devRef .tc r) :=
  after_of_writes_sub ops00 V ops00_writes hr

end Cert.ReferenceIdeal.Hand

end
-- ==== Proof.RefOps01.lean ====
/- Chunk 01 of the reference program's @main as host operations: 36 operations of main_part0, in program order, every
   call inlined at its call site over that call's buffer record (the callee's operations with its arguments' and the
   record's typed references substituted): fn_where (main_call0_call0), then main, then fn_relu (main_call1), then main, then fn_relu (main_call2), then main.
   With it: every operation touches TensorCore references only and determines its results; the list of references the
   chunk writes (one per operation, its result); and that a reference outside that list keeps its contents across the
   chunk. -/
import proofs.«155579_j31937376813550_1_alg».proof.Proof.RefOpsLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 36 operations, in order. -/
abbrev ops01 : List (HloOp τ sig (Elt F)) :=
  [ StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v12 : StableHlo.TRef sig ⟨S128, .f32⟩) (fun p a b => select (broadcastInDim S128 ![] bcast_S_S128 p) a b),
    StableHlo.unary main_v11 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S8192x128 ![0, 1] bcast_S1x128_S8192x128_0_1 : (⟨S1x128, .f32⟩ : BufTy).Contents (Elt F) → (⟨S8192x128, .f32⟩ : BufTy).Contents (Elt F)),
    StableHlo.binary main_v8 main_v14 main_v15 (subf : (⟨S8192x128, .f32⟩ : BufTy).Contents (Elt F) → (⟨S8192x128, .f32⟩ : BufTy).Contents (Elt F) → (⟨S8192x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S8192x128 ![0, 1] bcast_S1x128_S8192x128_0_1 : (⟨S1x128, .f32⟩ : BufTy).Contents (Elt F) → (⟨S8192x128, .f32⟩ : BufTy).Contents (Elt F)),
    StableHlo.binary main_v17 main_v15 main_v18 (mulf : (⟨S8192x128, .f32⟩ : BufTy).Contents (Elt F) → (⟨S8192x128, .f32⟩ : BufTy).Contents (Elt F) → (⟨S8192x128, .f32⟩ : BufTy).Contents (Elt F)),
    StableHlo.nullary main_cst_2 (constant S_ .f32 0x3727C5AC#32),
    StableHlo.unary main_cst_2 main_v19 (broadcastInDim S128 ![] bcast_S_S128 : (⟨S_, .f32⟩ : BufTy).Contents (Elt F) → (⟨S128, .f32⟩ : BufTy).Contents (Elt F)),
    StableHlo.binary main_v12 main_v19 main_v20 (addf : (⟨S128, .f32⟩ : BufTy).Contents (Elt F) → (⟨S128, .f32⟩ : BufTy).Contents (Elt F) → (⟨S128, .f32⟩ : BufTy).Contents (Elt F)),
    StableHlo.unary main_v20 main_v21 (Host.rsqrt : (⟨S128, .f32⟩ : BufTy).Contents (Elt F) → (⟨S128, .f32⟩ : BufTy).Contents (Elt F)),
    StableHlo.unary main_v21 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S8192x128 ![0, 1] bcast_S1x128_S8192x128_0_1 : (⟨S1x128, .f32⟩ : BufTy).Contents (Elt F) → (⟨S8192x128, .f32⟩ : BufTy).Contents (Elt F)),
    StableHlo.binary main_v18 main_v23 main_v24 (mulf : (⟨S8192x128, .f32⟩ : BufTy).Contents (Elt F) → (⟨S8192x128, .f32⟩ : BufTy).Contents (Elt F) → (⟨S8192x128, .f32⟩ : BufTy).Contents (Elt F)),
    StableHlo.unary main_arg5 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S8192x128 ![0, 1] bcast_S1x128_S8192x128_0_1 : (⟨S1x128, .f32⟩ : BufTy).Contents (Elt F) → (⟨S8192x128, .f32⟩ : BufTy).Contents (Elt F)),
    StableHlo.binary main_v24 main_v26 main_v27 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8192x128, .f32⟩) (broadcastInDim S8192x128 ![] bcast_S_S8192x128),
    StableHlo.TRef.binary (.of main_v27 : StableHlo.TRef sig ⟨S8192x128, .f32⟩) (.of main_call1_v0 : StableHlo.TRef sig ⟨S8192x128, .f32⟩) (.of main_v28 : StableHlo.TRef sig ⟨S8192x128, .f32⟩) maximumf,
    StableHlo.binary main_v28 main_arg6 main_v29 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg7 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S8192x128 ![0, 1] bcast_S1x128_S8192x128_0_1 : (⟨S1x128, .f32⟩ : BufTy).Contents (Elt F) → (⟨S8192x128, .f32⟩ : BufTy).Contents (Elt F)),
    StableHlo.binary main_v29 main_v31 main_v32 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S8192x128, .f32⟩) (broadcastInDim S8192x128 ![] bcast_S_S8192x128),
    StableHlo.TRef.binary (.of main_v32 : StableHlo.TRef sig ⟨S8192x128, .f32⟩) (.of main_call2_v0 : StableHlo.TRef sig ⟨S8192x128, .f32⟩) (.of main_v33 : StableHlo.TRef sig ⟨S8192x128, .f32⟩) maximumf,
    StableHlo.binary main_v2 main_v33 main_v34 ((fun l r => Host.dotGeneral dot_S8192x8192_S8192x128_S8192x128_0_0_1_1_n_n none l r) : (⟨S8192x8192, .f32⟩ : BufTy).Contents (Elt F) → (⟨S8192x128, .f32⟩ : BufTy).Contents (Elt F) → (⟨S8192x128, .f32⟩ : BufTy).Contents (Elt F)),
    StableHlo.binary main_v33 main_v34 main_v35 (addf : (⟨S8192x128, .f32⟩ : BufTy).Contents (Elt F) → (⟨S8192x128, .f32⟩ : BufTy).Contents (Elt F) → (⟨S8192x128, .f32⟩ : BufTy).Contents (Elt F)),
    StableHlo.binary main_v35 main_arg8 main_v36 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg9 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S8192x128 ![0, 1] bcast_S1x128_S8192x128_0_1 : (⟨S1x128, .f32⟩ : BufTy).Contents (Elt F) → (⟨S8192x128, .f32⟩ : BufTy).Contents (Elt F)),
    StableHlo.binary main_v36 main_v38 main_v39 (addf : (⟨S8192x128, .f32⟩ : BufTy).Contents (Elt F) → (⟨S8192x128, .f32⟩ : BufTy).Contents (Elt F) → (⟨S8192x128, .f32⟩ : BufTy).Contents (Elt F)),
    StableHlo.nullary main_cst_3 (constant S_ .f32 0x00000000#32) ]

theorem ops01_sub : (ops01 : List (HloOp τ sig (Elt F))).Forall fun op => op.bufs ⊆ tcRefs τ sig :=
  ⟨unary_bufs_sub .., unary_bufs_sub .., ternary_bufs_sub .., unary_bufs_sub .., unary_bufs_sub .., binary_bufs_sub ..,
   unary_bufs_sub .., unary_bufs_sub .., binary_bufs_sub .., nullary_bufs_sub .., unary_bufs_sub .., binary_bufs_sub ..,
   unary_bufs_sub .., unary_bufs_sub .., unary_bufs_sub .., binary_bufs_sub .., unary_bufs_sub .., unary_bufs_sub ..,
   binary_bufs_sub .., nullary_bufs_sub .., unary_bufs_sub .., binary_bufs_sub .., binary_bufs_sub .., unary_bufs_sub ..,
   unary_bufs_sub .., binary_bufs_sub .., nullary_bufs_sub .., unary_bufs_sub .., binary_bufs_sub .., binary_bufs_sub ..,
   binary_bufs_sub .., binary_bufs_sub .., unary_bufs_sub .., unary_bufs_sub .., binary_bufs_sub .., nullary_bufs_sub ..⟩

/-- Every operation determines its results: none leaves a buffer at contents not chosen. -/
theorem ops01_fresh : (ops01 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl⟩

/-- The references the chunk writes: each operation's result, in order. -/
abbrev writes01 : List (Ref sig .tc) :=
  [ main_call0_call0_v0, main_call0_call0_v1, main_v12, main_v13, main_v14, main_v15, main_v16, main_v17,
    main_v18, main_cst_2, main_v19, main_v20, main_v21, main_v22, main_v23, main_v24,
    main_v25, main_v26, main_v27, main_call1_cst, main_call1_v0, main_v28, main_v29, main_v30,
    main_v31, main_v32, main_call2_cst, main_call2_v0, main_v33, main_v34, main_v35, main_v36,
    main_v37, main_v38, main_v39, main_cst_3 ]

theorem ops01_writes : (ops01 : List (HloOp τ sig (Elt F))).Forall fun op =>
    op.writes ⊆ (writes01.map (Proc.devRef (τ := τ) .tc)).toFinset :=
  ⟨writes_sub_of_mem (unary_writes ..) (by decide), writes_sub_of_mem (unary_writes ..) (by decide), writes_sub_of_mem (ternary_writes ..) (by decide),
   writes_sub_of_mem (unary_writes ..) (by decide), writes_sub_of_mem (unary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (unary_writes ..) (by decide), writes_sub_of_mem (binary_writes ..) (by decide),
   writes_sub_of_mem (unary_writes ..) (by decide), writes_sub_of_mem (unary_writes ..) (by decide), writes_sub_of_mem (unary_writes ..) (by decide),
   writes_sub_of_mem (binary_writes ..) (by decide), writes_sub_of_mem (unary_writes ..) (by decide), writes_sub_of_mem (unary_writes ..) (by decide),
   writes_sub_of_mem (binary_writes ..) (by decide), writes_sub_of_mem (nullary_writes ..) (by decide), writes_sub_of_mem (unary_writes ..) (by decide),
   writes_sub_of_mem (binary_writes ..) (by decide), writes_sub_of_mem (binary_writes ..) (by decide), writes_sub_of_mem (unary_writes ..) (by decide),
   writes_sub_of_mem (unary_writes ..) (by decide), writes_sub_of_mem (binary_writes ..) (by decide), writes_sub_of_mem (nullary_writes ..) (by decide),
   writes_sub_of_mem (unary_writes ..) (by decide), writes_sub_of_mem (binary_writes ..) (by decide), writes_sub_of_mem (binary_writes ..) (by decide),
   writes_sub_of_mem (binary_writes ..) (by decide), writes_sub_of_mem (binary_writes ..) (by decide), writes_sub_of_mem (unary_writes ..) (by decide),
   writes_sub_of_mem (unary_writes ..) (by decide), writes_sub_of_mem (binary_writes ..) (by decide), writes_sub_of_mem (nullary_writes ..) (by decide)⟩

/-- A reference the chunk does not write keeps its contents across it. -/
theorem keep01 (V : Valuation τ sig (Elt F)) {r : Ref sig .tc} (hr : r ∉ writes01) :
    after ops01 V (Proc.devRef .tc r) = V (Proc.devRef .tc r) :=
  after_of_writes_sub ops01 V ops01_writes hr

end Cert.ReferenceIdeal.Hand

end
-- ==== Proof.RefOps02.lean ====
/- Chunk 02 of the reference program's @main as host operations: 35 operations of main_part0, in program order, every
   call inlined at its call site over that call's buffer record (the callee's operations with its arguments' and the
   record's typed references substituted): main, then fn_var (main_call3), then fn_where (main_call3_call0), then main.
   With it: every operation touches TensorCore references only and determines its results; the list of references the
   chunk writes (one per operation, its result); and that a reference outside that list keeps its contents across the
   chunk. -/
import proofs.«155579_j31937376813550_1_alg».proof.Proof.RefOpsLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 35 operations, in order. -/
abbrev ops02 : List (HloOp τ sig (Elt F)) :=
  [ StableHlo.binary main_v39 main_cst_3 main_v40 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.nullary main_cst_4 (constant S_ .f32 0x46000000#32),
    StableHlo.unary main_cst_4 main_v41 (broadcastInDim S128 ![] bcast_S_S128 : (⟨S_, .f32⟩ : BufTy).Contents (Elt F) → (⟨S128, .f32⟩ : BufTy).Contents (Elt F)),
    StableHlo.binary main_v40 main_v41 main_v42 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary (.of main_call3_cst : StableHlo.TRef sig ⟨S_, .f32⟩) (constant S_ .f32 0x00000000#32),
    StableHlo.TRef.binary (.of main_v39 : StableHlo.TRef sig ⟨S8192x128, .f32⟩) (.of main_call3_cst : StableHlo.TRef sig ⟨S_, .f32⟩) (.of main_call3_v0 : StableHlo.TRef sig ⟨S128, .f32⟩) (fun x v => Host.reduceAdd x v reducesTo_S8192x128_S128_d0 h_S_),
    StableHlo.TRef.unary (.of main_call3_v0 : StableHlo.TRef sig ⟨S128, .f32⟩) (.of main_call3_v1 : StableHlo.TRef sig ⟨S1x128, .f32⟩) (broadcastInDim S1x128 ![1] bcast_S128_S1x128_1),
    StableHlo.TRef.nullary (.of main_call3_cst_0 : StableHlo.TRef sig ⟨S_, .f32⟩) (constant S_ .f32 0x46000000#32),
    StableHlo.TRef.unary (.of main_call3_cst_0 : StableHlo.TRef sig ⟨S_, .f32⟩) (.of main_call3_v2 : StableHlo.TRef sig ⟨S1x128, .f32⟩) (broadcastInDim S1x128 ![] bcast_S_S1x128),
    StableHlo.TRef.binary (.of main_call3_v1 : StableHlo.TRef sig ⟨S1x128, .f32⟩) (.of main_call3_v2 : StableHlo.TRef sig ⟨S1x128, .f32⟩) (.of main_call3_v3 : StableHlo.TRef sig ⟨S1x128, .f32⟩) Host.divf,
    StableHlo.TRef.unary (.of main_call3_v3 : StableHlo.TRef sig ⟨S1x128, .f32⟩) (.of main_call3_v4 : StableHlo.TRef sig ⟨S8192x128, .f32⟩) (broadcastInDim S8192x128 ![0, 1] bcast_S1x128_S8192x128_0_1),
    StableHlo.TRef.binary (.of main_v39 : StableHlo.TRef sig ⟨S8192x128, .f32⟩) (.of main_call3_v4 : StableHlo.TRef sig ⟨S8192x128, .f32⟩) (.of main_call3_v5 : StableHlo.TRef sig ⟨S8192x128, .f32⟩) subf,
    StableHlo.TRef.binary (.of main_call3_v5 : StableHlo.TRef sig ⟨S8192x128, .f32⟩) (.of main_call3_v5 : StableHlo.TRef sig ⟨S8192x128, .f32⟩) (.of main_call3_v6 : StableHlo.TRef sig ⟨S8192x128, .f32⟩) mulf,
    StableHlo.TRef.unary (.of main_c_5 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x46000000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S8192x128, .f32⟩) (.of main_call3_cst_2 : StableHlo.TRef sig ⟨S_, .f32⟩) (.of main_call3_v9 : StableHlo.TRef sig ⟨S128, .f32⟩) (fun x v => Host.reduceAdd x v reducesTo_S8192x128_S128_d0 h_S_),
    StableHlo.TRef.unary (.of main_call3_v8 : StableHlo.TRef sig ⟨S_, .f32⟩) (.of main_call3_v10 : StableHlo.TRef sig ⟨S128, .f32⟩) (broadcastInDim S128 ![] bcast_S_S128),
    StableHlo.TRef.binary (.of main_call3_v9 : StableHlo.TRef sig ⟨S128, .f32⟩) (.of main_call3_v10 : StableHlo.TRef sig ⟨S128, .f32⟩) (.of main_call3_v11 : StableHlo.TRef sig ⟨S128, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S128, .f32⟩) (broadcastInDim S128 ![] bcast_S_S128),
    StableHlo.TRef.ternary (.of main_call3_v12 : StableHlo.TRef sig ⟨S_, .i1⟩) (.of main_call3_v11 : StableHlo.TRef sig ⟨S128, .f32⟩) (.of main_call3_call0_v1 : StableHlo.TRef sig ⟨S128, .f32⟩) (.of main_v43 : StableHlo.TRef sig ⟨S128, .f32⟩) (fun p a b => select (broadcastInDim S128 ![] bcast_S_S128 p) a b),
    StableHlo.unary main_v42 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S8192x128 ![0, 1] bcast_S1x128_S8192x128_0_1 : (⟨S1x128, .f32⟩ : BufTy).Contents (Elt F) → (⟨S8192x128, .f32⟩ : BufTy).Contents (Elt F)),
    StableHlo.binary main_v39 main_v45 main_v46 (subf : (⟨S8192x128, .f32⟩ : BufTy).Contents (Elt F) → (⟨S8192x128, .f32⟩ : BufTy).Contents (Elt F) → (⟨S8192x128, .f32⟩ : BufTy).Contents (Elt F)),
    StableHlo.unary main_arg10 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S8192x128 ![0, 1] bcast_S1x128_S8192x128_0_1 : (⟨S1x128, .f32⟩ : BufTy).Contents (Elt F) → (⟨S8192x128, .f32⟩ : BufTy).Contents (Elt F)),
    StableHlo.binary main_v48 main_v46 main_v49 (mulf : (⟨S8192x128, .f32⟩ : BufTy).Contents (Elt F) → (⟨S8192x128, .f32⟩ : BufTy).Contents (Elt F) → (⟨S8192x128, .f32⟩ : BufTy).Contents (Elt F)),
    StableHlo.nullary main_cst_6 (constant S_ .f32 0x3727C5AC#32),
    StableHlo.unary main_cst_6 main_v50 (broadcastInDim S128 ![] bcast_S_S128 : (⟨S_, .f32⟩ : BufTy).Contents (Elt F) → (⟨S128, .f32⟩ : BufTy).Contents (Elt F)) ]

theorem ops02_sub : (ops02 : List (HloOp τ sig (Elt F))).Forall fun op => op.bufs ⊆ tcRefs τ sig :=
  ⟨binary_bufs_sub .., nullary_bufs_sub .., unary_bufs_sub .., binary_bufs_sub .., nullary_bufs_sub .., nullary_bufs_sub ..,
   binary_bufs_sub .., unary_bufs_sub .., nullary_bufs_sub .., unary_bufs_sub .., binary_bufs_sub .., unary_bufs_sub ..,
   binary_bufs_sub .., binary_bufs_sub .., unary_bufs_sub .., nullary_bufs_sub .., binary_bufs_sub .., nullary_bufs_sub ..,
   binary_bufs_sub .., unary_bufs_sub .., binary_bufs_sub .., nullary_bufs_sub .., binary_bufs_sub .., nullary_bufs_sub ..,
   unary_bufs_sub .., unary_bufs_sub .., ternary_bufs_sub .., unary_bufs_sub .., unary_bufs_sub .., binary_bufs_sub ..,
   unary_bufs_sub .., unary_bufs_sub .., binary_bufs_sub .., nullary_bufs_sub .., unary_bufs_sub ..⟩

/-- Every operation determines its results: none leaves a buffer at contents not chosen. -/
theorem ops02_fresh : (ops02 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl⟩

/-- The references the chunk writes: each operation's result, in order. -/
abbrev writes02 : List (Ref sig .tc) :=
  [ main_v40, main_cst_4, main_v41, main_v42, main_c_5, main_call3_cst, main_call3_v0, main_call3_v1,
    main_call3_cst_0, main_call3_v2, main_call3_v3, main_call3_v4, main_call3_v5, main_call3_v6, main_call3_v7, main_call3_cst_1,
    main_call3_v8, main_call3_cst_2, main_call3_v9, main_call3_v10, main_call3_v11, main_call3_cst_3, main_call3_v12, main_call3_cst_4,
    main_call3_call0_v0, main_call3_call0_v1, main_v43, main_v44, main_v45, main_v46, main_v47, main_v48,
    main_v49, main_cst_6, main_v50 ]

theorem ops02_writes : (ops02 : List (HloOp τ sig (Elt F))).Forall fun op =>
    op.writes ⊆ (writes02.map (Proc.devRef (τ := τ) .tc)).toFinset :=
  ⟨writes_sub_of_mem (binary_writes ..) (by decide), writes_sub_of_mem (nullary_writes ..) (by decide), writes_sub_of_mem (unary_writes ..) (by decide),
   writes_sub_of_mem (binary_writes ..) (by decide), writes_sub_of_mem (nullary_writes ..) (by decide), writes_sub_of_mem (nullary_writes ..) (by decide),
   writes_sub_of_mem (binary_writes ..) (by decide), writes_sub_of_mem (unary_writes ..) (by decide), writes_sub_of_mem (nullary_writes ..) (by decide),
   writes_sub_of_mem (unary_writes ..) (by decide), writes_sub_of_mem (binary_writes ..) (by decide), writes_sub_of_mem (unary_writes ..) (by decide),
   writes_sub_of_mem (binary_writes ..) (by decide), writes_sub_of_mem (binary_writes ..) (by decide), writes_sub_of_mem (unary_writes ..) (by decide),
   writes_sub_of_mem (nullary_writes ..) (by decide), writes_sub_of_mem (binary_writes ..) (by decide), writes_sub_of_mem (nullary_writes ..) (by decide),
   writes_sub_of_mem (binary_writes ..) (by decide), writes_sub_of_mem (unary_writes ..) (by decide), writes_sub_of_mem (binary_writes ..) (by decide),
   writes_sub_of_mem (nullary_writes ..) (by decide), writes_sub_of_mem (binary_writes ..) (by decide), writes_sub_of_mem (nullary_writes ..) (by decide),
   writes_sub_of_mem (unary_writes ..) (by decide), writes_sub_of_mem (unary_writes ..) (by decide), writes_sub_of_mem (ternary_writes ..) (by decide),
   writes_sub_of_mem (unary_writes ..) (by decide), writes_sub_of_mem (unary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (unary_writes ..) (by decide)⟩

/-- A reference the chunk does not write keeps its contents across it. -/
theorem keep02 (V : Valuation τ sig (Elt F)) {r : Ref sig .tc} (hr : r ∉ writes02) :
    after ops02 V (Proc.devRef .tc r) = V (Proc.devRef .tc r) :=
  after_of_writes_sub ops02 V ops02_writes hr

end Cert.ReferenceIdeal.Hand

end
-- ==== Proof.RefOpsPart0.lean ====
/- @main's window 0 (main_part0) is the straight line of chunks 00, 01, 02: with the called functions' definitions
   unfolded at their calls and the records at their fields, both sides compute to one chain of host-operation steps. -/
import proofs.«155579_j31937376813550_1_alg».proof.Proof.RefOps00
import proofs.«155579_j31937376813550_1_alg».proof.Proof.RefOps01
import proofs.«155579_j31937376813550_1_alg».proof.Proof.RefOps02

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window is the straight line of its operations, calls inlined. -/
theorem part0_eq (c : Dev nD) : main_part0 (F := F) c = seq (ops00 ++ ops01 ++ ops02) := rfl

end Cert.ReferenceIdeal.Hand

end
-- ==== Proof.RefOps03.lean ====
/- Chunk 03 of the reference program's @main as host operations: 30 operations of main_part1, in program order, every
   call inlined at its call site over that call's buffer record (the callee's operations with its arguments' and the
   record's typed references substituted): main, then fn_relu (main_call4), then main, then fn_relu (main_call5), then main.
   With it: every operation touches TensorCore references only and determines its results; the list of references the
   chunk writes (one per operation, its result); and that a reference outside that list keeps its contents across the
   chunk. -/
import proofs.«155579_j31937376813550_1_alg».proof.Proof.RefOpsLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 30 operations, in order. -/
abbrev ops03 : List (HloOp τ sig (Elt F)) :=
  [ StableHlo.binary main_v43 main_v50 main_v51 (addf : (⟨S128, .f32⟩ : BufTy).Contents (Elt F) → (⟨S128, .f32⟩ : BufTy).Contents (Elt F) → (⟨S128, .f32⟩ : BufTy).Contents (Elt F)),
    StableHlo.unary main_v51 main_v52 (Host.rsqrt : (⟨S128, .f32⟩ : BufTy).Contents (Elt F) → (⟨S128, .f32⟩ : BufTy).Contents (Elt F)),
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S8192x128 ![0, 1] bcast_S1x128_S8192x128_0_1 : (⟨S1x128, .f32⟩ : BufTy).Contents (Elt F) → (⟨S8192x128, .f32⟩ : BufTy).Contents (Elt F)),
    StableHlo.binary main_v49 main_v54 main_v55 (mulf : (⟨S8192x128, .f32⟩ : BufTy).Contents (Elt F) → (⟨S8192x128, .f32⟩ : BufTy).Contents (Elt F) → (⟨S8192x128, .f32⟩ : BufTy).Contents (Elt F)),
    StableHlo.unary main_arg11 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S8192x128 ![0, 1] bcast_S1x128_S8192x128_0_1 : (⟨S1x128, .f32⟩ : BufTy).Contents (Elt F) → (⟨S8192x128, .f32⟩ : BufTy).Contents (Elt F)),
    StableHlo.binary main_v55 main_v57 main_v58 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S8192x128, .f32⟩) (broadcastInDim S8192x128 ![] bcast_S_S8192x128),
    StableHlo.TRef.binary (.of main_v58 : StableHlo.TRef sig ⟨S8192x128, .f32⟩) (.of main_call4_v0 : StableHlo.TRef sig ⟨S8192x128, .f32⟩) (.of main_v59 : StableHlo.TRef sig ⟨S8192x128, .f32⟩) maximumf,
    StableHlo.binary main_v59 main_arg12 main_v60 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg13 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S8192x128 ![0, 1] bcast_S1x128_S8192x128_0_1 : (⟨S1x128, .f32⟩ : BufTy).Contents (Elt F) → (⟨S8192x128, .f32⟩ : BufTy).Contents (Elt F)),
    StableHlo.binary main_v60 main_v62 main_v63 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S8192x128, .f32⟩) (broadcastInDim S8192x128 ![] bcast_S_S8192x128),
    StableHlo.TRef.binary (.of main_v63 : StableHlo.TRef sig ⟨S8192x128, .f32⟩) (.of main_call5_v0 : StableHlo.TRef sig ⟨S8192x128, .f32⟩) (.of main_v64 : StableHlo.TRef sig ⟨S8192x128, .f32⟩) maximumf,
    StableHlo.binary main_v2 main_v64 main_v65 ((fun l r => Host.dotGeneral dot_S8192x8192_S8192x128_S8192x128_0_0_1_1_n_n none l r) : (⟨S8192x8192, .f32⟩ : BufTy).Contents (Elt F) → (⟨S8192x128, .f32⟩ : BufTy).Contents (Elt F) → (⟨S8192x128, .f32⟩ : BufTy).Contents (Elt F)),
    StableHlo.binary main_v64 main_v65 main_v66 (addf : (⟨S8192x128, .f32⟩ : BufTy).Contents (Elt F) → (⟨S8192x128, .f32⟩ : BufTy).Contents (Elt F) → (⟨S8192x128, .f32⟩ : BufTy).Contents (Elt F)),
    StableHlo.binary main_v66 main_arg14 main_v67 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg15 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S8192x128 ![0, 1] bcast_S1x128_S8192x128_0_1 : (⟨S1x128, .f32⟩ : BufTy).Contents (Elt F) → (⟨S8192x128, .f32⟩ : BufTy).Contents (Elt F)),
    StableHlo.binary main_v67 main_v69 main_v70 (addf : (⟨S8192x128, .f32⟩ : BufTy).Contents (Elt F) → (⟨S8192x128, .f32⟩ : BufTy).Contents (Elt F) → (⟨S8192x128, .f32⟩ : BufTy).Contents (Elt F)),
    StableHlo.nullary main_cst_7 (constant S_ .f32 0x00000000#32),
    StableHlo.binary main_v70 main_cst_7 main_v71 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.nullary main_cst_8 (constant S_ .f32 0x46000000#32),
    StableHlo.unary main_cst_8 main_v72 (broadcastInDim S128 ![] bcast_S_S128 : (⟨S_, .f32⟩ : BufTy).Contents (Elt F) → (⟨S128, .f32⟩ : BufTy).Contents (Elt F)),
    StableHlo.binary main_v71 main_v72 main_v73 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32) ]

theorem ops03_sub : (ops03 : List (HloOp τ sig (Elt F))).Forall fun op => op.bufs ⊆ tcRefs τ sig :=
  ⟨binary_bufs_sub .., unary_bufs_sub .., unary_bufs_sub .., unary_bufs_sub .., binary_bufs_sub .., unary_bufs_sub ..,
   unary_bufs_sub .., binary_bufs_sub .., nullary_bufs_sub .., unary_bufs_sub .., binary_bufs_sub .., binary_bufs_sub ..,
   unary_bufs_sub .., unary_bufs_sub .., binary_bufs_sub .., nullary_bufs_sub .., unary_bufs_sub .., binary_bufs_sub ..,
   binary_bufs_sub .., binary_bufs_sub .., binary_bufs_sub .., unary_bufs_sub .., unary_bufs_sub .., binary_bufs_sub ..,
   nullary_bufs_sub .., binary_bufs_sub .., nullary_bufs_sub .., unary_bufs_sub .., binary_bufs_sub .., nullary_bufs_sub ..⟩

/-- Every operation determines its results: none leaves a buffer at contents not chosen. -/
theorem ops03_fresh : (ops03 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl⟩

/-- The references the chunk writes: each operation's result, in order. -/
abbrev writes03 : List (Ref sig .tc) :=
  [ main_v51, main_v52, main_v53, main_v54, main_v55, main_v56, main_v57, main_v58,
    main_call4_cst, main_call4_v0, main_v59, main_v60, main_v61, main_v62, main_v63, main_call5_cst,
    main_call5_v0, main_v64, main_v65, main_v66, main_v67, main_v68, main_v69, main_v70,
    main_cst_7, main_v71, main_cst_8, main_v72, main_v73, main_c_9 ]

theorem ops03_writes : (ops03 : List (HloOp τ sig (Elt F))).Forall fun op =>
    op.writes ⊆ (writes03.map (Proc.devRef (τ := τ) .tc)).toFinset :=
  ⟨writes_sub_of_mem (binary_writes ..) (by decide), writes_sub_of_mem (unary_writes ..) (by decide), writes_sub_of_mem (unary_writes ..) (by decide),
   writes_sub_of_mem (unary_writes ..) (by decide), writes_sub_of_mem (binary_writes ..) (by decide), writes_sub_of_mem (unary_writes ..) (by decide),
   writes_sub_of_mem (unary_writes ..) (by decide), writes_sub_of_mem (binary_writes ..) (by decide), writes_sub_of_mem (nullary_writes ..) (by decide),
   writes_sub_of_mem (unary_writes ..) (by decide), writes_sub_of_mem (binary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (unary_writes ..) (by decide), writes_sub_of_mem (binary_writes ..) (by decide),
   writes_sub_of_mem (binary_writes ..) (by decide), writes_sub_of_mem (binary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (binary_writes ..) (by decide), writes_sub_of_mem (nullary_writes ..) (by decide),
   writes_sub_of_mem (unary_writes ..) (by decide), writes_sub_of_mem (binary_writes ..) (by decide), writes_sub_of_mem (nullary_writes ..) (by decide)⟩

/-- A reference the chunk does not write keeps its contents across it. -/
theorem keep03 (V : Valuation τ sig (Elt F)) {r : Ref sig .tc} (hr : r ∉ writes03) :
    after ops03 V (Proc.devRef .tc r) = V (Proc.devRef .tc r) :=
  after_of_writes_sub ops03 V ops03_writes hr

end Cert.ReferenceIdeal.Hand

end
-- ==== Proof.RefOps04.lean ====
/- Chunk 04 of the reference program's @main as host operations: 29 operations of main_part1, in program order, every
   call inlined at its call site over that call's buffer record (the callee's operations with its arguments' and the
   record's typed references substituted): fn_var (main_call6), then fn_where (main_call6_call0), then main.
   With it: every operation touches TensorCore references only and determines its results; the list of references the
   chunk writes (one per operation, its result); and that a reference outside that list keeps its contents across the
   chunk. -/
import proofs.«155579_j31937376813550_1_alg».proof.Proof.RefOpsLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 29 operations, in order. -/
abbrev ops04 : List (HloOp τ sig (Elt F)) :=
  [ StableHlo.TRef.nullary (.of main_call6_cst : StableHlo.TRef sig ⟨S_, .f32⟩) (constant S_ .f32 0x00000000#32),
    StableHlo.TRef.binary (.of main_v70 : StableHlo.TRef sig ⟨S8192x128, .f32⟩) (.of main_call6_cst : StableHlo.TRef sig ⟨S_, .f32⟩) (.of main_call6_v0 : StableHlo.TRef sig ⟨S128, .f32⟩) (fun x v => Host.reduceAdd x v reducesTo_S8192x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x46000000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S8192x128, .f32⟩) (broadcastInDim S8192x128 ![0, 1] bcast_S1x128_S8192x128_0_1),
    StableHlo.TRef.binary (.of main_v70 : StableHlo.TRef sig ⟨S8192x128, .f32⟩) (.of main_call6_v4 : StableHlo.TRef sig ⟨S8192x128, .f32⟩) (.of main_call6_v5 : StableHlo.TRef sig ⟨S8192x128, .f32⟩) subf,
    StableHlo.TRef.binary (.of main_call6_v5 : StableHlo.TRef sig ⟨S8192x128, .f32⟩) (.of main_call6_v5 : StableHlo.TRef sig ⟨S8192x128, .f32⟩) (.of main_call6_v6 : StableHlo.TRef sig ⟨S8192x128, .f32⟩) mulf,
    StableHlo.TRef.unary (.of main_c_9 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x46000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S8192x128, .f32⟩) (.of main_call6_cst_2 : StableHlo.TRef sig ⟨S_, .f32⟩) (.of main_call6_v9 : StableHlo.TRef sig ⟨S128, .f32⟩) (fun x v => Host.reduceAdd x v reducesTo_S8192x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v74 : StableHlo.TRef sig ⟨S128, .f32⟩) (fun p a b => select (broadcastInDim S128 ![] bcast_S_S128 p) a b),
    StableHlo.unary main_v73 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S8192x128 ![0, 1] bcast_S1x128_S8192x128_0_1 : (⟨S1x128, .f32⟩ : BufTy).Contents (Elt F) → (⟨S8192x128, .f32⟩ : BufTy).Contents (Elt F)),
    StableHlo.binary main_v70 main_v76 main_v77 (subf : (⟨S8192x128, .f32⟩ : BufTy).Contents (Elt F) → (⟨S8192x128, .f32⟩ : BufTy).Contents (Elt F) → (⟨S8192x128, .f32⟩ : BufTy).Contents (Elt F)),
    StableHlo.unary main_arg16 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S8192x128 ![0, 1] bcast_S1x128_S8192x128_0_1 : (⟨S1x128, .f32⟩ : BufTy).Contents (Elt F) → (⟨S8192x128, .f32⟩ : BufTy).Contents (Elt F)),
    StableHlo.binary main_v79 main_v77 main_v80 (mulf : (⟨S8192x128, .f32⟩ : BufTy).Contents (Elt F) → (⟨S8192x128, .f32⟩ : BufTy).Contents (Elt F) → (⟨S8192x128, .f32⟩ : BufTy).Contents (Elt F)),
    StableHlo.nullary main_cst_10 (constant S_ .f32 0x3727C5AC#32) ]

theorem ops04_sub : (ops04 : List (HloOp τ sig (Elt F))).Forall fun op => op.bufs ⊆ tcRefs τ sig :=
  ⟨nullary_bufs_sub .., binary_bufs_sub .., unary_bufs_sub .., nullary_bufs_sub .., unary_bufs_sub .., binary_bufs_sub ..,
   unary_bufs_sub .., binary_bufs_sub .., binary_bufs_sub .., unary_bufs_sub .., nullary_bufs_sub .., binary_bufs_sub ..,
   nullary_bufs_sub .., binary_bufs_sub .., unary_bufs_sub .., binary_bufs_sub .., nullary_bufs_sub .., binary_bufs_sub ..,
   nullary_bufs_sub .., unary_bufs_sub .., unary_bufs_sub .., ternary_bufs_sub .., unary_bufs_sub .., unary_bufs_sub ..,
   binary_bufs_sub .., unary_bufs_sub .., unary_bufs_sub .., binary_bufs_sub .., nullary_bufs_sub ..⟩

/-- Every operation determines its results: none leaves a buffer at contents not chosen. -/
theorem ops04_fresh : (ops04 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl⟩

/-- The references the chunk writes: each operation's result, in order. -/
abbrev writes04 : List (Ref sig .tc) :=
  [ main_call6_cst, main_call6_v0, main_call6_v1, main_call6_cst_0, main_call6_v2, main_call6_v3, main_call6_v4, main_call6_v5,
    main_call6_v6, main_call6_v7, main_call6_cst_1, main_call6_v8, main_call6_cst_2, main_call6_v9, main_call6_v10, main_call6_v11,
    main_call6_cst_3, main_call6_v12, main_call6_cst_4, main_call6_call0_v0, main_call6_call0_v1, main_v74, main_v75, main_v76,
    main_v77, main_v78, main_v79, main_v80, main_cst_10 ]

theorem ops04_writes : (ops04 : List (HloOp τ sig (Elt F))).Forall fun op =>
    op.writes ⊆ (writes04.map (Proc.devRef (τ := τ) .tc)).toFinset :=
  ⟨writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (unary_writes ..) (by decide), writes_sub_of_mem (binary_writes ..) (by decide), writes_sub_of_mem (binary_writes ..) (by decide),
   writes_sub_of_mem (unary_writes ..) (by decide), writes_sub_of_mem (nullary_writes ..) (by decide), writes_sub_of_mem (binary_writes ..) (by decide),
   writes_sub_of_mem (nullary_writes ..) (by decide), writes_sub_of_mem (binary_writes ..) (by decide), writes_sub_of_mem (unary_writes ..) (by decide),
   writes_sub_of_mem (binary_writes ..) (by decide), writes_sub_of_mem (nullary_writes ..) (by decide), writes_sub_of_mem (binary_writes ..) (by decide),
   writes_sub_of_mem (nullary_writes ..) (by decide), writes_sub_of_mem (unary_writes ..) (by decide), writes_sub_of_mem (unary_writes ..) (by decide),
   writes_sub_of_mem (ternary_writes ..) (by decide), writes_sub_of_mem (unary_writes ..) (by decide), writes_sub_of_mem (unary_writes ..) (by decide),
   writes_sub_of_mem (binary_writes ..) (by decide), writes_sub_of_mem (unary_writes ..) (by decide), writes_sub_of_mem (unary_writes ..) (by decide),
   writes_sub_of_mem (binary_writes ..) (by decide), writes_sub_of_mem (nullary_writes ..) (by decide)⟩

/-- A reference the chunk does not write keeps its contents across it. -/
theorem keep04 (V : Valuation τ sig (Elt F)) {r : Ref sig .tc} (hr : r ∉ writes04) :
    after ops04 V (Proc.devRef .tc r) = V (Proc.devRef .tc r) :=
  after_of_writes_sub ops04 V ops04_writes hr

end Cert.ReferenceIdeal.Hand

end
-- ==== Proof.RefOps05.lean ====
/- Chunk 05 of the reference program's @main as host operations: 30 operations of main_part1, in program order, every
   call inlined at its call site over that call's buffer record (the callee's operations with its arguments' and the
   record's typed references substituted): main, then fn_relu (main_call7), then main, then fn_relu (main_call8), then main.
   With it: every operation touches TensorCore references only and determines its results; the list of references the
   chunk writes (one per operation, its result); and that a reference outside that list keeps its contents across the
   chunk. -/
import proofs.«155579_j31937376813550_1_alg».proof.Proof.RefOpsLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 30 operations, in order. -/
abbrev ops05 : List (HloOp τ sig (Elt F)) :=
  [ StableHlo.unary main_cst_10 main_v81 (broadcastInDim S128 ![] bcast_S_S128 : (⟨S_, .f32⟩ : BufTy).Contents (Elt F) → (⟨S128, .f32⟩ : BufTy).Contents (Elt F)),
    StableHlo.binary main_v74 main_v81 main_v82 (addf : (⟨S128, .f32⟩ : BufTy).Contents (Elt F) → (⟨S128, .f32⟩ : BufTy).Contents (Elt F) → (⟨S128, .f32⟩ : BufTy).Contents (Elt F)),
    StableHlo.unary main_v82 main_v83 (Host.rsqrt : (⟨S128, .f32⟩ : BufTy).Contents (Elt F) → (⟨S128, .f32⟩ : BufTy).Contents (Elt F)),
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S8192x128 ![0, 1] bcast_S1x128_S8192x128_0_1 : (⟨S1x128, .f32⟩ : BufTy).Contents (Elt F) → (⟨S8192x128, .f32⟩ : BufTy).Contents (Elt F)),
    StableHlo.binary main_v80 main_v85 main_v86 (mulf : (⟨S8192x128, .f32⟩ : BufTy).Contents (Elt F) → (⟨S8192x128, .f32⟩ : BufTy).Contents (Elt F) → (⟨S8192x128, .f32⟩ : BufTy).Contents (Elt F)),
    StableHlo.unary main_arg17 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S8192x128 ![0, 1] bcast_S1x128_S8192x128_0_1 : (⟨S1x128, .f32⟩ : BufTy).Contents (Elt F) → (⟨S8192x128, .f32⟩ : BufTy).Contents (Elt F)),
    StableHlo.binary main_v86 main_v88 main_v89 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S8192x128, .f32⟩) (broadcastInDim S8192x128 ![] bcast_S_S8192x128),
    StableHlo.TRef.binary (.of main_v89 : StableHlo.TRef sig ⟨S8192x128, .f32⟩) (.of main_call7_v0 : StableHlo.TRef sig ⟨S8192x128, .f32⟩) (.of main_v90 : StableHlo.TRef sig ⟨S8192x128, .f32⟩) maximumf,
    StableHlo.binary main_v90 main_arg18 main_v91 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg19 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S8192x128 ![0, 1] bcast_S1x128_S8192x128_0_1 : (⟨S1x128, .f32⟩ : BufTy).Contents (Elt F) → (⟨S8192x128, .f32⟩ : BufTy).Contents (Elt F)),
    StableHlo.binary main_v91 main_v93 main_v94 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S8192x128, .f32⟩) (broadcastInDim S8192x128 ![] bcast_S_S8192x128),
    StableHlo.TRef.binary (.of main_v94 : StableHlo.TRef sig ⟨S8192x128, .f32⟩) (.of main_call8_v0 : StableHlo.TRef sig ⟨S8192x128, .f32⟩) (.of main_v95 : StableHlo.TRef sig ⟨S8192x128, .f32⟩) maximumf,
    StableHlo.nullary main_cst_11 (constant S_ .f32 0x00000000#32),
    StableHlo.binary main_v33 main_cst_11 main_v96 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.unary main_v96 main_v97 (broadcastInDim S1x128 ![1] bcast_S128_S1x128_1 : (⟨S128, .f32⟩ : BufTy).Contents (Elt F) → (⟨S1x128, .f32⟩ : BufTy).Contents (Elt F)),
    StableHlo.nullary main_cst_12 (constant S_ .f32 0x46000000#32),
    StableHlo.unary main_cst_12 main_v98 (broadcastInDim S1x128 ![] bcast_S_S1x128 : (⟨S_, .f32⟩ : BufTy).Contents (Elt F) → (⟨S1x128, .f32⟩ : BufTy).Contents (Elt F)),
    StableHlo.binary main_v97 main_v98 main_v99 (Host.divf : (⟨S1x128, .f32⟩ : BufTy).Contents (Elt F) → (⟨S1x128, .f32⟩ : BufTy).Contents (Elt F) → (⟨S1x128, .f32⟩ : BufTy).Contents (Elt F)),
    StableHlo.nullary main_cst_13 (constant S_ .f32 0x00000000#32),
    StableHlo.binary main_v64 main_cst_13 main_v100 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.unary main_v100 main_v101 (broadcastInDim S1x128 ![1] bcast_S128_S1x128_1 : (⟨S128, .f32⟩ : BufTy).Contents (Elt F) → (⟨S1x128, .f32⟩ : BufTy).Contents (Elt F)),
    StableHlo.nullary main_cst_14 (constant S_ .f32 0x46000000#32),
    StableHlo.unary main_cst_14 main_v102 (broadcastInDim S1x128 ![] bcast_S_S1x128 : (⟨S_, .f32⟩ : BufTy).Contents (Elt F) → (⟨S1x128, .f32⟩ : BufTy).Contents (Elt F)) ]

theorem ops05_sub : (ops05 : List (HloOp τ sig (Elt F))).Forall fun op => op.bufs ⊆ tcRefs τ sig :=
  ⟨unary_bufs_sub .., binary_bufs_sub .., unary_bufs_sub .., unary_bufs_sub .., unary_bufs_sub .., binary_bufs_sub ..,
   unary_bufs_sub .., unary_bufs_sub .., binary_bufs_sub .., nullary_bufs_sub .., unary_bufs_sub .., binary_bufs_sub ..,
   binary_bufs_sub .., unary_bufs_sub .., unary_bufs_sub .., binary_bufs_sub .., nullary_bufs_sub .., unary_bufs_sub ..,
   binary_bufs_sub .., nullary_bufs_sub .., binary_bufs_sub .., unary_bufs_sub .., nullary_bufs_sub .., unary_bufs_sub ..,
   binary_bufs_sub .., nullary_bufs_sub .., binary_bufs_sub .., unary_bufs_sub .., nullary_bufs_sub .., unary_bufs_sub ..⟩

/-- Every operation determines its results: none leaves a buffer at contents not chosen. -/
theorem ops05_fresh : (ops05 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl⟩

/-- The references the chunk writes: each operation's result, in order. -/
abbrev writes05 : List (Ref sig .tc) :=
  [ main_v81, main_v82, main_v83, main_v84, main_v85, main_v86, main_v87, main_v88,
    main_v89, main_call7_cst, main_call7_v0, main_v90, main_v91, main_v92, main_v93, main_v94,
    main_call8_cst, main_call8_v0, main_v95, main_cst_11, main_v96, main_v97, main_cst_12, main_v98,
    main_v99, main_cst_13, main_v100, main_v101, main_cst_14, main_v102 ]

theorem ops05_writes : (ops05 : List (HloOp τ sig (Elt F))).Forall fun op =>
    op.writes ⊆ (writes05.map (Proc.devRef (τ := τ) .tc)).toFinset :=
  ⟨writes_sub_of_mem (unary_writes ..) (by decide), writes_sub_of_mem (binary_writes ..) (by decide), writes_sub_of_mem (unary_writes ..) (by decide),
   writes_sub_of_mem (unary_writes ..) (by decide), writes_sub_of_mem (unary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (unary_writes ..) (by decide), writes_sub_of_mem (binary_writes ..) (by decide),
   writes_sub_of_mem (binary_writes ..) (by decide), writes_sub_of_mem (unary_writes ..) (by decide), writes_sub_of_mem (unary_writes ..) (by decide),
   writes_sub_of_mem (binary_writes ..) (by decide), writes_sub_of_mem (nullary_writes ..) (by decide), writes_sub_of_mem (unary_writes ..) (by decide),
   writes_sub_of_mem (binary_writes ..) (by decide), writes_sub_of_mem (nullary_writes ..) (by decide), writes_sub_of_mem (binary_writes ..) (by decide),
   writes_sub_of_mem (unary_writes ..) (by decide), writes_sub_of_mem (nullary_writes ..) (by decide), writes_sub_of_mem (unary_writes ..) (by decide),
   writes_sub_of_mem (binary_writes ..) (by decide), writes_sub_of_mem (nullary_writes ..) (by decide), writes_sub_of_mem (binary_writes ..) (by decide),
   writes_sub_of_mem (unary_writes ..) (by decide), writes_sub_of_mem (nullary_writes ..) (by decide), writes_sub_of_mem (unary_writes ..) (by decide)⟩

/-- A reference the chunk does not write keeps its contents across it. -/
theorem keep05 (V : Valuation τ sig (Elt F)) {r : Ref sig .tc} (hr : r ∉ writes05) :
    after ops05 V (Proc.devRef .tc r) = V (Proc.devRef .tc r) :=
  after_of_writes_sub ops05 V ops05_writes hr

end Cert.ReferenceIdeal.Hand

end
-- ==== Proof.RefOpsPart1.lean ====
/- @main's window 1 (main_part1) is the straight line of chunks 03, 04, 05: with the called functions' definitions
   unfolded at their calls and the records at their fields, both sides compute to one chain of host-operation steps. -/
import proofs.«155579_j31937376813550_1_alg».proof.Proof.RefOps03
import proofs.«155579_j31937376813550_1_alg».proof.Proof.RefOps04
import proofs.«155579_j31937376813550_1_alg».proof.Proof.RefOps05

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window is the straight line of its operations, calls inlined. -/
theorem part1_eq (c : Dev nD) : main_part1 (F := F) c = seq (ops03 ++ ops04 ++ ops05) := rfl

end Cert.ReferenceIdeal.Hand

end
-- ==== Proof.RefOps06.lean ====
/- Chunk 06 of the reference program's @main as host operations: 31 operations of main_part2, in program order, every
   call inlined at its call site over that call's buffer record (the callee's operations with its arguments' and the
   record's typed references substituted): main, then fn_relu_0 (main_call9), then main, then fn_log_softmax (main_call10), then main.
   With it: every operation touches TensorCore references only and determines its results; the list of references the
   chunk writes (one per operation, its result); and that a reference outside that list keeps its contents across the
   chunk. -/
import proofs.«155579_j31937376813550_1_alg».proof.Proof.RefOpsLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 31 operations, in order. -/
abbrev ops06 : List (HloOp τ sig (Elt F)) :=
  [ StableHlo.binary main_v101 main_v102 main_v103 (Host.divf : (⟨S1x128, .f32⟩ : BufTy).Contents (Elt F) → (⟨S1x128, .f32⟩ : BufTy).Contents (Elt F) → (⟨S1x128, .f32⟩ : BufTy).Contents (Elt F)),
    StableHlo.nullary main_cst_15 (constant S_ .f32 0x00000000#32),
    StableHlo.binary main_v95 main_cst_15 main_v104 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.unary main_v104 main_v105 (broadcastInDim S1x128 ![1] bcast_S128_S1x128_1 : (⟨S128, .f32⟩ : BufTy).Contents (Elt F) → (⟨S1x128, .f32⟩ : BufTy).Contents (Elt F)),
    StableHlo.nullary main_cst_16 (constant S_ .f32 0x46000000#32),
    StableHlo.unary main_cst_16 main_v106 (broadcastInDim S1x128 ![] bcast_S_S1x128 : (⟨S_, .f32⟩ : BufTy).Contents (Elt F) → (⟨S1x128, .f32⟩ : BufTy).Contents (Elt F)),
    StableHlo.binary main_v105 main_v106 main_v107 (Host.divf : (⟨S1x128, .f32⟩ : BufTy).Contents (Elt F) → (⟨S1x128, .f32⟩ : BufTy).Contents (Elt F) → (⟨S1x128, .f32⟩ : BufTy).Contents (Elt F)),
    StableHlo.nary ![main_v99, main_v103, main_v107] main_v108 (fun u => concatenate S1x384 1 [⟨S1x128, u 0⟩, ⟨S1x128, u 1⟩, ⟨S1x128, u 2⟩] concatenates_S1x128_S1x128_S1x128_S1x384_d1),
    StableHlo.binary main_v108 main_arg20 main_v109 ((fun l r => Host.dotGeneral dot_S1x384_S384x384_S1x384_1_0_0_1_n_n none l r) : (⟨S1x384, .f32⟩ : BufTy).Contents (Elt F) → (⟨S384x384, .f32⟩ : BufTy).Contents (Elt F) → (⟨S1x384, .f32⟩ : BufTy).Contents (Elt F)),
    StableHlo.unary main_arg21 main_v110 (broadcastInDim S1x384 ![1] bcast_S384_S1x384_1 : (⟨S384, .f32⟩ : BufTy).Contents (Elt F) → (⟨S1x384, .f32⟩ : BufTy).Contents (Elt F)),
    StableHlo.binary main_v109 main_v110 main_v111 (addf : (⟨S1x384, .f32⟩ : BufTy).Contents (Elt F) → (⟨S1x384, .f32⟩ : BufTy).Contents (Elt F) → (⟨S1x384, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S1x384, .f32⟩) (broadcastInDim S1x384 ![] bcast_S_S1x384),
    StableHlo.TRef.binary (.of main_v111 : StableHlo.TRef sig ⟨S1x384, .f32⟩) (.of main_call9_v0 : StableHlo.TRef sig ⟨S1x384, .f32⟩) (.of main_v112 : StableHlo.TRef sig ⟨S1x384, .f32⟩) maximumf,
    StableHlo.binary main_v112 main_arg22 main_v113 ((fun l r => Host.dotGeneral dot_S1x384_S384x1_S1x1_1_0_0_1_n_n none l r) : (⟨S1x384, .f32⟩ : BufTy).Contents (Elt F) → (⟨S384x1, .f32⟩ : BufTy).Contents (Elt F) → (⟨S1x1, .f32⟩ : BufTy).Contents (Elt F)),
    StableHlo.unary main_arg23 main_v114 (broadcastInDim S1x1 ![1] bcast_S1_S1x1_1 : (⟨S1, .f32⟩ : BufTy).Contents (Elt F) → (⟨S1x1, .f32⟩ : BufTy).Contents (Elt F)),
    StableHlo.binary main_v113 main_v114 main_v115 (addf : (⟨S1x1, .f32⟩ : BufTy).Contents (Elt F) → (⟨S1x1, .f32⟩ : BufTy).Contents (Elt F) → (⟨S1x1, .f32⟩ : BufTy).Contents (Elt F)),
    StableHlo.TRef.nullary (.of main_call10_cst : StableHlo.TRef sig ⟨S_, .f32⟩) (constant S_ .f32 0xFF800000#32),
    StableHlo.TRef.binary (.of main_v115 : StableHlo.TRef sig ⟨S1x1, .f32⟩) (.of main_call10_cst : StableHlo.TRef sig ⟨S_, .f32⟩) (.of main_call10_v0 : StableHlo.TRef sig ⟨S1, .f32⟩) (fun x v => Host.reduce FloatOps.maximumf x v reducesTo_S1x1_S1_d1 h_S_),
    StableHlo.TRef.nullary (.of main_call10_cst_0 : StableHlo.TRef sig ⟨S_, .f32⟩) (constant S_ .f32 0xFF800000#32),
    StableHlo.TRef.unary (.of main_call10_cst_0 : StableHlo.TRef sig ⟨S_, .f32⟩) (.of main_call10_v1 : StableHlo.TRef sig ⟨S1, .f32⟩) (broadcastInDim S1 ![] bcast_S_S1),
    StableHlo.TRef.binary (.of main_call10_v1 : StableHlo.TRef sig ⟨S1, .f32⟩) (.of main_call10_v0 : StableHlo.TRef sig ⟨S1, .f32⟩) (.of main_call10_v2 : StableHlo.TRef sig ⟨S1, .f32⟩) maximumf,
    StableHlo.TRef.unary (.of main_call10_v2 : StableHlo.TRef sig ⟨S1, .f32⟩) (.of main_call10_v3 : StableHlo.TRef sig ⟨S1x1, .f32⟩) (broadcastInDim S1x1 ![0] bcast_S1_S1x1_0),
    StableHlo.TRef.binary (.of main_v115 : StableHlo.TRef sig ⟨S1x1, .f32⟩) (.of main_call10_v3 : StableHlo.TRef sig ⟨S1x1, .f32⟩) (.of main_call10_v4 : StableHlo.TRef sig ⟨S1x1, .f32⟩) subf,
    StableHlo.TRef.unary (.of main_call10_v4 : StableHlo.TRef sig ⟨S1x1, .f32⟩) (.of main_call10_v5 : StableHlo.TRef sig ⟨S1x1, .f32⟩) Host.exp,
    StableHlo.TRef.nullary (.of main_call10_cst_1 : StableHlo.TRef sig ⟨S_, .f32⟩) (constant S_ .f32 0x00000000#32),
    StableHlo.TRef.binary (.of main_call10_v5 : StableHlo.TRef sig ⟨S1x1, .f32⟩) (.of main_call10_cst_1 : StableHlo.TRef sig ⟨S_, .f32⟩) (.of main_call10_v6 : StableHlo.TRef sig ⟨S1, .f32⟩) (fun x v => Host.reduceAdd x v reducesTo_S1x1_S1_d1 h_S_),
    StableHlo.TRef.unary (.of main_call10_v6 : StableHlo.TRef sig ⟨S1, .f32⟩) (.of main_call10_v7 : StableHlo.TRef sig ⟨S1x1, .f32⟩) (broadcastInDim S1x1 ![0] bcast_S1_S1x1_0),
    StableHlo.TRef.unary (.of main_call10_v7 : StableHlo.TRef sig ⟨S1x1, .f32⟩) (.of main_call10_v8 : StableHlo.TRef sig ⟨S1x1, .f32⟩) Host.log,
    StableHlo.TRef.binary (.of main_call10_v4 : StableHlo.TRef sig ⟨S1x1, .f32⟩) (.of main_call10_v8 : StableHlo.TRef sig ⟨S1x1, .f32⟩) (.of main_v116 : StableHlo.TRef sig ⟨S1x1, .f32⟩) subf,
    StableHlo.reshape main_v116 main_v117 rfl shapeCasts_S1x1_S1 ]

theorem ops06_sub : (ops06 : List (HloOp τ sig (Elt F))).Forall fun op => op.bufs ⊆ tcRefs τ sig :=
  ⟨binary_bufs_sub .., nullary_bufs_sub .., binary_bufs_sub .., unary_bufs_sub .., nullary_bufs_sub .., unary_bufs_sub ..,
   binary_bufs_sub .., nary_bufs_sub .., binary_bufs_sub .., unary_bufs_sub .., binary_bufs_sub .., nullary_bufs_sub ..,
   unary_bufs_sub .., binary_bufs_sub .., binary_bufs_sub .., unary_bufs_sub .., binary_bufs_sub .., nullary_bufs_sub ..,
   binary_bufs_sub .., nullary_bufs_sub .., unary_bufs_sub .., binary_bufs_sub .., unary_bufs_sub .., binary_bufs_sub ..,
   unary_bufs_sub .., nullary_bufs_sub .., binary_bufs_sub .., unary_bufs_sub .., unary_bufs_sub .., binary_bufs_sub ..,
   reshape_bufs_sub ..⟩

/-- Every operation determines its results: none leaves a buffer at contents not chosen. -/
theorem ops06_fresh : (ops06 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl⟩

/-- The references the chunk writes: each operation's result, in order. -/
abbrev writes06 : List (Ref sig .tc) :=
  [ main_v103, main_cst_15, main_v104, main_v105, main_cst_16, main_v106, main_v107, main_v108,
    main_v109, main_v110, main_v111, main_call9_cst, main_call9_v0, main_v112, main_v113, main_v114,
    main_v115, main_call10_cst, main_call10_v0, main_call10_cst_0, main_call10_v1, main_call10_v2, main_call10_v3, main_call10_v4,
    main_call10_v5, main_call10_cst_1, main_call10_v6, main_call10_v7, main_call10_v8, main_v116, main_v117 ]

theorem ops06_writes : (ops06 : List (HloOp τ sig (Elt F))).Forall fun op =>
    op.writes ⊆ (writes06.map (Proc.devRef (τ := τ) .tc)).toFinset :=
  ⟨writes_sub_of_mem (binary_writes ..) (by decide), writes_sub_of_mem (nullary_writes ..) (by decide), writes_sub_of_mem (binary_writes ..) (by decide),
   writes_sub_of_mem (unary_writes ..) (by decide), writes_sub_of_mem (nullary_writes ..) (by decide), writes_sub_of_mem (unary_writes ..) (by decide),
   writes_sub_of_mem (binary_writes ..) (by decide), writes_sub_of_mem (nary_writes ..) (by decide), writes_sub_of_mem (binary_writes ..) (by decide),
   writes_sub_of_mem (unary_writes ..) (by decide), writes_sub_of_mem (binary_writes ..) (by decide), writes_sub_of_mem (nullary_writes ..) (by decide),
   writes_sub_of_mem (unary_writes ..) (by decide), writes_sub_of_mem (binary_writes ..) (by decide), writes_sub_of_mem (binary_writes ..) (by decide),
   writes_sub_of_mem (unary_writes ..) (by decide), writes_sub_of_mem (binary_writes ..) (by decide), writes_sub_of_mem (nullary_writes ..) (by decide),
   writes_sub_of_mem (binary_writes ..) (by decide), writes_sub_of_mem (nullary_writes ..) (by decide), writes_sub_of_mem (unary_writes ..) (by decide),
   writes_sub_of_mem (binary_writes ..) (by decide), writes_sub_of_mem (unary_writes ..) (by decide), writes_sub_of_mem (binary_writes ..) (by decide),
   writes_sub_of_mem (unary_writes ..) (by decide), writes_sub_of_mem (nullary_writes ..) (by decide), writes_sub_of_mem (binary_writes ..) (by decide),
   writes_sub_of_mem (unary_writes ..) (by decide), writes_sub_of_mem (unary_writes ..) (by decide), writes_sub_of_mem (binary_writes ..) (by decide),
   writes_sub_of_mem (reshape_writes ..) (by decide)⟩

/-- A reference the chunk does not write keeps its contents across it. -/
theorem keep06 (V : Valuation τ sig (Elt F)) {r : Ref sig .tc} (hr : r ∉ writes06) :
    after ops06 V (Proc.devRef .tc r) = V (Proc.devRef .tc r) :=
  after_of_writes_sub ops06 V ops06_writes hr

end Cert.ReferenceIdeal.Hand

end
-- ==== Proof.RefOpsPart2.lean ====
/- @main's window 2 (main_part2) is the straight line of chunk 06: with the called functions' definitions
   unfolded at their calls and the records at their fields, both sides compute to one chain of host-operation steps. -/
import proofs.«155579_j31937376813550_1_alg».proof.Proof.RefOps06

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window is the straight line of its operations, calls inlined. -/
theorem part2_eq (c : Dev nD) : main_part2 (F := F) c = seq (ops06) := rfl

end Cert.ReferenceIdeal.Hand

end
-- ==== Proof.RefRun.lean ====
/- The reference program's @main as ONE list of its 226 host operations (the 7 chunks in program order, every call
   inlined at its call site), and its run read back: every weakly fair execution terminates with each TensorCore
   buffer at the fold of the operations' results over the launch contents, and the 24 argument arrays unchanged
   (no operation writes an argument: each writes the buffer of the value it defines). -/
import proofs.«155579_j31937376813550_1_alg».proof.Proof.RefOpsPart0
import proofs.«155579_j31937376813550_1_alg».proof.Proof.RefOpsPart1
import proofs.«155579_j31937376813550_1_alg».proof.Proof.RefOpsPart2
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the chunks appended. -/
abbrev ops : List (HloOp τ sig (Elt F)) :=
  ops00 ++ ops01 ++ ops02 ++ ops03 ++ ops04 ++ ops05 ++ ops06

/-- @main is that straight line: its three windows in order, each the straight line of its chunks. -/
theorem main_eq (c : Dev nD) : main (F := F) c = seq ops := by
  show (main_part0 (F := F) c >>= fun _ => main_part1 (F := F) c >>= fun _ => main_part2 (F := F) c) = _
  rw [part0_eq, part1_eq, part2_eq, ← seq_append, ← seq_append]
  show seq _ = seq (ops00 ++ ops01 ++ ops02 ++ ops03 ++ ops04 ++ ops05 ++ ops06)
  simp only [List.append_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append (forall_append (forall_append (forall_append (forall_append (ops00_sub) ops01_sub) ops02_sub) ops03_sub) ops04_sub) ops05_sub) ops06_sub

theorem ops_fresh : (ops : List (HloOp τ sig (Elt F))).Forall fun op => op.fresh = ∅ :=
  forall_append (forall_append (forall_append (forall_append (forall_append (forall_append (ops00_fresh) ops01_fresh) ops02_fresh) ops03_fresh) ops04_fresh) ops05_fresh) ops06_fresh

/-- On every device, for any float values, from any memory with zero counters: every weakly fair execution of @main
    terminates, and every final state has each TensorCore buffer at the operations' fold over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

/-- Every reference @main writes: the chunks' written references, in order. -/
abbrev writesAll : List (Ref sig .tc) :=
  writes00 ++ writes01 ++ writes02 ++ writes03 ++ writes04 ++ writes05 ++ writes06

/-- A reference no operation of @main writes keeps its contents across the whole line. -/
theorem ops_keep (V : Valuation τ sig (Elt F)) {r : Ref sig .tc} (hr : r ∉ writesAll) :
    after ops V (Proc.devRef .tc r) = V (Proc.devRef .tc r) := by
  simp only [writesAll, List.mem_append, not_or] at hr
  obtain ⟨⟨⟨⟨⟨⟨h00, h01⟩, h02⟩, h03⟩, h04⟩, h05⟩, h06⟩ := hr
  show after (ops00 ++ ops01 ++ ops02 ++ ops03 ++ ops04 ++ ops05 ++ ops06) V _ = _
  rw [after_append, after_append, after_append, after_append, after_append, after_append, keep06 _ h06, keep05 _ h05, keep04 _ h04, keep03 _ h03, keep02 _ h02, keep01 _ h01, keep00 _ h00]

/-- @main terminates without fault and leaves its 24 argument arrays as the launch had them. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c =>
    ⟨(h c main_arg0).trans (ops_keep _ (by decide)),
     (h c main_arg1).trans (ops_keep _ (by decide)),
     (h c main_arg2).trans (ops_keep _ (by decide)),
     (h c main_arg3).trans (ops_keep _ (by decide)),
     (h c main_arg4).trans (ops_keep _ (by decide)),
     (h c main_arg5).trans (ops_keep _ (by decide)),
     (h c main_arg6).trans (ops_keep _ (by decide)),
     (h c main_arg7).trans (ops_keep _ (by decide)),
     (h c main_arg8).trans (ops_keep _ (by decide)),
     (h c main_arg9).trans (ops_keep _ (by decide)),
     (h c main_arg10).trans (ops_keep _ (by decide)),
     (h c main_arg11).trans (ops_keep _ (by decide)),
     (h c main_arg12).trans (ops_keep _ (by decide)),
     (h c main_arg13).trans (ops_keep _ (by decide)),
     (h c main_arg14).trans (ops_keep _ (by decide)),
     (h c main_arg15).trans (ops_keep _ (by decide)),
     (h c main_arg16).trans (ops_keep _ (by decide)),
     (h c main_arg17).trans (ops_keep _ (by decide)),
     (h c main_arg18).trans (ops_keep _ (by decide)),
     (h c main_arg19).trans (ops_keep _ (by decide)),
     (h c main_arg20).trans (ops_keep _ (by decide)),
     (h c main_arg21).trans (ops_keep _ (by decide)),
     (h c main_arg22).trans (ops_keep _ (by decide)),
     (h c main_arg23).trans (ops_keep _ (by decide))⟩)
    (run_raw m ρ)

end Cert.ReferenceIdeal.Hand

end
-- ==== Proof.RefFns.lean ====
/- The reference program's value, piece by piece, as pure functions of arrays: each is the composition of the host
   operations' functions between two points of the program (operands in program order, constants in place), so that
   the value of a buffer after the run is one of these applied to earlier ones. The three graph-convolution layers
   share `bnMean`, `bnVar`, `bnApply`, `mlpTail`; the first differs from the later two only in its input width
   (`lin1` against `linN`). -/
import proofs.«155579_j31937376813550_1_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The adjacency as floats: one where the integer entry is not zero, zero elsewhere. -/
def adjOf (a1 : (⟨S8192x8192, .i32⟩ : BufTy).Contents (Elt F)) :
    (⟨S8192x8192, .f32⟩ : BufTy).Contents (Elt F) :=
  ((uitofp .f32 : (⟨S8192x8192, .i1⟩ : BufTy).Contents (Elt F) → (⟨S8192x8192, .f32⟩ : BufTy).Contents (Elt F)) ((cmpi .ne : (⟨S8192x8192, .i32⟩ : BufTy).Contents (Elt F) → (⟨S8192x8192, .i32⟩ : BufTy).Contents (Elt F) → (⟨S8192x8192, .i1⟩ : BufTy).Contents (Elt F)) a1 ((broadcastInDim S8192x8192 ![] bcast_S_S8192x8192 : (⟨S_, .i32⟩ : BufTy).Contents (Elt F) → (⟨S8192x8192, .i32⟩ : BufTy).Contents (Elt F)) (constantI S_ 32 0#32))))

/-- The first layer's pre-activation: (h + Aᵀ·h)·W + b, rows of b broadcast over the nodes (input width 64). -/
def lin1 (A : (⟨S8192x8192, .f32⟩ : BufTy).Contents (Elt F)) (h : (⟨S8192x64, .f32⟩ : BufTy).Contents (Elt F)) (W : (⟨S64x128, .f32⟩ : BufTy).Contents (Elt F)) (b : (⟨S128, .f32⟩ : BufTy).Contents (Elt F)) :
    (⟨S8192x128, .f32⟩ : BufTy).Contents (Elt F) :=
  ((addf : (⟨S8192x128, .f32⟩ : BufTy).Contents (Elt F) → (⟨S8192x128, .f32⟩ : BufTy).Contents (Elt F) → (⟨S8192x128, .f32⟩ : BufTy).Contents (Elt F)) (((fun l r => Host.dotGeneral dot_S8192x64_S64x128_S8192x128_1_0_0_1_n_n none l r) : (⟨S8192x64, .f32⟩ : BufTy).Contents (Elt F) → (⟨S64x128, .f32⟩ : BufTy).Contents (Elt F) → (⟨S8192x128, .f32⟩ : BufTy).Contents (Elt F)) ((addf : (⟨S8192x64, .f32⟩ : BufTy).Contents (Elt F) → (⟨S8192x64, .f32⟩ : BufTy).Contents (Elt F) → (⟨S8192x64, .f32⟩ : BufTy).Contents (Elt F)) h (((fun l r => Host.dotGeneral dot_S8192x8192_S8192x64_S8192x64_0_0_1_1_n_n none l r) : (⟨S8192x8192, .f32⟩ : BufTy).Contents (Elt F) → (⟨S8192x64, .f32⟩ : BufTy).Contents (Elt F) → (⟨S8192x64, .f32⟩ : BufTy).Contents (Elt F)) A h)) W) ((broadcastInDim S8192x128 ![0, 1] bcast_S1x128_S8192x128_0_1 : (⟨S1x128, .f32⟩ : BufTy).Contents (Elt F) → (⟨S8192x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- The column mean over the 8192 nodes: the column sums divided by 8192. -/
def bnMean (z : (⟨S8192x128, .f32⟩ : BufTy).Contents (Elt F)) :
    (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)) z (constant S_ .f32 0x00000000#32)) ((broadcastInDim S128 ![] bcast_S_S128 : (⟨S_, .f32⟩ : BufTy).Contents (Elt F) → (⟨S128, .f32⟩ : BufTy).Contents (Elt F)) (constant S_ .f32 0x46000000#32)))

/-- The column variance over the 8192 nodes with divisor 8192 − 0: the sum of the squared deviations from the column mean over that divisor, selected where the divisor is positive (a NaN otherwise). -/
def bnVar (z : (⟨S8192x128, .f32⟩ : BufTy).Contents (Elt F)) :
    (⟨S128, .f32⟩ : BufTy).Contents (Elt F) :=
  ((fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x46000000#32) ((sitofp .f32 : (⟨S_, .i32⟩ : BufTy).Contents (Elt F) → (⟨S_, .f32⟩ : BufTy).Contents (Elt F)) (constantI S_ 32 0#32))) (constant S_ .f32 0x00000000#32)) ((Host.divf : (⟨S128, .f32⟩ : BufTy).Contents (Elt F) → (⟨S128, .f32⟩ : BufTy).Contents (Elt F) → (⟨S128, .f32⟩ : BufTy).Contents (Elt F)) ((fun x v => Host.reduceAdd x v reducesTo_S8192x128_S128_d0 h_S_ : (⟨S8192x128, .f32⟩ : BufTy).Contents (Elt F) → (⟨S_, .f32⟩ : BufTy).Contents (Elt F) → (⟨S128, .f32⟩ : BufTy).Contents (Elt F)) ((mulf : (⟨S8192x128, .f32⟩ : BufTy).Contents (Elt F) → (⟨S8192x128, .f32⟩ : BufTy).Contents (Elt F) → (⟨S8192x128, .f32⟩ : BufTy).Contents (Elt F)) ((subf : (⟨S8192x128, .f32⟩ : BufTy).Contents (Elt F) → (⟨S8192x128, .f32⟩ : BufTy).Contents (Elt F) → (⟨S8192x128, .f32⟩ : BufTy).Contents (Elt F)) z ((broadcastInDim S8192x128 ![0, 1] bcast_S1x128_S8192x128_0_1 : (⟨S1x128, .f32⟩ : BufTy).Contents (Elt F) → (⟨S8192x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S8192x128_S128_d0 h_S_ : (⟨S8192x128, .f32⟩ : BufTy).Contents (Elt F) → (⟨S_, .f32⟩ : BufTy).Contents (Elt F) → (⟨S128, .f32⟩ : BufTy).Contents (Elt F)) z (constant S_ .f32 0x00000000#32))) ((broadcastInDim S1x128 ![] bcast_S_S1x128 : (⟨S_, .f32⟩ : BufTy).Contents (Elt F) → (⟨S1x128, .f32⟩ : BufTy).Contents (Elt F)) (constant S_ .f32 0x46000000#32))))) ((subf : (⟨S8192x128, .f32⟩ : BufTy).Contents (Elt F) → (⟨S8192x128, .f32⟩ : BufTy).Contents (Elt F) → (⟨S8192x128, .f32⟩ : BufTy).Contents (Elt F)) z ((broadcastInDim S8192x128 ![0, 1] bcast_S1x128_S8192x128_0_1 : (⟨S1x128, .f32⟩ : BufTy).Contents (Elt F) → (⟨S8192x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S8192x128_S128_d0 h_S_ : (⟨S8192x128, .f32⟩ : BufTy).Contents (Elt F) → (⟨S_, .f32⟩ : BufTy).Contents (Elt F) → (⟨S128, .f32⟩ : BufTy).Contents (Elt F)) z (constant S_ .f32 0x00000000#32))) ((broadcastInDim S1x128 ![] bcast_S_S1x128 : (⟨S_, .f32⟩ : BufTy).Contents (Elt F) → (⟨S1x128, .f32⟩ : BufTy).Contents (Elt F)) (constant S_ .f32 0x46000000#32)))))) (constant S_ .f32 0x00000000#32)) ((broadcastInDim S128 ![] bcast_S_S128 : (⟨S_, .f32⟩ : BufTy).Contents (Elt F) → (⟨S128, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x46000000#32) ((sitofp .f32 : (⟨S_, .i32⟩ : BufTy).Contents (Elt F) → (⟨S_, .f32⟩ : BufTy).Contents (Elt F)) (constantI S_ 32 0#32))))) ((broadcastInDim S128 ![] bcast_S_S128 : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) (constant S_ .f32 0x7FC00000#32))))

/-- Batch normalisation of z given its column mean and variance: g · (z − mean) · rsqrt(var + 1e-5) + be. -/
def bnApply (z : (⟨S8192x128, .f32⟩ : BufTy).Contents (Elt F)) (mu : (⟨S128, .f32⟩ : BufTy).Contents (Elt F)) (var : (⟨S128, .f32⟩ : BufTy).Contents (Elt F)) (g : (⟨S128, .f32⟩ : BufTy).Contents (Elt F)) (be : (⟨S128, .f32⟩ : BufTy).Contents (Elt F)) :
    (⟨S8192x128, .f32⟩ : BufTy).Contents (Elt F) :=
  ((addf : (⟨S8192x128, .f32⟩ : BufTy).Contents (Elt F) → (⟨S8192x128, .f32⟩ : BufTy).Contents (Elt F) → (⟨S8192x128, .f32⟩ : BufTy).Contents (Elt F)) ((mulf : (⟨S8192x128, .f32⟩ : BufTy).Contents (Elt F) → (⟨S8192x128, .f32⟩ : BufTy).Contents (Elt F) → (⟨S8192x128, .f32⟩ : BufTy).Contents (Elt F)) ((mulf : (⟨S8192x128, .f32⟩ : BufTy).Contents (Elt F) → (⟨S8192x128, .f32⟩ : BufTy).Contents (Elt F) → (⟨S8192x128, .f32⟩ : BufTy).Contents (Elt F)) ((broadcastInDim S8192x128 ![0, 1] bcast_S1x128_S8192x128_0_1 : (⟨S1x128, .f32⟩ : BufTy).Contents (Elt F) → (⟨S8192x128, .f32⟩ : BufTy).Contents (Elt F)) ((broadcastInDim S1x128 ![1] bcast_S128_S1x128_1 : (⟨S128, .f32⟩ : BufTy).Contents (Elt F) → (⟨S1x128, .f32⟩ : BufTy).Contents (Elt F)) g)) ((subf : (⟨S8192x128, .f32⟩ : BufTy).Contents (Elt F) → (⟨S8192x128, .f32⟩ : BufTy).Contents (Elt F) → (⟨S8192x128, .f32⟩ : BufTy).Contents (Elt F)) z ((broadcastInDim S8192x128 ![0, 1] bcast_S1x128_S8192x128_0_1 : (⟨S1x128, .f32⟩ : BufTy).Contents (Elt F) → (⟨S8192x128, .f32⟩ : BufTy).Contents (Elt F)) ((broadcastInDim S1x128 ![1] bcast_S128_S1x128_1 : (⟨S128, .f32⟩ : BufTy).Contents (Elt F) → (⟨S1x128, .f32⟩ : BufTy).Contents (Elt F)) mu)))) ((broadcastInDim S8192x128 ![0, 1] bcast_S1x128_S8192x128_0_1 : (⟨S1x128, .f32⟩ : BufTy).Contents (Elt F) → (⟨S8192x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) var ((broadcastInDim S128 ![] bcast_S_S128 : (⟨S_, .f32⟩ : BufTy).Contents (Elt F) → (⟨S128, .f32⟩ : BufTy).Contents (Elt F)) (constant S_ .f32 0x3727C5AC#32))))))) ((broadcastInDim S8192x128 ![0, 1] bcast_S1x128_S8192x128_0_1 : (⟨S1x128, .f32⟩ : BufTy).Contents (Elt F) → (⟨S8192x128, .f32⟩ : BufTy).Contents (Elt F)) ((broadcastInDim S1x128 ![1] bcast_S128_S1x128_1 : (⟨S128, .f32⟩ : BufTy).Contents (Elt F) → (⟨S1x128, .f32⟩ : BufTy).Contents (Elt F)) be)))

/-- The rest of a layer after normalisation: the positive part max(·, 0), the second linear map x·W + b, the positive part again. -/
def mlpTail (x : (⟨S8192x128, .f32⟩ : BufTy).Contents (Elt F)) (W : (⟨S128x128, .f32⟩ : BufTy).Contents (Elt F)) (b : (⟨S128, .f32⟩ : BufTy).Contents (Elt F)) :
    (⟨S8192x128, .f32⟩ : BufTy).Contents (Elt F) :=
  ((maximumf : (⟨S8192x128, .f32⟩ : BufTy).Contents (Elt F) → (⟨S8192x128, .f32⟩ : BufTy).Contents (Elt F) → (⟨S8192x128, .f32⟩ : BufTy).Contents (Elt F)) ((addf : (⟨S8192x128, .f32⟩ : BufTy).Contents (Elt F) → (⟨S8192x128, .f32⟩ : BufTy).Contents (Elt F) → (⟨S8192x128, .f32⟩ : BufTy).Contents (Elt F)) (((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)) ((maximumf : (⟨S8192x128, .f32⟩ : BufTy).Contents (Elt F) → (⟨S8192x128, .f32⟩ : BufTy).Contents (Elt F) → (⟨S8192x128, .f32⟩ : BufTy).Contents (Elt F)) x ((broadcastInDim S8192x128 ![] bcast_S_S8192x128 : (⟨S_, .f32⟩ : BufTy).Contents (Elt F) → (⟨S8192x128, .f32⟩ : BufTy).Contents (Elt F)) (constant S_ .f32 0x00000000#32))) W) ((broadcastInDim S8192x128 ![0, 1] bcast_S1x128_S8192x128_0_1 : (⟨S1x128, .f32⟩ : BufTy).Contents (Elt F) → (⟨S8192x128, .f32⟩ : BufTy).Contents (Elt F)) ((broadcastInDim S1x128 ![1] bcast_S128_S1x128_1 : (⟨S128, .f32⟩ : BufTy).Contents (Elt F) → (⟨S1x128, .f32⟩ : BufTy).Contents (Elt F)) b))) ((broadcastInDim S8192x128 ![] bcast_S_S8192x128 : (⟨S_, .f32⟩ : BufTy).Contents (Elt F) → (⟨S8192x128, .f32⟩ : BufTy).Contents (Elt F)) (constant S_ .f32 0x00000000#32)))

/-- A later layer's pre-activation: (h + Aᵀ·h)·W + b (input width 128). -/
def linN (A : (⟨S8192x8192, .f32⟩ : BufTy).Contents (Elt F)) (h : (⟨S8192x128, .f32⟩ : BufTy).Contents (Elt F)) (W : (⟨S128x128, .f32⟩ : BufTy).Contents (Elt F)) (b : (⟨S128, .f32⟩ : BufTy).Contents (Elt F)) :
    (⟨S8192x128, .f32⟩ : BufTy).Contents (Elt F) :=
  ((addf : (⟨S8192x128, .f32⟩ : BufTy).Contents (Elt F) → (⟨S8192x128, .f32⟩ : BufTy).Contents (Elt F) → (⟨S8192x128, .f32⟩ : BufTy).Contents (Elt F)) (((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)) ((addf : (⟨S8192x128, .f32⟩ : BufTy).Contents (Elt F) → (⟨S8192x128, .f32⟩ : BufTy).Contents (Elt F) → (⟨S8192x128, .f32⟩ : BufTy).Contents (Elt F)) h (((fun l r => Host.dotGeneral dot_S8192x8192_S8192x128_S8192x128_0_0_1_1_n_n none l r) : (⟨S8192x8192, .f32⟩ : BufTy).Contents (Elt F) → (⟨S8192x128, .f32⟩ : BufTy).Contents (Elt F) → (⟨S8192x128, .f32⟩ : BufTy).Contents (Elt F)) A h)) W) ((broadcastInDim S8192x128 ![0, 1] bcast_S1x128_S8192x128_0_1 : (⟨S1x128, .f32⟩ : BufTy).Contents (Elt F) → (⟨S8192x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- Mean pooling over the nodes: the column sums as a row, divided by 8192. -/
def meanPool (h : (⟨S8192x128, .f32⟩ : BufTy).Contents (Elt F)) :
    (⟨S1x128, .f32⟩ : BufTy).Contents (Elt F) :=
  ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)) h (constant S_ .f32 0x00000000#32))) ((broadcastInDim S1x128 ![] bcast_S_S1x128 : (⟨S_, .f32⟩ : BufTy).Contents (Elt F) → (⟨S1x128, .f32⟩ : BufTy).Contents (Elt F)) (constant S_ .f32 0x46000000#32)))

/-- The readout before the last normalisation: the three pooled rows concatenated, a linear map followed by the positive part max(·, 0), then the linear map to one logit. -/
def headLogit (p1 : (⟨S1x128, .f32⟩ : BufTy).Contents (Elt F)) (p2 : (⟨S1x128, .f32⟩ : BufTy).Contents (Elt F)) (p3 : (⟨S1x128, .f32⟩ : BufTy).Contents (Elt F)) (W : (⟨S384x384, .f32⟩ : BufTy).Contents (Elt F)) (b : (⟨S384, .f32⟩ : BufTy).Contents (Elt F)) (w : (⟨S384x1, .f32⟩ : BufTy).Contents (Elt F)) (c : (⟨S1, .f32⟩ : BufTy).Contents (Elt F)) :
    (⟨S1x1, .f32⟩ : BufTy).Contents (Elt F) :=
  ((addf : (⟨S1x1, .f32⟩ : BufTy).Contents (Elt F) → (⟨S1x1, .f32⟩ : BufTy).Contents (Elt F) → (⟨S1x1, .f32⟩ : BufTy).Contents (Elt F)) (((fun l r => Host.dotGeneral dot_S1x384_S384x1_S1x1_1_0_0_1_n_n none l r) : (⟨S1x384, .f32⟩ : BufTy).Contents (Elt F) → (⟨S384x1, .f32⟩ : BufTy).Contents (Elt F) → (⟨S1x1, .f32⟩ : BufTy).Contents (Elt F)) ((maximumf : (⟨S1x384, .f32⟩ : BufTy).Contents (Elt F) → (⟨S1x384, .f32⟩ : BufTy).Contents (Elt F) → (⟨S1x384, .f32⟩ : BufTy).Contents (Elt F)) ((addf : (⟨S1x384, .f32⟩ : BufTy).Contents (Elt F) → (⟨S1x384, .f32⟩ : BufTy).Contents (Elt F) → (⟨S1x384, .f32⟩ : BufTy).Contents (Elt F)) (((fun l r => Host.dotGeneral dot_S1x384_S384x384_S1x384_1_0_0_1_n_n none l r) : (⟨S1x384, .f32⟩ : BufTy).Contents (Elt F) → (⟨S384x384, .f32⟩ : BufTy).Contents (Elt F) → (⟨S1x384, .f32⟩ : BufTy).Contents (Elt F)) (concatenate S1x384 1 [⟨S1x128, p1⟩, ⟨S1x128, p2⟩, ⟨S1x128, p3⟩] concatenates_S1x128_S1x128_S1x128_S1x384_d1) W) ((broadcastInDim S1x384 ![1] bcast_S384_S1x384_1 : (⟨S384, .f32⟩ : BufTy).Contents (Elt F) → (⟨S1x384, .f32⟩ : BufTy).Contents (Elt F)) b)) ((broadcastInDim S1x384 ![] bcast_S_S1x384 : (⟨S_, .f32⟩ : BufTy).Contents (Elt F) → (⟨S1x384, .f32⟩ : BufTy).Contents (Elt F)) (constant S_ .f32 0x00000000#32))) w) ((broadcastInDim S1x1 ![1] bcast_S1_S1x1_1 : (⟨S1, .f32⟩ : BufTy).Contents (Elt F) → (⟨S1x1, .f32⟩ : BufTy).Contents (Elt F)) c))

/-- The logarithm of the softmax of the 1×1 logit along its last axis (the logit less its maximum, less the logarithm of the sum of the exponentials of that), reshaped to a vector of one element. -/
def headOut (x : (⟨S1x1, .f32⟩ : BufTy).Contents (Elt F)) :
    (⟨S1, .f32⟩ : BufTy).Contents (Elt F) :=
  (shapeCast S1 ((subf : (⟨S1x1, .f32⟩ : BufTy).Contents (Elt F) → (⟨S1x1, .f32⟩ : BufTy).Contents (Elt F) → (⟨S1x1, .f32⟩ : BufTy).Contents (Elt F)) ((subf : (⟨S1x1, .f32⟩ : BufTy).Contents (Elt F) → (⟨S1x1, .f32⟩ : BufTy).Contents (Elt F) → (⟨S1x1, .f32⟩ : BufTy).Contents (Elt F)) x ((broadcastInDim S1x1 ![0] bcast_S1_S1x1_0 : (⟨S1, .f32⟩ : BufTy).Contents (Elt F) → (⟨S1x1, .f32⟩ : BufTy).Contents (Elt F)) ((maximumf : (⟨S1, .f32⟩ : BufTy).Contents (Elt F) → (⟨S1, .f32⟩ : BufTy).Contents (Elt F) → (⟨S1, .f32⟩ : BufTy).Contents (Elt F)) ((broadcastInDim S1 ![] bcast_S_S1 : (⟨S_, .f32⟩ : BufTy).Contents (Elt F) → (⟨S1, .f32⟩ : BufTy).Contents (Elt F)) (constant S_ .f32 0xFF800000#32)) ((fun x v => Host.reduce FloatOps.maximumf x v reducesTo_S1x1_S1_d1 h_S_ : (⟨S1x1, .f32⟩ : BufTy).Contents (Elt F) → (⟨S_, .f32⟩ : BufTy).Contents (Elt F) → (⟨S1, .f32⟩ : BufTy).Contents (Elt F)) x (constant S_ .f32 0xFF800000#32))))) ((Host.log : (⟨S1x1, .f32⟩ : BufTy).Contents (Elt F) → (⟨S1x1, .f32⟩ : BufTy).Contents (Elt F)) ((broadcastInDim S1x1 ![0] bcast_S1_S1x1_0 : (⟨S1, .f32⟩ : BufTy).Contents (Elt F) → (⟨S1x1, .f32⟩ : BufTy).Contents (Elt F)) ((fun x v => Host.reduceAdd x v reducesTo_S1x1_S1_d1 h_S_ : (⟨S1x1, .f32⟩ : BufTy).Contents (Elt F) → (⟨S_, .f32⟩ : BufTy).Contents (Elt F) → (⟨S1, .f32⟩ : BufTy).Contents (Elt F)) ((Host.exp : (⟨S1x1, .f32⟩ : BufTy).Contents (Elt F) → (⟨S1x1, .f32⟩ : BufTy).Contents (Elt F)) ((subf : (⟨S1x1, .f32⟩ : BufTy).Contents (Elt F) → (⟨S1x1, .f32⟩ : BufTy).Contents (Elt F) → (⟨S1x1, .f32⟩ : BufTy).Contents (Elt F)) x ((broadcastInDim S1x1 ![0] bcast_S1_S1x1_0 : (⟨S1, .f32⟩ : BufTy).Contents (Elt F) → (⟨S1x1, .f32⟩ : BufTy).Contents (Elt F)) ((maximumf : (⟨S1, .f32⟩ : BufTy).Contents (Elt F) → (⟨S1, .f32⟩ : BufTy).Contents (Elt F) → (⟨S1, .f32⟩ : BufTy).Contents (Elt F)) ((broadcastInDim S1 ![] bcast_S_S1 : (⟨S_, .f32⟩ : BufTy).Contents (Elt F) → (⟨S1, .f32⟩ : BufTy).Contents (Elt F)) (constant S_ .f32 0xFF800000#32)) ((fun x v => Host.reduce FloatOps.maximumf x v reducesTo_S1x1_S1_d1 h_S_ : (⟨S1x1, .f32⟩ : BufTy).Contents (Elt F) → (⟨S_, .f32⟩ : BufTy).Contents (Elt F) → (⟨S1, .f32⟩ : BufTy).Contents (Elt F)) x (constant S_ .f32 0xFF800000#32)))))) (constant S_ .f32 0x00000000#32))))) shapeCasts_S1x1_S1)

/-- One graph-convolution layer after its pre-activation `z`: normalise over the nodes, then the two-layer tail. -/
def ginTail (z : (⟨S8192x128, .f32⟩ : BufTy).Contents (Elt F)) (g be : (⟨S128, .f32⟩ : BufTy).Contents (Elt F)) (W : (⟨S128x128, .f32⟩ : BufTy).Contents (Elt F)) (b : (⟨S128, .f32⟩ : BufTy).Contents (Elt F)) :
    (⟨S8192x128, .f32⟩ : BufTy).Contents (Elt F) :=
  mlpTail (bnApply z (bnMean z) (bnVar z) g be) W b

/-- The first layer: input of width 64. -/
def ginLayer1 (A : (⟨S8192x8192, .f32⟩ : BufTy).Contents (Elt F)) (h : (⟨S8192x64, .f32⟩ : BufTy).Contents (Elt F)) (W1 : (⟨S64x128, .f32⟩ : BufTy).Contents (Elt F)) (b1 : (⟨S128, .f32⟩ : BufTy).Contents (Elt F))
    (g be : (⟨S128, .f32⟩ : BufTy).Contents (Elt F)) (W2 : (⟨S128x128, .f32⟩ : BufTy).Contents (Elt F)) (b2 : (⟨S128, .f32⟩ : BufTy).Contents (Elt F)) : (⟨S8192x128, .f32⟩ : BufTy).Contents (Elt F) :=
  ginTail (lin1 A h W1 b1) g be W2 b2

/-- A later layer: input of width 128. -/
def ginLayer (A : (⟨S8192x8192, .f32⟩ : BufTy).Contents (Elt F)) (h : (⟨S8192x128, .f32⟩ : BufTy).Contents (Elt F)) (W1 : (⟨S128x128, .f32⟩ : BufTy).Contents (Elt F)) (b1 : (⟨S128, .f32⟩ : BufTy).Contents (Elt F))
    (g be : (⟨S128, .f32⟩ : BufTy).Contents (Elt F)) (W2 : (⟨S128x128, .f32⟩ : BufTy).Contents (Elt F)) (b2 : (⟨S128, .f32⟩ : BufTy).Contents (Elt F)) : (⟨S8192x128, .f32⟩ : BufTy).Contents (Elt F) :=
  ginTail (linN A h W1 b1) g be W2 b2

end Cert.ReferenceIdeal.Hand

end
-- ==== Proof.KHostG1.lean ====
/- The host stretches between region 0 and region 1 of the kernel program (`hostOps1` … `hostOps1_6`, the generated lists,
   calls already inlined), read as pure functions: from ANY valuation W, after the seven stretches in order the layer's
   output buffer holds the normalise-and-two-layer tail of what W has in the region's output array and the layer's four
   parameter arrays — the same function as the reference program's — the next region's bias buffer holds the bias
   argument reshaped to one row, and every reference the stretches do not write is as in W. -/
import proofs.«155579_j31937376813550_1_alg».proof.Proof.Gen.KernelIdeal.Launch
import proofs.«155579_j31937376813550_1_alg».proof.Proof.RefOpsLib
import proofs.«155579_j31937376813550_1_alg».proof.Proof.RefFns
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.Hand (ginTail mlpTail bnMean bnVar bnApply meanPool headLogit headOut writes_sub_of_mem)

variable {F : FTy → Type} [FloatOps F]

/-- The references the stretch `hostOps1` writes: each operation's result, in order. -/
abbrev hostOps1_w : List (Ref sig .tc) :=
  [ main_cst, main_v2, main_cst_0, main_v3, main_v4, main_c ]
theorem hostOps1_writes : (hostOps1 : List (HloOp τ sig (Elt F))).Forall fun op =>
    op.writes ⊆ (hostOps1_w.map (Proc.devRef (τ := τ) .tc)).toFinset :=
  ⟨writes_sub_of_mem (nullary_writes ..) (by decide), writes_sub_of_mem (binary_writes ..) (by decide), writes_sub_of_mem (nullary_writes ..) (by decide),
   writes_sub_of_mem (unary_writes ..) (by decide), writes_sub_of_mem (binary_writes ..) (by decide), writes_sub_of_mem (nullary_writes ..) (by decide)⟩
/-- A reference the stretch does not write keeps its contents across it. -/
theorem hostOps1_keep (V : Valuation τ sig (Elt F)) {r : Ref sig .tc} (hr : r ∉ hostOps1_w) :
    after hostOps1 V (Proc.devRef .tc r) = V (Proc.devRef .tc r) :=
  after_of_writes_sub hostOps1 V hostOps1_writes hr

/-- The references the stretch `hostOps1_1` writes: each operation's result, in order. -/
abbrev hostOps1_1_w : List (Ref sig .tc) :=
  [ main_call0_cst, main_call0_v0, main_call0_v1, main_call0_cst_0, main_call0_v2, main_call0_v3, main_call0_v4, main_call0_v5,
    main_call0_v6, main_call0_v7, main_call0_cst_1, main_call0_v8, main_call0_cst_2, main_call0_v9, main_call0_v10, main_call0_v11,
    main_call0_cst_3, main_call0_v12, main_call0_cst_4, main_call0_call0_v0, main_call0_call0_v1, main_v5 ]
theorem hostOps1_1_writes : (hostOps1_1 : List (HloOp τ sig (Elt F))).Forall fun op =>
    op.writes ⊆ (hostOps1_1_w.map (Proc.devRef (τ := τ) .tc)).toFinset :=
  ⟨writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (unary_writes ..) (by decide), writes_sub_of_mem (binary_writes ..) (by decide), writes_sub_of_mem (binary_writes ..) (by decide),
   writes_sub_of_mem (unary_writes ..) (by decide), writes_sub_of_mem (nullary_writes ..) (by decide), writes_sub_of_mem (binary_writes ..) (by decide),
   writes_sub_of_mem (nullary_writes ..) (by decide), writes_sub_of_mem (binary_writes ..) (by decide), writes_sub_of_mem (unary_writes ..) (by decide),
   writes_sub_of_mem (binary_writes ..) (by decide), writes_sub_of_mem (nullary_writes ..) (by decide), writes_sub_of_mem (binary_writes ..) (by decide),
   writes_sub_of_mem (nullary_writes ..) (by decide), writes_sub_of_mem (unary_writes ..) (by decide), writes_sub_of_mem (unary_writes ..) (by decide),
   writes_sub_of_mem (ternary_writes ..) (by decide)⟩
/-- A reference the stretch does not write keeps its contents across it. -/
theorem hostOps1_1_keep (V : Valuation τ sig (Elt F)) {r : Ref sig .tc} (hr : r ∉ hostOps1_1_w) :
    after hostOps1_1 V (Proc.devRef .tc r) = V (Proc.devRef .tc r) :=
  after_of_writes_sub hostOps1_1 V hostOps1_1_writes hr

/-- The references the stretch `hostOps1_2` writes: each operation's result, in order. -/
abbrev hostOps1_2_w : List (Ref sig .tc) :=
  [ main_v6, main_v7, main_v8, main_v9, main_v10, main_v11, main_cst_1, main_v12,
    main_v13, main_v14, main_v15, main_v16, main_v17, main_v18, main_v19, main_v20 ]
theorem hostOps1_2_writes : (hostOps1_2 : List (HloOp τ sig (Elt F))).Forall fun op =>
    op.writes ⊆ (hostOps1_2_w.map (Proc.devRef (τ := τ) .tc)).toFinset :=
  ⟨writes_sub_of_mem (unary_writes ..) (by decide), writes_sub_of_mem (unary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (unary_writes ..) (by decide), writes_sub_of_mem (binary_writes ..) (by decide),
   writes_sub_of_mem (unary_writes ..) (by decide), writes_sub_of_mem (unary_writes ..) (by decide), writes_sub_of_mem (unary_writes ..) (by decide),
   writes_sub_of_mem (binary_writes ..) (by decide), writes_sub_of_mem (unary_writes ..) (by decide), writes_sub_of_mem (unary_writes ..) (by decide),
   writes_sub_of_mem (binary_writes ..) (by decide)⟩
/-- A reference the stretch does not write keeps its contents across it. -/
theorem hostOps1_2_keep (V : Valuation τ sig (Elt F)) {r : Ref sig .tc} (hr : r ∉ hostOps1_2_w) :
    after hostOps1_2 V (Proc.devRef .tc r) = V (Proc.devRef .tc r) :=
  after_of_writes_sub hostOps1_2 V hostOps1_2_writes hr

/-- The references the stretch `hostOps1_3` writes: each operation's result, in order. -/
abbrev hostOps1_3_w : List (Ref sig .tc) :=
  [ main_call1_cst, main_call1_v0, main_v21 ]
theorem hostOps1_3_writes : (hostOps1_3 : List (HloOp τ sig (Elt F))).Forall fun op =>
    op.writes ⊆ (hostOps1_3_w.map (Proc.devRef (τ := τ) .tc)).toFinset :=
  ⟨writes_sub_of_mem (nullary_writes ..) (by decide), writes_sub_of_mem (unary_writes ..) (by decide), writes_sub_of_mem (binary_writes ..) (by decide)⟩
/-- A reference the stretch does not write keeps its contents across it. -/
theorem hostOps1_3_keep (V : Valuation τ sig (Elt F)) {r : Ref sig .tc} (hr : r ∉ hostOps1_3_w) :
    after hostOps1_3 V (Proc.devRef .tc r) = V (Proc.devRef .tc r) :=
  after_of_writes_sub hostOps1_3 V hostOps1_3_writes hr

/-- The references the stretch `hostOps1_4` writes: each operation's result, in order. -/
abbrev hostOps1_4_w : List (Ref sig .tc) :=
  [ main_v22, main_v23, main_v24, main_v25 ]
theorem hostOps1_4_writes : (hostOps1_4 : List (HloOp τ sig (Elt F))).Forall fun op =>
    op.writes ⊆ (hostOps1_4_w.map (Proc.devRef (τ := τ) .tc)).toFinset :=
  ⟨writes_sub_of_mem (binary_writes ..) (by decide), writes_sub_of_mem (unary_writes ..) (by decide), writes_sub_of_mem (unary_writes ..) (by decide),
   writes_sub_of_mem (binary_writes ..) (by decide)⟩
/-- A reference the stretch does not write keeps its contents across it. -/
theorem hostOps1_4_keep (V : Valuation τ sig (Elt F)) {r : Ref sig .tc} (hr : r ∉ hostOps1_4_w) :
    after hostOps1_4 V (Proc.devRef .tc r) = V (Proc.devRef .tc r) :=
  after_of_writes_sub hostOps1_4 V hostOps1_4_writes hr

/-- The references the stretch `hostOps1_5` writes: each operation's result, in order. -/
abbrev hostOps1_5_w : List (Ref sig .tc) :=
  [ main_call2_cst, main_call2_v0, main_v26 ]
theorem hostOps1_5_writes : (hostOps1_5 : List (HloOp τ sig (Elt F))).Forall fun op =>
    op.writes ⊆ (hostOps1_5_w.map (Proc.devRef (τ := τ) .tc)).toFinset :=
  ⟨writes_sub_of_mem (nullary_writes ..) (by decide), writes_sub_of_mem (unary_writes ..) (by decide), writes_sub_of_mem (binary_writes ..) (by decide)⟩
/-- A reference the stretch does not write keeps its contents across it. -/
theorem hostOps1_5_keep (V : Valuation τ sig (Elt F)) {r : Ref sig .tc} (hr : r ∉ hostOps1_5_w) :
    after hostOps1_5 V (Proc.devRef .tc r) = V (Proc.devRef .tc r) :=
  after_of_writes_sub hostOps1_5 V hostOps1_5_writes hr

/-- The references the stretch `hostOps1_6` writes: each operation's result, in order. -/
abbrev hostOps1_6_w : List (Ref sig .tc) :=
  [ main_v27 ]
theorem hostOps1_6_writes : (hostOps1_6 : List (HloOp τ sig (Elt F))).Forall fun op =>
    op.writes ⊆ (hostOps1_6_w.map (Proc.devRef (τ := τ) .tc)).toFinset :=
  writes_sub_of_mem (reshape_writes ..) (by decide)
/-- A reference the stretch does not write keeps its contents across it. -/
theorem hostOps1_6_keep (V : Valuation τ sig (Elt F)) {r : Ref sig .tc} (hr : r ∉ hostOps1_6_w) :
    after hostOps1_6 V (Proc.devRef .tc r) = V (Proc.devRef .tc r) :=
  after_of_writes_sub hostOps1_6 V hostOps1_6_writes hr

/-- Everything the seven stretches write. -/
abbrev kG1_w : List (Ref sig .tc) := hostOps1_w ++ hostOps1_1_w ++ hostOps1_2_w ++ hostOps1_3_w ++ hostOps1_4_w ++ hostOps1_5_w ++ hostOps1_6_w
theorem kG1_keep (W : Valuation τ sig (Elt F)) {r : Ref sig .tc} (hr : r ∉ kG1_w) :
    after hostOps1_6 (after hostOps1_5 (after hostOps1_4 (after hostOps1_3 (after hostOps1_2 (after hostOps1_1 (after hostOps1 (W))))))) (Proc.devRef .tc r) = W (Proc.devRef .tc r) := by
  simp only [kG1_w, List.mem_append, not_or] at hr
  obtain ⟨⟨⟨⟨⟨⟨h0, h1⟩, h2⟩, h3⟩, h4⟩, h5⟩, h6⟩ := hr
  rw [hostOps1_6_keep _ h6, hostOps1_5_keep _ h5, hostOps1_4_keep _ h4, hostOps1_3_keep _ h3, hostOps1_2_keep _ h2, hostOps1_1_keep _ h1, hostOps1_keep _ h0]

/-- After the stretches, `main_v26` holds the layer's tail of W's `main_v1` and parameter arrays. -/
theorem kG1_h (W : Valuation τ sig (Elt F)) :
    after hostOps1_6 (after hostOps1_5 (after hostOps1_4 (after hostOps1_3 (after hostOps1_2 (after hostOps1_1 (after hostOps1 (W))))))) (Proc.devRef .tc main_v26)
      = ginTail (W (Proc.devRef .tc main_v1)) (W (Proc.devRef .tc main_arg4)) (W (Proc.devRef .tc main_arg5)) (W (Proc.devRef .tc main_arg6)) (W (Proc.devRef .tc main_arg7)) := by
  after_results_simp
  rfl

/-- After the stretches, `main_v27` holds W's `main_arg9` reshaped to one row. -/
theorem kG1_bias (W : Valuation τ sig (Elt F)) :
    after hostOps1_6 (after hostOps1_5 (after hostOps1_4 (after hostOps1_3 (after hostOps1_2 (after hostOps1_1 (after hostOps1 (W))))))) (Proc.devRef .tc main_v27)
      = (shapeCast S1x128 (W (Proc.devRef .tc main_arg9)) shapeCasts_S128_S1x128 : (⟨S1x128, .f32⟩ : BufTy).Contents (Elt F)) := by
  after_results_simp
  rfl

end Cert.KernelIdeal.Hand

end
-- ==== Proof.KHostG2.lean ====
/- The host stretches between region 1 and region 2 of the kernel program (`hostOps2` … `hostOps2_6`, the generated lists,
   calls already inlined), read as pure functions: from ANY valuation W, after the seven stretches in order the layer's
   output buffer holds the normalise-and-two-layer tail of what W has in the region's output array and the layer's four
   parameter arrays — the same function as the reference program's — the next region's bias buffer holds the bias
   argument reshaped to one row, and every reference the stretches do not write is as in W. -/
import proofs.«155579_j31937376813550_1_alg».proof.Proof.Gen.KernelIdeal.Launch
import proofs.«155579_j31937376813550_1_alg».proof.Proof.RefOpsLib
import proofs.«155579_j31937376813550_1_alg».proof.Proof.RefFns
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.Hand (ginTail mlpTail bnMean bnVar bnApply meanPool headLogit headOut writes_sub_of_mem)

variable {F : FTy → Type} [FloatOps F]

/-- The references the stretch `hostOps2` writes: each operation's result, in order. -/
abbrev hostOps2_w : List (Ref sig .tc) :=
  [ main_cst_2, main_v29, main_cst_3, main_v30, main_v31, main_c_4 ]
theorem hostOps2_writes : (hostOps2 : List (HloOp τ sig (Elt F))).Forall fun op =>
    op.writes ⊆ (hostOps2_w.map (Proc.devRef (τ := τ) .tc)).toFinset :=
  ⟨writes_sub_of_mem (nullary_writes ..) (by decide), writes_sub_of_mem (binary_writes ..) (by decide), writes_sub_of_mem (nullary_writes ..) (by decide),
   writes_sub_of_mem (unary_writes ..) (by decide), writes_sub_of_mem (binary_writes ..) (by decide), writes_sub_of_mem (nullary_writes ..) (by decide)⟩
/-- A reference the stretch does not write keeps its contents across it. -/
theorem hostOps2_keep (V : Valuation τ sig (Elt F)) {r : Ref sig .tc} (hr : r ∉ hostOps2_w) :
    after hostOps2 V (Proc.devRef .tc r) = V (Proc.devRef .tc r) :=
  after_of_writes_sub hostOps2 V hostOps2_writes hr

/-- The references the stretch `hostOps2_1` writes: each operation's result, in order. -/
abbrev hostOps2_1_w : List (Ref sig .tc) :=
  [ main_call3_cst, main_call3_v0, main_call3_v1, main_call3_cst_0, main_call3_v2, main_call3_v3, main_call3_v4, main_call3_v5,
    main_call3_v6, main_call3_v7, main_call3_cst_1, main_call3_v8, main_call3_cst_2, main_call3_v9, main_call3_v10, main_call3_v11,
    main_call3_cst_3, main_call3_v12, main_call3_cst_4, main_call3_call0_v0, main_call3_call0_v1, main_v32 ]
theorem hostOps2_1_writes : (hostOps2_1 : List (HloOp τ sig (Elt F))).Forall fun op =>
    op.writes ⊆ (hostOps2_1_w.map (Proc.devRef (τ := τ) .tc)).toFinset :=
  ⟨writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (unary_writes ..) (by decide), writes_sub_of_mem (binary_writes ..) (by decide), writes_sub_of_mem (binary_writes ..) (by decide),
   writes_sub_of_mem (unary_writes ..) (by decide), writes_sub_of_mem (nullary_writes ..) (by decide), writes_sub_of_mem (binary_writes ..) (by decide),
   writes_sub_of_mem (nullary_writes ..) (by decide), writes_sub_of_mem (binary_writes ..) (by decide), writes_sub_of_mem (unary_writes ..) (by decide),
   writes_sub_of_mem (binary_writes ..) (by decide), writes_sub_of_mem (nullary_writes ..) (by decide), writes_sub_of_mem (binary_writes ..) (by decide),
   writes_sub_of_mem (nullary_writes ..) (by decide), writes_sub_of_mem (unary_writes ..) (by decide), writes_sub_of_mem (unary_writes ..) (by decide),
   writes_sub_of_mem (ternary_writes ..) (by decide)⟩
/-- A reference the stretch does not write keeps its contents across it. -/
theorem hostOps2_1_keep (V : Valuation τ sig (Elt F)) {r : Ref sig .tc} (hr : r ∉ hostOps2_1_w) :
    after hostOps2_1 V (Proc.devRef .tc r) = V (Proc.devRef .tc r) :=
  after_of_writes_sub hostOps2_1 V hostOps2_1_writes hr

/-- The references the stretch `hostOps2_2` writes: each operation's result, in order. -/
abbrev hostOps2_2_w : List (Ref sig .tc) :=
  [ main_v33, main_v34, main_v35, main_v36, main_v37, main_v38, main_cst_5, main_v39,
    main_v40, main_v41, main_v42, main_v43, main_v44, main_v45, main_v46, main_v47 ]
theorem hostOps2_2_writes : (hostOps2_2 : List (HloOp τ sig (Elt F))).Forall fun op =>
    op.writes ⊆ (hostOps2_2_w.map (Proc.devRef (τ := τ) .tc)).toFinset :=
  ⟨writes_sub_of_mem (unary_writes ..) (by decide), writes_sub_of_mem (unary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (unary_writes ..) (by decide), writes_sub_of_mem (binary_writes ..) (by decide),
   writes_sub_of_mem (unary_writes ..) (by decide), writes_sub_of_mem (unary_writes ..) (by decide), writes_sub_of_mem (unary_writes ..) (by decide),
   writes_sub_of_mem (binary_writes ..) (by decide), writes_sub_of_mem (unary_writes ..) (by decide), writes_sub_of_mem (unary_writes ..) (by decide),
   writes_sub_of_mem (binary_writes ..) (by decide)⟩
/-- A reference the stretch does not write keeps its contents across it. -/
theorem hostOps2_2_keep (V : Valuation τ sig (Elt F)) {r : Ref sig .tc} (hr : r ∉ hostOps2_2_w) :
    after hostOps2_2 V (Proc.devRef .tc r) = V (Proc.devRef .tc r) :=
  after_of_writes_sub hostOps2_2 V hostOps2_2_writes hr

/-- The references the stretch `hostOps2_3` writes: each operation's result, in order. -/
abbrev hostOps2_3_w : List (Ref sig .tc) :=
  [ main_call4_cst, main_call4_v0, main_v48 ]
theorem hostOps2_3_writes : (hostOps2_3 : List (HloOp τ sig (Elt F))).Forall fun op =>
    op.writes ⊆ (hostOps2_3_w.map (Proc.devRef (τ := τ) .tc)).toFinset :=
  ⟨writes_sub_of_mem (nullary_writes ..) (by decide), writes_sub_of_mem (unary_writes ..) (by decide), writes_sub_of_mem (binary_writes ..) (by decide)⟩
/-- A reference the stretch does not write keeps its contents across it. -/
theorem hostOps2_3_keep (V : Valuation τ sig (Elt F)) {r : Ref sig .tc} (hr : r ∉ hostOps2_3_w) :
    after hostOps2_3 V (Proc.devRef .tc r) = V (Proc.devRef .tc r) :=
  after_of_writes_sub hostOps2_3 V hostOps2_3_writes hr

/-- The references the stretch `hostOps2_4` writes: each operation's result, in order. -/
abbrev hostOps2_4_w : List (Ref sig .tc) :=
  [ main_v49, main_v50, main_v51, main_v52 ]
theorem hostOps2_4_writes : (hostOps2_4 : List (HloOp τ sig (Elt F))).Forall fun op =>
    op.writes ⊆ (hostOps2_4_w.map (Proc.devRef (τ := τ) .tc)).toFinset :=
  ⟨writes_sub_of_mem (binary_writes ..) (by decide), writes_sub_of_mem (unary_writes ..) (by decide), writes_sub_of_mem (unary_writes ..) (by decide),
   writes_sub_of_mem (binary_writes ..) (by decide)⟩
/-- A reference the stretch does not write keeps its contents across it. -/
theorem hostOps2_4_keep (V : Valuation τ sig (Elt F)) {r : Ref sig .tc} (hr : r ∉ hostOps2_4_w) :
    after hostOps2_4 V (Proc.devRef .tc r) = V (Proc.devRef .tc r) :=
  after_of_writes_sub hostOps2_4 V hostOps2_4_writes hr

/-- The references the stretch `hostOps2_5` writes: each operation's result, in order. -/
abbrev hostOps2_5_w : List (Ref sig .tc) :=
  [ main_call5_cst, main_call5_v0, main_v53 ]
theorem hostOps2_5_writes : (hostOps2_5 : List (HloOp τ sig (Elt F))).Forall fun op =>
    op.writes ⊆ (hostOps2_5_w.map (Proc.devRef (τ := τ) .tc)).toFinset :=
  ⟨writes_sub_of_mem (nullary_writes ..) (by decide), writes_sub_of_mem (unary_writes ..) (by decide), writes_sub_of_mem (binary_writes ..) (by decide)⟩
/-- A reference the stretch does not write keeps its contents across it. -/
theorem hostOps2_5_keep (V : Valuation τ sig (Elt F)) {r : Ref sig .tc} (hr : r ∉ hostOps2_5_w) :
    after hostOps2_5 V (Proc.devRef .tc r) = V (Proc.devRef .tc r) :=
  after_of_writes_sub hostOps2_5 V hostOps2_5_writes hr

/-- The references the stretch `hostOps2_6` writes: each operation's result, in order. -/
abbrev hostOps2_6_w : List (Ref sig .tc) :=
  [ main_v54 ]
theorem hostOps2_6_writes : (hostOps2_6 : List (HloOp τ sig (Elt F))).Forall fun op =>
    op.writes ⊆ (hostOps2_6_w.map (Proc.devRef (τ := τ) .tc)).toFinset :=
  writes_sub_of_mem (reshape_writes ..) (by decide)
/-- A reference the stretch does not write keeps its contents across it. -/
theorem hostOps2_6_keep (V : Valuation τ sig (Elt F)) {r : Ref sig .tc} (hr : r ∉ hostOps2_6_w) :
    after hostOps2_6 V (Proc.devRef .tc r) = V (Proc.devRef .tc r) :=
  after_of_writes_sub hostOps2_6 V hostOps2_6_writes hr

/-- Everything the seven stretches write. -/
abbrev kG2_w : List (Ref sig .tc) := hostOps2_w ++ hostOps2_1_w ++ hostOps2_2_w ++ hostOps2_3_w ++ hostOps2_4_w ++ hostOps2_5_w ++ hostOps2_6_w
theorem kG2_keep (W : Valuation τ sig (Elt F)) {r : Ref sig .tc} (hr : r ∉ kG2_w) :
    after hostOps2_6 (after hostOps2_5 (after hostOps2_4 (after hostOps2_3 (after hostOps2_2 (after hostOps2_1 (after hostOps2 (W))))))) (Proc.devRef .tc r) = W (Proc.devRef .tc r) := by
  simp only [kG2_w, List.mem_append, not_or] at hr
  obtain ⟨⟨⟨⟨⟨⟨h0, h1⟩, h2⟩, h3⟩, h4⟩, h5⟩, h6⟩ := hr
  rw [hostOps2_6_keep _ h6, hostOps2_5_keep _ h5, hostOps2_4_keep _ h4, hostOps2_3_keep _ h3, hostOps2_2_keep _ h2, hostOps2_1_keep _ h1, hostOps2_keep _ h0]

/-- After the stretches, `main_v53` holds the layer's tail of W's `main_v28` and parameter arrays. -/
theorem kG2_h (W : Valuation τ sig (Elt F)) :
    after hostOps2_6 (after hostOps2_5 (after hostOps2_4 (after hostOps2_3 (after hostOps2_2 (after hostOps2_1 (after hostOps2 (W))))))) (Proc.devRef .tc main_v53)
      = ginTail (W (Proc.devRef .tc main_v28)) (W (Proc.devRef .tc main_arg10)) (W (Proc.devRef .tc main_arg11)) (W (Proc.devRef .tc main_arg12)) (W (Proc.devRef .tc main_arg13)) := by
  after_results_simp
  rfl

/-- After the stretches, `main_v54` holds W's `main_arg15` reshaped to one row. -/
theorem kG2_bias (W : Valuation τ sig (Elt F)) :
    after hostOps2_6 (after hostOps2_5 (after hostOps2_4 (after hostOps2_3 (after hostOps2_2 (after hostOps2_1 (after hostOps2 (W))))))) (Proc.devRef .tc main_v54)
      = (shapeCast S1x128 (W (Proc.devRef .tc main_arg15)) shapeCasts_S128_S1x128 : (⟨S1x128, .f32⟩ : BufTy).Contents (Elt F)) := by
  after_results_simp
  rfl

end Cert.KernelIdeal.Hand

end
-- ==== Proof.KHostG3.lean ====
/- The host stretches after region 2 of the kernel program (`hostOps3` … `hostOps3_10`, the generated lists, calls already
   inlined), read as pure functions: from ANY valuation W, after the first six the third layer's output buffer holds the
   normalise-and-two-layer tail of what W has in the region's output array and the layer's four parameter arrays; after
   the remaining five the result buffer holds the readout of the three layers' output buffers pooled over the nodes —
   the same functions as the reference program's. -/
import proofs.«155579_j31937376813550_1_alg».proof.Proof.Gen.KernelIdeal.Launch
import proofs.«155579_j31937376813550_1_alg».proof.Proof.RefOpsLib
import proofs.«155579_j31937376813550_1_alg».proof.Proof.RefFns
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.Hand (ginTail mlpTail bnMean bnVar bnApply meanPool headLogit headOut writes_sub_of_mem)

variable {F : FTy → Type} [FloatOps F]

/-- The references the stretch `hostOps3` writes: each operation's result, in order. -/
abbrev hostOps3_w : List (Ref sig .tc) :=
  [ main_cst_6, main_v56, main_cst_7, main_v57, main_v58, main_c_8 ]
theorem hostOps3_writes : (hostOps3 : List (HloOp τ sig (Elt F))).Forall fun op =>
    op.writes ⊆ (hostOps3_w.map (Proc.devRef (τ := τ) .tc)).toFinset :=
  ⟨writes_sub_of_mem (nullary_writes ..) (by decide), writes_sub_of_mem (binary_writes ..) (by decide), writes_sub_of_mem (nullary_writes ..) (by decide),
   writes_sub_of_mem (unary_writes ..) (by decide), writes_sub_of_mem (binary_writes ..) (by decide), writes_sub_of_mem (nullary_writes ..) (by decide)⟩
/-- A reference the stretch does not write keeps its contents across it. -/
theorem hostOps3_keep (V : Valuation τ sig (Elt F)) {r : Ref sig .tc} (hr : r ∉ hostOps3_w) :
    after hostOps3 V (Proc.devRef .tc r) = V (Proc.devRef .tc r) :=
  after_of_writes_sub hostOps3 V hostOps3_writes hr

/-- The references the stretch `hostOps3_1` writes: each operation's result, in order. -/
abbrev hostOps3_1_w : List (Ref sig .tc) :=
  [ main_call6_cst, main_call6_v0, main_call6_v1, main_call6_cst_0, main_call6_v2, main_call6_v3, main_call6_v4, main_call6_v5,
    main_call6_v6, main_call6_v7, main_call6_cst_1, main_call6_v8, main_call6_cst_2, main_call6_v9, main_call6_v10, main_call6_v11,
    main_call6_cst_3, main_call6_v12, main_call6_cst_4, main_call6_call0_v0, main_call6_call0_v1, main_v59 ]
theorem hostOps3_1_writes : (hostOps3_1 : List (HloOp τ sig (Elt F))).Forall fun op =>
    op.writes ⊆ (hostOps3_1_w.map (Proc.devRef (τ := τ) .tc)).toFinset :=
  ⟨writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (unary_writes ..) (by decide), writes_sub_of_mem (binary_writes ..) (by decide), writes_sub_of_mem (binary_writes ..) (by decide),
   writes_sub_of_mem (unary_writes ..) (by decide), writes_sub_of_mem (nullary_writes ..) (by decide), writes_sub_of_mem (binary_writes ..) (by decide),
   writes_sub_of_mem (nullary_writes ..) (by decide), writes_sub_of_mem (binary_writes ..) (by decide), writes_sub_of_mem (unary_writes ..) (by decide),
   writes_sub_of_mem (binary_writes ..) (by decide), writes_sub_of_mem (nullary_writes ..) (by decide), writes_sub_of_mem (binary_writes ..) (by decide),
   writes_sub_of_mem (nullary_writes ..) (by decide), writes_sub_of_mem (unary_writes ..) (by decide), writes_sub_of_mem (unary_writes ..) (by decide),
   writes_sub_of_mem (ternary_writes ..) (by decide)⟩
/-- A reference the stretch does not write keeps its contents across it. -/
theorem hostOps3_1_keep (V : Valuation τ sig (Elt F)) {r : Ref sig .tc} (hr : r ∉ hostOps3_1_w) :
    after hostOps3_1 V (Proc.devRef .tc r) = V (Proc.devRef .tc r) :=
  after_of_writes_sub hostOps3_1 V hostOps3_1_writes hr

/-- The references the stretch `hostOps3_2` writes: each operation's result, in order. -/
abbrev hostOps3_2_w : List (Ref sig .tc) :=
  [ main_v60, main_v61, main_v62, main_v63, main_v64, main_v65, main_cst_9, main_v66,
    main_v67, main_v68, main_v69, main_v70, main_v71, main_v72, main_v73, main_v74 ]
theorem hostOps3_2_writes : (hostOps3_2 : List (HloOp τ sig (Elt F))).Forall fun op =>
    op.writes ⊆ (hostOps3_2_w.map (Proc.devRef (τ := τ) .tc)).toFinset :=
  ⟨writes_sub_of_mem (unary_writes ..) (by decide), writes_sub_of_mem (unary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (unary_writes ..) (by decide), writes_sub_of_mem (binary_writes ..) (by decide),
   writes_sub_of_mem (unary_writes ..) (by decide), writes_sub_of_mem (unary_writes ..) (by decide), writes_sub_of_mem (unary_writes ..) (by decide),
   writes_sub_of_mem (binary_writes ..) (by decide), writes_sub_of_mem (unary_writes ..) (by decide), writes_sub_of_mem (unary_writes ..) (by decide),
   writes_sub_of_mem (binary_writes ..) (by decide)⟩
/-- A reference the stretch does not write keeps its contents across it. -/
theorem hostOps3_2_keep (V : Valuation τ sig (Elt F)) {r : Ref sig .tc} (hr : r ∉ hostOps3_2_w) :
    after hostOps3_2 V (Proc.devRef .tc r) = V (Proc.devRef .tc r) :=
  after_of_writes_sub hostOps3_2 V hostOps3_2_writes hr

/-- The references the stretch `hostOps3_3` writes: each operation's result, in order. -/
abbrev hostOps3_3_w : List (Ref sig .tc) :=
  [ main_call7_cst, main_call7_v0, main_v75 ]
theorem hostOps3_3_writes : (hostOps3_3 : List (HloOp τ sig (Elt F))).Forall fun op =>
    op.writes ⊆ (hostOps3_3_w.map (Proc.devRef (τ := τ) .tc)).toFinset :=
  ⟨writes_sub_of_mem (nullary_writes ..) (by decide), writes_sub_of_mem (unary_writes ..) (by decide), writes_sub_of_mem (binary_writes ..) (by decide)⟩
/-- A reference the stretch does not write keeps its contents across it. -/
theorem hostOps3_3_keep (V : Valuation τ sig (Elt F)) {r : Ref sig .tc} (hr : r ∉ hostOps3_3_w) :
    after hostOps3_3 V (Proc.devRef .tc r) = V (Proc.devRef .tc r) :=
  after_of_writes_sub hostOps3_3 V hostOps3_3_writes hr

/-- The references the stretch `hostOps3_4` writes: each operation's result, in order. -/
abbrev hostOps3_4_w : List (Ref sig .tc) :=
  [ main_v76, main_v77, main_v78, main_v79 ]
theorem hostOps3_4_writes : (hostOps3_4 : List (HloOp τ sig (Elt F))).Forall fun op =>
    op.writes ⊆ (hostOps3_4_w.map (Proc.devRef (τ := τ) .tc)).toFinset :=
  ⟨writes_sub_of_mem (binary_writes ..) (by decide), writes_sub_of_mem (unary_writes ..) (by decide), writes_sub_of_mem (unary_writes ..) (by decide),
   writes_sub_of_mem (binary_writes ..) (by decide)⟩
/-- A reference the stretch does not write keeps its contents across it. -/
theorem hostOps3_4_keep (V : Valuation τ sig (Elt F)) {r : Ref sig .tc} (hr : r ∉ hostOps3_4_w) :
    after hostOps3_4 V (Proc.devRef .tc r) = V (Proc.devRef .tc r) :=
  after_of_writes_sub hostOps3_4 V hostOps3_4_writes hr

/-- The references the stretch `hostOps3_5` writes: each operation's result, in order. -/
abbrev hostOps3_5_w : List (Ref sig .tc) :=
  [ main_call8_cst, main_call8_v0, main_v80 ]
theorem hostOps3_5_writes : (hostOps3_5 : List (HloOp τ sig (Elt F))).Forall fun op =>
    op.writes ⊆ (hostOps3_5_w.map (Proc.devRef (τ := τ) .tc)).toFinset :=
  ⟨writes_sub_of_mem (nullary_writes ..) (by decide), writes_sub_of_mem (unary_writes ..) (by decide), writes_sub_of_mem (binary_writes ..) (by decide)⟩
/-- A reference the stretch does not write keeps its contents across it. -/
theorem hostOps3_5_keep (V : Valuation τ sig (Elt F)) {r : Ref sig .tc} (hr : r ∉ hostOps3_5_w) :
    after hostOps3_5 V (Proc.devRef .tc r) = V (Proc.devRef .tc r) :=
  after_of_writes_sub hostOps3_5 V hostOps3_5_writes hr

/-- The references the stretch `hostOps3_6` writes: each operation's result, in order. -/
abbrev hostOps3_6_w : List (Ref sig .tc) :=
  [ main_cst_10, main_v81, main_v82, main_cst_11, main_v83, main_v84, main_cst_12, main_v85,
    main_v86, main_cst_13, main_v87, main_v88, main_cst_14, main_v89, main_v90, main_cst_15,
    main_v91, main_v92, main_v93, main_v94, main_v95, main_v96 ]
theorem hostOps3_6_writes : (hostOps3_6 : List (HloOp τ sig (Elt F))).Forall fun op =>
    op.writes ⊆ (hostOps3_6_w.map (Proc.devRef (τ := τ) .tc)).toFinset :=
  ⟨writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (nary_writes ..) (by decide), writes_sub_of_mem (binary_writes ..) (by decide), writes_sub_of_mem (unary_writes ..) (by decide),
   writes_sub_of_mem (binary_writes ..) (by decide)⟩
/-- A reference the stretch does not write keeps its contents across it. -/
theorem hostOps3_6_keep (V : Valuation τ sig (Elt F)) {r : Ref sig .tc} (hr : r ∉ hostOps3_6_w) :
    after hostOps3_6 V (Proc.devRef .tc r) = V (Proc.devRef .tc r) :=
  after_of_writes_sub hostOps3_6 V hostOps3_6_writes hr

/-- The references the stretch `hostOps3_7` writes: each operation's result, in order. -/
abbrev hostOps3_7_w : List (Ref sig .tc) :=
  [ main_call9_cst, main_call9_v0, main_v97 ]
theorem hostOps3_7_writes : (hostOps3_7 : List (HloOp τ sig (Elt F))).Forall fun op =>
    op.writes ⊆ (hostOps3_7_w.map (Proc.devRef (τ := τ) .tc)).toFinset :=
  ⟨writes_sub_of_mem (nullary_writes ..) (by decide), writes_sub_of_mem (unary_writes ..) (by decide), writes_sub_of_mem (binary_writes ..) (by decide)⟩
/-- A reference the stretch does not write keeps its contents across it. -/
theorem hostOps3_7_keep (V : Valuation τ sig (Elt F)) {r : Ref sig .tc} (hr : r ∉ hostOps3_7_w) :
    after hostOps3_7 V (Proc.devRef .tc r) = V (Proc.devRef .tc r) :=
  after_of_writes_sub hostOps3_7 V hostOps3_7_writes hr

/-- The references the stretch `hostOps3_8` writes: each operation's result, in order. -/
abbrev hostOps3_8_w : List (Ref sig .tc) :=
  [ main_v98, main_v99, main_v100 ]
theorem hostOps3_8_writes : (hostOps3_8 : List (HloOp τ sig (Elt F))).Forall fun op =>
    op.writes ⊆ (hostOps3_8_w.map (Proc.devRef (τ := τ) .tc)).toFinset :=
  ⟨writes_sub_of_mem (binary_writes ..) (by decide), writes_sub_of_mem (unary_writes ..) (by decide), writes_sub_of_mem (binary_writes ..) (by decide)⟩
/-- A reference the stretch does not write keeps its contents across it. -/
theorem hostOps3_8_keep (V : Valuation τ sig (Elt F)) {r : Ref sig .tc} (hr : r ∉ hostOps3_8_w) :
    after hostOps3_8 V (Proc.devRef .tc r) = V (Proc.devRef .tc r) :=
  after_of_writes_sub hostOps3_8 V hostOps3_8_writes hr

/-- The references the stretch `hostOps3_9` writes: each operation's result, in order. -/
abbrev hostOps3_9_w : List (Ref sig .tc) :=
  [ main_call10_cst, main_call10_v0, main_call10_cst_0, main_call10_v1, main_call10_v2, main_call10_v3, main_call10_v4, main_call10_v5,
    main_call10_cst_1, main_call10_v6, main_call10_v7, main_call10_v8, main_v101 ]
theorem hostOps3_9_writes : (hostOps3_9 : List (HloOp τ sig (Elt F))).Forall fun op =>
    op.writes ⊆ (hostOps3_9_w.map (Proc.devRef (τ := τ) .tc)).toFinset :=
  ⟨writes_sub_of_mem (nullary_writes ..) (by decide), writes_sub_of_mem (binary_writes ..) (by decide), writes_sub_of_mem (nullary_writes ..) (by decide),
   writes_sub_of_mem (unary_writes ..) (by decide), writes_sub_of_mem (binary_writes ..) (by decide), writes_sub_of_mem (unary_writes ..) (by decide),
   writes_sub_of_mem (binary_writes ..) (by decide), writes_sub_of_mem (unary_writes ..) (by decide), writes_sub_of_mem (nullary_writes ..) (by decide),
   writes_sub_of_mem (binary_writes ..) (by decide), writes_sub_of_mem (unary_writes ..) (by decide), writes_sub_of_mem (unary_writes ..) (by decide),
   writes_sub_of_mem (binary_writes ..) (by decide)⟩
/-- A reference the stretch does not write keeps its contents across it. -/
theorem hostOps3_9_keep (V : Valuation τ sig (Elt F)) {r : Ref sig .tc} (hr : r ∉ hostOps3_9_w) :
    after hostOps3_9 V (Proc.devRef .tc r) = V (Proc.devRef .tc r) :=
  after_of_writes_sub hostOps3_9 V hostOps3_9_writes hr

/-- The references the stretch `hostOps3_10` writes: each operation's result, in order. -/
abbrev hostOps3_10_w : List (Ref sig .tc) :=
  [ main_v102 ]
theorem hostOps3_10_writes : (hostOps3_10 : List (HloOp τ sig (Elt F))).Forall fun op =>
    op.writes ⊆ (hostOps3_10_w.map (Proc.devRef (τ := τ) .tc)).toFinset :=
  writes_sub_of_mem (reshape_writes ..) (by decide)
/-- A reference the stretch does not write keeps its contents across it. -/
theorem hostOps3_10_keep (V : Valuation τ sig (Elt F)) {r : Ref sig .tc} (hr : r ∉ hostOps3_10_w) :
    after hostOps3_10 V (Proc.devRef .tc r) = V (Proc.devRef .tc r) :=
  after_of_writes_sub hostOps3_10 V hostOps3_10_writes hr

/-- Everything the first six stretches write. -/
abbrev kG3a_w : List (Ref sig .tc) := hostOps3_w ++ hostOps3_1_w ++ hostOps3_2_w ++ hostOps3_3_w ++ hostOps3_4_w ++ hostOps3_5_w
theorem kG3a_keep (W : Valuation τ sig (Elt F)) {r : Ref sig .tc} (hr : r ∉ kG3a_w) :
    after hostOps3_5 (after hostOps3_4 (after hostOps3_3 (after hostOps3_2 (after hostOps3_1 (after hostOps3 (W)))))) (Proc.devRef .tc r) = W (Proc.devRef .tc r) := by
  simp only [kG3a_w, List.mem_append, not_or] at hr
  obtain ⟨⟨⟨⟨⟨h0, h1⟩, h2⟩, h3⟩, h4⟩, h5⟩ := hr
  rw [hostOps3_5_keep _ h5, hostOps3_4_keep _ h4, hostOps3_3_keep _ h3, hostOps3_2_keep _ h2, hostOps3_1_keep _ h1, hostOps3_keep _ h0]

/-- Everything the last five stretches write. -/
abbrev kG3b_w : List (Ref sig .tc) := hostOps3_6_w ++ hostOps3_7_w ++ hostOps3_8_w ++ hostOps3_9_w ++ hostOps3_10_w
theorem kG3b_keep (W : Valuation τ sig (Elt F)) {r : Ref sig .tc} (hr : r ∉ kG3b_w) :
    after hostOps3_10 (after hostOps3_9 (after hostOps3_8 (after hostOps3_7 (after hostOps3_6 (W))))) (Proc.devRef .tc r) = W (Proc.devRef .tc r) := by
  simp only [kG3b_w, List.mem_append, not_or] at hr
  obtain ⟨⟨⟨⟨h0, h1⟩, h2⟩, h3⟩, h4⟩ := hr
  rw [hostOps3_10_keep _ h4, hostOps3_9_keep _ h3, hostOps3_8_keep _ h2, hostOps3_7_keep _ h1, hostOps3_6_keep _ h0]

/-- After the first six stretches, `main_v80` holds the layer's tail of W's `main_v55` and parameter arrays. -/
theorem kG3_h (W : Valuation τ sig (Elt F)) :
    after hostOps3_5 (after hostOps3_4 (after hostOps3_3 (after hostOps3_2 (after hostOps3_1 (after hostOps3 (W)))))) (Proc.devRef .tc main_v80)
      = ginTail (W (Proc.devRef .tc main_v55)) (W (Proc.devRef .tc main_arg16)) (W (Proc.devRef .tc main_arg17)) (W (Proc.devRef .tc main_arg18)) (W (Proc.devRef .tc main_arg19)) := by
  after_results_simp
  rfl

/-- After the last five stretches, the result buffer holds the readout of the three layers' outputs pooled. -/
theorem kG3b_out (W : Valuation τ sig (Elt F)) :
    after hostOps3_10 (after hostOps3_9 (after hostOps3_8 (after hostOps3_7 (after hostOps3_6 (W))))) (Proc.devRef .tc main_v102)
      = headOut (headLogit (meanPool (W (Proc.devRef .tc main_v26))) (meanPool (W (Proc.devRef .tc main_v53))) (meanPool (W (Proc.devRef .tc main_v80)))
          (W (Proc.devRef .tc main_arg20)) (W (Proc.devRef .tc main_arg21)) (W (Proc.devRef .tc main_arg22)) (W (Proc.devRef .tc main_arg23))) := by
  after_results_simp
  rfl

/-- After all eleven, from W: the readout of W's first two layer outputs and of the third layer's tail, pooled. -/
theorem kG3_out (W : Valuation τ sig (Elt F)) :
    after hostOps3_10 (after hostOps3_9 (after hostOps3_8 (after hostOps3_7 (after hostOps3_6 (after hostOps3_5 (after hostOps3_4 (after hostOps3_3 (after hostOps3_2 (after hostOps3_1 (after hostOps3 (W))))))))))) (Proc.devRef .tc main_v102)
      = headOut (headLogit (meanPool (W (Proc.devRef .tc main_v26))) (meanPool (W (Proc.devRef .tc main_v53)))
          (meanPool (ginTail (W (Proc.devRef .tc main_v55)) (W (Proc.devRef .tc main_arg16)) (W (Proc.devRef .tc main_arg17)) (W (Proc.devRef .tc main_arg18)) (W (Proc.devRef .tc main_arg19))))
          (W (Proc.devRef .tc main_arg20)) (W (Proc.devRef .tc main_arg21)) (W (Proc.devRef .tc main_arg22)) (W (Proc.devRef .tc main_arg23))) := by
  rw [kG3b_out, kG3_h, kG3a_keep W (r := main_v26) (by decide), kG3a_keep W (r := main_v53) (by decide),
    kG3a_keep W (r := main_arg20) (by decide), kG3a_keep W (r := main_arg21) (by decide), kG3a_keep W (r := main_arg22) (by decide), kG3a_keep W (r := main_arg23) (by decide)]

end Cert.KernelIdeal.Hand

end
-- ==== Proof.KHost.lean ====
/- The kernel program's host stretches read along its run: with each region's output array left opaque (whatever its
   write-backs leave), the three layers' output buffers are the reference's layer tail of that array and the layer's
   parameter arrays, the result buffer is the reference's readout of the three pooled, each region finds at entry the
   launch contents of the argument arrays its windows read, the previous layer's output, and the bias argument reshaped
   to one row; an argument array is never written, by a stretch or by a region. -/
import proofs.«155579_j31937376813550_1_alg».proof.Proof.Segs
import proofs.«155579_j31937376813550_1_alg».proof.Proof.KHostG1
import proofs.«155579_j31937376813550_1_alg».proof.Proof.KHostG2
import proofs.«155579_j31937376813550_1_alg».proof.Proof.KHostG3

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.Hand (ginTail mlpTail bnMean bnVar bnApply meanPool headLogit headOut writes_sub_of_mem)

variable {F : FTy → Type} [FloatOps F]

variable (m : (ℓ : Loc nD τ sig) → Buf (Elt F) ℓ)

/-- The references the stretch `hostOps0` writes: each operation's result, in order. -/
abbrev hostOps0_w : List (Ref sig .tc) :=
  [ main_v0 ]
theorem hostOps0_writes : (hostOps0 : List (HloOp τ sig (Elt F))).Forall fun op =>
    op.writes ⊆ (hostOps0_w.map (Proc.devRef (τ := τ) .tc)).toFinset :=
  writes_sub_of_mem (reshape_writes ..) (by decide)
/-- A reference the stretch does not write keeps its contents across it. -/
theorem hostOps0_keep (V : Valuation τ sig (Elt F)) {r : Ref sig .tc} (hr : r ∉ hostOps0_w) :
    after hostOps0 V (Proc.devRef .tc r) = V (Proc.devRef .tc r) :=
  after_of_writes_sub hostOps0 V hostOps0_writes hr

/-- Everything the program writes outside its arguments: the stretches' results and the three regions' output arrays. -/
abbrev kAllW : List (Ref sig .tc) :=
  hostOps0_w ++ [main_v1] ++ kG1_w ++ [main_v28] ++ kG2_w ++ [main_v55] ++ kG3a_w ++ kG3b_w

/-! ## Outside everything written: outside each part -/

theorem kAllW_h0 {r : Ref sig .tc} (hr : r ∉ kAllW) : r ∉ hostOps0_w := fun h => hr (List.mem_append_left _ (List.mem_append_left _ (List.mem_append_left _ (List.mem_append_left _ (List.mem_append_left _ (List.mem_append_left _ (List.mem_append_left _ (h))))))))
theorem kAllW_v1 {r : Ref sig .tc} (hr : r ∉ kAllW) : r ≠ main_v1 := fun e => hr (List.mem_append_left _ (List.mem_append_left _ (List.mem_append_left _ (List.mem_append_left _ (List.mem_append_left _ (List.mem_append_left _ (List.mem_append_right _ (List.mem_singleton.2 e))))))))
theorem kAllW_g1 {r : Ref sig .tc} (hr : r ∉ kAllW) : r ∉ kG1_w := fun h => hr (List.mem_append_left _ (List.mem_append_left _ (List.mem_append_left _ (List.mem_append_left _ (List.mem_append_left _ (List.mem_append_right _ (h)))))))
theorem kAllW_v28 {r : Ref sig .tc} (hr : r ∉ kAllW) : r ≠ main_v28 := fun e => hr (List.mem_append_left _ (List.mem_append_left _ (List.mem_append_left _ (List.mem_append_left _ (List.mem_append_right _ (List.mem_singleton.2 e))))))
theorem kAllW_g2 {r : Ref sig .tc} (hr : r ∉ kAllW) : r ∉ kG2_w := fun h => hr (List.mem_append_left _ (List.mem_append_left _ (List.mem_append_left _ (List.mem_append_right _ (h)))))
theorem kAllW_v55 {r : Ref sig .tc} (hr : r ∉ kAllW) : r ≠ main_v55 := fun e => hr (List.mem_append_left _ (List.mem_append_left _ (List.mem_append_right _ (List.mem_singleton.2 e))))
theorem kAllW_g3a {r : Ref sig .tc} (hr : r ∉ kAllW) : r ∉ kG3a_w := fun h => hr (List.mem_append_left _ (List.mem_append_right _ (h)))
theorem kAllW_g3b {r : Ref sig .tc} (hr : r ∉ kAllW) : r ∉ kG3b_w := fun h => hr (List.mem_append_right _ (h))

/-! ## Region outputs and what passes a region -/

theorem B2_out (c : Dev nD) : B2 m c (Proc.devRef .tc main_v1) = (dat0 (Vr0 m) c).arrAt 5 cfg0.N := by
  unfold B2; exact Function.update_self ..
theorem B2_ne (c : Dev nD) {r : Ref sig .tc} (hr : r ≠ main_v1) : B2 m c (Proc.devRef .tc r) = V1 m c (Proc.devRef .tc r) := by
  unfold B2; exact Function.update_of_ne (devRef_ne_of_ne hr) ..
theorem B10_out (c : Dev nD) : B10 m c (Proc.devRef .tc main_v28) = (dat1 (Vr1 m) c).arrAt 5 cfg1.N := by
  unfold B10; exact Function.update_self ..
theorem B10_ne (c : Dev nD) {r : Ref sig .tc} (hr : r ≠ main_v28) : B10 m c (Proc.devRef .tc r) = B9 m c (Proc.devRef .tc r) := by
  unfold B10; exact Function.update_of_ne (devRef_ne_of_ne hr) ..
theorem B18_out (c : Dev nD) : B18 m c (Proc.devRef .tc main_v55) = (dat2 (Vr2 m) c).arrAt 5 cfg2.N := by
  unfold B18; exact Function.update_self ..
theorem B18_ne (c : Dev nD) {r : Ref sig .tc} (hr : r ≠ main_v55) : B18 m c (Proc.devRef .tc r) = B17 m c (Proc.devRef .tc r) := by
  unfold B18; exact Function.update_of_ne (devRef_ne_of_ne hr) ..

/-! ## A reference nothing writes holds its launch contents at every boundary -/

theorem V1_arg (c : Dev nD) {r : Ref sig .tc} (hr : r ∉ kAllW) : V1 m c (Proc.devRef .tc r) = m ((c.tc : Thread nD τ).loc r) :=
  hostOps0_keep (V0 m c) (kAllW_h0 hr)
theorem B2_arg (c : Dev nD) {r : Ref sig .tc} (hr : r ∉ kAllW) : B2 m c (Proc.devRef .tc r) = m ((c.tc : Thread nD τ).loc r) := by
  rw [B2_ne m c (kAllW_v1 hr), V1_arg m c hr]
theorem B9_arg (c : Dev nD) {r : Ref sig .tc} (hr : r ∉ kAllW) : B9 m c (Proc.devRef .tc r) = m ((c.tc : Thread nD τ).loc r) := by
  show after hostOps1_6 (after hostOps1_5 (after hostOps1_4 (after hostOps1_3 (after hostOps1_2 (after hostOps1_1 (after hostOps1 (B2 m c))))))) (Proc.devRef .tc r) = _
  rw [kG1_keep _ (kAllW_g1 hr), B2_arg m c hr]
theorem B10_arg (c : Dev nD) {r : Ref sig .tc} (hr : r ∉ kAllW) : B10 m c (Proc.devRef .tc r) = m ((c.tc : Thread nD τ).loc r) := by
  rw [B10_ne m c (kAllW_v28 hr), B9_arg m c hr]
theorem B17_arg (c : Dev nD) {r : Ref sig .tc} (hr : r ∉ kAllW) : B17 m c (Proc.devRef .tc r) = m ((c.tc : Thread nD τ).loc r) := by
  show after hostOps2_6 (after hostOps2_5 (after hostOps2_4 (after hostOps2_3 (after hostOps2_2 (after hostOps2_1 (after hostOps2 (B10 m c))))))) (Proc.devRef .tc r) = _
  rw [kG2_keep _ (kAllW_g2 hr), B10_arg m c hr]
theorem B18_arg (c : Dev nD) {r : Ref sig .tc} (hr : r ∉ kAllW) : B18 m c (Proc.devRef .tc r) = m ((c.tc : Thread nD τ).loc r) := by
  rw [B18_ne m c (kAllW_v55 hr), B17_arg m c hr]

/-! ## The three layers' outputs -/

/-- Layer 1's output buffer before region 1: the reference's layer tail of region 0's output array. -/
theorem kH1_eq (c : Dev nD) : B9 m c (Proc.devRef .tc main_v26) = ginTail ((dat0 (Vr0 m) c).arrAt 5 cfg0.N) (m ((c.tc : Thread nD τ).loc main_arg4)) (m ((c.tc : Thread nD τ).loc main_arg5)) (m ((c.tc : Thread nD τ).loc main_arg6)) (m ((c.tc : Thread nD τ).loc main_arg7)) := by
  show after hostOps1_6 (after hostOps1_5 (after hostOps1_4 (after hostOps1_3 (after hostOps1_2 (after hostOps1_1 (after hostOps1 (B2 m c))))))) (Proc.devRef .tc main_v26) = _
  rw [kG1_h, B2_out, B2_arg m c (r := main_arg4) (by decide), B2_arg m c (r := main_arg5) (by decide), B2_arg m c (r := main_arg6) (by decide), B2_arg m c (r := main_arg7) (by decide)]

/-- Layer 2's output buffer before region 2: the reference's layer tail of region 1's output array. -/
theorem kH2_eq (c : Dev nD) : B17 m c (Proc.devRef .tc main_v53) = ginTail ((dat1 (Vr1 m) c).arrAt 5 cfg1.N) (m ((c.tc : Thread nD τ).loc main_arg10)) (m ((c.tc : Thread nD τ).loc main_arg11)) (m ((c.tc : Thread nD τ).loc main_arg12)) (m ((c.tc : Thread nD τ).loc main_arg13)) := by
  show after hostOps2_6 (after hostOps2_5 (after hostOps2_4 (after hostOps2_3 (after hostOps2_2 (after hostOps2_1 (after hostOps2 (B10 m c))))))) (Proc.devRef .tc main_v53) = _
  rw [kG2_h, B10_out, B10_arg m c (r := main_arg10) (by decide), B10_arg m c (r := main_arg11) (by decide), B10_arg m c (r := main_arg12) (by decide), B10_arg m c (r := main_arg13) (by decide)]

/-- Layer 3's output buffer after the sixth stretch that follows region 2: the reference's layer tail of region 2's output array. -/
theorem kH3_eq (c : Dev nD) : B24 m c (Proc.devRef .tc main_v80) = ginTail ((dat2 (Vr2 m) c).arrAt 5 cfg2.N) (m ((c.tc : Thread nD τ).loc main_arg16)) (m ((c.tc : Thread nD τ).loc main_arg17)) (m ((c.tc : Thread nD τ).loc main_arg18)) (m ((c.tc : Thread nD τ).loc main_arg19)) := by
  show after hostOps3_5 (after hostOps3_4 (after hostOps3_3 (after hostOps3_2 (after hostOps3_1 (after hostOps3 (B18 m c)))))) (Proc.devRef .tc main_v80) = _
  rw [kG3_h, B18_out, B18_arg m c (r := main_arg16) (by decide), B18_arg m c (r := main_arg17) (by decide), B18_arg m c (r := main_arg18) (by decide), B18_arg m c (r := main_arg19) (by decide)]

/-- Layer 1's output is still in its buffer after region 2. -/
theorem B18_v26 (c : Dev nD) : B18 m c (Proc.devRef .tc main_v26) = B9 m c (Proc.devRef .tc main_v26) := by
  rw [B18_ne m c (r := main_v26) (by decide)]
  show after hostOps2_6 (after hostOps2_5 (after hostOps2_4 (after hostOps2_3 (after hostOps2_2 (after hostOps2_1 (after hostOps2 (B10 m c))))))) (Proc.devRef .tc main_v26) = _
  rw [kG2_keep _ (by decide), B10_ne m c (r := main_v26) (by decide)]
/-- Layer 2's output is still in its buffer after region 2. -/
theorem B18_v53 (c : Dev nD) : B18 m c (Proc.devRef .tc main_v53) = B17 m c (Proc.devRef .tc main_v53) :=
  B18_ne m c (r := main_v53) (by decide)

/-! ## The result -/

/-- The result buffer at the end of the run: the reference's readout of the three layers' outputs pooled over the nodes. -/
theorem kernel_result (c : Dev nD) :
    B29 m c (Proc.devRef .tc main_v102)
      = headOut (headLogit (meanPool (ginTail ((dat0 (Vr0 m) c).arrAt 5 cfg0.N) (m ((c.tc : Thread nD τ).loc main_arg4)) (m ((c.tc : Thread nD τ).loc main_arg5)) (m ((c.tc : Thread nD τ).loc main_arg6)) (m ((c.tc : Thread nD τ).loc main_arg7))))
          (meanPool (ginTail ((dat1 (Vr1 m) c).arrAt 5 cfg1.N) (m ((c.tc : Thread nD τ).loc main_arg10)) (m ((c.tc : Thread nD τ).loc main_arg11)) (m ((c.tc : Thread nD τ).loc main_arg12)) (m ((c.tc : Thread nD τ).loc main_arg13))))
          (meanPool (ginTail ((dat2 (Vr2 m) c).arrAt 5 cfg2.N) (m ((c.tc : Thread nD τ).loc main_arg16)) (m ((c.tc : Thread nD τ).loc main_arg17)) (m ((c.tc : Thread nD τ).loc main_arg18)) (m ((c.tc : Thread nD τ).loc main_arg19))))
          (m ((c.tc : Thread nD τ).loc main_arg20)) (m ((c.tc : Thread nD τ).loc main_arg21)) (m ((c.tc : Thread nD τ).loc main_arg22)) (m ((c.tc : Thread nD τ).loc main_arg23))) := by
  show after hostOps3_10 (after hostOps3_9 (after hostOps3_8 (after hostOps3_7 (after hostOps3_6 (after hostOps3_5 (after hostOps3_4 (after hostOps3_3 (after hostOps3_2 (after hostOps3_1 (after hostOps3 (B18 m c))))))))))) (Proc.devRef .tc main_v102) = _
  rw [kG3_out, B18_v26, B18_v53, kH1_eq, kH2_eq, B18_out,
    B18_arg m c (r := main_arg16) (by decide), B18_arg m c (r := main_arg17) (by decide), B18_arg m c (r := main_arg18) (by decide), B18_arg m c (r := main_arg19) (by decide), B18_arg m c (r := main_arg20) (by decide), B18_arg m c (r := main_arg21) (by decide), B18_arg m c (r := main_arg22) (by decide), B18_arg m c (r := main_arg23) (by decide)]

/-! ## What each region finds at entry, at the references its windows read -/

theorem Vr0_arg1 (c : Dev nD) : Vr0 m c main_arg1 = m ((c.tc : Thread nD τ).loc main_arg1) := V1_arg m c (by decide)
theorem Vr0_arg0 (c : Dev nD) : Vr0 m c main_arg0 = m ((c.tc : Thread nD τ).loc main_arg0) := V1_arg m c (by decide)
theorem Vr0_arg2 (c : Dev nD) : Vr0 m c main_arg2 = m ((c.tc : Thread nD τ).loc main_arg2) := V1_arg m c (by decide)
/-- Region 0's bias operand: the bias argument reshaped to one row. -/
theorem Vr0_bias (c : Dev nD) :
    Vr0 m c main_v0 = (shapeCast S1x128 (m ((c.tc : Thread nD τ).loc main_arg3)) shapeCasts_S128_S1x128 : (⟨S1x128, .f32⟩ : BufTy).Contents (Elt F)) := by
  show after hostOps0 (V0 m c) (Proc.devRef .tc main_v0) = _
  after_results_simp
  rfl

theorem Vr1_arg1 (c : Dev nD) : Vr1 m c main_arg1 = m ((c.tc : Thread nD τ).loc main_arg1) := B9_arg m c (by decide)
theorem Vr1_arg8 (c : Dev nD) : Vr1 m c main_arg8 = m ((c.tc : Thread nD τ).loc main_arg8) := B9_arg m c (by decide)
/-- Region 1's input: layer 1's output. -/
theorem Vr1_x (c : Dev nD) : Vr1 m c main_v26 = ginTail ((dat0 (Vr0 m) c).arrAt 5 cfg0.N) (m ((c.tc : Thread nD τ).loc main_arg4)) (m ((c.tc : Thread nD τ).loc main_arg5)) (m ((c.tc : Thread nD τ).loc main_arg6)) (m ((c.tc : Thread nD τ).loc main_arg7)) := kH1_eq m c
/-- Region 1's bias operand: the bias argument reshaped to one row. -/
theorem Vr1_bias (c : Dev nD) :
    Vr1 m c main_v27 = (shapeCast S1x128 (m ((c.tc : Thread nD τ).loc main_arg9)) shapeCasts_S128_S1x128 : (⟨S1x128, .f32⟩ : BufTy).Contents (Elt F)) := by
  show after hostOps1_6 (after hostOps1_5 (after hostOps1_4 (after hostOps1_3 (after hostOps1_2 (after hostOps1_1 (after hostOps1 (B2 m c))))))) (Proc.devRef .tc main_v27) = _
  rw [kG1_bias, B2_arg m c (r := main_arg9) (by decide)]

theorem Vr2_arg1 (c : Dev nD) : Vr2 m c main_arg1 = m ((c.tc : Thread nD τ).loc main_arg1) := B17_arg m c (by decide)
theorem Vr2_arg14 (c : Dev nD) : Vr2 m c main_arg14 = m ((c.tc : Thread nD τ).loc main_arg14) := B17_arg m c (by decide)
/-- Region 2's input: layer 2's output. -/
theorem Vr2_x (c : Dev nD) : Vr2 m c main_v53 = ginTail ((dat1 (Vr1 m) c).arrAt 5 cfg1.N) (m ((c.tc : Thread nD τ).loc main_arg10)) (m ((c.tc : Thread nD τ).loc main_arg11)) (m ((c.tc : Thread nD τ).loc main_arg12)) (m ((c.tc : Thread nD τ).loc main_arg13)) := kH2_eq m c
/-- Region 2's bias operand: the bias argument reshaped to one row. -/
theorem Vr2_bias (c : Dev nD) :
    Vr2 m c main_v54 = (shapeCast S1x128 (m ((c.tc : Thread nD τ).loc main_arg15)) shapeCasts_S128_S1x128 : (⟨S1x128, .f32⟩ : BufTy).Contents (Elt F)) := by
  show after hostOps2_6 (after hostOps2_5 (after hostOps2_4 (after hostOps2_3 (after hostOps2_2 (after hostOps2_1 (after hostOps2 (B10 m c))))))) (Proc.devRef .tc main_v54) = _
  rw [kG2_bias, B10_arg m c (r := main_arg15) (by decide)]

end Cert.KernelIdeal.Hand

end
-- ==== Proof.RefVal00.lean ====
/- Stretch 00 of the reference program's operations (operations 0 … 3 of the whole line, 4 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 4 operations, in order. -/
abbrev vops00 : List (HloOp τ sig (Elt F)) :=
  [ StableHlo.nullary main_c (constantI S_ 32 0#32),
    StableHlo.unary main_c main_v0 (broadcastInDim S8192x8192 ![] bcast_S_S8192x8192 : (⟨S_, .i32⟩ : BufTy).Contents (Elt F) → (⟨S8192x8192, .i32⟩ : BufTy).Contents (Elt F)),
    StableHlo.binary main_arg1 main_v0 main_v1 (cmpi .ne : (⟨S8192x8192, .i32⟩ : BufTy).Contents (Elt F) → (⟨S8192x8192, .i32⟩ : BufTy).Contents (Elt F) → (⟨S8192x8192, .i1⟩ : BufTy).Contents (Elt F)),
    StableHlo.unary main_v1 main_v2 (uitofp .f32 : (⟨S8192x8192, .i1⟩ : BufTy).Contents (Elt F) → (⟨S8192x8192, .f32⟩ : BufTy).Contents (Elt F)) ]

/-- The references the stretch writes: each operation's result, in order. -/
abbrev vwrites00 : List (Ref sig .tc) :=
  [ main_c, main_v0, main_v1, main_v2 ]

theorem vops00_writes : (vops00 : List (HloOp τ sig (Elt F))).Forall fun op =>
    op.writes ⊆ (vwrites00.map (Proc.devRef (τ := τ) .tc)).toFinset :=
  ⟨writes_sub_of_mem (nullary_writes ..) (by decide), writes_sub_of_mem (unary_writes ..) (by decide), writes_sub_of_mem (binary_writes ..) (by decide),
   writes_sub_of_mem (unary_writes ..) (by decide)⟩

/-- A reference the stretch does not write keeps its contents across it. -/
theorem vkeep00 (V : Valuation τ sig (Elt F)) {r : Ref sig .tc} (hr : r ∉ vwrites00) :
    after vops00 V (Proc.devRef .tc r) = V (Proc.devRef .tc r) :=
  after_of_writes_sub vops00 V vops00_writes hr

/-- What `main_v2` holds after the stretch: `adjOf` of the contents before it. -/
theorem val00_v2 (W : Valuation τ sig (Elt F)) :
    after vops00 W (Proc.devRef .tc main_v2) = adjOf (W (Proc.devRef .tc main_arg1)) := by
  after_results_simp
  rfl

end Cert.ReferenceIdeal.Hand

end
-- ==== Proof.RefVal01.lean ====
/- Stretch 01 of the reference program's operations (operations 4 … 9 of the whole line, 6 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 6 operations, in order. -/
abbrev vops01 : List (HloOp τ sig (Elt F)) :=
  [ StableHlo.binary main_v2 main_arg0 main_v3 ((fun l r => Host.dotGeneral dot_S8192x8192_S8192x64_S8192x64_0_0_1_1_n_n none l r) : (⟨S8192x8192, .f32⟩ : BufTy).Contents (Elt F) → (⟨S8192x64, .f32⟩ : BufTy).Contents (Elt F) → (⟨S8192x64, .f32⟩ : BufTy).Contents (Elt F)),
    StableHlo.binary main_arg0 main_v3 main_v4 (addf : (⟨S8192x64, .f32⟩ : BufTy).Contents (Elt F) → (⟨S8192x64, .f32⟩ : BufTy).Contents (Elt F) → (⟨S8192x64, .f32⟩ : BufTy).Contents (Elt F)),
    StableHlo.binary main_v4 main_arg2 main_v5 ((fun l r => Host.dotGeneral dot_S8192x64_S64x128_S8192x128_1_0_0_1_n_n none l r) : (⟨S8192x64, .f32⟩ : BufTy).Contents (Elt F) → (⟨S64x128, .f32⟩ : BufTy).Contents (Elt F) → (⟨S8192x128, .f32⟩ : BufTy).Contents (Elt F)),
    StableHlo.unary main_arg3 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S8192x128 ![0, 1] bcast_S1x128_S8192x128_0_1 : (⟨S1x128, .f32⟩ : BufTy).Contents (Elt F) → (⟨S8192x128, .f32⟩ : BufTy).Contents (Elt F)),
    StableHlo.binary main_v5 main_v7 main_v8 (addf : (⟨S8192x128, .f32⟩ : BufTy).Contents (Elt F) → (⟨S8192x128, .f32⟩ : BufTy).Contents (Elt F) → (⟨S8192x128, .f32⟩ : BufTy).Contents (Elt F)) ]

/-- The references the stretch writes: each operation's result, in order. -/
abbrev vwrites01 : List (Ref sig .tc) :=
  [ main_v3, main_v4, main_v5, main_v6, main_v7, main_v8 ]

theorem vops01_writes : (vops01 : List (HloOp τ sig (Elt F))).Forall fun op =>
    op.writes ⊆ (vwrites01.map (Proc.devRef (τ := τ) .tc)).toFinset :=
  ⟨writes_sub_of_mem (binary_writes ..) (by decide), writes_sub_of_mem (binary_writes ..) (by decide), writes_sub_of_mem (binary_writes ..) (by decide),
   writes_sub_of_mem (unary_writes ..) (by decide), writes_sub_of_mem (unary_writes ..) (by decide), writes_sub_of_mem (binary_writes ..) (by decide)⟩

/-- A reference the stretch does not write keeps its contents across it. -/
theorem vkeep01 (V : Valuation τ sig (Elt F)) {r : Ref sig .tc} (hr : r ∉ vwrites01) :
    after vops01 V (Proc.devRef .tc r) = V (Proc.devRef .tc r) :=
  after_of_writes_sub vops01 V vops01_writes hr

/-- What `main_v8` holds after the stretch: `lin1` of the contents before it. -/
theorem val01_v8 (W : Valuation τ sig (Elt F)) :
    after vops01 W (Proc.devRef .tc main_v8) = lin1 (W (Proc.devRef .tc main_v2)) (W (Proc.devRef .tc main_arg0)) (W (Proc.devRef .tc main_arg2)) (W (Proc.devRef .tc main_arg3)) := by
  after_results_simp
  rfl

end Cert.ReferenceIdeal.Hand

end
-- ==== Proof.RefVal02.lean ====
/- Stretch 02 of the reference program's operations (operations 10 … 37 of the whole line, 28 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 28 operations, in order. -/
abbrev vops02 : List (HloOp τ sig (Elt F)) :=
  [ StableHlo.nullary main_cst (constant S_ .f32 0x00000000#32),
    StableHlo.binary main_v8 main_cst main_v9 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.nullary main_cst_0 (constant S_ .f32 0x46000000#32),
    StableHlo.unary main_cst_0 main_v10 (broadcastInDim S128 ![] bcast_S_S128 : (⟨S_, .f32⟩ : BufTy).Contents (Elt F) → (⟨S128, .f32⟩ : BufTy).Contents (Elt F)),
    StableHlo.binary main_v9 main_v10 main_v11 (Host.divf : (⟨S128, .f32⟩ : BufTy).Contents (Elt F) → (⟨S128, .f32⟩ : BufTy).Contents (Elt F) → (⟨S128, .f32⟩ : BufTy).Contents (Elt F)),
    StableHlo.nullary main_c_1 (constantI S_ 32 0#32),
    StableHlo.TRef.nullary (.of main_call0_cst : StableHlo.TRef sig ⟨S_, .f32⟩) (constant S_ .f32 0x00000000#32),
    StableHlo.TRef.binary (.of main_v8 : StableHlo.TRef sig ⟨S8192x128, .f32⟩) (.of main_call0_cst : StableHlo.TRef sig ⟨S_, .f32⟩) (.of main_call0_v0 : StableHlo.TRef sig ⟨S128, .f32⟩) (fun x v => Host.reduceAdd x v reducesTo_S8192x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x46000000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S8192x128, .f32⟩) (broadcastInDim S8192x128 ![0, 1] bcast_S1x128_S8192x128_0_1),
    StableHlo.TRef.binary (.of main_v8 : StableHlo.TRef sig ⟨S8192x128, .f32⟩) (.of main_call0_v4 : StableHlo.TRef sig ⟨S8192x128, .f32⟩) (.of main_call0_v5 : StableHlo.TRef sig ⟨S8192x128, .f32⟩) subf,
    StableHlo.TRef.binary (.of main_call0_v5 : StableHlo.TRef sig ⟨S8192x128, .f32⟩) (.of main_call0_v5 : StableHlo.TRef sig ⟨S8192x128, .f32⟩) (.of main_call0_v6 : StableHlo.TRef sig ⟨S8192x128, .f32⟩) mulf,
    StableHlo.TRef.unary (.of main_c_1 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8192x128, .f32⟩) (.of main_call0_cst_2 : StableHlo.TRef sig ⟨S_, .f32⟩) (.of main_call0_v9 : StableHlo.TRef sig ⟨S128, .f32⟩) (fun x v => Host.reduceAdd x v reducesTo_S8192x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v12 : StableHlo.TRef sig ⟨S128, .f32⟩) (fun p a b => select (broadcastInDim S128 ![] bcast_S_S128 p) a b) ]

/-- The references the stretch writes: each operation's result, in order. -/
abbrev vwrites02 : List (Ref sig .tc) :=
  [ main_cst, main_v9, main_cst_0, main_v10, main_v11, main_c_1, main_call0_cst, main_call0_v0,
    main_call0_v1, main_call0_cst_0, main_call0_v2, main_call0_v3, main_call0_v4, main_call0_v5, main_call0_v6, main_call0_v7,
    main_call0_cst_1, main_call0_v8, main_call0_cst_2, main_call0_v9, main_call0_v10, main_call0_v11, main_call0_cst_3, main_call0_v12,
    main_call0_cst_4, main_call0_call0_v0, main_call0_call0_v1, main_v12 ]

theorem vops02_writes : (vops02 : List (HloOp τ sig (Elt F))).Forall fun op =>
    op.writes ⊆ (vwrites02.map (Proc.devRef (τ := τ) .tc)).toFinset :=
  ⟨writes_sub_of_mem (nullary_writes ..) (by decide), writes_sub_of_mem (binary_writes ..) (by decide), writes_sub_of_mem (nullary_writes ..) (by decide),
   writes_sub_of_mem (unary_writes ..) (by decide), writes_sub_of_mem (binary_writes ..) (by decide), writes_sub_of_mem (nullary_writes ..) (by decide),
   writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (unary_writes ..) (by decide), writes_sub_of_mem (binary_writes ..) (by decide), writes_sub_of_mem (binary_writes ..) (by decide),
   writes_sub_of_mem (unary_writes ..) (by decide), writes_sub_of_mem (nullary_writes ..) (by decide), writes_sub_of_mem (binary_writes ..) (by decide),
   writes_sub_of_mem (nullary_writes ..) (by decide), writes_sub_of_mem (binary_writes ..) (by decide), writes_sub_of_mem (unary_writes ..) (by decide),
   writes_sub_of_mem (binary_writes ..) (by decide), writes_sub_of_mem (nullary_writes ..) (by decide), writes_sub_of_mem (binary_writes ..) (by decide),
   writes_sub_of_mem (nullary_writes ..) (by decide), writes_sub_of_mem (unary_writes ..) (by decide), writes_sub_of_mem (unary_writes ..) (by decide),
   writes_sub_of_mem (ternary_writes ..) (by decide)⟩

/-- A reference the stretch does not write keeps its contents across it. -/
theorem vkeep02 (V : Valuation τ sig (Elt F)) {r : Ref sig .tc} (hr : r ∉ vwrites02) :
    after vops02 V (Proc.devRef .tc r) = V (Proc.devRef .tc r) :=
  after_of_writes_sub vops02 V vops02_writes hr

/-- What `main_v11` holds after the stretch: `bnMean` of the contents before it. -/
theorem val02_v11 (W : Valuation τ sig (Elt F)) :
    after vops02 W (Proc.devRef .tc main_v11) = bnMean (W (Proc.devRef .tc main_v8)) := by
  after_results_simp
  rfl

/-- What `main_v12` holds after the stretch: `bnVar` of the contents before it. -/
theorem val02_v12 (W : Valuation τ sig (Elt F)) :
    after vops02 W (Proc.devRef .tc main_v12) = bnVar (W (Proc.devRef .tc main_v8)) := by
  after_results_simp
  rfl

end Cert.ReferenceIdeal.Hand

end
-- ==== Proof.RefVal03.lean ====
/- Stretch 03 of the reference program's operations (operations 38 … 53 of the whole line, 16 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 16 operations, in order. -/
abbrev vops03 : List (HloOp τ sig (Elt F)) :=
  [ StableHlo.unary main_v11 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S8192x128 ![0, 1] bcast_S1x128_S8192x128_0_1 : (⟨S1x128, .f32⟩ : BufTy).Contents (Elt F) → (⟨S8192x128, .f32⟩ : BufTy).Contents (Elt F)),
    StableHlo.binary main_v8 main_v14 main_v15 (subf : (⟨S8192x128, .f32⟩ : BufTy).Contents (Elt F) → (⟨S8192x128, .f32⟩ : BufTy).Contents (Elt F) → (⟨S8192x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S8192x128 ![0, 1] bcast_S1x128_S8192x128_0_1 : (⟨S1x128, .f32⟩ : BufTy).Contents (Elt F) → (⟨S8192x128, .f32⟩ : BufTy).Contents (Elt F)),
    StableHlo.binary main_v17 main_v15 main_v18 (mulf : (⟨S8192x128, .f32⟩ : BufTy).Contents (Elt F) → (⟨S8192x128, .f32⟩ : BufTy).Contents (Elt F) → (⟨S8192x128, .f32⟩ : BufTy).Contents (Elt F)),
    StableHlo.nullary main_cst_2 (constant S_ .f32 0x3727C5AC#32),
    StableHlo.unary main_cst_2 main_v19 (broadcastInDim S128 ![] bcast_S_S128 : (⟨S_, .f32⟩ : BufTy).Contents (Elt F) → (⟨S128, .f32⟩ : BufTy).Contents (Elt F)),
    StableHlo.binary main_v12 main_v19 main_v20 (addf : (⟨S128, .f32⟩ : BufTy).Contents (Elt F) → (⟨S128, .f32⟩ : BufTy).Contents (Elt F) → (⟨S128, .f32⟩ : BufTy).Contents (Elt F)),
    StableHlo.unary main_v20 main_v21 (Host.rsqrt : (⟨S128, .f32⟩ : BufTy).Contents (Elt F) → (⟨S128, .f32⟩ : BufTy).Contents (Elt F)),
    StableHlo.unary main_v21 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S8192x128 ![0, 1] bcast_S1x128_S8192x128_0_1 : (⟨S1x128, .f32⟩ : BufTy).Contents (Elt F) → (⟨S8192x128, .f32⟩ : BufTy).Contents (Elt F)),
    StableHlo.binary main_v18 main_v23 main_v24 (mulf : (⟨S8192x128, .f32⟩ : BufTy).Contents (Elt F) → (⟨S8192x128, .f32⟩ : BufTy).Contents (Elt F) → (⟨S8192x128, .f32⟩ : BufTy).Contents (Elt F)),
    StableHlo.unary main_arg5 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S8192x128 ![0, 1] bcast_S1x128_S8192x128_0_1 : (⟨S1x128, .f32⟩ : BufTy).Contents (Elt F) → (⟨S8192x128, .f32⟩ : BufTy).Contents (Elt F)),
    StableHlo.binary main_v24 main_v26 main_v27 (addf : (⟨S8192x128, .f32⟩ : BufTy).Contents (Elt F) → (⟨S8192x128, .f32⟩ : BufTy).Contents (Elt F) → (⟨S8192x128, .f32⟩ : BufTy).Contents (Elt F)) ]

/-- The references the stretch writes: each operation's result, in order. -/
abbrev vwrites03 : List (Ref sig .tc) :=
  [ main_v13, main_v14, main_v15, main_v16, main_v17, main_v18, main_cst_2, main_v19,
    main_v20, main_v21, main_v22, main_v23, main_v24, main_v25, main_v26, main_v27 ]

theorem vops03_writes : (vops03 : List (HloOp τ sig (Elt F))).Forall fun op =>
    op.writes ⊆ (vwrites03.map (Proc.devRef (τ := τ) .tc)).toFinset :=
  ⟨writes_sub_of_mem (unary_writes ..) (by decide), writes_sub_of_mem (unary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (unary_writes ..) (by decide), writes_sub_of_mem (binary_writes ..) (by decide),
   writes_sub_of_mem (unary_writes ..) (by decide), writes_sub_of_mem (unary_writes ..) (by decide), writes_sub_of_mem (unary_writes ..) (by decide),
   writes_sub_of_mem (binary_writes ..) (by decide), writes_sub_of_mem (unary_writes ..) (by decide), writes_sub_of_mem (unary_writes ..) (by decide),
   writes_sub_of_mem (binary_writes ..) (by decide)⟩

/-- A reference the stretch does not write keeps its contents across it. -/
theorem vkeep03 (V : Valuation τ sig (Elt F)) {r : Ref sig .tc} (hr : r ∉ vwrites03) :
    after vops03 V (Proc.devRef .tc r) = V (Proc.devRef .tc r) :=
  after_of_writes_sub vops03 V vops03_writes hr

/-- What `main_v27` holds after the stretch: `bnApply` of the contents before it. -/
theorem val03_v27 (W : Valuation τ sig (Elt F)) :
    after vops03 W (Proc.devRef .tc main_v27) = bnApply (W (Proc.devRef .tc main_v8)) (W (Proc.devRef .tc main_v11)) (W (Proc.devRef .tc main_v12)) (W (Proc.devRef .tc main_arg4)) (W (Proc.devRef .tc main_arg5)) := by
  after_results_simp
  rfl

end Cert.ReferenceIdeal.Hand

end
-- ==== Proof.RefVal04.lean ====
/- Stretch 04 of the reference program's operations (operations 54 … 63 of the whole line, 10 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 10 operations, in order. -/
abbrev vops04 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8192x128, .f32⟩) (broadcastInDim S8192x128 ![] bcast_S_S8192x128),
    StableHlo.TRef.binary (.of main_v27 : StableHlo.TRef sig ⟨S8192x128, .f32⟩) (.of main_call1_v0 : StableHlo.TRef sig ⟨S8192x128, .f32⟩) (.of main_v28 : StableHlo.TRef sig ⟨S8192x128, .f32⟩) maximumf,
    StableHlo.binary main_v28 main_arg6 main_v29 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg7 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S8192x128 ![0, 1] bcast_S1x128_S8192x128_0_1 : (⟨S1x128, .f32⟩ : BufTy).Contents (Elt F) → (⟨S8192x128, .f32⟩ : BufTy).Contents (Elt F)),
    StableHlo.binary main_v29 main_v31 main_v32 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S8192x128, .f32⟩) (broadcastInDim S8192x128 ![] bcast_S_S8192x128),
    StableHlo.TRef.binary (.of main_v32 : StableHlo.TRef sig ⟨S8192x128, .f32⟩) (.of main_call2_v0 : StableHlo.TRef sig ⟨S8192x128, .f32⟩) (.of main_v33 : StableHlo.TRef sig ⟨S8192x128, .f32⟩) maximumf ]

/-- The references the stretch writes: each operation's result, in order. -/
abbrev vwrites04 : List (Ref sig .tc) :=
  [ main_call1_cst, main_call1_v0, main_v28, main_v29, main_v30, main_v31, main_v32, main_call2_cst,
    main_call2_v0, main_v33 ]

theorem vops04_writes : (vops04 : List (HloOp τ sig (Elt F))).Forall fun op =>
    op.writes ⊆ (vwrites04.map (Proc.devRef (τ := τ) .tc)).toFinset :=
  ⟨writes_sub_of_mem (nullary_writes ..) (by decide), writes_sub_of_mem (unary_writes ..) (by decide), writes_sub_of_mem (binary_writes ..) (by decide),
   writes_sub_of_mem (binary_writes ..) (by decide), writes_sub_of_mem (unary_writes ..) (by decide), writes_sub_of_mem (unary_writes ..) (by decide),
   writes_sub_of_mem (binary_writes ..) (by decide), writes_sub_of_mem (nullary_writes ..) (by decide), writes_sub_of_mem (unary_writes ..) (by decide),
   writes_sub_of_mem (binary_writes ..) (by decide)⟩

/-- A reference the stretch does not write keeps its contents across it. -/
theorem vkeep04 (V : Valuation τ sig (Elt F)) {r : Ref sig .tc} (hr : r ∉ vwrites04) :
    after vops04 V (Proc.devRef .tc r) = V (Proc.devRef .tc r) :=
  after_of_writes_sub vops04 V vops04_writes hr

/-- What `main_v33` holds after the stretch: `mlpTail` of the contents before it. -/
theorem val04_v33 (W : Valuation τ sig (Elt F)) :
    after vops04 W (Proc.devRef .tc main_v33) = mlpTail (W (Proc.devRef .tc main_v27)) (W (Proc.devRef .tc main_arg6)) (W (Proc.devRef .tc main_arg7)) := by
  after_results_simp
  rfl

end Cert.ReferenceIdeal.Hand

end
-- ==== Proof.RefVal05.lean ====
/- Stretch 05 of the reference program's operations (operations 64 … 69 of the whole line, 6 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 6 operations, in order. -/
abbrev vops05 : List (HloOp τ sig (Elt F)) :=
  [ StableHlo.binary main_v2 main_v33 main_v34 ((fun l r => Host.dotGeneral dot_S8192x8192_S8192x128_S8192x128_0_0_1_1_n_n none l r) : (⟨S8192x8192, .f32⟩ : BufTy).Contents (Elt F) → (⟨S8192x128, .f32⟩ : BufTy).Contents (Elt F) → (⟨S8192x128, .f32⟩ : BufTy).Contents (Elt F)),
    StableHlo.binary main_v33 main_v34 main_v35 (addf : (⟨S8192x128, .f32⟩ : BufTy).Contents (Elt F) → (⟨S8192x128, .f32⟩ : BufTy).Contents (Elt F) → (⟨S8192x128, .f32⟩ : BufTy).Contents (Elt F)),
    StableHlo.binary main_v35 main_arg8 main_v36 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg9 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S8192x128 ![0, 1] bcast_S1x128_S8192x128_0_1 : (⟨S1x128, .f32⟩ : BufTy).Contents (Elt F) → (⟨S8192x128, .f32⟩ : BufTy).Contents (Elt F)),
    StableHlo.binary main_v36 main_v38 main_v39 (addf : (⟨S8192x128, .f32⟩ : BufTy).Contents (Elt F) → (⟨S8192x128, .f32⟩ : BufTy).Contents (Elt F) → (⟨S8192x128, .f32⟩ : BufTy).Contents (Elt F)) ]

/-- The references the stretch writes: each operation's result, in order. -/
abbrev vwrites05 : List (Ref sig .tc) :=
  [ main_v34, main_v35, main_v36, main_v37, main_v38, main_v39 ]

theorem vops05_writes : (vops05 : List (HloOp τ sig (Elt F))).Forall fun op =>
    op.writes ⊆ (vwrites05.map (Proc.devRef (τ := τ) .tc)).toFinset :=
  ⟨writes_sub_of_mem (binary_writes ..) (by decide), writes_sub_of_mem (binary_writes ..) (by decide), writes_sub_of_mem (binary_writes ..) (by decide),
   writes_sub_of_mem (unary_writes ..) (by decide), writes_sub_of_mem (unary_writes ..) (by decide), writes_sub_of_mem (binary_writes ..) (by decide)⟩

/-- A reference the stretch does not write keeps its contents across it. -/
theorem vkeep05 (V : Valuation τ sig (Elt F)) {r : Ref sig .tc} (hr : r ∉ vwrites05) :
    after vops05 V (Proc.devRef .tc r) = V (Proc.devRef .tc r) :=
  after_of_writes_sub vops05 V vops05_writes hr

/-- What `main_v39` holds after the stretch: `linN` of the contents before it. -/
theorem val05_v39 (W : Valuation τ sig (Elt F)) :
    after vops05 W (Proc.devRef .tc main_v39) = linN (W (Proc.devRef .tc main_v2)) (W (Proc.devRef .tc main_v33)) (W (Proc.devRef .tc main_arg8)) (W (Proc.devRef .tc main_arg9)) := by
  after_results_simp
  rfl

end Cert.ReferenceIdeal.Hand

end
-- ==== Proof.RefVal06.lean ====
/- Stretch 06 of the reference program's operations (operations 70 … 97 of the whole line, 28 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 28 operations, in order. -/
abbrev vops06 : List (HloOp τ sig (Elt F)) :=
  [ StableHlo.nullary main_cst_3 (constant S_ .f32 0x00000000#32),
    StableHlo.binary main_v39 main_cst_3 main_v40 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.nullary main_cst_4 (constant S_ .f32 0x46000000#32),
    StableHlo.unary main_cst_4 main_v41 (broadcastInDim S128 ![] bcast_S_S128 : (⟨S_, .f32⟩ : BufTy).Contents (Elt F) → (⟨S128, .f32⟩ : BufTy).Contents (Elt F)),
    StableHlo.binary main_v40 main_v41 main_v42 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary (.of main_call3_cst : StableHlo.TRef sig ⟨S_, .f32⟩) (constant S_ .f32 0x00000000#32),
    StableHlo.TRef.binary (.of main_v39 : StableHlo.TRef sig ⟨S8192x128, .f32⟩) (.of main_call3_cst : StableHlo.TRef sig ⟨S_, .f32⟩) (.of main_call3_v0 : StableHlo.TRef sig ⟨S128, .f32⟩) (fun x v => Host.reduceAdd x v reducesTo_S8192x128_S128_d0 h_S_),
    StableHlo.TRef.unary (.of main_call3_v0 : StableHlo.TRef sig ⟨S128, .f32⟩) (.of main_call3_v1 : StableHlo.TRef sig ⟨S1x128, .f32⟩) (broadcastInDim S1x128 ![1] bcast_S128_S1x128_1),
    StableHlo.TRef.nullary (.of main_call3_cst_0 : StableHlo.TRef sig ⟨S_, .f32⟩) (constant S_ .f32 0x46000000#32),
    StableHlo.TRef.unary (.of main_call3_cst_0 : StableHlo.TRef sig ⟨S_, .f32⟩) (.of main_call3_v2 : StableHlo.TRef sig ⟨S1x128, .f32⟩) (broadcastInDim S1x128 ![] bcast_S_S1x128),
    StableHlo.TRef.binary (.of main_call3_v1 : StableHlo.TRef sig ⟨S1x128, .f32⟩) (.of main_call3_v2 : StableHlo.TRef sig ⟨S1x128, .f32⟩) (.of main_call3_v3 : StableHlo.TRef sig ⟨S1x128, .f32⟩) Host.divf,
    StableHlo.TRef.unary (.of main_call3_v3 : StableHlo.TRef sig ⟨S1x128, .f32⟩) (.of main_call3_v4 : StableHlo.TRef sig ⟨S8192x128, .f32⟩) (broadcastInDim S8192x128 ![0, 1] bcast_S1x128_S8192x128_0_1),
    StableHlo.TRef.binary (.of main_v39 : StableHlo.TRef sig ⟨S8192x128, .f32⟩) (.of main_call3_v4 : StableHlo.TRef sig ⟨S8192x128, .f32⟩) (.of main_call3_v5 : StableHlo.TRef sig ⟨S8192x128, .f32⟩) subf,
    StableHlo.TRef.binary (.of main_call3_v5 : StableHlo.TRef sig ⟨S8192x128, .f32⟩) (.of main_call3_v5 : StableHlo.TRef sig ⟨S8192x128, .f32⟩) (.of main_call3_v6 : StableHlo.TRef sig ⟨S8192x128, .f32⟩) mulf,
    StableHlo.TRef.unary (.of main_c_5 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x46000000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S8192x128, .f32⟩) (.of main_call3_cst_2 : StableHlo.TRef sig ⟨S_, .f32⟩) (.of main_call3_v9 : StableHlo.TRef sig ⟨S128, .f32⟩) (fun x v => Host.reduceAdd x v reducesTo_S8192x128_S128_d0 h_S_),
    StableHlo.TRef.unary (.of main_call3_v8 : StableHlo.TRef sig ⟨S_, .f32⟩) (.of main_call3_v10 : StableHlo.TRef sig ⟨S128, .f32⟩) (broadcastInDim S128 ![] bcast_S_S128),
    StableHlo.TRef.binary (.of main_call3_v9 : StableHlo.TRef sig ⟨S128, .f32⟩) (.of main_call3_v10 : StableHlo.TRef sig ⟨S128, .f32⟩) (.of main_call3_v11 : StableHlo.TRef sig ⟨S128, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S128, .f32⟩) (broadcastInDim S128 ![] bcast_S_S128),
    StableHlo.TRef.ternary (.of main_call3_v12 : StableHlo.TRef sig ⟨S_, .i1⟩) (.of main_call3_v11 : StableHlo.TRef sig ⟨S128, .f32⟩) (.of main_call3_call0_v1 : StableHlo.TRef sig ⟨S128, .f32⟩) (.of main_v43 : StableHlo.TRef sig ⟨S128, .f32⟩) (fun p a b => select (broadcastInDim S128 ![] bcast_S_S128 p) a b) ]

/-- The references the stretch writes: each operation's result, in order. -/
abbrev vwrites06 : List (Ref sig .tc) :=
  [ main_cst_3, main_v40, main_cst_4, main_v41, main_v42, main_c_5, main_call3_cst, main_call3_v0,
    main_call3_v1, main_call3_cst_0, main_call3_v2, main_call3_v3, main_call3_v4, main_call3_v5, main_call3_v6, main_call3_v7,
    main_call3_cst_1, main_call3_v8, main_call3_cst_2, main_call3_v9, main_call3_v10, main_call3_v11, main_call3_cst_3, main_call3_v12,
    main_call3_cst_4, main_call3_call0_v0, main_call3_call0_v1, main_v43 ]

theorem vops06_writes : (vops06 : List (HloOp τ sig (Elt F))).Forall fun op =>
    op.writes ⊆ (vwrites06.map (Proc.devRef (τ := τ) .tc)).toFinset :=
  ⟨writes_sub_of_mem (nullary_writes ..) (by decide), writes_sub_of_mem (binary_writes ..) (by decide), writes_sub_of_mem (nullary_writes ..) (by decide),
   writes_sub_of_mem (unary_writes ..) (by decide), writes_sub_of_mem (binary_writes ..) (by decide), writes_sub_of_mem (nullary_writes ..) (by decide),
   writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (unary_writes ..) (by decide), writes_sub_of_mem (binary_writes ..) (by decide), writes_sub_of_mem (binary_writes ..) (by decide),
   writes_sub_of_mem (unary_writes ..) (by decide), writes_sub_of_mem (nullary_writes ..) (by decide), writes_sub_of_mem (binary_writes ..) (by decide),
   writes_sub_of_mem (nullary_writes ..) (by decide), writes_sub_of_mem (binary_writes ..) (by decide), writes_sub_of_mem (unary_writes ..) (by decide),
   writes_sub_of_mem (binary_writes ..) (by decide), writes_sub_of_mem (nullary_writes ..) (by decide), writes_sub_of_mem (binary_writes ..) (by decide),
   writes_sub_of_mem (nullary_writes ..) (by decide), writes_sub_of_mem (unary_writes ..) (by decide), writes_sub_of_mem (unary_writes ..) (by decide),
   writes_sub_of_mem (ternary_writes ..) (by decide)⟩

/-- A reference the stretch does not write keeps its contents across it. -/
theorem vkeep06 (V : Valuation τ sig (Elt F)) {r : Ref sig .tc} (hr : r ∉ vwrites06) :
    after vops06 V (Proc.devRef .tc r) = V (Proc.devRef .tc r) :=
  after_of_writes_sub vops06 V vops06_writes hr

/-- What `main_v42` holds after the stretch: `bnMean` of the contents before it. -/
theorem val06_v42 (W : Valuation τ sig (Elt F)) :
    after vops06 W (Proc.devRef .tc main_v42) = bnMean (W (Proc.devRef .tc main_v39)) := by
  after_results_simp
  rfl

/-- What `main_v43` holds after the stretch: `bnVar` of the contents before it. -/
theorem val06_v43 (W : Valuation τ sig (Elt F)) :
    after vops06 W (Proc.devRef .tc main_v43) = bnVar (W (Proc.devRef .tc main_v39)) := by
  after_results_simp
  rfl

end Cert.ReferenceIdeal.Hand

end
-- ==== Proof.RefVal07.lean ====
/- Stretch 07 of the reference program's operations (operations 98 … 113 of the whole line, 16 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 16 operations, in order. -/
abbrev vops07 : List (HloOp τ sig (Elt F)) :=
  [ StableHlo.unary main_v42 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S8192x128 ![0, 1] bcast_S1x128_S8192x128_0_1 : (⟨S1x128, .f32⟩ : BufTy).Contents (Elt F) → (⟨S8192x128, .f32⟩ : BufTy).Contents (Elt F)),
    StableHlo.binary main_v39 main_v45 main_v46 (subf : (⟨S8192x128, .f32⟩ : BufTy).Contents (Elt F) → (⟨S8192x128, .f32⟩ : BufTy).Contents (Elt F) → (⟨S8192x128, .f32⟩ : BufTy).Contents (Elt F)),
    StableHlo.unary main_arg10 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S8192x128 ![0, 1] bcast_S1x128_S8192x128_0_1 : (⟨S1x128, .f32⟩ : BufTy).Contents (Elt F) → (⟨S8192x128, .f32⟩ : BufTy).Contents (Elt F)),
    StableHlo.binary main_v48 main_v46 main_v49 (mulf : (⟨S8192x128, .f32⟩ : BufTy).Contents (Elt F) → (⟨S8192x128, .f32⟩ : BufTy).Contents (Elt F) → (⟨S8192x128, .f32⟩ : BufTy).Contents (Elt F)),
    StableHlo.nullary main_cst_6 (constant S_ .f32 0x3727C5AC#32),
    StableHlo.unary main_cst_6 main_v50 (broadcastInDim S128 ![] bcast_S_S128 : (⟨S_, .f32⟩ : BufTy).Contents (Elt F) → (⟨S128, .f32⟩ : BufTy).Contents (Elt F)),
    StableHlo.binary main_v43 main_v50 main_v51 (addf : (⟨S128, .f32⟩ : BufTy).Contents (Elt F) → (⟨S128, .f32⟩ : BufTy).Contents (Elt F) → (⟨S128, .f32⟩ : BufTy).Contents (Elt F)),
    StableHlo.unary main_v51 main_v52 (Host.rsqrt : (⟨S128, .f32⟩ : BufTy).Contents (Elt F) → (⟨S128, .f32⟩ : BufTy).Contents (Elt F)),
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S8192x128 ![0, 1] bcast_S1x128_S8192x128_0_1 : (⟨S1x128, .f32⟩ : BufTy).Contents (Elt F) → (⟨S8192x128, .f32⟩ : BufTy).Contents (Elt F)),
    StableHlo.binary main_v49 main_v54 main_v55 (mulf : (⟨S8192x128, .f32⟩ : BufTy).Contents (Elt F) → (⟨S8192x128, .f32⟩ : BufTy).Contents (Elt F) → (⟨S8192x128, .f32⟩ : BufTy).Contents (Elt F)),
    StableHlo.unary main_arg11 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S8192x128 ![0, 1] bcast_S1x128_S8192x128_0_1 : (⟨S1x128, .f32⟩ : BufTy).Contents (Elt F) → (⟨S8192x128, .f32⟩ : BufTy).Contents (Elt F)),
    StableHlo.binary main_v55 main_v57 main_v58 (addf : (⟨S8192x128, .f32⟩ : BufTy).Contents (Elt F) → (⟨S8192x128, .f32⟩ : BufTy).Contents (Elt F) → (⟨S8192x128, .f32⟩ : BufTy).Contents (Elt F)) ]

/-- The references the stretch writes: each operation's result, in order. -/
abbrev vwrites07 : List (Ref sig .tc) :=
  [ main_v44, main_v45, main_v46, main_v47, main_v48, main_v49, main_cst_6, main_v50,
    main_v51, main_v52, main_v53, main_v54, main_v55, main_v56, main_v57, main_v58 ]

theorem vops07_writes : (vops07 : List (HloOp τ sig (Elt F))).Forall fun op =>
    op.writes ⊆ (vwrites07.map (Proc.devRef (τ := τ) .tc)).toFinset :=
  ⟨writes_sub_of_mem (unary_writes ..) (by decide), writes_sub_of_mem (unary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (unary_writes ..) (by decide), writes_sub_of_mem (binary_writes ..) (by decide),
   writes_sub_of_mem (unary_writes ..) (by decide), writes_sub_of_mem (unary_writes ..) (by decide), writes_sub_of_mem (unary_writes ..) (by decide),
   writes_sub_of_mem (binary_writes ..) (by decide), writes_sub_of_mem (unary_writes ..) (by decide), writes_sub_of_mem (unary_writes ..) (by decide),
   writes_sub_of_mem (binary_writes ..) (by decide)⟩

/-- A reference the stretch does not write keeps its contents across it. -/
theorem vkeep07 (V : Valuation τ sig (Elt F)) {r : Ref sig .tc} (hr : r ∉ vwrites07) :
    after vops07 V (Proc.devRef .tc r) = V (Proc.devRef .tc r) :=
  after_of_writes_sub vops07 V vops07_writes hr

/-- What `main_v58` holds after the stretch: `bnApply` of the contents before it. -/
theorem val07_v58 (W : Valuation τ sig (Elt F)) :
    after vops07 W (Proc.devRef .tc main_v58) = bnApply (W (Proc.devRef .tc main_v39)) (W (Proc.devRef .tc main_v42)) (W (Proc.devRef .tc main_v43)) (W (Proc.devRef .tc main_arg10)) (W (Proc.devRef .tc main_arg11)) := by
  after_results_simp
  rfl

end Cert.ReferenceIdeal.Hand

end
-- ==== Proof.RefVal08.lean ====
/- Stretch 08 of the reference program's operations (operations 114 … 123 of the whole line, 10 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 10 operations, in order. -/
abbrev vops08 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S8192x128, .f32⟩) (broadcastInDim S8192x128 ![] bcast_S_S8192x128),
    StableHlo.TRef.binary (.of main_v58 : StableHlo.TRef sig ⟨S8192x128, .f32⟩) (.of main_call4_v0 : StableHlo.TRef sig ⟨S8192x128, .f32⟩) (.of main_v59 : StableHlo.TRef sig ⟨S8192x128, .f32⟩) maximumf,
    StableHlo.binary main_v59 main_arg12 main_v60 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg13 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S8192x128 ![0, 1] bcast_S1x128_S8192x128_0_1 : (⟨S1x128, .f32⟩ : BufTy).Contents (Elt F) → (⟨S8192x128, .f32⟩ : BufTy).Contents (Elt F)),
    StableHlo.binary main_v60 main_v62 main_v63 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S8192x128, .f32⟩) (broadcastInDim S8192x128 ![] bcast_S_S8192x128),
    StableHlo.TRef.binary (.of main_v63 : StableHlo.TRef sig ⟨S8192x128, .f32⟩) (.of main_call5_v0 : StableHlo.TRef sig ⟨S8192x128, .f32⟩) (.of main_v64 : StableHlo.TRef sig ⟨S8192x128, .f32⟩) maximumf ]

/-- The references the stretch writes: each operation's result, in order. -/
abbrev vwrites08 : List (Ref sig .tc) :=
  [ main_call4_cst, main_call4_v0, main_v59, main_v60, main_v61, main_v62, main_v63, main_call5_cst,
    main_call5_v0, main_v64 ]

theorem vops08_writes : (vops08 : List (HloOp τ sig (Elt F))).Forall fun op =>
    op.writes ⊆ (vwrites08.map (Proc.devRef (τ := τ) .tc)).toFinset :=
  ⟨writes_sub_of_mem (nullary_writes ..) (by decide), writes_sub_of_mem (unary_writes ..) (by decide), writes_sub_of_mem (binary_writes ..) (by decide),
   writes_sub_of_mem (binary_writes ..) (by decide), writes_sub_of_mem (unary_writes ..) (by decide), writes_sub_of_mem (unary_writes ..) (by decide),
   writes_sub_of_mem (binary_writes ..) (by decide), writes_sub_of_mem (nullary_writes ..) (by decide), writes_sub_of_mem (unary_writes ..) (by decide),
   writes_sub_of_mem (binary_writes ..) (by decide)⟩

/-- A reference the stretch does not write keeps its contents across it. -/
theorem vkeep08 (V : Valuation τ sig (Elt F)) {r : Ref sig .tc} (hr : r ∉ vwrites08) :
    after vops08 V (Proc.devRef .tc r) = V (Proc.devRef .tc r) :=
  after_of_writes_sub vops08 V vops08_writes hr

/-- What `main_v64` holds after the stretch: `mlpTail` of the contents before it. -/
theorem val08_v64 (W : Valuation τ sig (Elt F)) :
    after vops08 W (Proc.devRef .tc main_v64) = mlpTail (W (Proc.devRef .tc main_v58)) (W (Proc.devRef .tc main_arg12)) (W (Proc.devRef .tc main_arg13)) := by
  after_results_simp
  rfl

end Cert.ReferenceIdeal.Hand

end
-- ==== Proof.RefVal09.lean ====
/- Stretch 09 of the reference program's operations (operations 124 … 129 of the whole line, 6 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 6 operations, in order. -/
abbrev vops09 : List (HloOp τ sig (Elt F)) :=
  [ StableHlo.binary main_v2 main_v64 main_v65 ((fun l r => Host.dotGeneral dot_S8192x8192_S8192x128_S8192x128_0_0_1_1_n_n none l r) : (⟨S8192x8192, .f32⟩ : BufTy).Contents (Elt F) → (⟨S8192x128, .f32⟩ : BufTy).Contents (Elt F) → (⟨S8192x128, .f32⟩ : BufTy).Contents (Elt F)),
    StableHlo.binary main_v64 main_v65 main_v66 (addf : (⟨S8192x128, .f32⟩ : BufTy).Contents (Elt F) → (⟨S8192x128, .f32⟩ : BufTy).Contents (Elt F) → (⟨S8192x128, .f32⟩ : BufTy).Contents (Elt F)),
    StableHlo.binary main_v66 main_arg14 main_v67 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg15 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S8192x128 ![0, 1] bcast_S1x128_S8192x128_0_1 : (⟨S1x128, .f32⟩ : BufTy).Contents (Elt F) → (⟨S8192x128, .f32⟩ : BufTy).Contents (Elt F)),
    StableHlo.binary main_v67 main_v69 main_v70 (addf : (⟨S8192x128, .f32⟩ : BufTy).Contents (Elt F) → (⟨S8192x128, .f32⟩ : BufTy).Contents (Elt F) → (⟨S8192x128, .f32⟩ : BufTy).Contents (Elt F)) ]

/-- The references the stretch writes: each operation's result, in order. -/
abbrev vwrites09 : List (Ref sig .tc) :=
  [ main_v65, main_v66, main_v67, main_v68, main_v69, main_v70 ]

theorem vops09_writes : (vops09 : List (HloOp τ sig (Elt F))).Forall fun op =>
    op.writes ⊆ (vwrites09.map (Proc.devRef (τ := τ) .tc)).toFinset :=
  ⟨writes_sub_of_mem (binary_writes ..) (by decide), writes_sub_of_mem (binary_writes ..) (by decide), writes_sub_of_mem (binary_writes ..) (by decide),
   writes_sub_of_mem (unary_writes ..) (by decide), writes_sub_of_mem (unary_writes ..) (by decide), writes_sub_of_mem (binary_writes ..) (by decide)⟩

/-- A reference the stretch does not write keeps its contents across it. -/
theorem vkeep09 (V : Valuation τ sig (Elt F)) {r : Ref sig .tc} (hr : r ∉ vwrites09) :
    after vops09 V (Proc.devRef .tc r) = V (Proc.devRef .tc r) :=
  after_of_writes_sub vops09 V vops09_writes hr

/-- What `main_v70` holds after the stretch: `linN` of the contents before it. -/
theorem val09_v70 (W : Valuation τ sig (Elt F)) :
    after vops09 W (Proc.devRef .tc main_v70) = linN (W (Proc.devRef .tc main_v2)) (W (Proc.devRef .tc main_v64)) (W (Proc.devRef .tc main_arg14)) (W (Proc.devRef .tc main_arg15)) := by
  after_results_simp
  rfl

end Cert.ReferenceIdeal.Hand

end
-- ==== Proof.RefVal10.lean ====
/- Stretch 10 of the reference program's operations (operations 130 … 157 of the whole line, 28 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 28 operations, in order. -/
abbrev vops10 : List (HloOp τ sig (Elt F)) :=
  [ StableHlo.nullary main_cst_7 (constant S_ .f32 0x00000000#32),
    StableHlo.binary main_v70 main_cst_7 main_v71 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.nullary main_cst_8 (constant S_ .f32 0x46000000#32),
    StableHlo.unary main_cst_8 main_v72 (broadcastInDim S128 ![] bcast_S_S128 : (⟨S_, .f32⟩ : BufTy).Contents (Elt F) → (⟨S128, .f32⟩ : BufTy).Contents (Elt F)),
    StableHlo.binary main_v71 main_v72 main_v73 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary (.of main_call6_cst : StableHlo.TRef sig ⟨S_, .f32⟩) (constant S_ .f32 0x00000000#32),
    StableHlo.TRef.binary (.of main_v70 : StableHlo.TRef sig ⟨S8192x128, .f32⟩) (.of main_call6_cst : StableHlo.TRef sig ⟨S_, .f32⟩) (.of main_call6_v0 : StableHlo.TRef sig ⟨S128, .f32⟩) (fun x v => Host.reduceAdd x v reducesTo_S8192x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x46000000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S8192x128, .f32⟩) (broadcastInDim S8192x128 ![0, 1] bcast_S1x128_S8192x128_0_1),
    StableHlo.TRef.binary (.of main_v70 : StableHlo.TRef sig ⟨S8192x128, .f32⟩) (.of main_call6_v4 : StableHlo.TRef sig ⟨S8192x128, .f32⟩) (.of main_call6_v5 : StableHlo.TRef sig ⟨S8192x128, .f32⟩) subf,
    StableHlo.TRef.binary (.of main_call6_v5 : StableHlo.TRef sig ⟨S8192x128, .f32⟩) (.of main_call6_v5 : StableHlo.TRef sig ⟨S8192x128, .f32⟩) (.of main_call6_v6 : StableHlo.TRef sig ⟨S8192x128, .f32⟩) mulf,
    StableHlo.TRef.unary (.of main_c_9 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x46000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S8192x128, .f32⟩) (.of main_call6_cst_2 : StableHlo.TRef sig ⟨S_, .f32⟩) (.of main_call6_v9 : StableHlo.TRef sig ⟨S128, .f32⟩) (fun x v => Host.reduceAdd x v reducesTo_S8192x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v74 : StableHlo.TRef sig ⟨S128, .f32⟩) (fun p a b => select (broadcastInDim S128 ![] bcast_S_S128 p) a b) ]

/-- The references the stretch writes: each operation's result, in order. -/
abbrev vwrites10 : List (Ref sig .tc) :=
  [ main_cst_7, main_v71, main_cst_8, main_v72, main_v73, main_c_9, main_call6_cst, main_call6_v0,
    main_call6_v1, main_call6_cst_0, main_call6_v2, main_call6_v3, main_call6_v4, main_call6_v5, main_call6_v6, main_call6_v7,
    main_call6_cst_1, main_call6_v8, main_call6_cst_2, main_call6_v9, main_call6_v10, main_call6_v11, main_call6_cst_3, main_call6_v12,
    main_call6_cst_4, main_call6_call0_v0, main_call6_call0_v1, main_v74 ]

theorem vops10_writes : (vops10 : List (HloOp τ sig (Elt F))).Forall fun op =>
    op.writes ⊆ (vwrites10.map (Proc.devRef (τ := τ) .tc)).toFinset :=
  ⟨writes_sub_of_mem (nullary_writes ..) (by decide), writes_sub_of_mem (binary_writes ..) (by decide), writes_sub_of_mem (nullary_writes ..) (by decide),
   writes_sub_of_mem (unary_writes ..) (by decide), writes_sub_of_mem (binary_writes ..) (by decide), writes_sub_of_mem (nullary_writes ..) (by decide),
   writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (unary_writes ..) (by decide), writes_sub_of_mem (binary_writes ..) (by decide), writes_sub_of_mem (binary_writes ..) (by decide),
   writes_sub_of_mem (unary_writes ..) (by decide), writes_sub_of_mem (nullary_writes ..) (by decide), writes_sub_of_mem (binary_writes ..) (by decide),
   writes_sub_of_mem (nullary_writes ..) (by decide), writes_sub_of_mem (binary_writes ..) (by decide), writes_sub_of_mem (unary_writes ..) (by decide),
   writes_sub_of_mem (binary_writes ..) (by decide), writes_sub_of_mem (nullary_writes ..) (by decide), writes_sub_of_mem (binary_writes ..) (by decide),
   writes_sub_of_mem (nullary_writes ..) (by decide), writes_sub_of_mem (unary_writes ..) (by decide), writes_sub_of_mem (unary_writes ..) (by decide),
   writes_sub_of_mem (ternary_writes ..) (by decide)⟩

/-- A reference the stretch does not write keeps its contents across it. -/
theorem vkeep10 (V : Valuation τ sig (Elt F)) {r : Ref sig .tc} (hr : r ∉ vwrites10) :
    after vops10 V (Proc.devRef .tc r) = V (Proc.devRef .tc r) :=
  after_of_writes_sub vops10 V vops10_writes hr

/-- What `main_v73` holds after the stretch: `bnMean` of the contents before it. -/
theorem val10_v73 (W : Valuation τ sig (Elt F)) :
    after vops10 W (Proc.devRef .tc main_v73) = bnMean (W (Proc.devRef .tc main_v70)) := by
  after_results_simp
  rfl

/-- What `main_v74` holds after the stretch: `bnVar` of the contents before it. -/
theorem val10_v74 (W : Valuation τ sig (Elt F)) :
    after vops10 W (Proc.devRef .tc main_v74) = bnVar (W (Proc.devRef .tc main_v70)) := by
  after_results_simp
  rfl

end Cert.ReferenceIdeal.Hand

end
-- ==== Proof.RefVal11.lean ====
/- Stretch 11 of the reference program's operations (operations 158 … 173 of the whole line, 16 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 16 operations, in order. -/
abbrev vops11 : List (HloOp τ sig (Elt F)) :=
  [ StableHlo.unary main_v73 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S8192x128 ![0, 1] bcast_S1x128_S8192x128_0_1 : (⟨S1x128, .f32⟩ : BufTy).Contents (Elt F) → (⟨S8192x128, .f32⟩ : BufTy).Contents (Elt F)),
    StableHlo.binary main_v70 main_v76 main_v77 (subf : (⟨S8192x128, .f32⟩ : BufTy).Contents (Elt F) → (⟨S8192x128, .f32⟩ : BufTy).Contents (Elt F) → (⟨S8192x128, .f32⟩ : BufTy).Contents (Elt F)),
    StableHlo.unary main_arg16 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S8192x128 ![0, 1] bcast_S1x128_S8192x128_0_1 : (⟨S1x128, .f32⟩ : BufTy).Contents (Elt F) → (⟨S8192x128, .f32⟩ : BufTy).Contents (Elt F)),
    StableHlo.binary main_v79 main_v77 main_v80 (mulf : (⟨S8192x128, .f32⟩ : BufTy).Contents (Elt F) → (⟨S8192x128, .f32⟩ : BufTy).Contents (Elt F) → (⟨S8192x128, .f32⟩ : BufTy).Contents (Elt F)),
    StableHlo.nullary main_cst_10 (constant S_ .f32 0x3727C5AC#32),
    StableHlo.unary main_cst_10 main_v81 (broadcastInDim S128 ![] bcast_S_S128 : (⟨S_, .f32⟩ : BufTy).Contents (Elt F) → (⟨S128, .f32⟩ : BufTy).Contents (Elt F)),
    StableHlo.binary main_v74 main_v81 main_v82 (addf : (⟨S128, .f32⟩ : BufTy).Contents (Elt F) → (⟨S128, .f32⟩ : BufTy).Contents (Elt F) → (⟨S128, .f32⟩ : BufTy).Contents (Elt F)),
    StableHlo.unary main_v82 main_v83 (Host.rsqrt : (⟨S128, .f32⟩ : BufTy).Contents (Elt F) → (⟨S128, .f32⟩ : BufTy).Contents (Elt F)),
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S8192x128 ![0, 1] bcast_S1x128_S8192x128_0_1 : (⟨S1x128, .f32⟩ : BufTy).Contents (Elt F) → (⟨S8192x128, .f32⟩ : BufTy).Contents (Elt F)),
    StableHlo.binary main_v80 main_v85 main_v86 (mulf : (⟨S8192x128, .f32⟩ : BufTy).Contents (Elt F) → (⟨S8192x128, .f32⟩ : BufTy).Contents (Elt F) → (⟨S8192x128, .f32⟩ : BufTy).Contents (Elt F)),
    StableHlo.unary main_arg17 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S8192x128 ![0, 1] bcast_S1x128_S8192x128_0_1 : (⟨S1x128, .f32⟩ : BufTy).Contents (Elt F) → (⟨S8192x128, .f32⟩ : BufTy).Contents (Elt F)),
    StableHlo.binary main_v86 main_v88 main_v89 (addf : (⟨S8192x128, .f32⟩ : BufTy).Contents (Elt F) → (⟨S8192x128, .f32⟩ : BufTy).Contents (Elt F) → (⟨S8192x128, .f32⟩ : BufTy).Contents (Elt F)) ]

/-- The references the stretch writes: each operation's result, in order. -/
abbrev vwrites11 : List (Ref sig .tc) :=
  [ main_v75, main_v76, main_v77, main_v78, main_v79, main_v80, main_cst_10, main_v81,
    main_v82, main_v83, main_v84, main_v85, main_v86, main_v87, main_v88, main_v89 ]

theorem vops11_writes : (vops11 : List (HloOp τ sig (Elt F))).Forall fun op =>
    op.writes ⊆ (vwrites11.map (Proc.devRef (τ := τ) .tc)).toFinset :=
  ⟨writes_sub_of_mem (unary_writes ..) (by decide), writes_sub_of_mem (unary_writes ..) (by decide), writes_sub_of_mem (binary_writes ..) (by decide),
   writes_sub_of_mem (unary_writes ..) (by decide), writes_sub_of_mem (unary_writes ..) (by decide), writes_sub_of_mem (binary_writes ..) (by decide),
   writes_sub_of_mem (nullary_writes ..) (by decide), writes_sub_of_mem (unary_writes ..) (by decide), writes_sub_of_mem (binary_writes ..) (by decide),
   writes_sub_of_mem (unary_writes ..) (by decide), writes_sub_of_mem (unary_writes ..) (by decide), writes_sub_of_mem (unary_writes ..) (by decide),
   writes_sub_of_mem (binary_writes ..) (by decide), writes_sub_of_mem (unary_writes ..) (by decide), writes_sub_of_mem (unary_writes ..) (by decide),
   writes_sub_of_mem (binary_writes ..) (by decide)⟩

/-- A reference the stretch does not write keeps its contents across it. -/
theorem vkeep11 (V : Valuation τ sig (Elt F)) {r : Ref sig .tc} (hr : r ∉ vwrites11) :
    after vops11 V (Proc.devRef .tc r) = V (Proc.devRef .tc r) :=
  after_of_writes_sub vops11 V vops11_writes hr

/-- What `main_v89` holds after the stretch: `bnApply` of the contents before it. -/
theorem val11_v89 (W : Valuation τ sig (Elt F)) :
    after vops11 W (Proc.devRef .tc main_v89) = bnApply (W (Proc.devRef .tc main_v70)) (W (Proc.devRef .tc main_v73)) (W (Proc.devRef .tc main_v74)) (W (Proc.devRef .tc main_arg16)) (W (Proc.devRef .tc main_arg17)) := by
  after_results_simp
  rfl

end Cert.ReferenceIdeal.Hand

end
-- ==== Proof.RefVal12.lean ====
/- Stretch 12 of the reference program's operations (operations 174 … 183 of the whole line, 10 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 10 operations, in order. -/
abbrev vops12 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S8192x128, .f32⟩) (broadcastInDim S8192x128 ![] bcast_S_S8192x128),
    StableHlo.TRef.binary (.of main_v89 : StableHlo.TRef sig ⟨S8192x128, .f32⟩) (.of main_call7_v0 : StableHlo.TRef sig ⟨S8192x128, .f32⟩) (.of main_v90 : StableHlo.TRef sig ⟨S8192x128, .f32⟩) maximumf,
    StableHlo.binary main_v90 main_arg18 main_v91 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    StableHlo.unary main_arg19 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S8192x128 ![0, 1] bcast_S1x128_S8192x128_0_1 : (⟨S1x128, .f32⟩ : BufTy).Contents (Elt F) → (⟨S8192x128, .f32⟩ : BufTy).Contents (Elt F)),
    StableHlo.binary main_v91 main_v93 main_v94 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S8192x128, .f32⟩) (broadcastInDim S8192x128 ![] bcast_S_S8192x128),
    StableHlo.TRef.binary (.of main_v94 : StableHlo.TRef sig ⟨S8192x128, .f32⟩) (.of main_call8_v0 : StableHlo.TRef sig ⟨S8192x128, .f32⟩) (.of main_v95 : StableHlo.TRef sig ⟨S8192x128, .f32⟩) maximumf ]

/-- The references the stretch writes: each operation's result, in order. -/
abbrev vwrites12 : List (Ref sig .tc) :=
  [ main_call7_cst, main_call7_v0, main_v90, main_v91, main_v92, main_v93, main_v94, main_call8_cst,
    main_call8_v0, main_v95 ]

theorem vops12_writes : (vops12 : List (HloOp τ sig (Elt F))).Forall fun op =>
    op.writes ⊆ (vwrites12.map (Proc.devRef (τ := τ) .tc)).toFinset :=
  ⟨writes_sub_of_mem (nullary_writes ..) (by decide), writes_sub_of_mem (unary_writes ..) (by decide), writes_sub_of_mem (binary_writes ..) (by decide),
   writes_sub_of_mem (binary_writes ..) (by decide), writes_sub_of_mem (unary_writes ..) (by decide), writes_sub_of_mem (unary_writes ..) (by decide),
   writes_sub_of_mem (binary_writes ..) (by decide), writes_sub_of_mem (nullary_writes ..) (by decide), writes_sub_of_mem (unary_writes ..) (by decide),
   writes_sub_of_mem (binary_writes ..) (by decide)⟩

/-- A reference the stretch does not write keeps its contents across it. -/
theorem vkeep12 (V : Valuation τ sig (Elt F)) {r : Ref sig .tc} (hr : r ∉ vwrites12) :
    after vops12 V (Proc.devRef .tc r) = V (Proc.devRef .tc r) :=
  after_of_writes_sub vops12 V vops12_writes hr

/-- What `main_v95` holds after the stretch: `mlpTail` of the contents before it. -/
theorem val12_v95 (W : Valuation τ sig (Elt F)) :
    after vops12 W (Proc.devRef .tc main_v95) = mlpTail (W (Proc.devRef .tc main_v89)) (W (Proc.devRef .tc main_arg18)) (W (Proc.devRef .tc main_arg19)) := by
  after_results_simp
  rfl

end Cert.ReferenceIdeal.Hand

end
-- ==== Proof.RefVal13.lean ====
/- Stretch 13 of the reference program's operations (operations 184 … 201 of the whole line, 18 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 18 operations, in order. -/
abbrev vops13 : List (HloOp τ sig (Elt F)) :=
  [ StableHlo.nullary main_cst_11 (constant S_ .f32 0x00000000#32),
    StableHlo.binary main_v33 main_cst_11 main_v96 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.unary main_v96 main_v97 (broadcastInDim S1x128 ![1] bcast_S128_S1x128_1 : (⟨S128, .f32⟩ : BufTy).Contents (Elt F) → (⟨S1x128, .f32⟩ : BufTy).Contents (Elt F)),
    StableHlo.nullary main_cst_12 (constant S_ .f32 0x46000000#32),
    StableHlo.unary main_cst_12 main_v98 (broadcastInDim S1x128 ![] bcast_S_S1x128 : (⟨S_, .f32⟩ : BufTy).Contents (Elt F) → (⟨S1x128, .f32⟩ : BufTy).Contents (Elt F)),
    StableHlo.binary main_v97 main_v98 main_v99 (Host.divf : (⟨S1x128, .f32⟩ : BufTy).Contents (Elt F) → (⟨S1x128, .f32⟩ : BufTy).Contents (Elt F) → (⟨S1x128, .f32⟩ : BufTy).Contents (Elt F)),
    StableHlo.nullary main_cst_13 (constant S_ .f32 0x00000000#32),
    StableHlo.binary main_v64 main_cst_13 main_v100 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.unary main_v100 main_v101 (broadcastInDim S1x128 ![1] bcast_S128_S1x128_1 : (⟨S128, .f32⟩ : BufTy).Contents (Elt F) → (⟨S1x128, .f32⟩ : BufTy).Contents (Elt F)),
    StableHlo.nullary main_cst_14 (constant S_ .f32 0x46000000#32),
    StableHlo.unary main_cst_14 main_v102 (broadcastInDim S1x128 ![] bcast_S_S1x128 : (⟨S_, .f32⟩ : BufTy).Contents (Elt F) → (⟨S1x128, .f32⟩ : BufTy).Contents (Elt F)),
    StableHlo.binary main_v101 main_v102 main_v103 (Host.divf : (⟨S1x128, .f32⟩ : BufTy).Contents (Elt F) → (⟨S1x128, .f32⟩ : BufTy).Contents (Elt F) → (⟨S1x128, .f32⟩ : BufTy).Contents (Elt F)),
    StableHlo.nullary main_cst_15 (constant S_ .f32 0x00000000#32),
    StableHlo.binary main_v95 main_cst_15 main_v104 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.unary main_v104 main_v105 (broadcastInDim S1x128 ![1] bcast_S128_S1x128_1 : (⟨S128, .f32⟩ : BufTy).Contents (Elt F) → (⟨S1x128, .f32⟩ : BufTy).Contents (Elt F)),
    StableHlo.nullary main_cst_16 (constant S_ .f32 0x46000000#32),
    StableHlo.unary main_cst_16 main_v106 (broadcastInDim S1x128 ![] bcast_S_S1x128 : (⟨S_, .f32⟩ : BufTy).Contents (Elt F) → (⟨S1x128, .f32⟩ : BufTy).Contents (Elt F)),
    StableHlo.binary main_v105 main_v106 main_v107 (Host.divf : (⟨S1x128, .f32⟩ : BufTy).Contents (Elt F) → (⟨S1x128, .f32⟩ : BufTy).Contents (Elt F) → (⟨S1x128, .f32⟩ : BufTy).Contents (Elt F)) ]

/-- The references the stretch writes: each operation's result, in order. -/
abbrev vwrites13 : List (Ref sig .tc) :=
  [ main_cst_11, main_v96, main_v97, main_cst_12, main_v98, main_v99, main_cst_13, main_v100,
    main_v101, main_cst_14, main_v102, main_v103, main_cst_15, main_v104, main_v105, main_cst_16,
    main_v106, main_v107 ]

theorem vops13_writes : (vops13 : List (HloOp τ sig (Elt F))).Forall fun op =>
    op.writes ⊆ (vwrites13.map (Proc.devRef (τ := τ) .tc)).toFinset :=
  ⟨writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide),
   writes_sub_of_mem (nullary_writes ..) (by decide), writes_sub_of_mem (binary_writes ..) (by decide), writes_sub_of_mem (unary_writes ..) (by decide),
   writes_sub_of_mem (nullary_writes ..) (by decide), writes_sub_of_mem (unary_writes ..) (by decide), writes_sub_of_mem (binary_writes ..) (by decide)⟩

/-- A reference the stretch does not write keeps its contents across it. -/
theorem vkeep13 (V : Valuation τ sig (Elt F)) {r : Ref sig .tc} (hr : r ∉ vwrites13) :
    after vops13 V (Proc.devRef .tc r) = V (Proc.devRef .tc r) :=
  after_of_writes_sub vops13 V vops13_writes hr

/-- What `main_v99` holds after the stretch: `meanPool` of the contents before it. -/
theorem val13_v99 (W : Valuation τ sig (Elt F)) :
    after vops13 W (Proc.devRef .tc main_v99) = meanPool (W (Proc.devRef .tc main_v33)) := by
  after_results_simp
  rfl

/-- What `main_v103` holds after the stretch: `meanPool` of the contents before it. -/
theorem val13_v103 (W : Valuation τ sig (Elt F)) :
    after vops13 W (Proc.devRef .tc main_v103) = meanPool (W (Proc.devRef .tc main_v64)) := by
  after_results_simp
  rfl

/-- What `main_v107` holds after the stretch: `meanPool` of the contents before it. -/
theorem val13_v107 (W : Valuation τ sig (Elt F)) :
    after vops13 W (Proc.devRef .tc main_v107) = meanPool (W (Proc.devRef .tc main_v95)) := by
  after_results_simp
  rfl

end Cert.ReferenceIdeal.Hand

end
-- ==== Proof.RefVal14.lean ====
/- Stretch 14 of the reference program's operations (operations 202 … 211 of the whole line, 10 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 10 operations, in order. -/
abbrev vops14 : List (HloOp τ sig (Elt F)) :=
  [ StableHlo.nary ![main_v99, main_v103, main_v107] main_v108 (fun u => concatenate S1x384 1 [⟨S1x128, u 0⟩, ⟨S1x128, u 1⟩, ⟨S1x128, u 2⟩] concatenates_S1x128_S1x128_S1x128_S1x384_d1),
    StableHlo.binary main_v108 main_arg20 main_v109 ((fun l r => Host.dotGeneral dot_S1x384_S384x384_S1x384_1_0_0_1_n_n none l r) : (⟨S1x384, .f32⟩ : BufTy).Contents (Elt F) → (⟨S384x384, .f32⟩ : BufTy).Contents (Elt F) → (⟨S1x384, .f32⟩ : BufTy).Contents (Elt F)),
    StableHlo.unary main_arg21 main_v110 (broadcastInDim S1x384 ![1] bcast_S384_S1x384_1 : (⟨S384, .f32⟩ : BufTy).Contents (Elt F) → (⟨S1x384, .f32⟩ : BufTy).Contents (Elt F)),
    StableHlo.binary main_v109 main_v110 main_v111 (addf : (⟨S1x384, .f32⟩ : BufTy).Contents (Elt F) → (⟨S1x384, .f32⟩ : BufTy).Contents (Elt F) → (⟨S1x384, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S1x384, .f32⟩) (broadcastInDim S1x384 ![] bcast_S_S1x384),
    StableHlo.TRef.binary (.of main_v111 : StableHlo.TRef sig ⟨S1x384, .f32⟩) (.of main_call9_v0 : StableHlo.TRef sig ⟨S1x384, .f32⟩) (.of main_v112 : StableHlo.TRef sig ⟨S1x384, .f32⟩) maximumf,
    StableHlo.binary main_v112 main_arg22 main_v113 ((fun l r => Host.dotGeneral dot_S1x384_S384x1_S1x1_1_0_0_1_n_n none l r) : (⟨S1x384, .f32⟩ : BufTy).Contents (Elt F) → (⟨S384x1, .f32⟩ : BufTy).Contents (Elt F) → (⟨S1x1, .f32⟩ : BufTy).Contents (Elt F)),
    StableHlo.unary main_arg23 main_v114 (broadcastInDim S1x1 ![1] bcast_S1_S1x1_1 : (⟨S1, .f32⟩ : BufTy).Contents (Elt F) → (⟨S1x1, .f32⟩ : BufTy).Contents (Elt F)),
    StableHlo.binary main_v113 main_v114 main_v115 (addf : (⟨S1x1, .f32⟩ : BufTy).Contents (Elt F) → (⟨S1x1, .f32⟩ : BufTy).Contents (Elt F) → (⟨S1x1, .f32⟩ : BufTy).Contents (Elt F)) ]

/-- The references the stretch writes: each operation's result, in order. -/
abbrev vwrites14 : List (Ref sig .tc) :=
  [ main_v108, main_v109, main_v110, main_v111, main_call9_cst, main_call9_v0, main_v112, main_v113,
    main_v114, main_v115 ]

theorem vops14_writes : (vops14 : List (HloOp τ sig (Elt F))).Forall fun op =>
    op.writes ⊆ (vwrites14.map (Proc.devRef (τ := τ) .tc)).toFinset :=
  ⟨writes_sub_of_mem (nary_writes ..) (by decide), writes_sub_of_mem (binary_writes ..) (by decide), writes_sub_of_mem (unary_writes ..) (by decide),
   writes_sub_of_mem (binary_writes ..) (by decide), writes_sub_of_mem (nullary_writes ..) (by decide), writes_sub_of_mem (unary_writes ..) (by decide),
   writes_sub_of_mem (binary_writes ..) (by decide), writes_sub_of_mem (binary_writes ..) (by decide), writes_sub_of_mem (unary_writes ..) (by decide),
   writes_sub_of_mem (binary_writes ..) (by decide)⟩

/-- A reference the stretch does not write keeps its contents across it. -/
theorem vkeep14 (V : Valuation τ sig (Elt F)) {r : Ref sig .tc} (hr : r ∉ vwrites14) :
    after vops14 V (Proc.devRef .tc r) = V (Proc.devRef .tc r) :=
  after_of_writes_sub vops14 V vops14_writes hr

/-- What `main_v115` holds after the stretch: `headLogit` of the contents before it. -/
theorem val14_v115 (W : Valuation τ sig (Elt F)) :
    after vops14 W (Proc.devRef .tc main_v115) = headLogit (W (Proc.devRef .tc main_v99)) (W (Proc.devRef .tc main_v103)) (W (Proc.devRef .tc main_v107)) (W (Proc.devRef .tc main_arg20)) (W (Proc.devRef .tc main_arg21)) (W (Proc.devRef .tc main_arg22)) (W (Proc.devRef .tc main_arg23)) := by
  after_results_simp
  rfl

end Cert.ReferenceIdeal.Hand

end
-- ==== Proof.RefVal15.lean ====
/- Stretch 15 of the reference program's operations (operations 212 … 225 of the whole line, 14 of them), cut where only
   named values are still to be read; the references it writes and that any other reference keeps its contents
   across it; and the value of each named buffer it defines as a pure function of the contents before it. -/
import proofs.«155579_j31937376813550_1_alg».proof.Proof.RefOpsLib
import proofs.«155579_j31937376813550_1_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 14 operations, in order. -/
abbrev vops15 : List (HloOp τ sig (Elt F)) :=
  [ StableHlo.TRef.nullary (.of main_call10_cst : StableHlo.TRef sig ⟨S_, .f32⟩) (constant S_ .f32 0xFF800000#32),
    StableHlo.TRef.binary (.of main_v115 : StableHlo.TRef sig ⟨S1x1, .f32⟩) (.of main_call10_cst : StableHlo.TRef sig ⟨S_, .f32⟩) (.of main_call10_v0 : StableHlo.TRef sig ⟨S1, .f32⟩) (fun x v => Host.reduce FloatOps.maximumf x v reducesTo_S1x1_S1_d1 h_S_),
    StableHlo.TRef.nullary (.of main_call10_cst_0 : StableHlo.TRef sig ⟨S_, .f32⟩) (constant S_ .f32 0xFF800000#32),
    StableHlo.TRef.unary (.of main_call10_cst_0 : StableHlo.TRef sig ⟨S_, .f32⟩) (.of main_call10_v1 : StableHlo.TRef sig ⟨S1, .f32⟩) (broadcastInDim S1 ![] bcast_S_S1),
    StableHlo.TRef.binary (.of main_call10_v1 : StableHlo.TRef sig ⟨S1, .f32⟩) (.of main_call10_v0 : StableHlo.TRef sig ⟨S1, .f32⟩) (.of main_call10_v2 : StableHlo.TRef sig ⟨S1, .f32⟩) maximumf,
    StableHlo.TRef.unary (.of main_call10_v2 : StableHlo.TRef sig ⟨S1, .f32⟩) (.of main_call10_v3 : StableHlo.TRef sig ⟨S1x1, .f32⟩) (broadcastInDim S1x1 ![0] bcast_S1_S1x1_0),
    StableHlo.TRef.binary (.of main_v115 : StableHlo.TRef sig ⟨S1x1, .f32⟩) (.of main_call10_v3 : StableHlo.TRef sig ⟨S1x1, .f32⟩) (.of main_call10_v4 : StableHlo.TRef sig ⟨S1x1, .f32⟩) subf,
    StableHlo.TRef.unary (.of main_call10_v4 : StableHlo.TRef sig ⟨S1x1, .f32⟩) (.of main_call10_v5 : StableHlo.TRef sig ⟨S1x1, .f32⟩) Host.exp,
    StableHlo.TRef.nullary (.of main_call10_cst_1 : StableHlo.TRef sig ⟨S_, .f32⟩) (constant S_ .f32 0x00000000#32),
    StableHlo.TRef.binary (.of main_call10_v5 : StableHlo.TRef sig ⟨S1x1, .f32⟩) (.of main_call10_cst_1 : StableHlo.TRef sig ⟨S_, .f32⟩) (.of main_call10_v6 : StableHlo.TRef sig ⟨S1, .f32⟩) (fun x v => Host.reduceAdd x v reducesTo_S1x1_S1_d1 h_S_),
    StableHlo.TRef.unary (.of main_call10_v6 : StableHlo.TRef sig ⟨S1, .f32⟩) (.of main_call10_v7 : StableHlo.TRef sig ⟨S1x1, .f32⟩) (broadcastInDim S1x1 ![0] bcast_S1_S1x1_0),
    StableHlo.TRef.unary (.of main_call10_v7 : StableHlo.TRef sig ⟨S1x1, .f32⟩) (.of main_call10_v8 : StableHlo.TRef sig ⟨S1x1, .f32⟩) Host.log,
    StableHlo.TRef.binary (.of main_call10_v4 : StableHlo.TRef sig ⟨S1x1, .f32⟩) (.of main_call10_v8 : StableHlo.TRef sig ⟨S1x1, .f32⟩) (.of main_v116 : StableHlo.TRef sig ⟨S1x1, .f32⟩) subf,
    StableHlo.reshape main_v116 main_v117 rfl shapeCasts_S1x1_S1 ]

/-- The references the stretch writes: each operation's result, in order. -/
abbrev vwrites15 : List (Ref sig .tc) :=
  [ main_call10_cst, main_call10_v0, main_call10_cst_0, main_call10_v1, main_call10_v2, main_call10_v3, main_call10_v4, main_call10_v5,
    main_call10_cst_1, main_call10_v6, main_call10_v7, main_call10_v8, main_v116, main_v117 ]

theorem vops15_writes : (vops15 : List (HloOp τ sig (Elt F))).Forall fun op =>
    op.writes ⊆ (vwrites15.map (Proc.devRef (τ := τ) .tc)).toFinset :=
  ⟨writes_sub_of_mem (nullary_writes ..) (by decide), writes_sub_of_mem (binary_writes ..) (by decide), writes_sub_of_mem (nullary_writes ..) (by decide),
   writes_sub_of_mem (unary_writes ..) (by decide), writes_sub_of_mem (binary_writes ..) (by decide), writes_sub_of_mem (unary_writes ..) (by decide),
   writes_sub_of_mem (binary_writes ..) (by decide), writes_sub_of_mem (unary_writes ..) (by decide), writes_sub_of_mem (nullary_writes ..) (by decide),
   writes_sub_of_mem (binary_writes ..) (by decide), writes_sub_of_mem (unary_writes ..) (by decide), writes_sub_of_mem (unary_writes ..) (by decide),
   writes_sub_of_mem (binary_writes ..) (by decide), writes_sub_of_mem (reshape_writes ..) (by decide)⟩

/-- A reference the stretch does not write keeps its contents across it. -/
theorem vkeep15 (V : Valuation τ sig (Elt F)) {r : Ref sig .tc} (hr : r ∉ vwrites15) :
    after vops15 V (Proc.devRef .tc r) = V (Proc.devRef .tc r) :=
  after_of_writes_sub vops15 V vops15_writes hr

/-- What `main_v117` holds after the stretch: `headOut` of the contents before it. -/
theorem val15_v117 (W : Valuation τ sig (Elt F)) :
    after vops15 W (Proc.devRef .tc main_v117) = headOut (W (Proc.devRef .tc main_v115)) := by
  after_results_simp
  rfl

end Cert.ReferenceIdeal.Hand

end
-- ==== Proof.RefResult.lean ====
/- The value the reference program leaves in its result buffer, as a pure function of the launch contents of its 24
   argument arrays. The whole line of operations is re-cut into 16 stretches at points where only named values are
   still to be read (the same operations in the same order: equal lists). Each named value is a function of the
   valuation that reads only argument buffers; stretch by stretch, the buffer of each named value holds it after the
   prefix of the line up to that stretch (the stretch's value lemma where it is defined, the keep lemma where it is
   only carried). The three graph-convolution layers and the readout are visible in the equations at the end. -/
import proofs.«155579_j31937376813550_1_alg».proof.Proof.RefRun
import proofs.«155579_j31937376813550_1_alg».proof.Proof.RefVal00
import proofs.«155579_j31937376813550_1_alg».proof.Proof.RefVal01
import proofs.«155579_j31937376813550_1_alg».proof.Proof.RefVal02
import proofs.«155579_j31937376813550_1_alg».proof.Proof.RefVal03
import proofs.«155579_j31937376813550_1_alg».proof.Proof.RefVal04
import proofs.«155579_j31937376813550_1_alg».proof.Proof.RefVal05
import proofs.«155579_j31937376813550_1_alg».proof.Proof.RefVal06
import proofs.«155579_j31937376813550_1_alg».proof.Proof.RefVal07
import proofs.«155579_j31937376813550_1_alg».proof.Proof.RefVal08
import proofs.«155579_j31937376813550_1_alg».proof.Proof.RefVal09
import proofs.«155579_j31937376813550_1_alg».proof.Proof.RefVal10
import proofs.«155579_j31937376813550_1_alg».proof.Proof.RefVal11
import proofs.«155579_j31937376813550_1_alg».proof.Proof.RefVal12
import proofs.«155579_j31937376813550_1_alg».proof.Proof.RefVal13
import proofs.«155579_j31937376813550_1_alg».proof.Proof.RefVal14
import proofs.«155579_j31937376813550_1_alg».proof.Proof.RefVal15

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The named values, as functions of a valuation read at the argument buffers only -/

/-- Of the argument arrays: the adjacency as floats (what `main_v2` holds after the run). -/
def rAdj (V : Valuation τ sig (Elt F)) : (⟨S8192x8192, .f32⟩ : BufTy).Contents (Elt F) :=
  adjOf (V (Proc.devRef .tc main_arg1))

/-- Of the argument arrays: layer 1's pre-activation (what `main_v8` holds after the run). -/
def rZ1 (V : Valuation τ sig (Elt F)) : (⟨S8192x128, .f32⟩ : BufTy).Contents (Elt F) :=
  lin1 (rAdj V) (V (Proc.devRef .tc main_arg0)) (V (Proc.devRef .tc main_arg2)) (V (Proc.devRef .tc main_arg3))

/-- Of the argument arrays: its column mean (what `main_v11` holds after the run). -/
def rMu1 (V : Valuation τ sig (Elt F)) : (⟨S128, .f32⟩ : BufTy).Contents (Elt F) :=
  bnMean (rZ1 V)

/-- Of the argument arrays: its column variance (what `main_v12` holds after the run). -/
def rVar1 (V : Valuation τ sig (Elt F)) : (⟨S128, .f32⟩ : BufTy).Contents (Elt F) :=
  bnVar (rZ1 V)

/-- Of the argument arrays: its normalisation (what `main_v27` holds after the run). -/
def rBn1 (V : Valuation τ sig (Elt F)) : (⟨S8192x128, .f32⟩ : BufTy).Contents (Elt F) :=
  bnApply (rZ1 V) (rMu1 V) (rVar1 V) (V (Proc.devRef .tc main_arg4)) (V (Proc.devRef .tc main_arg5))

/-- Of the argument arrays: layer 1's output (what `main_v33` holds after the run). -/
def rH1 (V : Valuation τ sig (Elt F)) : (⟨S8192x128, .f32⟩ : BufTy).Contents (Elt F) :=
  mlpTail (rBn1 V) (V (Proc.devRef .tc main_arg6)) (V (Proc.devRef .tc main_arg7))

/-- Of the argument arrays: layer 2's pre-activation (what `main_v39` holds after the run). -/
def rZ2 (V : Valuation τ sig (Elt F)) : (⟨S8192x128, .f32⟩ : BufTy).Contents (Elt F) :=
  linN (rAdj V) (rH1 V) (V (Proc.devRef .tc main_arg8)) (V (Proc.devRef .tc main_arg9))

/-- Of the argument arrays: its column mean (what `main_v42` holds after the run). -/
def rMu2 (V : Valuation τ sig (Elt F)) : (⟨S128, .f32⟩ : BufTy).Contents (Elt F) :=
  bnMean (rZ2 V)

/-- Of the argument arrays: its column variance (what `main_v43` holds after the run). -/
def rVar2 (V : Valuation τ sig (Elt F)) : (⟨S128, .f32⟩ : BufTy).Contents (Elt F) :=
  bnVar (rZ2 V)

/-- Of the argument arrays: its normalisation (what `main_v58` holds after the run). -/
def rBn2 (V : Valuation τ sig (Elt F)) : (⟨S8192x128, .f32⟩ : BufTy).Contents (Elt F) :=
  bnApply (rZ2 V) (rMu2 V) (rVar2 V) (V (Proc.devRef .tc main_arg10)) (V (Proc.devRef .tc main_arg11))

/-- Of the argument arrays: layer 2's output (what `main_v64` holds after the run). -/
def rH2 (V : Valuation τ sig (Elt F)) : (⟨S8192x128, .f32⟩ : BufTy).Contents (Elt F) :=
  mlpTail (rBn2 V) (V (Proc.devRef .tc main_arg12)) (V (Proc.devRef .tc main_arg13))

/-- Of the argument arrays: layer 3's pre-activation (what `main_v70` holds after the run). -/
def rZ3 (V : Valuation τ sig (Elt F)) : (⟨S8192x128, .f32⟩ : BufTy).Contents (Elt F) :=
  linN (rAdj V) (rH2 V) (V (Proc.devRef .tc main_arg14)) (V (Proc.devRef .tc main_arg15))

/-- Of the argument arrays: its column mean (what `main_v73` holds after the run). -/
def rMu3 (V : Valuation τ sig (Elt F)) : (⟨S128, .f32⟩ : BufTy).Contents (Elt F) :=
  bnMean (rZ3 V)

/-- Of the argument arrays: its column variance (what `main_v74` holds after the run). -/
def rVar3 (V : Valuation τ sig (Elt F)) : (⟨S128, .f32⟩ : BufTy).Contents (Elt F) :=
  bnVar (rZ3 V)

/-- Of the argument arrays: its normalisation (what `main_v89` holds after the run). -/
def rBn3 (V : Valuation τ sig (Elt F)) : (⟨S8192x128, .f32⟩ : BufTy).Contents (Elt F) :=
  bnApply (rZ3 V) (rMu3 V) (rVar3 V) (V (Proc.devRef .tc main_arg16)) (V (Proc.devRef .tc main_arg17))

/-- Of the argument arrays: layer 3's output (what `main_v95` holds after the run). -/
def rH3 (V : Valuation τ sig (Elt F)) : (⟨S8192x128, .f32⟩ : BufTy).Contents (Elt F) :=
  mlpTail (rBn3 V) (V (Proc.devRef .tc main_arg18)) (V (Proc.devRef .tc main_arg19))

/-- Of the argument arrays: layer 1's output pooled over the nodes (what `main_v99` holds after the run). -/
def rP1 (V : Valuation τ sig (Elt F)) : (⟨S1x128, .f32⟩ : BufTy).Contents (Elt F) :=
  meanPool (rH1 V)

/-- Of the argument arrays: layer 2's output pooled (what `main_v103` holds after the run). -/
def rP2 (V : Valuation τ sig (Elt F)) : (⟨S1x128, .f32⟩ : BufTy).Contents (Elt F) :=
  meanPool (rH2 V)

/-- Of the argument arrays: layer 3's output pooled (what `main_v107` holds after the run). -/
def rP3 (V : Valuation τ sig (Elt F)) : (⟨S1x128, .f32⟩ : BufTy).Contents (Elt F) :=
  meanPool (rH3 V)

/-- Of the argument arrays: the readout's logit (what `main_v115` holds after the run). -/
def rLogit (V : Valuation τ sig (Elt F)) : (⟨S1x1, .f32⟩ : BufTy).Contents (Elt F) :=
  headLogit (rP1 V) (rP2 V) (rP3 V) (V (Proc.devRef .tc main_arg20)) (V (Proc.devRef .tc main_arg21)) (V (Proc.devRef .tc main_arg22)) (V (Proc.devRef .tc main_arg23))

/-- Of the argument arrays: the program's result (what `main_v117` holds after the run). -/
def rOut (V : Valuation τ sig (Elt F)) : (⟨S1, .f32⟩ : BufTy).Contents (Elt F) :=
  headOut (rLogit V)

/-! ## The line re-cut, its prefixes, and what a prefix leaves alone -/

/-- The stretches up to 00. -/
abbrev pre00 : List (HloOp τ sig (Elt F)) := vops00
/-- What they write. -/
abbrev wpre00 : List (Ref sig .tc) := vwrites00
theorem pkeep00 (V : Valuation τ sig (Elt F)) {r : Ref sig .tc} (hr : r ∉ wpre00) :
    after pre00 V (Proc.devRef .tc r) = V (Proc.devRef .tc r) :=
  vkeep00 V hr

/-- The stretches up to 01. -/
abbrev pre01 : List (HloOp τ sig (Elt F)) := pre00 ++ vops01
/-- What they write. -/
abbrev wpre01 : List (Ref sig .tc) := wpre00 ++ vwrites01
theorem pkeep01 (V : Valuation τ sig (Elt F)) {r : Ref sig .tc} (hr : r ∉ wpre01) :
    after pre01 V (Proc.devRef .tc r) = V (Proc.devRef .tc r) := by
  have h : r ∉ wpre00 ∧ r ∉ vwrites01 := not_or.1 fun h => hr (List.mem_append.2 h)
  show after (pre00 ++ vops01) V _ = _
  rw [after_append, vkeep01 _ h.2, pkeep00 _ h.1]

/-- The stretches up to 02. -/
abbrev pre02 : List (HloOp τ sig (Elt F)) := pre01 ++ vops02
/-- What they write. -/
abbrev wpre02 : List (Ref sig .tc) := wpre01 ++ vwrites02
theorem pkeep02 (V : Valuation τ sig (Elt F)) {r : Ref sig .tc} (hr : r ∉ wpre02) :
    after pre02 V (Proc.devRef .tc r) = V (Proc.devRef .tc r) := by
  have h : r ∉ wpre01 ∧ r ∉ vwrites02 := not_or.1 fun h => hr (List.mem_append.2 h)
  show after (pre01 ++ vops02) V _ = _
  rw [after_append, vkeep02 _ h.2, pkeep01 _ h.1]

/-- The stretches up to 03. -/
abbrev pre03 : List (HloOp τ sig (Elt F)) := pre02 ++ vops03
/-- What they write. -/
abbrev wpre03 : List (Ref sig .tc) := wpre02 ++ vwrites03
theorem pkeep03 (V : Valuation τ sig (Elt F)) {r : Ref sig .tc} (hr : r ∉ wpre03) :
    after pre03 V (Proc.devRef .tc r) = V (Proc.devRef .tc r) := by
  have h : r ∉ wpre02 ∧ r ∉ vwrites03 := not_or.1 fun h => hr (List.mem_append.2 h)
  show after (pre02 ++ vops03) V _ = _
  rw [after_append, vkeep03 _ h.2, pkeep02 _ h.1]

/-- The stretches up to 04. -/
abbrev pre04 : List (HloOp τ sig (Elt F)) := pre03 ++ vops04
/-- What they write. -/
abbrev wpre04 : List (Ref sig .tc) := wpre03 ++ vwrites04
theorem pkeep04 (V : Valuation τ sig (Elt F)) {r : Ref sig .tc} (hr : r ∉ wpre04) :
    after pre04 V (Proc.devRef .tc r) = V (Proc.devRef .tc r) := by
  have h : r ∉ wpre03 ∧ r ∉ vwrites04 := not_or.1 fun h => hr (List.mem_append.2 h)
  show after (pre03 ++ vops04) V _ = _
  rw [after_append, vkeep04 _ h.2, pkeep03 _ h.1]

/-- The stretches up to 05. -/
abbrev pre05 : List (HloOp τ sig (Elt F)) := pre04 ++ vops05
/-- What they write. -/
abbrev wpre05 : List (Ref sig .tc) := wpre04 ++ vwrites05
theorem pkeep05 (V : Valuation τ sig (Elt F)) {r : Ref sig .tc} (hr : r ∉ wpre05) :
    after pre05 V (Proc.devRef .tc r) = V (Proc.devRef .tc r) := by
  have h : r ∉ wpre04 ∧ r ∉ vwrites05 := not_or.1 fun h => hr (List.mem_append.2 h)
  show after (pre04 ++ vops05) V _ = _
  rw [after_append, vkeep05 _ h.2, pkeep04 _ h.1]

/-- The stretches up to 06. -/
abbrev pre06 : List (HloOp τ sig (Elt F)) := pre05 ++ vops06
/-- What they write. -/
abbrev wpre06 : List (Ref sig .tc) := wpre05 ++ vwrites06
theorem pkeep06 (V : Valuation τ sig (Elt F)) {r : Ref sig .tc} (hr : r ∉ wpre06) :
    after pre06 V (Proc.devRef .tc r) = V (Proc.devRef .tc r) := by
  have h : r ∉ wpre05 ∧ r ∉ vwrites06 := not_or.1 fun h => hr (List.mem_append.2 h)
  show after (pre05 ++ vops06) V _ = _
  rw [after_append, vkeep06 _ h.2, pkeep05 _ h.1]

/-- The stretches up to 07. -/
abbrev pre07 : List (HloOp τ sig (Elt F)) := pre06 ++ vops07
/-- What they write. -/
abbrev wpre07 : List (Ref sig .tc) := wpre06 ++ vwrites07
theorem pkeep07 (V : Valuation τ sig (Elt F)) {r : Ref sig .tc} (hr : r ∉ wpre07) :
    after pre07 V (Proc.devRef .tc r) = V (Proc.devRef .tc r) := by
  have h : r ∉ wpre06 ∧ r ∉ vwrites07 := not_or.1 fun h => hr (List.mem_append.2 h)
  show after (pre06 ++ vops07) V _ = _
  rw [after_append, vkeep07 _ h.2, pkeep06 _ h.1]

/-- The stretches up to 08. -/
abbrev pre08 : List (HloOp τ sig (Elt F)) := pre07 ++ vops08
/-- What they write. -/
abbrev wpre08 : List (Ref sig .tc) := wpre07 ++ vwrites08
theorem pkeep08 (V : Valuation τ sig (Elt F)) {r : Ref sig .tc} (hr : r ∉ wpre08) :
    after pre08 V (Proc.devRef .tc r) = V (Proc.devRef .tc r) := by
  have h : r ∉ wpre07 ∧ r ∉ vwrites08 := not_or.1 fun h => hr (List.mem_append.2 h)
  show after (pre07 ++ vops08) V _ = _
  rw [after_append, vkeep08 _ h.2, pkeep07 _ h.1]

/-- The stretches up to 09. -/
abbrev pre09 : List (HloOp τ sig (Elt F)) := pre08 ++ vops09
/-- What they write. -/
abbrev wpre09 : List (Ref sig .tc) := wpre08 ++ vwrites09
theorem pkeep09 (V : Valuation τ sig (Elt F)) {r : Ref sig .tc} (hr : r ∉ wpre09) :
    after pre09 V (Proc.devRef .tc r) = V (Proc.devRef .tc r) := by
  have h : r ∉ wpre08 ∧ r ∉ vwrites09 := not_or.1 fun h => hr (List.mem_append.2 h)
  show after (pre08 ++ vops09) V _ = _
  rw [after_append, vkeep09 _ h.2, pkeep08 _ h.1]

/-- The stretches up to 10. -/
abbrev pre10 : List (HloOp τ sig (Elt F)) := pre09 ++ vops10
/-- What they write. -/
abbrev wpre10 : List (Ref sig .tc) := wpre09 ++ vwrites10
theorem pkeep10 (V : Valuation τ sig (Elt F)) {r : Ref sig .tc} (hr : r ∉ wpre10) :
    after pre10 V (Proc.devRef .tc r) = V (Proc.devRef .tc r) := by
  have h : r ∉ wpre09 ∧ r ∉ vwrites10 := not_or.1 fun h => hr (List.mem_append.2 h)
  show after (pre09 ++ vops10) V _ = _
  rw [after_append, vkeep10 _ h.2, pkeep09 _ h.1]

/-- The stretches up to 11. -/
abbrev pre11 : List (HloOp τ sig (Elt F)) := pre10 ++ vops11
/-- What they write. -/
abbrev wpre11 : List (Ref sig .tc) := wpre10 ++ vwrites11
theorem pkeep11 (V : Valuation τ sig (Elt F)) {r : Ref sig .tc} (hr : r ∉ wpre11) :
    after pre11 V (Proc.devRef .tc r) = V (Proc.devRef .tc r) := by
  have h : r ∉ wpre10 ∧ r ∉ vwrites11 := not_or.1 fun h => hr (List.mem_append.2 h)
  show after (pre10 ++ vops11) V _ = _
  rw [after_append, vkeep11 _ h.2, pkeep10 _ h.1]

/-- The stretches up to 12. -/
abbrev pre12 : List (HloOp τ sig (Elt F)) := pre11 ++ vops12
/-- What they write. -/
abbrev wpre12 : List (Ref sig .tc) := wpre11 ++ vwrites12
theorem pkeep12 (V : Valuation τ sig (Elt F)) {r : Ref sig .tc} (hr : r ∉ wpre12) :
    after pre12 V (Proc.devRef .tc r) = V (Proc.devRef .tc r) := by
  have h : r ∉ wpre11 ∧ r ∉ vwrites12 := not_or.1 fun h => hr (List.mem_append.2 h)
  show after (pre11 ++ vops12) V _ = _
  rw [after_append, vkeep12 _ h.2, pkeep11 _ h.1]

/-- The stretches up to 13. -/
abbrev pre13 : List (HloOp τ sig (Elt F)) := pre12 ++ vops13
/-- What they write. -/
abbrev wpre13 : List (Ref sig .tc) := wpre12 ++ vwrites13
theorem pkeep13 (V : Valuation τ sig (Elt F)) {r : Ref sig .tc} (hr : r ∉ wpre13) :
    after pre13 V (Proc.devRef .tc r) = V (Proc.devRef .tc r) := by
  have h : r ∉ wpre12 ∧ r ∉ vwrites13 := not_or.1 fun h => hr (List.mem_append.2 h)
  show after (pre12 ++ vops13) V _ = _
  rw [after_append, vkeep13 _ h.2, pkeep12 _ h.1]

/-- The stretches up to 14. -/
abbrev pre14 : List (HloOp τ sig (Elt F)) := pre13 ++ vops14
/-- What they write. -/
abbrev wpre14 : List (Ref sig .tc) := wpre13 ++ vwrites14
theorem pkeep14 (V : Valuation τ sig (Elt F)) {r : Ref sig .tc} (hr : r ∉ wpre14) :
    after pre14 V (Proc.devRef .tc r) = V (Proc.devRef .tc r) := by
  have h : r ∉ wpre13 ∧ r ∉ vwrites14 := not_or.1 fun h => hr (List.mem_append.2 h)
  show after (pre13 ++ vops14) V _ = _
  rw [after_append, vkeep14 _ h.2, pkeep13 _ h.1]

/-- The stretches up to 15. -/
abbrev pre15 : List (HloOp τ sig (Elt F)) := pre14 ++ vops15
/-- What they write. -/
abbrev wpre15 : List (Ref sig .tc) := wpre14 ++ vwrites15
theorem pkeep15 (V : Valuation τ sig (Elt F)) {r : Ref sig .tc} (hr : r ∉ wpre15) :
    after pre15 V (Proc.devRef .tc r) = V (Proc.devRef .tc r) := by
  have h : r ∉ wpre14 ∧ r ∉ vwrites15 := not_or.1 fun h => hr (List.mem_append.2 h)
  show after (pre14 ++ vops15) V _ = _
  rw [after_append, vkeep15 _ h.2, pkeep14 _ h.1]

set_option maxRecDepth 100000 in
/-- The re-cut line is the line: the same operations in the same order. -/
theorem ops_eq_pre : (ops : List (HloOp τ sig (Elt F))) = pre15 := by
  simp only [ops, pre00, pre01, pre02, pre03, pre04, pre05, pre06, pre07, pre08, pre09, pre10, pre11, pre12, pre13, pre14, pre15, ops00, ops01, ops02, ops03, ops04, ops05, ops06,
    vops00, vops01, vops02, vops03, vops04, vops05, vops06, vops07, vops08, vops09, vops10, vops11, vops12, vops13, vops14, vops15, List.cons_append, List.nil_append]

/-! ## Stretch by stretch: each named value's buffer holds it after the prefix -/

theorem st00_v2 (V : Valuation τ sig (Elt F)) : after pre00 V (Proc.devRef .tc main_v2) = rAdj V := by
  show after vops00 V (Proc.devRef .tc main_v2) = adjOf (V (Proc.devRef .tc main_arg1))
  rw [val00_v2]

theorem st01_v2 (V : Valuation τ sig (Elt F)) : after pre01 V (Proc.devRef .tc main_v2) = rAdj V := by
  show after (pre00 ++ vops01) V (Proc.devRef .tc main_v2) = _
  rw [after_append, vkeep01 _ (by decide), st00_v2]

theorem st01_v8 (V : Valuation τ sig (Elt F)) : after pre01 V (Proc.devRef .tc main_v8) = rZ1 V := by
  show after (pre00 ++ vops01) V (Proc.devRef .tc main_v8) = lin1 (rAdj V) (V (Proc.devRef .tc main_arg0)) (V (Proc.devRef .tc main_arg2)) (V (Proc.devRef .tc main_arg3))
  rw [after_append, val01_v8, st00_v2, pkeep00 V (r := main_arg0) (by decide), pkeep00 V (r := main_arg2) (by decide), pkeep00 V (r := main_arg3) (by decide)]

theorem st02_v2 (V : Valuation τ sig (Elt F)) : after pre02 V (Proc.devRef .tc main_v2) = rAdj V := by
  show after (pre01 ++ vops02) V (Proc.devRef .tc main_v2) = _
  rw [after_append, vkeep02 _ (by decide), st01_v2]

theorem st02_v8 (V : Valuation τ sig (Elt F)) : after pre02 V (Proc.devRef .tc main_v8) = rZ1 V := by
  show after (pre01 ++ vops02) V (Proc.devRef .tc main_v8) = _
  rw [after_append, vkeep02 _ (by decide), st01_v8]

theorem st02_v11 (V : Valuation τ sig (Elt F)) : after pre02 V (Proc.devRef .tc main_v11) = rMu1 V := by
  show after (pre01 ++ vops02) V (Proc.devRef .tc main_v11) = bnMean (rZ1 V)
  rw [after_append, val02_v11, st01_v8]

theorem st02_v12 (V : Valuation τ sig (Elt F)) : after pre02 V (Proc.devRef .tc main_v12) = rVar1 V := by
  show after (pre01 ++ vops02) V (Proc.devRef .tc main_v12) = bnVar (rZ1 V)
  rw [after_append, val02_v12, st01_v8]

theorem st03_v2 (V : Valuation τ sig (Elt F)) : after pre03 V (Proc.devRef .tc main_v2) = rAdj V := by
  show after (pre02 ++ vops03) V (Proc.devRef .tc main_v2) = _
  rw [after_append, vkeep03 _ (by decide), st02_v2]

theorem st03_v27 (V : Valuation τ sig (Elt F)) : after pre03 V (Proc.devRef .tc main_v27) = rBn1 V := by
  show after (pre02 ++ vops03) V (Proc.devRef .tc main_v27) = bnApply (rZ1 V) (rMu1 V) (rVar1 V) (V (Proc.devRef .tc main_arg4)) (V (Proc.devRef .tc main_arg5))
  rw [after_append, val03_v27, st02_v8, st02_v11, st02_v12, pkeep02 V (r := main_arg4) (by decide), pkeep02 V (r := main_arg5) (by decide)]

theorem st04_v2 (V : Valuation τ sig (Elt F)) : after pre04 V (Proc.devRef .tc main_v2) = rAdj V := by
  show after (pre03 ++ vops04) V (Proc.devRef .tc main_v2) = _
  rw [after_append, vkeep04 _ (by decide), st03_v2]

theorem st04_v33 (V : Valuation τ sig (Elt F)) : after pre04 V (Proc.devRef .tc main_v33) = rH1 V := by
  show after (pre03 ++ vops04) V (Proc.devRef .tc main_v33) = mlpTail (rBn1 V) (V (Proc.devRef .tc main_arg6)) (V (Proc.devRef .tc main_arg7))
  rw [after_append, val04_v33, st03_v27, pkeep03 V (r := main_arg6) (by decide), pkeep03 V (r := main_arg7) (by decide)]

theorem st05_v2 (V : Valuation τ sig (Elt F)) : after pre05 V (Proc.devRef .tc main_v2) = rAdj V := by
  show after (pre04 ++ vops05) V (Proc.devRef .tc main_v2) = _
  rw [after_append, vkeep05 _ (by decide), st04_v2]

theorem st05_v33 (V : Valuation τ sig (Elt F)) : after pre05 V (Proc.devRef .tc main_v33) = rH1 V := by
  show after (pre04 ++ vops05) V (Proc.devRef .tc main_v33) = _
  rw [after_append, vkeep05 _ (by decide), st04_v33]

theorem st05_v39 (V : Valuation τ sig (Elt F)) : after pre05 V (Proc.devRef .tc main_v39) = rZ2 V := by
  show after (pre04 ++ vops05) V (Proc.devRef .tc main_v39) = linN (rAdj V) (rH1 V) (V (Proc.devRef .tc main_arg8)) (V (Proc.devRef .tc main_arg9))
  rw [after_append, val05_v39, st04_v2, st04_v33, pkeep04 V (r := main_arg8) (by decide), pkeep04 V (r := main_arg9) (by decide)]

theorem st06_v2 (V : Valuation τ sig (Elt F)) : after pre06 V (Proc.devRef .tc main_v2) = rAdj V := by
  show after (pre05 ++ vops06) V (Proc.devRef .tc main_v2) = _
  rw [after_append, vkeep06 _ (by decide), st05_v2]

theorem st06_v33 (V : Valuation τ sig (Elt F)) : after pre06 V (Proc.devRef .tc main_v33) = rH1 V := by
  show after (pre05 ++ vops06) V (Proc.devRef .tc main_v33) = _
  rw [after_append, vkeep06 _ (by decide), st05_v33]

theorem st06_v39 (V : Valuation τ sig (Elt F)) : after pre06 V (Proc.devRef .tc main_v39) = rZ2 V := by
  show after (pre05 ++ vops06) V (Proc.devRef .tc main_v39) = _
  rw [after_append, vkeep06 _ (by decide), st05_v39]

theorem st06_v42 (V : Valuation τ sig (Elt F)) : after pre06 V (Proc.devRef .tc main_v42) = rMu2 V := by
  show after (pre05 ++ vops06) V (Proc.devRef .tc main_v42) = bnMean (rZ2 V)
  rw [after_append, val06_v42, st05_v39]

theorem st06_v43 (V : Valuation τ sig (Elt F)) : after pre06 V (Proc.devRef .tc main_v43) = rVar2 V := by
  show after (pre05 ++ vops06) V (Proc.devRef .tc main_v43) = bnVar (rZ2 V)
  rw [after_append, val06_v43, st05_v39]

theorem st07_v2 (V : Valuation τ sig (Elt F)) : after pre07 V (Proc.devRef .tc main_v2) = rAdj V := by
  show after (pre06 ++ vops07) V (Proc.devRef .tc main_v2) = _
  rw [after_append, vkeep07 _ (by decide), st06_v2]

theorem st07_v33 (V : Valuation τ sig (Elt F)) : after pre07 V (Proc.devRef .tc main_v33) = rH1 V := by
  show after (pre06 ++ vops07) V (Proc.devRef .tc main_v33) = _
  rw [after_append, vkeep07 _ (by decide), st06_v33]

theorem st07_v58 (V : Valuation τ sig (Elt F)) : after pre07 V (Proc.devRef .tc main_v58) = rBn2 V := by
  show after (pre06 ++ vops07) V (Proc.devRef .tc main_v58) = bnApply (rZ2 V) (rMu2 V) (rVar2 V) (V (Proc.devRef .tc main_arg10)) (V (Proc.devRef .tc main_arg11))
  rw [after_append, val07_v58, st06_v39, st06_v42, st06_v43, pkeep06 V (r := main_arg10) (by decide), pkeep06 V (r := main_arg11) (by decide)]

theorem st08_v2 (V : Valuation τ sig (Elt F)) : after pre08 V (Proc.devRef .tc main_v2) = rAdj V := by
  show after (pre07 ++ vops08) V (Proc.devRef .tc main_v2) = _
  rw [after_append, vkeep08 _ (by decide), st07_v2]

theorem st08_v33 (V : Valuation τ sig (Elt F)) : after pre08 V (Proc.devRef .tc main_v33) = rH1 V := by
  show after (pre07 ++ vops08) V (Proc.devRef .tc main_v33) = _
  rw [after_append, vkeep08 _ (by decide), st07_v33]

theorem st08_v64 (V : Valuation τ sig (Elt F)) : after pre08 V (Proc.devRef .tc main_v64) = rH2 V := by
  show after (pre07 ++ vops08) V (Proc.devRef .tc main_v64) = mlpTail (rBn2 V) (V (Proc.devRef .tc main_arg12)) (V (Proc.devRef .tc main_arg13))
  rw [after_append, val08_v64, st07_v58, pkeep07 V (r := main_arg12) (by decide), pkeep07 V (r := main_arg13) (by decide)]

theorem st09_v33 (V : Valuation τ sig (Elt F)) : after pre09 V (Proc.devRef .tc main_v33) = rH1 V := by
  show after (pre08 ++ vops09) V (Proc.devRef .tc main_v33) = _
  rw [after_append, vkeep09 _ (by decide), st08_v33]

theorem st09_v64 (V : Valuation τ sig (Elt F)) : after pre09 V (Proc.devRef .tc main_v64) = rH2 V := by
  show after (pre08 ++ vops09) V (Proc.devRef .tc main_v64) = _
  rw [after_append, vkeep09 _ (by decide), st08_v64]

theorem st09_v70 (V : Valuation τ sig (Elt F)) : after pre09 V (Proc.devRef .tc main_v70) = rZ3 V := by
  show after (pre08 ++ vops09) V (Proc.devRef .tc main_v70) = linN (rAdj V) (rH2 V) (V (Proc.devRef .tc main_arg14)) (V (Proc.devRef .tc main_arg15))
  rw [after_append, val09_v70, st08_v2, st08_v64, pkeep08 V (r := main_arg14) (by decide), pkeep08 V (r := main_arg15) (by decide)]

theorem st10_v33 (V : Valuation τ sig (Elt F)) : after pre10 V (Proc.devRef .tc main_v33) = rH1 V := by
  show after (pre09 ++ vops10) V (Proc.devRef .tc main_v33) = _
  rw [after_append, vkeep10 _ (by decide), st09_v33]

theorem st10_v64 (V : Valuation τ sig (Elt F)) : after pre10 V (Proc.devRef .tc main_v64) = rH2 V := by
  show after (pre09 ++ vops10) V (Proc.devRef .tc main_v64) = _
  rw [after_append, vkeep10 _ (by decide), st09_v64]

theorem st10_v70 (V : Valuation τ sig (Elt F)) : after pre10 V (Proc.devRef .tc main_v70) = rZ3 V := by
  show after (pre09 ++ vops10) V (Proc.devRef .tc main_v70) = _
  rw [after_append, vkeep10 _ (by decide), st09_v70]

theorem st10_v73 (V : Valuation τ sig (Elt F)) : after pre10 V (Proc.devRef .tc main_v73) = rMu3 V := by
  show after (pre09 ++ vops10) V (Proc.devRef .tc main_v73) = bnMean (rZ3 V)
  rw [after_append, val10_v73, st09_v70]

theorem st10_v74 (V : Valuation τ sig (Elt F)) : after pre10 V (Proc.devRef .tc main_v74) = rVar3 V := by
  show after (pre09 ++ vops10) V (Proc.devRef .tc main_v74) = bnVar (rZ3 V)
  rw [after_append, val10_v74, st09_v70]

theorem st11_v33 (V : Valuation τ sig (Elt F)) : after pre11 V (Proc.devRef .tc main_v33) = rH1 V := by
  show after (pre10 ++ vops11) V (Proc.devRef .tc main_v33) = _
  rw [after_append, vkeep11 _ (by decide), st10_v33]

theorem st11_v64 (V : Valuation τ sig (Elt F)) : after pre11 V (Proc.devRef .tc main_v64) = rH2 V := by
  show after (pre10 ++ vops11) V (Proc.devRef .tc main_v64) = _
  rw [after_append, vkeep11 _ (by decide), st10_v64]

theorem st11_v89 (V : Valuation τ sig (Elt F)) : after pre11 V (Proc.devRef .tc main_v89) = rBn3 V := by
  show after (pre10 ++ vops11) V (Proc.devRef .tc main_v89) = bnApply (rZ3 V) (rMu3 V) (rVar3 V) (V (Proc.devRef .tc main_arg16)) (V (Proc.devRef .tc main_arg17))
  rw [after_append, val11_v89, st10_v70, st10_v73, st10_v74, pkeep10 V (r := main_arg16) (by decide), pkeep10 V (r := main_arg17) (by decide)]

theorem st12_v33 (V : Valuation τ sig (Elt F)) : after pre12 V (Proc.devRef .tc main_v33) = rH1 V := by
  show after (pre11 ++ vops12) V (Proc.devRef .tc main_v33) = _
  rw [after_append, vkeep12 _ (by decide), st11_v33]

theorem st12_v64 (V : Valuation τ sig (Elt F)) : after pre12 V (Proc.devRef .tc main_v64) = rH2 V := by
  show after (pre11 ++ vops12) V (Proc.devRef .tc main_v64) = _
  rw [after_append, vkeep12 _ (by decide), st11_v64]

theorem st12_v95 (V : Valuation τ sig (Elt F)) : after pre12 V (Proc.devRef .tc main_v95) = rH3 V := by
  show after (pre11 ++ vops12) V (Proc.devRef .tc main_v95) = mlpTail (rBn3 V) (V (Proc.devRef .tc main_arg18)) (V (Proc.devRef .tc main_arg19))
  rw [after_append, val12_v95, st11_v89, pkeep11 V (r := main_arg18) (by decide), pkeep11 V (r := main_arg19) (by decide)]

theorem st13_v99 (V : Valuation τ sig (Elt F)) : after pre13 V (Proc.devRef .tc main_v99) = rP1 V := by
  show after (pre12 ++ vops13) V (Proc.devRef .tc main_v99) = meanPool (rH1 V)
  rw [after_append, val13_v99, st12_v33]

theorem st13_v103 (V : Valuation τ sig (Elt F)) : after pre13 V (Proc.devRef .tc main_v103) = rP2 V := by
  show after (pre12 ++ vops13) V (Proc.devRef .tc main_v103) = meanPool (rH2 V)
  rw [after_append, val13_v103, st12_v64]

theorem st13_v107 (V : Valuation τ sig (Elt F)) : after pre13 V (Proc.devRef .tc main_v107) = rP3 V := by
  show after (pre12 ++ vops13) V (Proc.devRef .tc main_v107) = meanPool (rH3 V)
  rw [after_append, val13_v107, st12_v95]

theorem st14_v115 (V : Valuation τ sig (Elt F)) : after pre14 V (Proc.devRef .tc main_v115) = rLogit V := by
  show after (pre13 ++ vops14) V (Proc.devRef .tc main_v115) = headLogit (rP1 V) (rP2 V) (rP3 V) (V (Proc.devRef .tc main_arg20)) (V (Proc.devRef .tc main_arg21)) (V (Proc.devRef .tc main_arg22)) (V (Proc.devRef .tc main_arg23))
  rw [after_append, val14_v115, st13_v99, st13_v103, st13_v107, pkeep13 V (r := main_arg20) (by decide), pkeep13 V (r := main_arg21) (by decide), pkeep13 V (r := main_arg22) (by decide), pkeep13 V (r := main_arg23) (by decide)]

theorem st15_v117 (V : Valuation τ sig (Elt F)) : after pre15 V (Proc.devRef .tc main_v117) = rOut V := by
  show after (pre14 ++ vops15) V (Proc.devRef .tc main_v117) = headOut (rLogit V)
  rw [after_append, val15_v117, st14_v115]

/-! ## The result -/

/-- After the whole line the result buffer holds `rOut` of the valuation it started from. -/
theorem result_eq (V : Valuation τ sig (Elt F)) : after ops V (Proc.devRef .tc main_v117) = rOut V := by
  rw [ops_eq_pre]; exact st15_v117 V

/-- Layer 1 is `ginLayer1` of the adjacency, the node features and the layer's six parameter arrays. -/
theorem rH1_eq (V : Valuation τ sig (Elt F)) : rH1 V = ginLayer1 (rAdj V) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := rfl
/-- Layer 2 is `ginLayer` of the adjacency, layer 1's output and the layer's six parameter arrays. -/
theorem rH2_eq (V : Valuation τ sig (Elt F)) : rH2 V = ginLayer (rAdj V) (rH1 V) (V (Proc.devRef .tc main_arg8)) (V (Proc.devRef .tc main_arg9)) (V (Proc.devRef .tc main_arg10)) (V (Proc.devRef .tc main_arg11)) (V (Proc.devRef .tc main_arg12)) (V (Proc.devRef .tc main_arg13)) := rfl
/-- Layer 3 is `ginLayer` of the adjacency, layer 2's output and the layer's six parameter arrays. -/
theorem rH3_eq (V : Valuation τ sig (Elt F)) : rH3 V = ginLayer (rAdj V) (rH2 V) (V (Proc.devRef .tc main_arg14)) (V (Proc.devRef .tc main_arg15)) (V (Proc.devRef .tc main_arg16)) (V (Proc.devRef .tc main_arg17)) (V (Proc.devRef .tc main_arg18)) (V (Proc.devRef .tc main_arg19)) := rfl
/-- The result is the readout of the three layers' outputs pooled over the nodes. -/
theorem rOut_eq (V : Valuation τ sig (Elt F)) : rOut V = headOut (headLogit (meanPool (rH1 V)) (meanPool (rH2 V)) (meanPool (rH3 V)) (V (Proc.devRef .tc main_arg20)) (V (Proc.devRef .tc main_arg21)) (V (Proc.devRef .tc main_arg22)) (V (Proc.devRef .tc main_arg23))) := rfl

/-- On every device, for any float values, from any memory with zero counters: every weakly fair execution of @main
    terminates with the result buffer at `rOut` of the launch contents. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v117) = rOut (launchContents m c) :=
  (θ_run defs _ _).mono (fun _ h c => (h c main_v117).trans (result_eq _)) (run_raw m ρ)

/-- Both at once, in the shape of the reference half of a value claim: the result buffer at `rOut` of the launch
    contents, and the 24 argument arrays as the launch had them. -/
theorem run_full (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v117) = rOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c =>
    ⟨(h c main_v117).trans (result_eq _),
     (h c main_arg0).trans (ops_keep _ (by decide)),
     (h c main_arg1).trans (ops_keep _ (by decide)),
     (h c main_arg2).trans (ops_keep _ (by decide)),
     (h c main_arg3).trans (ops_keep _ (by decide)),
     (h c main_arg4).trans (ops_keep _ (by decide)),
     (h c main_arg5).trans (ops_keep _ (by decide)),
     (h c main_arg6).trans (ops_keep _ (by decide)),
     (h c main_arg7).trans (ops_keep _ (by decide)),
     (h c main_arg8).trans (ops_keep _ (by decide)),
     (h c main_arg9).trans (ops_keep _ (by decide)),
     (h c main_arg10).trans (ops_keep _ (by decide)),
     (h c main_arg11).trans (ops_keep _ (by decide)),
     (h c main_arg12).trans (ops_keep _ (by decide)),
     (h c main_arg13).trans (ops_keep _ (by decide)),
     (h c main_arg14).trans (ops_keep _ (by decide)),
     (h c main_arg15).trans (ops_keep _ (by decide)),
     (h c main_arg16).trans (ops_keep _ (by decide)),
     (h c main_arg17).trans (ops_keep _ (by decide)),
     (h c main_arg18).trans (ops_keep _ (by decide)),
     (h c main_arg19).trans (ops_keep _ (by decide)),
     (h c main_arg20).trans (ops_keep _ (by decide)),
     (h c main_arg21).trans (ops_keep _ (by decide)),
     (h c main_arg22).trans (ops_keep _ (by decide)),
     (h c main_arg23).trans (ops_keep _ (by decide))⟩)
    (run_raw m ρ)

end Cert.ReferenceIdeal.Hand

end
-- ==== Proof.GinSpec.lean ====
/-
  The value of one aggregation-and-linear stage of the graph network, as ONE function of its four input arrays.

  For node features `x` (one row per node), an integer adjacency array `adj`, weights `w` and a bias row `b`, the stage
  computes, for node `r` and output column `q`,

      pre[r, q] = Σ_k (x[r, k] + Σ_j [adj[j, r] ≠ 0] · x[j, k]) · w[k, q] + b[0, q]:

  every node adds to its own features the features of the nodes `j` whose adjacency entry `adj[j, r]` is not zero, and the
  sum goes through an affine map. Only the PATTERN of the adjacency enters: `ind v` is 1 for a nonzero word and 0 for
  the zero word. Stated over the extended reals, index by index, for feature widths 64 and 128.
-/
import Idealize.ShloMosaic.PureOps.Ideal
import Idealize.ShloMosaic.PureOps.Ideal.Laws
import Idealize.ShloMosaic.Lib.ValueIdx

noncomputable section

open scoped BigOperators

namespace Cert.KernelIdeal.Hand

open Idealize.ShloMosaic Idealize.ShloMosaic.ValueIdx

/-- The nonzero pattern of a 32-bit word as an extended real: 0 for the zero word, 1 for every other. -/
def ind (v : BitVec 32) : EReal := if v = 0#32 then 0 else 1

/-- The comparison "not equal to zero" as a one-bit word: 0 at the zero word, 1 elsewhere. -/
theorem cmpi_ne_zero (v : BitVec 32) : IntOp.cmpi .ne v 0#32 = if v = 0#32 then 0#1 else 1#1 := by
  by_cases h : v = 0#32
  · subst h; rfl
  · rw [if_neg h]; unfold IntOp.cmpi
    have hb : (v != 0#32) = true := bne_iff_ne.mpr h
    show BitVec.ofBool (v != 0#32) = 1#1
    rw [hb]; rfl

/-- The pattern as a kernel computes it: the comparison bit, widened to 32 bits, read as a signed integer. -/
theorem ind_of_sitofp_extui (v : BitVec 32) :
    FloatOps.sitofp (F := Ideal) .f32 ((IntOp.cmpi .ne v 0#32).setWidth 32) = ind v := by
  rw [cmpi_ne_zero]; unfold ind
  by_cases h : v = 0#32
  · rw [if_pos h, if_pos h]; show (((0#1 : BitVec 1).setWidth 32).toInt : ℝ) = ((0 : ℝ) : EReal); norm_num
  · rw [if_neg h, if_neg h]; show ((((1#1 : BitVec 1).setWidth 32).toInt : ℝ) : EReal) = 1
    have : ((1#1 : BitVec 1).setWidth 32).toInt = 1 := by decide
    rw [this]; norm_num

/-- The pattern as a host conversion computes it: the comparison bit read as an unsigned integer. -/
theorem ind_of_uitofp (v : BitVec 32) :
    FloatOps.uitofp (F := Ideal) .f32 (IntOp.cmpi .ne v 0#32) = ind v := by
  rw [cmpi_ne_zero]; unfold ind
  by_cases h : v = 0#32
  · rw [if_pos h, if_pos h]; show (((0#1 : BitVec 1).toNat : ℝ) : EReal) = 0; norm_num
  · rw [if_neg h, if_neg h]; show (((1#1 : BitVec 1).toNat : ℝ) : EReal) = 1; norm_num

/-- The stage at feature width 64. -/
def pre_64 (adj : (⟨2, ![8192, 8192]⟩ : Shape).Idx → BitVec 32) (x : (⟨2, ![8192, 64]⟩ : Shape).Idx → EReal)
    (w : (⟨2, ![64, 128]⟩ : Shape).Idx → EReal) (b : (⟨2, ![1, 128]⟩ : Shape).Idx → EReal) :
    (⟨2, ![8192, 128]⟩ : Shape).Idx → EReal :=
  fun i => (∑ k : Fin 64, (x (ix2 (i 0) k) + ∑ j : Fin 8192, ind (adj (ix2 j (i 0))) * x (ix2 j k)) * w (ix2 k (i 1)))
    + b (ix2 0 (i 1))

/-- The stage at feature width 128. -/
def pre_128 (adj : (⟨2, ![8192, 8192]⟩ : Shape).Idx → BitVec 32) (x : (⟨2, ![8192, 128]⟩ : Shape).Idx → EReal)
    (w : (⟨2, ![128, 128]⟩ : Shape).Idx → EReal) (b : (⟨2, ![1, 128]⟩ : Shape).Idx → EReal) :
    (⟨2, ![8192, 128]⟩ : Shape).Idx → EReal :=
  fun i => (∑ k : Fin 128, (x (ix2 (i 0) k) + ∑ j : Fin 8192, ind (adj (ix2 j (i 0))) * x (ix2 j k)) * w (ix2 k (i 1)))
    + b (ix2 0 (i 1))

end Cert.KernelIdeal.Hand

end
-- ==== Proof.LibDotEntry.lean ====
/-
  The host's matrix product of two operands with a two-axis result, read at an entry, whichever axis of each operand is
  contracted.

  For a `dot_general` with one contracted axis of extent `K` and result `[M, N]`, the product is, at the extended
  reals, the textbook sum: entry `(p, c)` is the sum over `k` of the left operand at `L p k` times the right operand at
  `R c k`, where `L` and `R` say where row `p` (resp. column `c`) and contraction coordinate `k` sit in each operand.
  The dimension numbers enter only through those two facts and through the one contracted axis having extent `K`; so the
  one lemma serves `[M,K]×[K,N]` and `[K,M]×[K,N]` (a product against a transposed left operand) alike. It is general in
  the extents, the element types and the contraction precision.
-/
import Idealize.ShloMosaic.PureOps.Ideal.Laws
import Idealize.ShloMosaic.Lib.ValueIdx

noncomputable section

namespace Cert.LibDotEntry

open Idealize.ShloMosaic Idealize.ShloMosaic.ValueIdx
open scoped BigOperators

/-- Entry `(p, c)` of the host's product is `Σ k, lhs (L p k) · rhs (R c k)`: the dot's sum over its one-axis contraction
    index, re-indexed along the bijection of that index with `Fin K`, each operand index then named by the two given
    facts. -/
theorem dotGeneral_entry {sl sr : Shape} {M N K : ℕ} {φ₁ φ₂ : FTy}
    (D : DotDims sl sr ⟨2, ![M, N]⟩) (prec : Option ContractPrecision)
    (hr : D.contr.rank = 1) (hs : D.contr.size ⟨0, by omega⟩ = K)
    (L : Fin M → Fin K → sl.Idx) (R : Fin N → Fin K → sr.Idx)
    (hl : ∀ (p : Fin M) (c : Fin N) (q : D.contr.Idx) (k : Fin K), (q ⟨0, by omega⟩).val = k.val →
      D.lhsIdx (ix2 p c) q = L p k)
    (hrr : ∀ (p : Fin M) (c : Fin N) (q : D.contr.Idx) (k : Fin K), (q ⟨0, by omega⟩).val = k.val →
      D.rhsIdx (ix2 p c) q = R c k)
    (lhs : FVec Ideal sl φ₁) (rhs : FVec Ideal sr φ₂) (p : Fin M) (c : Fin N) :
    Host.dotGeneral D prec lhs rhs (ix2 p c) = ∑ k : Fin K, lhs (L p k) * rhs (R c k) := by
  simp only [Host.dotGeneral]
  rw [Ideal.dotGeneral_apply, ← Equiv.sum_comp (contrEquiv1 D K hr hs).symm]
  refine Finset.sum_congr rfl fun k _ => ?_
  have hk := contrEquiv1_symm_val D K hr hs k
  rw [hl p c _ k hk, hrr p c _ k hk]

end Cert.LibDotEntry

end
-- ==== Proof.LibBroadcastIn.lean ====
/-
  A `broadcast_in_dim` of a small shape, read at an index.

  The five forms a gather/scatter program and a row-wise normalisation meet: a scalar spread over any shape reads
  the scalar everywhere; a vector made into a one-column matrix reads the vector at the row; a one-column matrix
  spread over the columns reads its column at the row; a vector made into a one-row matrix reads the vector at the
  column; and a one-row matrix spread over the rows reads its row at the column. All are general in the extents.
-/
import Idealize.ShloMosaic.Lib.Pipeline.Value
import Idealize.ShloMosaic.Lib.ValueIdx

noncomputable section

namespace Cert.LibBroadcastIn

open Idealize.ShloMosaic Idealize.ShloMosaic.ValueIdx

variable {α : Type}

/-- A scalar spread over any shape reads, everywhere, the scalar. -/
theorem scalar_apply {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 (fun a => a.elim0)

/-- `[a] → [a, 1]` along axis 0: entry (e, u) is the vector's entry e. -/
theorem col_apply {a : ℕ} (h : (⟨1, ![a]⟩ : Shape).BroadcastsInDim ⟨2, ![a, 1]⟩ (![0] : Fin 1 → Fin 2))
    (y : (⟨1, ![a]⟩ : Shape).Idx → α) (e : Fin a) (u : Fin 1) :
    broadcastInDim ⟨2, ![a, 1]⟩ ![0] h y (ix2 e u) = y (ix1 e) := by
  refine broadcastInDim_apply _ h y (ix2 e u) (ix1 e) fun ax => ?_
  match ax with
  | ⟨0, _⟩ =>
    show e.val = if a = 1 then 0 else e.val
    split
    · have := e.isLt; omega
    · rfl

/-- `[a, 1] → [a, b]`: entry (e, c) is the column's entry (e, 0). -/
theorem rows_apply {a b : ℕ} (h : (⟨2, ![a, 1]⟩ : Shape).BroadcastsInDim ⟨2, ![a, b]⟩ (![0, 1] : Fin 2 → Fin 2))
    (y : (⟨2, ![a, 1]⟩ : Shape).Idx → α) (e : Fin a) (c : Fin b) :
    broadcastInDim ⟨2, ![a, b]⟩ ![0, 1] h y (ix2 e c) = y (ix2 e (0 : Fin 1)) := by
  refine broadcastInDim_apply _ h y (ix2 e c) (ix2 e (0 : Fin 1)) fun ax => ?_
  match ax with
  | ⟨0, _⟩ =>
    show e.val = if a = 1 then 0 else e.val
    split
    · have := e.isLt; omega
    · rfl
  | ⟨1, _⟩ =>
    show (0 : ℕ) = if (1 : ℕ) = 1 then 0 else c.val
    rw [if_pos rfl]

/-- `[b] → [1, b]` along axis 1: entry (u, c) is the vector's entry c. -/
theorem row1_apply {b : ℕ} (h : (⟨1, ![b]⟩ : Shape).BroadcastsInDim ⟨2, ![1, b]⟩ (![1] : Fin 1 → Fin 2))
    (y : (⟨1, ![b]⟩ : Shape).Idx → α) (u : Fin 1) (c : Fin b) :
    broadcastInDim ⟨2, ![1, b]⟩ ![1] h y (ix2 u c) = y (ix1 c) := by
  refine broadcastInDim_apply _ h y (ix2 u c) (ix1 c) fun ax => ?_
  match ax with
  | ⟨0, _⟩ =>
    show c.val = if b = 1 then 0 else c.val
    split
    · have := c.isLt; omega
    · rfl

/-- `[1, b] → [a, b]`: entry (r, c) is the row's entry (0, c). -/
theorem tile_apply {a b : ℕ} (h : (⟨2, ![1, b]⟩ : Shape).BroadcastsInDim ⟨2, ![a, b]⟩ (![0, 1] : Fin 2 → Fin 2))
    (y : (⟨2, ![1, b]⟩ : Shape).Idx → α) (r : Fin a) (c : Fin b) :
    broadcastInDim ⟨2, ![a, b]⟩ ![0, 1] h y (ix2 r c) = y (ix2 (0 : Fin 1) c) := by
  refine broadcastInDim_apply _ h y (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end Cert.LibBroadcastIn

end
-- ==== Proof.LibBiasRow.lean ====
/-
  A bias row added to every row of a matrix, read at an entry.

  A kernel body adds a bias by casting the length-N vector to a 1×N matrix and broadcasting it over the M rows; the
  host adds it by two broadcasts in dimension, first to 1×N and then to M×N. Either way entry (p, c) of the result
  is entry c of the vector. Both lemmas are general in the extents and the element type.
-/
import Idealize.ShloMosaic.Lib.ValueLayout
import proofs.«155579_j31937376813550_1_alg».proof.Proof.LibBroadcastIn

noncomputable section

namespace Cert.LibBiasRow

open Idealize.ShloMosaic Idealize.ShloMosaic.ValueIdx

variable {α : Type}

/-- The kernel's spelling: a vector cast to one row and broadcast over the rows reads the vector at the column. -/
theorem cast_broadcast_apply {M N : ℕ} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ b hc) hb (ix2 p c) = b (ix1 c) :=
  (broadcastTo_1b_ab_apply _ hb p c).trans (shapeCast_a_1a_apply b hc 0 c)

/-- The host's spelling: a vector made one row and that row tiled over the rows reads the vector at the column. -/
theorem row_tile_apply {M N : ℕ} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (p : Fin M) (c : Fin N) :
    broadcastInDim ⟨2, ![M, N]⟩ ![0, 1] h2 (broadcastInDim ⟨2, ![1, N]⟩ ![1] h1 b) (ix2 p c) = b (ix1 c) :=
  (Cert.LibBroadcastIn.tile_apply h2 _ p c).trans (Cert.LibBroadcastIn.row1_apply h1 b 0 c)

end Cert.LibBiasRow

end
-- ==== Proof.RefSpec.lean ====
import proofs.«155579_j31937376813550_1_alg».proof.Proof.RefFns
import proofs.«155579_j31937376813550_1_alg».proof.Proof.GinSpec
import proofs.«155579_j31937376813550_1_alg».proof.Proof.LibDotEntry
import proofs.«155579_j31937376813550_1_alg».proof.Proof.LibBiasRow

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open Cert.KernelIdeal.Hand (ind pre_64 pre_128 ind_of_uitofp)
open scoped BigOperators

/-! # The reference's layer pre-activation is the specification

Index by index over the extended reals: the adjacency as floats is the 0/1 indicator of a non-zero entry; the product
against the transposed adjacency and the product with the weights are the textbook sums; the bias, made a row and
tiled over the nodes, adds its entry at the column. -/

/-- A bias vector read as a one-row matrix. -/
def rowOf (b : (⟨1, ![128]⟩ : Shape).Idx → EReal) : (⟨2, ![1, 128]⟩ : Shape).Idx → EReal := fun i => b (ix1 (i 1))

/-- The adjacency as floats, at an entry: one where the integer is not zero, zero elsewhere. -/
theorem adjOf_apply (a1 : (⟨S8192x8192, .i32⟩ : BufTy).Contents (Elt Ideal)) (j p : Fin 8192) :
    adjOf (F := Ideal) a1 (ix2 j p) = ind (a1 (ix2 j p)) := by
  unfold adjOf
  show FloatOps.uitofp (F := Ideal) .f32 (IntOp.cmpi .ne (a1 (ix2 j p))
    (broadcastInDim S8192x8192 ![] bcast_S_S8192x8192 (constantI S_ 32 0#32) (ix2 j p))) = _
  rw [Cert.LibBroadcastIn.scalar_apply]
  exact ind_of_uitofp _

/-- The product against the transposed left operand, at an entry: Σ_j A(j,p)·h(j,k). -/
theorem dotT64 (A : FVec Ideal S8192x8192 .f32) (h : FVec Ideal S8192x64 .f32) (p : Fin 8192) (k : Fin 64) :
    Host.dotGeneral (F := Ideal) dot_S8192x8192_S8192x64_S8192x64_0_0_1_1_n_n none A h (ix2 p k) = ∑ j : Fin 8192, A (ix2 j p) * h (ix2 j k) :=
  Cert.LibDotEntry.dotGeneral_entry dot_S8192x8192_S8192x64_S8192x64_0_0_1_1_n_n none rfl rfl (fun p j => ix2 j p) (fun k j => ix2 j k)
    (fun p c q k hk => funext fun a => Fin.ext (by
      match a with
      | ⟨0, _⟩ => exact (DotDims.lhsIdx_val_of_single _ rfl _ _).trans hk
      | ⟨1, _⟩ => rfl))
    (fun p c q k hk => funext fun a => Fin.ext (by
      match a with
      | ⟨0, _⟩ => exact (DotDims.rhsIdx_val_of_single _ rfl _ _).trans hk
      | ⟨1, _⟩ => rfl))
    A h p k

/-- The product against the transposed left operand, at an entry: Σ_j A(j,p)·h(j,k). -/
theorem dotT128 (A : FVec Ideal S8192x8192 .f32) (h : FVec Ideal S8192x128 .f32) (p : Fin 8192) (k : Fin 128) :
    Host.dotGeneral (F := Ideal) dot_S8192x8192_S8192x128_S8192x128_0_0_1_1_n_n none A h (ix2 p k) = ∑ j : Fin 8192, A (ix2 j p) * h (ix2 j k) :=
  Cert.LibDotEntry.dotGeneral_entry dot_S8192x8192_S8192x128_S8192x128_0_0_1_1_n_n none rfl rfl (fun p j => ix2 j p) (fun k j => ix2 j k)
    (fun p c q k hk => funext fun a => Fin.ext (by
      match a with
      | ⟨0, _⟩ => exact (DotDims.lhsIdx_val_of_single _ rfl _ _).trans hk
      | ⟨1, _⟩ => rfl))
    (fun p c q k hk => funext fun a => Fin.ext (by
      match a with
      | ⟨0, _⟩ => exact (DotDims.rhsIdx_val_of_single _ rfl _ _).trans hk
      | ⟨1, _⟩ => rfl))
    A h p k

/-- The plain product at an entry: Σ_k X(p,k)·W(k,q). -/
theorem dotP64 (X : FVec Ideal S8192x64 .f32) (W : FVec Ideal S64x128 .f32) (p : Fin 8192) (q : Fin 128) :
    Host.dotGeneral (F := Ideal) dot_S8192x64_S64x128_S8192x128_1_0_0_1_n_n none X W (ix2 p q) = ∑ k : Fin 64, X (ix2 p k) * W (ix2 k q) :=
  Cert.LibDotEntry.dotGeneral_entry dot_S8192x64_S64x128_S8192x128_1_0_0_1_n_n none rfl rfl (fun p k => ix2 p k) (fun q k => ix2 k q)
    (fun p c q k hk => funext fun a => Fin.ext (by
      match a with
      | ⟨0, _⟩ => rfl
      | ⟨1, _⟩ => exact (DotDims.lhsIdx_val_of_single _ rfl _ _).trans hk))
    (fun p c q k hk => funext fun a => Fin.ext (by
      match a with
      | ⟨0, _⟩ => exact (DotDims.rhsIdx_val_of_single _ rfl _ _).trans hk
      | ⟨1, _⟩ => rfl))
    X W p q

/-- The plain product at an entry: Σ_k X(p,k)·W(k,q). -/
theorem dotP128 (X : FVec Ideal S8192x128 .f32) (W : FVec Ideal S128x128 .f32) (p : Fin 8192) (q : Fin 128) :
    Host.dotGeneral (F := Ideal) dot_S8192x128_S128x128_S8192x128_1_0_0_1_n_n none X W (ix2 p q) = ∑ k : Fin 128, X (ix2 p k) * W (ix2 k q) :=
  Cert.LibDotEntry.dotGeneral_entry dot_S8192x128_S128x128_S8192x128_1_0_0_1_n_n none rfl rfl (fun p k => ix2 p k) (fun q k => ix2 k q)
    (fun p c q k hk => funext fun a => Fin.ext (by
      match a with
      | ⟨0, _⟩ => rfl
      | ⟨1, _⟩ => exact (DotDims.lhsIdx_val_of_single _ rfl _ _).trans hk))
    (fun p c q k hk => funext fun a => Fin.ext (by
      match a with
      | ⟨0, _⟩ => exact (DotDims.rhsIdx_val_of_single _ rfl _ _).trans hk
      | ⟨1, _⟩ => rfl))
    X W p q

/-- THE FIRST LAYER's pre-activation is the specification at input width 64. -/
theorem lin1_spec (a1 : (⟨S8192x8192, .i32⟩ : BufTy).Contents (Elt Ideal)) (h : (⟨S8192x64, .f32⟩ : BufTy).Contents (Elt Ideal))
    (W : (⟨S64x128, .f32⟩ : BufTy).Contents (Elt Ideal)) (b : (⟨S128, .f32⟩ : BufTy).Contents (Elt Ideal)) :
    lin1 (F := Ideal) (adjOf a1) h W b = pre_64 a1 h W (rowOf b) := by
  funext i
  obtain ⟨p, q, rfl⟩ : ∃ (p : Fin 8192) (q : Fin 128), i = ix2 p q := ⟨i 0, i 1, eq_ix2 i⟩
  rw [show pre_64 a1 h W (rowOf b) (ix2 p q) = (∑ k : Fin 64, (h (ix2 p k) + ∑ j : Fin 8192, ind (a1 (ix2 j p)) * h (ix2 j k)) * W (ix2 k q)) + b (ix1 q) from rfl]
  unfold lin1
  dsimp only
  rw [addf_apply, dotP64, Cert.LibBiasRow.row_tile_apply]
  refine congrArg₂ (· + ·) (Finset.sum_congr rfl fun k _ => ?_) rfl
  rw [addf_apply, dotT64]
  refine congrArg₂ (· * ·) (congrArg₂ (· + ·) rfl (Finset.sum_congr rfl fun j _ => ?_)) rfl
  rw [adjOf_apply]

/-- A LATER LAYER's pre-activation is the specification at input width 128. -/
theorem linN_spec (a1 : (⟨S8192x8192, .i32⟩ : BufTy).Contents (Elt Ideal)) (h : (⟨S8192x128, .f32⟩ : BufTy).Contents (Elt Ideal))
    (W : (⟨S128x128, .f32⟩ : BufTy).Contents (Elt Ideal)) (b : (⟨S128, .f32⟩ : BufTy).Contents (Elt Ideal)) :
    linN (F := Ideal) (adjOf a1) h W b = pre_128 a1 h W (rowOf b) := by
  funext i
  obtain ⟨p, q, rfl⟩ : ∃ (p : Fin 8192) (q : Fin 128), i = ix2 p q := ⟨i 0, i 1, eq_ix2 i⟩
  rw [show pre_128 a1 h W (rowOf b) (ix2 p q) = (∑ k : Fin 128, (h (ix2 p k) + ∑ j : Fin 8192, ind (a1 (ix2 j p)) * h (ix2 j k)) * W (ix2 k q)) + b (ix1 q) from rfl]
  unfold linN
  dsimp only
  rw [addf_apply, dotP128, Cert.LibBiasRow.row_tile_apply]
  refine congrArg₂ (· + ·) (Finset.sum_congr rfl fun k _ => ?_) rfl
  rw [addf_apply, dotT128]
  refine congrArg₂ (· * ·) (congrArg₂ (· + ·) rfl (Finset.sum_congr rfl fun j _ => ?_)) rfl
  rw [adjOf_apply]

end Cert.ReferenceIdeal.Hand

end
-- ==== Proof.LibMatmulEntry.lean ====
/-
  A matrix product of two operands into a zero accumulator with a two-axis result, read at an entry, whichever axis of each
  operand is contracted.

  For a dot with one contracted axis of extent `K` and result `[M, N]`, the product accumulated into the zero splat is, at
  the extended reals, the textbook sum: entry `(p, c)` is the sum over `k` of the left operand at `L p k` times the right
  operand at `R c k`, where `L` and `R` say where row `p` (resp. column `c`) and contraction coordinate `k` sit in each
  operand. The dimension numbers enter only through two facts — the dot's operand indices at `(p, c)` and a contraction index
  whose one coordinate is `k` are `L p k` and `R c k` — and through the one contracted axis having extent `K`. So the one
  lemma serves `[M,K]×[K,N]`, `[M,K]×[N,K]`, `[K,M]×[K,N]` and `[K,M]×[N,K]` alike, and operands of any rank; it is general in
  the extents, the element types and the contraction precision.
-/
import Idealize.ShloMosaic.PureOps.Ideal.Laws
import Idealize.ShloMosaic.Lib.ValueIdx

noncomputable section

namespace Cert.LibMatmulEntry

open Idealize.ShloMosaic Idealize.ShloMosaic.ValueIdx
open scoped BigOperators

/-- Entry `(p, c)` of a product accumulated into zero is `Σ k, lhs (L p k) · rhs (R c k)`: the dot's sum over its one-axis
    contraction index, re-indexed along the bijection of that index with `Fin K`, each operand index then named by the
    two given facts. -/
theorem matmul_zero_entry {sl sr : Shape} {M N K : ℕ} {φ₁ φ₂ : FTy}
    (D : DotDims sl sr ⟨2, ![M, N]⟩) (prec : Option ContractPrecision)
    (hr : D.contr.rank = 1) (hs : D.contr.size ⟨0, by omega⟩ = K)
    (L : Fin M → Fin K → sl.Idx) (R : Fin N → Fin K → sr.Idx)
    (hl : ∀ (p : Fin M) (c : Fin N) (q : D.contr.Idx) (k : Fin K), (q ⟨0, by omega⟩).val = k.val →
      D.lhsIdx (ix2 p c) q = L p k)
    (hrr : ∀ (p : Fin M) (c : Fin N) (q : D.contr.Idx) (k : Fin K), (q ⟨0, by omega⟩).val = k.val →
      D.rhsIdx (ix2 p c) q = R c k)
    (lhs : FVec Ideal sl φ₁) (rhs : FVec Ideal sr φ₂) (p : Fin M) (c : Fin N) :
    matmul D prec lhs rhs (constant ⟨2, ![M, N]⟩ .f32 0x00000000#32) (ix2 p c)
      = ∑ k : Fin K, lhs (L p k) * rhs (R c k) := by
  simp only [matmul]
  rw [Ideal.matmul_constant_zero_apply, ← Equiv.sum_comp (contrEquiv1 D K hr hs).symm]
  refine Finset.sum_congr rfl fun k _ => ?_
  have hk := contrEquiv1_symm_val D K hr hs k
  rw [hl p c _ k hk, hrr p c _ k hk]

end Cert.LibMatmulEntry

end
-- ==== Proof.Pay0.lean ====
/-
  The three value terms of the body of pallas_call 0, read at an entry, over the extended reals.

  The zero block is 0 everywhere. The accumulator's update at entry (p, k) is the old accumulator's entry plus the sum,
  over the 2048 rows jj of this tile, of the nonzero pattern of the adjacency tile at (jj, p) times the tile's row of x at
  (jj, k): the matrix product contracts the FIRST axis of both operands, and the pattern is the comparison bit widened
  and read as an integer. The finished block at entry (p, q) is the sum over the 64 features k of (own row + accumulator)
  at (p, k) times the weights at (k, q), plus the bias row at (0, q). A change of float format is the identity on
  extended reals, and so is a shape cast to the same shape.
-/
import proofs.«155579_j31937376813550_1_alg».proof.Proof.Gen.KernelIdeal.Skeleton
import proofs.«155579_j31937376813550_1_alg».proof.Proof.GinSpec
import proofs.«155579_j31937376813550_1_alg».proof.Proof.LibMatmulEntry
import Idealize.ShloMosaic.Lib.Pipeline.Value
import Idealize.ShloMosaic.Lib.ValueLayout

noncomputable section

open scoped BigOperators

namespace Cert.KernelIdeal.Hand

open Cert.KernelIdeal Cert.KernelIdeal.Gen
open Idealize.ShloMosaic Idealize.ShloMosaic.ValueIdx

/-- The aggregation's product: [2048, 1024] against [2048, 64], both contracted along their first axis. -/
abbrev Dagg0 := dot_S2048x1024_S2048x64_S1024x64_0_0_1_1_n_n
/-- The affine map's product: [1024, 64] against [64, 128], a plain matrix product. -/
abbrev Dlin0 := dot_S1024x64_S64x128_S1024x128_1_0_0_1_n_n

/-! ## Where the two products read their operands -/

theorem agg0_lhs0 (j : S1024x64.Idx) (q : Dagg0.contr.Idx) : (Dagg0.lhsIdx j q 0 : ℕ) = q ⟨0, by decide⟩ := by
  simp [DotDims.lhsIdx, Dagg0, dot_S2048x1024_S2048x64_S1024x64_0_0_1_1_n_n]; rfl
theorem agg0_lhs1 (j : S1024x64.Idx) (q : Dagg0.contr.Idx) : (Dagg0.lhsIdx j q 1 : ℕ) = j 0 := by
  simp [DotDims.lhsIdx, Dagg0, dot_S2048x1024_S2048x64_S1024x64_0_0_1_1_n_n]; rfl
theorem agg0_rhs0 (j : S1024x64.Idx) (q : Dagg0.contr.Idx) : (Dagg0.rhsIdx j q 0 : ℕ) = q ⟨0, by decide⟩ := by
  simp [DotDims.rhsIdx, Dagg0, dot_S2048x1024_S2048x64_S1024x64_0_0_1_1_n_n]; rfl
theorem agg0_rhs1 (j : S1024x64.Idx) (q : Dagg0.contr.Idx) : (Dagg0.rhsIdx j q 1 : ℕ) = j 1 := by
  simp [DotDims.rhsIdx, Dagg0, dot_S2048x1024_S2048x64_S1024x64_0_0_1_1_n_n]; rfl

theorem lin0_lhs0 (j : S1024x128.Idx) (q : Dlin0.contr.Idx) : (Dlin0.lhsIdx j q 0 : ℕ) = j 0 := by
  simp [DotDims.lhsIdx, Dlin0, dot_S1024x64_S64x128_S1024x128_1_0_0_1_n_n]; rfl
theorem lin0_lhs1 (j : S1024x128.Idx) (q : Dlin0.contr.Idx) : (Dlin0.lhsIdx j q 1 : ℕ) = q ⟨0, by decide⟩ := by
  simp [DotDims.lhsIdx, Dlin0, dot_S1024x64_S64x128_S1024x128_1_0_0_1_n_n]; rfl
theorem lin0_rhs0 (j : S1024x128.Idx) (q : Dlin0.contr.Idx) : (Dlin0.rhsIdx j q 0 : ℕ) = q ⟨0, by decide⟩ := by
  simp [DotDims.rhsIdx, Dlin0, dot_S1024x64_S64x128_S1024x128_1_0_0_1_n_n]; rfl
theorem lin0_rhs1 (j : S1024x128.Idx) (q : Dlin0.contr.Idx) : (Dlin0.rhsIdx j q 1 : ℕ) = j 1 := by
  simp [DotDims.rhsIdx, Dlin0, dot_S1024x64_S64x128_S1024x128_1_0_0_1_n_n]; rfl

/-! ## The three value terms at an entry -/

/-- The zero block is 0 at every entry. -/
theorem k0_pay1_apply (p : Fin 1024) (k : Fin 64) : k0_pay1 (F := Ideal) (ix2 p k) = 0 := by
  unfold k0_pay1
  refine (congrFun (shapeCast_self _ _) (ix2 p k)).trans ?_
  exact Ideal.ofBits_zero_f32

/-- The accumulator's update at (p, k): the old entry plus Σ_jj [xa(jj, p) ≠ 0] · xj(jj, k). -/
theorem k0_pay2_apply (xa : Vec Ideal S2048x1024 .i32) (xj : Vec Ideal S2048x64 .f32) (a : Vec Ideal S1024x64 .f32)
    (p : Fin 1024) (k : Fin 64) :
    k0_pay2 xa xj a (ix2 p k) = a (ix2 p k) + ∑ jj : Fin 2048, ind (xa (ix2 jj p)) * xj (ix2 jj k) := by
  unfold k0_pay2
  refine (congrFun (shapeCast_self _ _) (ix2 p k)).trans ?_
  refine congrArg (a (ix2 p k) + ·) ?_
  refine (Cert.LibMatmulEntry.matmul_zero_entry Dagg0 none (by decide) (by decide)
    (fun p jj => ix2 jj p) (fun k jj => ix2 jj k) ?_ ?_ _ _ p k).trans ?_
  · intro p c q jj hq
    funext ax; refine Fin.ext ?_
    match ax with
    | ⟨0, _⟩ => exact (agg0_lhs0 _ q).trans hq
    | ⟨1, _⟩ => exact agg0_lhs1 _ q
  · intro p c q jj hq
    funext ax; refine Fin.ext ?_
    match ax with
    | ⟨0, _⟩ => exact (agg0_rhs0 _ q).trans hq
    | ⟨1, _⟩ => exact agg0_rhs1 _ q
  · refine Finset.sum_congr rfl fun jj _ => ?_
    exact congrArg₂ (· * ·) (ind_of_sitofp_extui (xa (ix2 jj p))) (rfl)

/-- The finished block at (p, q): Σ_k (xi(p, k) + a(p, k)) · w(k, q) + b(0, q). -/
theorem k0_pay3_apply (xi a : Vec Ideal S1024x64 .f32) (w : Vec Ideal S64x128 .f32) (b : Vec Ideal S1x128 .f32)
    (p : Fin 1024) (q : Fin 128) :
    k0_pay3 xi a w b (ix2 p q)
      = (∑ k : Fin 64, (xi (ix2 p k) + a (ix2 p k)) * w (ix2 k q)) + b (ix2 (0 : Fin 1) q) := by
  unfold k0_pay3
  refine congrArg₂ (· + ·) ?_ ?_
  · refine (Cert.LibMatmulEntry.matmul_zero_entry Dlin0 none (by decide) (by decide)
      (fun p k => ix2 p k) (fun q k => ix2 k q) ?_ ?_ _ _ p q).trans ?_
    · intro p c qq k hq
      funext ax; refine Fin.ext ?_
      match ax with
      | ⟨0, _⟩ => exact lin0_lhs0 _ qq
      | ⟨1, _⟩ => exact (lin0_lhs1 _ qq).trans hq
    · intro p c qq k hq
      funext ax; refine Fin.ext ?_
      match ax with
      | ⟨0, _⟩ => exact (lin0_rhs0 _ qq).trans hq
      | ⟨1, _⟩ => exact lin0_rhs1 _ qq
    · refine Finset.sum_congr rfl fun k _ => ?_
      exact rfl
  · refine (broadcastTo_1b_ab_apply _ _ p q).trans ?_
    exact congrFun (shapeCast_self b _) _

end Cert.KernelIdeal.Hand

end
-- ==== Proof.LibBlockSums.lean ====
import Mathlib.Algebra.BigOperators.Fin
import Mathlib.Algebra.BigOperators.Intervals
import Mathlib.Logic.Equiv.Fin.Basic
import Mathlib.Data.Fintype.BigOperators

/-!
# A sum taken block by block, accumulated in order from zero

A family `f` over `Fin n` is cut into consecutive blocks of `bs` terms. `blockSum bs f k` is the sum of
block `k` (the terms at positions `bs * k`, …, `bs * k + bs - 1`; a position past the end contributes `0`),
and `runSum bs f k` is what an accumulator holds after block `k` when it starts from zero and adds one block
at a time: `((0 + B₀) + B₁) + ⋯ + B_k`. In an additive commutative monoid the order and the grouping do not
matter: after the last of `nb` blocks of a family over `Fin (nb * bs)` the accumulator holds the whole sum.
-/

namespace BlockSums

variable {M : Type*} [AddCommMonoid M]

/-- The sum of block `k`: the `bs` terms starting at position `bs * k`. -/
def blockSum {n : ℕ} (bs : ℕ) (f : Fin n → M) (k : ℕ) : M :=
  ∑ j : Fin bs, if h : j.val + bs * k < n then f ⟨j.val + bs * k, h⟩ else 0

/-- The accumulator after block `k`: zero, then one block added at a time, in order. -/
def runSum {n : ℕ} (bs : ℕ) (f : Fin n → M) : ℕ → M
  | 0 => 0 + blockSum bs f 0
  | k + 1 => runSum bs f k + blockSum bs f (k + 1)

theorem runSum_zero {n : ℕ} (bs : ℕ) (f : Fin n → M) : runSum bs f 0 = 0 + blockSum bs f 0 := rfl

theorem runSum_succ {n : ℕ} (bs : ℕ) (f : Fin n → M) (k : ℕ) :
    runSum bs f (k + 1) = runSum bs f k + blockSum bs f (k + 1) := rfl

/-- The accumulator after block `k` is the sum of the blocks `0, …, k`. -/
theorem runSum_eq_sum_range {n : ℕ} (bs : ℕ) (f : Fin n → M) (k : ℕ) :
    runSum bs f k = ∑ p ∈ Finset.range (k + 1), blockSum bs f p := by
  induction k with
  | zero => rw [runSum_zero, zero_add, Finset.sum_range_one]
  | succ k ih => rw [runSum_succ, ih, Finset.sum_range_succ _ (k + 1)]

/-- After the last of `nb` blocks of `bs` terms the accumulator holds the sum of the whole family. -/
theorem runSum_last (nb bs : ℕ) (hnb : 0 < nb) (f : Fin (nb * bs) → M) :
    runSum bs f (nb - 1) = ∑ i, f i := by
  rw [runSum_eq_sum_range, Nat.sub_add_cancel hnb, Finset.sum_range (fun p => blockSum bs f p),
    ← Equiv.sum_comp (finProdFinEquiv (m := nb) (n := bs)) f, Fintype.sum_prod_type]
  refine Finset.sum_congr rfl fun p _ => ?_
  unfold blockSum
  refine Finset.sum_congr rfl fun j _ => ?_
  have h : j.val + bs * p.val < nb * bs := (finProdFinEquiv (p, j)).isLt
  rw [dif_pos h]
  rfl

/-- Four blocks of 1024 terms: after block 3 the accumulator holds the sum over all 4096 positions. -/
theorem runSum_4x1024 (f : Fin 4096 → M) : runSum 1024 f 3 = ∑ i, f i :=
  runSum_last 4 1024 (by decide) f

/-- Inside the range, a block's term at `j` is the family's term at `bs * k + j`. -/
theorem blockSum_eq {n : ℕ} (bs : ℕ) (f : Fin n → M) (k : ℕ) (hk : bs * k + bs ≤ n) :
    blockSum bs f k = ∑ j : Fin bs, f ⟨j.val + bs * k, by have := j.isLt; omega⟩ := by
  unfold blockSum
  refine Finset.sum_congr rfl fun j _ => ?_
  have h : j.val + bs * k < n := by have := j.isLt; omega
  rw [dif_pos h]

end BlockSums
-- ==== Proof.GinSum.lean ====
/-
  The regrouping of the neighbour sum: 8192 terms taken in four consecutive tiles of 2048, each tile's sum added in tile
  order to an accumulator that starts at zero, give the sum of all 8192 terms. Only the commutativity and associativity
  of the addition are used, so the law holds in every additive commutative monoid — on the extended reals with no
  finiteness hypothesis.
-/
import proofs.«155579_j31937376813550_1_alg».proof.Proof.LibBlockSums

open scoped BigOperators

namespace Cert.KernelIdeal.Hand

variable {M : Type*} [AddCommMonoid M]

/-- After the fourth tile the accumulator holds the whole sum. -/
theorem tiles_sum (f : Fin 8192 → M) : BlockSums.runSum 2048 f 3 = ∑ j, f j :=
  BlockSums.runSum_last 4 2048 (by decide) f

/-- Tile `s`'s sum: the terms at positions `2048 · s + jj`. -/
theorem tile_sum (f : Fin 8192 → M) (s : ℕ) (hs : s < 4) :
    BlockSums.blockSum 2048 f s = ∑ jj : Fin 2048, f ⟨jj.val + 2048 * s, by have := jj.isLt; omega⟩ :=
  BlockSums.blockSum_eq 2048 f s (by omega)

end Cert.KernelIdeal.Hand
-- ==== Proof.Value0.lean ====
/-
  pallas_call 0 at the extended reals: the output ARRAY after the last write-back is ONE function of the region's four
  input arrays — the stage `pre_64` of the adjacency array, the node features, the weights and the bias row.

  The road. Each window's block at a grid point is its array read at the block's position: point t = 4·(row block) + tile
  reads adjacency rows 2048·(t % 4) + jj and columns 1024·(t / 4) + p, feature rows 2048·(t % 4) + jj on the contraction
  side and 1024·(t / 4) + p on the own side, and all of the weights and the bias. So one tile's product at (p, k) is that
  tile's part of node r = 1024·(t / 4) + p's neighbour sum; the accumulator, reset at tile 0 and stepped at tiles 1, 2, 3,
  is the running sum of those parts from zero, and after tile 3 it is the whole neighbour sum (the regrouping law). The
  finished block at the last tile is then the stage's value on the row block's 1024 nodes; that block is what the point
  writes back, and the eight row blocks cover the array.
-/
import proofs.«155579_j31937376813550_1_alg».proof.Proof.Region0
import proofs.«155579_j31937376813550_1_alg».proof.Proof.Pay0
import proofs.«155579_j31937376813550_1_alg».proof.Proof.GinSum

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Each window's block is its array at the block's position -/

/-- The printed index maps, decided over the grid: point t = 4·(row block) + tile. -/
theorem idx0 : ∀ t : Fin cfg0.N,
    win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0 :=
  (by decide +kernel : ∀ t : Fin grid0.N, _)

/-- The adjacency tile at (jj, p) is the adjacency array at (2048·(t % 4) + jj, 1024·(t / 4) + p). -/
theorem iblk0_0_apply (c : Dev nD) (t : Fin cfg0.N) (jj : Fin 2048) (p : Fin 1024) (J R : Fin 8192)
    (hJ : J.val = 2048 * (t.val % 4) + jj.val) (hR : R.val = 1024 * (t.val / 4) + p.val) :
    (iblk0 V c 0 t : Vec Ideal S2048x1024 .i32) (ix2 jj p) = (V c main_arg1 : S8192x8192.Idx → BitVec 32) (ix2 J R) := by
  obtain ⟨e0, e1, -⟩ := idx0 t
  unfold iblk0
  rw [View.read_apply]
  show V c main_arg1 _ = V c main_arg1 _
  congr 1
  funext a
  apply Fin.ext
  match a with
  | ⟨0, _⟩ => show win0_0.index t (0 : Fin 2) * 2048 + 1 * jj.val = J.val; rw [e0, hJ]; omega
  | ⟨1, _⟩ => show win0_0.index t (1 : Fin 2) * 1024 + 1 * p.val = R.val; rw [e1, hR]; omega

/-- The contraction-side rows of x at (jj, k) are x at (2048·(t % 4) + jj, k). -/
theorem iblk0_1_apply (c : Dev nD) (t : Fin cfg0.N) (jj : Fin 2048) (k : Fin 64) (J : Fin 8192)
    (hJ : J.val = 2048 * (t.val % 4) + jj.val) :
    (iblk0 V c 1 t : Vec Ideal S2048x64 .f32) (ix2 jj k) = (V c main_arg0 : S8192x64.Idx → EReal) (ix2 J k) := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t (0 : Fin 2) * 2048 + 1 * jj.val = J.val; rw [e0, hJ]; omega
  | ⟨1, _⟩ => show win0_1.index t (1 : Fin 2) * 64 + 1 * k.val = k.val; rw [e1]; omega

/-- The own rows of x at (p, k) are x at (1024·(t / 4) + p, k). -/
theorem iblk0_2_apply (c : Dev nD) (t : Fin cfg0.N) (p : Fin 1024) (k : Fin 64) (R : Fin 8192)
    (hR : R.val = 1024 * (t.val / 4) + p.val) :
    (iblk0 V c 2 t : Vec Ideal S1024x64 .f32) (ix2 p k) = (V c main_arg0 : S8192x64.Idx → EReal) (ix2 R k) := by
  obtain ⟨-, -, -, -, e0, e1, -⟩ := idx0 t
  unfold iblk0
  rw [View.read_apply]
  show V c main_arg0 _ = V c main_arg0 _
  congr 1
  funext a
  apply Fin.ext
  match a with
  | ⟨0, _⟩ => show win0_2.index t (0 : Fin 2) * 1024 + 1 * p.val = R.val; rw [e0, hR]; omega
  | ⟨1, _⟩ => show win0_2.index t (1 : Fin 2) * 64 + 1 * k.val = k.val; rw [e1]; omega

/-- The weights' block is the weights. -/
theorem iblk0_3_apply (c : Dev nD) (t : Fin cfg0.N) (k : Fin 64) (q : Fin 128) :
    (iblk0 V c 3 t : Vec Ideal S64x128 .f32) (ix2 k q) = (V c main_arg2 : S64x128.Idx → EReal) (ix2 k q) := by
  obtain ⟨-, -, -, -, -, -, e0, e1, -⟩ := idx0 t
  unfold iblk0
  rw [View.read_apply]
  show V c main_arg2 _ = V c main_arg2 _
  congr 1
  funext a
  apply Fin.ext
  match a with
  | ⟨0, _⟩ => show win0_3.index t (0 : Fin 2) * 64 + 1 * k.val = k.val; rw [e0]; omega
  | ⟨1, _⟩ => show win0_3.index t (1 : Fin 2) * 128 + 1 * q.val = q.val; rw [e1]; omega

/-- The bias row's block is the bias row. -/
theorem iblk0_4_apply (c : Dev nD) (t : Fin cfg0.N) (u : Fin 1) (q : Fin 128) :
    (iblk0 V c 4 t : Vec Ideal S1x128 .f32) (ix2 u q) = (V c main_v0 : S1x128.Idx → EReal) (ix2 u q) := by
  obtain ⟨-, -, -, -, -, -, -, -, e0, e1, -⟩ := idx0 t
  unfold iblk0
  rw [View.read_apply]
  show V c main_v0 _ = V c main_v0 _
  congr 1
  funext a
  apply Fin.ext
  match a with
  | ⟨0, _⟩ => show win0_4.index t (0 : Fin 2) * 1 + 1 * u.val = u.val; rw [e0]; omega
  | ⟨1, _⟩ => show win0_4.index t (1 : Fin 2) * 128 + 1 * q.val = q.val; rw [e1]; omega

/-! ## The accumulator is the running neighbour sum -/

/-- Node r's neighbour terms at feature k: position j contributes [adj(j, r) ≠ 0] · x(j, k). -/
def aggTerm0 (adj : (⟨2, ![8192, 8192]⟩ : Shape).Idx → BitVec 32) (x : (⟨2, ![8192, 64]⟩ : Shape).Idx → EReal)
    (r : Fin 8192) (k : Fin 64) : Fin 8192 → EReal := fun j => ind (adj (ix2 j r)) * x (ix2 j k)

/-- One tile's product at (p, k) is that tile's part of the node's neighbour sum. -/
theorem tile0_apply (c : Dev nD) (t : Fin cfg0.N) (p : Fin 1024) (k : Fin 64) (r : Fin 8192)
    (hr : r.val = 1024 * (t.val / 4) + p.val) :
    (∑ jj : Fin 2048, ind ((iblk0 V c 0 t : Vec Ideal S2048x1024 .i32) (ix2 jj p))
        * (iblk0 V c 1 t : Vec Ideal S2048x64 .f32) (ix2 jj k))
      = BlockSums.blockSum 2048 (aggTerm0 (V c main_arg1) (V c main_arg0) r k) (t.val % 4) := by
  have h4 : t.val % 4 < 4 := Nat.mod_lt _ (by decide)
  rw [tile_sum _ _ h4]
  refine Finset.sum_congr rfl fun jj _ => ?_
  have hjj : jj.val < 2048 := jj.isLt
  unfold aggTerm0
  exact congrArg₂ (· * ·)
    (congrArg ind (iblk0_0_apply V c t jj p ⟨jj.val + 2048 * (t.val % 4), by omega⟩ r (Nat.add_comm _ _) hr))
    (iblk0_1_apply V c t jj k ⟨jj.val + 2048 * (t.val % 4), by omega⟩ (Nat.add_comm _ _))

/-- At the first tile of a row block the accumulator at (p, k) is zero plus the first tile's part. -/
theorem acc0_reset_apply (c : Dev nD) (t : Fin cfg0.N) (h0 : t.val % 4 = 0) (p : Fin 1024) (k : Fin 64) (r : Fin 8192)
    (hr : r.val = 1024 * (t.val / 4) + p.val) :
    acc0 V c t.val t.isLt (ix2 p k)
      = BlockSums.runSum 2048 (aggTerm0 (V c main_arg1) (V c main_arg0) r k) (t.val % 4) := by
  refine (congrFun (acc0_reset V c t h0) (ix2 p k)).trans ?_
  refine (k0_pay2_apply (iblk0 V c 0 t) (iblk0 V c 1 t) (k0_pay1 (F := Ideal)) p k).trans ?_
  refine (congrArg₂ (· + ·) (k0_pay1_apply p k) (tile0_apply V c t p k r hr)).trans ?_
  rw [h0]; rfl

/-- THE ACCUMULATOR after point n at (p, k): node r's neighbour sum taken tile by tile from zero, up to tile n % 4 —
    by induction on the point, a reset at the first tile of a row block and a step from the point before elsewhere. -/
theorem acc0_apply (c : Dev nD) (n : ℕ) : ∀ (hn : n < cfg0.N) (p : Fin 1024) (k : Fin 64) (r : Fin 8192),
    r.val = 1024 * (n / 4) + p.val →
    acc0 V c n hn (ix2 p k) = BlockSums.runSum 2048 (aggTerm0 (V c main_arg1) (V c main_arg0) r k) (n % 4) := by
  induction n with
  | zero => exact fun hn p k r hr => acc0_reset_apply V c ⟨0, hn⟩ rfl p k r hr
  | succ n ih =>
    intro hn p k r hr
    by_cases h0 : (n + 1) % 4 = 0
    · exact acc0_reset_apply V c ⟨n + 1, hn⟩ h0 p k r hr
    · have hm : (n + 1) % 4 = n % 4 + 1 := by omega
      have hd : (n + 1) / 4 = n / 4 := by omega
      refine (congrFun (acc0_step V c ⟨n + 1, hn⟩ h0) (ix2 p k)).trans ?_
      refine (k0_pay2_apply (iblk0 V c 0 ⟨n + 1, hn⟩) (iblk0 V c 1 ⟨n + 1, hn⟩)
        (acc0 V c n (Nat.lt_of_succ_lt hn)) p k).trans ?_
      rw [hm, BlockSums.runSum_succ, ← hm]
      exact congrArg₂ (· + ·) (ih (Nat.lt_of_succ_lt hn) p k r (by rw [hr, hd])) (tile0_apply V c ⟨n + 1, hn⟩ p k r hr)

/-! ## The finished block, the write-back, the array -/

/-- THE FINISHED BLOCK at the last tile of row block t / 4, at (p, q), is the stage's value at node 1024·(t / 4) + p:
    after the fourth tile the accumulator is the node's whole neighbour sum. -/
theorem out0_apply (c : Dev nD) (t : Fin cfg0.N) (h3 : t.val % 4 = 3) (p : Fin 1024) (q : Fin 128) (r : Fin 8192)
    (hr : r.val = 1024 * (t.val / 4) + p.val) :
    out0 V c t (ix2 p q) = pre_64 (V c main_arg1) (V c main_arg0) (V c main_arg2) (V c main_v0) (ix2 r q) := by
  unfold out0
  refine (k0_pay3_apply (iblk0 V c 2 t) (acc0 V c t.val t.isLt) (iblk0 V c 3 t) (iblk0 V c 4 t) p q).trans ?_
  unfold pre_64
  refine congrArg₂ (· + ·) (Finset.sum_congr rfl fun k _ => ?_) (iblk0_4_apply V c t 0 q)
  refine congrArg₂ (· * ·) (congrArg₂ (· + ·) (iblk0_2_apply V c t p k r hr) ?_) (iblk0_3_apply V c t k q)
  refine (acc0_apply V c t.val t.isLt p k r hr).trans ?_
  rw [h3]
  exact tiles_sum _

/-- What the write-back at the last tile of a row block writes is that block of the stage's value. -/
theorem flushed0_eq (c : Dev nD) (t : Fin cfg0.N) (hf : (cfg0.win 5).flush t = true) :
    (dat0 V c).flushed 5 t
      = ((cfg0.win 5).blk t).view.read (Elt Ideal) (pre_64 (V c main_arg1) (V c main_arg0) (V c main_arg2) (V c main_v0)) := by
  have h3 : t.val % 4 = 3 := (flush0_5 t).mp hf
  have hN : t.val < 32 := lt_of_lt_of_eq t.isLt (show cfg0.N = 32 from N_0)
  obtain ⟨-, -, -, -, -, -, -, -, -, -, e0, e1⟩ := idx0 t
  show (cfg0.win 5).cut (grid0.coords t) ((dat0 V c).after 5 t) = _
  rw [after0_5]
  funext y
  have hy0 : (y 0).val < 1024 := (y 0).isLt
  have hy1 : (y 1).val < 128 := (y 1).isLt
  rw [View.read_apply]
  have hx : (cfg0.win 5).xinj (grid0.coords t) y = ix2 (⟨(y 0).val, hy0⟩ : Fin 1024) (⟨(y 1).val, hy1⟩ : Fin 128) :=
    funext fun a => by match a with | ⟨0, _⟩ => rfl | ⟨1, _⟩ => rfl
  have he : ((cfg0.win 5).blk t).view.emb y
      = ix2 (⟨1024 * (t.val / 4) + (y 0).val, by omega⟩ : Fin 8192) (⟨(y 1).val, hy1⟩ : Fin 128) := by
    funext a; apply Fin.ext
    match a with
    | ⟨0, _⟩ => show win0_5.index t (0 : Fin 2) * 1024 + 1 * (y 0).val = 1024 * (t.val / 4) + (y 0).val; rw [e0]; omega
    | ⟨1, _⟩ => show win0_5.index t (1 : Fin 2) * 128 + 1 * (y 1).val = (y 1).val; rw [e1]; omega
  rw [he]
  refine (congrArg (out0 V c t) hx).trans ?_
  exact out0_apply V c t h3 _ _ _ rfl

/-- An index of the output array is in point t's block iff each coordinate is in the block's range on its axis. -/
theorem mem_blk0_5 (t : Fin cfg0.N) (i : S8192x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v1).slice (win0_5.rect t)).set ↔ _
  rw [View.set_slice_whole, Rect.mem_set_unit]
  exact Iff.rfl

/-- Row r of the output array is written at the last tile of its row block, point 4·(r / 1024) + 3: the eight row
    blocks cover the array. -/
theorem cover0_5 (i : S8192x128.Idx) :
    ∃ t : Fin cfg0.N, (cfg0.win 5).flush t = true ∧ i ∈ ((cfg0.win 5).blk t).view.set := by
  have hi0 : (i 0).val < 8192 := (i 0).isLt
  have hi1 : (i 1).val < 128 := (i 1).isLt
  have hN : cfg0.N = 32 := N_0
  have hlt : 4 * ((i 0).val / 1024) + 3 < cfg0.N := by rw [hN]; omega
  obtain ⟨-, -, -, -, -, -, -, -, -, -, e0, e1⟩ := idx0 ⟨4 * ((i 0).val / 1024) + 3, hlt⟩
  refine ⟨⟨4 * ((i 0).val / 1024) + 3, hlt⟩, (flush0_5 _).mpr (by show (4 * ((i 0).val / 1024) + 3) % 4 = 3; omega), ?_⟩
  rw [mem_blk0_5]
  intro a
  match a with
  | ⟨0, _⟩ =>
    show win0_5.index ⟨4 * ((i 0).val / 1024) + 3, hlt⟩ (0 : Fin 2) * 1024 ≤ (i 0).val
      ∧ (i 0).val < win0_5.index ⟨4 * ((i 0).val / 1024) + 3, hlt⟩ (0 : Fin 2) * 1024 + 1024
    rw [e0]; dsimp only; omega
  | ⟨1, _⟩ =>
    show win0_5.index ⟨4 * ((i 0).val / 1024) + 3, hlt⟩ (1 : Fin 2) * 128 ≤ (i 1).val
      ∧ (i 1).val < win0_5.index ⟨4 * ((i 0).val / 1024) + 3, hlt⟩ (1 : Fin 2) * 128 + 128
    rw [e1]; omega

/-- THE OUTPUT ARRAY after the last write-back is the stage's value, as one function of the four input arrays. -/
theorem region0_value (c : Dev nD) :
    (dat0 V c).arrAt 5 cfg0.N = pre_64 (V c main_arg1) (V c main_arg0) (V c main_arg2) (V c main_v0) :=
  (dat0 V c).arrAt_eq_of_cover 5 (pre_64 (V c main_arg1) (V c main_arg0) (V c main_arg2) (V c main_v0))
    (fun t hf => flushed0_eq V c t hf) cover0_5

end Cert.KernelIdeal.Hand

end
-- ==== Proof.Pay1.lean ====
/-
  The three value terms of the body of pallas_call 1, read at an entry, over the extended reals.

  The zero block is 0 everywhere. The accumulator's update at entry (p, k) is the old accumulator's entry plus the sum,
  over the 2048 rows jj of this tile, of the nonzero pattern of the adjacency tile at (jj, p) times the tile's row of x at
  (jj, k): the matrix product contracts the FIRST axis of both operands, and the pattern is the comparison bit widened
  and read as an integer. The finished block at entry (p, q) is the sum over the 128 features k of (own row + accumulator)
  at (p, k) times the weights at (k, q), plus the bias row at (0, q). A change of float format is the identity on
  extended reals, and so is a shape cast to the same shape.
-/
import proofs.«155579_j31937376813550_1_alg».proof.Proof.Gen.KernelIdeal.Skeleton
import proofs.«155579_j31937376813550_1_alg».proof.Proof.GinSpec
import proofs.«155579_j31937376813550_1_alg».proof.Proof.LibMatmulEntry
import Idealize.ShloMosaic.Lib.Pipeline.Value
import Idealize.ShloMosaic.Lib.ValueLayout

noncomputable section

open scoped BigOperators

namespace Cert.KernelIdeal.Hand

open Cert.KernelIdeal Cert.KernelIdeal.Gen
open Idealize.ShloMosaic Idealize.ShloMosaic.ValueIdx

/-- The aggregation's product: [2048, 1024] against [2048, 128], both contracted along their first axis. -/
abbrev Dagg1 := dot_S2048x1024_S2048x128_S1024x128_0_0_1_1_n_n
/-- The affine map's product: [1024, 128] against [128, 128], a plain matrix product. -/
abbrev Dlin1 := dot_S1024x128_S128x128_S1024x128_1_0_0_1_n_n

/-! ## Where the two products read their operands -/

theorem agg1_lhs0 (j : S1024x128.Idx) (q : Dagg1.contr.Idx) : (Dagg1.lhsIdx j q 0 : ℕ) = q ⟨0, by decide⟩ := by
  simp [DotDims.lhsIdx, Dagg1, dot_S2048x1024_S2048x128_S1024x128_0_0_1_1_n_n]; rfl
theorem agg1_lhs1 (j : S1024x128.Idx) (q : Dagg1.contr.Idx) : (Dagg1.lhsIdx j q 1 : ℕ) = j 0 := by
  simp [DotDims.lhsIdx, Dagg1, dot_S2048x1024_S2048x128_S1024x128_0_0_1_1_n_n]; rfl
theorem agg1_rhs0 (j : S1024x128.Idx) (q : Dagg1.contr.Idx) : (Dagg1.rhsIdx j q 0 : ℕ) = q ⟨0, by decide⟩ := by
  simp [DotDims.rhsIdx, Dagg1, dot_S2048x1024_S2048x128_S1024x128_0_0_1_1_n_n]; rfl
theorem agg1_rhs1 (j : S1024x128.Idx) (q : Dagg1.contr.Idx) : (Dagg1.rhsIdx j q 1 : ℕ) = j 1 := by
  simp [DotDims.rhsIdx, Dagg1, dot_S2048x1024_S2048x128_S1024x128_0_0_1_1_n_n]; rfl

theorem lin1_lhs0 (j : S1024x128.Idx) (q : Dlin1.contr.Idx) : (Dlin1.lhsIdx j q 0 : ℕ) = j 0 := by
  simp [DotDims.lhsIdx, Dlin1, dot_S1024x128_S128x128_S1024x128_1_0_0_1_n_n]; rfl
theorem lin1_lhs1 (j : S1024x128.Idx) (q : Dlin1.contr.Idx) : (Dlin1.lhsIdx j q 1 : ℕ) = q ⟨0, by decide⟩ := by
  simp [DotDims.lhsIdx, Dlin1, dot_S1024x128_S128x128_S1024x128_1_0_0_1_n_n]; rfl
theorem lin1_rhs0 (j : S1024x128.Idx) (q : Dlin1.contr.Idx) : (Dlin1.rhsIdx j q 0 : ℕ) = q ⟨0, by decide⟩ := by
  simp [DotDims.rhsIdx, Dlin1, dot_S1024x128_S128x128_S1024x128_1_0_0_1_n_n]; rfl
theorem lin1_rhs1 (j : S1024x128.Idx) (q : Dlin1.contr.Idx) : (Dlin1.rhsIdx j q 1 : ℕ) = j 1 := by
  simp [DotDims.rhsIdx, Dlin1, dot_S1024x128_S128x128_S1024x128_1_0_0_1_n_n]; rfl

/-! ## The three value terms at an entry -/

/-- The zero block is 0 at every entry. -/
theorem k1_pay1_apply (p : Fin 1024) (k : Fin 128) : k1_pay1 (F := Ideal) (ix2 p k) = 0 := by
  unfold k1_pay1
  refine (congrFun (shapeCast_self _ _) (ix2 p k)).trans ?_
  exact Ideal.ofBits_zero_f32

/-- The accumulator's update at (p, k): the old entry plus Σ_jj [xa(jj, p) ≠ 0] · xj(jj, k). -/
theorem k1_pay2_apply (xa : Vec Ideal S2048x1024 .i32) (xj : Vec Ideal S2048x128 .f32) (a : Vec Ideal S1024x128 .f32)
    (p : Fin 1024) (k : Fin 128) :
    k1_pay2 xa xj a (ix2 p k) = a (ix2 p k) + ∑ jj : Fin 2048, ind (xa (ix2 jj p)) * xj (ix2 jj k) := by
  unfold k1_pay2
  refine (congrFun (shapeCast_self _ _) (ix2 p k)).trans ?_
  refine congrArg (a (ix2 p k) + ·) ?_
  refine (Cert.LibMatmulEntry.matmul_zero_entry Dagg1 none (by decide) (by decide)
    (fun p jj => ix2 jj p) (fun k jj => ix2 jj k) ?_ ?_ _ _ p k).trans ?_
  · intro p c q jj hq
    funext ax; refine Fin.ext ?_
    match ax with
    | ⟨0, _⟩ => exact (agg1_lhs0 _ q).trans hq
    | ⟨1, _⟩ => exact agg1_lhs1 _ q
  · intro p c q jj hq
    funext ax; refine Fin.ext ?_
    match ax with
    | ⟨0, _⟩ => exact (agg1_rhs0 _ q).trans hq
    | ⟨1, _⟩ => exact agg1_rhs1 _ q
  · refine Finset.sum_congr rfl fun jj _ => ?_
    exact congrArg₂ (· * ·) (ind_of_sitofp_extui (xa (ix2 jj p))) (congrFun (shapeCast_self xj _) (ix2 jj k))

/-- The finished block at (p, q): Σ_k (xi(p, k) + a(p, k)) · w(k, q) + b(0, q). -/
theorem k1_pay3_apply (xi a : Vec Ideal S1024x128 .f32) (w : Vec Ideal S128x128 .f32) (b : Vec Ideal S1x128 .f32)
    (p : Fin 1024) (q : Fin 128) :
    k1_pay3 xi a w b (ix2 p q)
      = (∑ k : Fin 128, (xi (ix2 p k) + a (ix2 p k)) * w (ix2 k q)) + b (ix2 (0 : Fin 1) q) := by
  unfold k1_pay3
  refine congrArg₂ (· + ·) ?_ ?_
  · refine (Cert.LibMatmulEntry.matmul_zero_entry Dlin1 none (by decide) (by decide)
      (fun p k => ix2 p k) (fun q k => ix2 k q) ?_ ?_ _ _ p q).trans ?_
    · intro p c qq k hq
      funext ax; refine Fin.ext ?_
      match ax with
      | ⟨0, _⟩ => exact lin1_lhs0 _ qq
      | ⟨1, _⟩ => exact (lin1_lhs1 _ qq).trans hq
    · intro p c qq k hq
      funext ax; refine Fin.ext ?_
      match ax with
      | ⟨0, _⟩ => exact (lin1_rhs0 _ qq).trans hq
      | ⟨1, _⟩ => exact lin1_rhs1 _ qq
    · refine Finset.sum_congr rfl fun k _ => ?_
      exact congrArg (· * w (ix2 k q)) (congrArg (· + a (ix2 p k)) (congrFun (shapeCast_self xi _) (ix2 p k)))
  · refine (broadcastTo_1b_ab_apply _ _ p q).trans ?_
    exact congrFun (shapeCast_self b _) _

end Cert.KernelIdeal.Hand

end
-- ==== Proof.Value1.lean ====
/-
  pallas_call 1 at the extended reals: the output ARRAY after the last write-back is ONE function of the region's four
  input arrays — the stage `pre_128` of the adjacency array, the node features, the weights and the bias row.

  The road. Each window's block at a grid point is its array read at the block's position: point t = 4·(row block) + tile
  reads adjacency rows 2048·(t % 4) + jj and columns 1024·(t / 4) + p, feature rows 2048·(t % 4) + jj on the contraction
  side and 1024·(t / 4) + p on the own side, and all of the weights and the bias. So one tile's product at (p, k) is that
  tile's part of node r = 1024·(t / 4) + p's neighbour sum; the accumulator, reset at tile 0 and stepped at tiles 1, 2, 3,
  is the running sum of those parts from zero, and after tile 3 it is the whole neighbour sum (the regrouping law). The
  finished block at the last tile is then the stage's value on the row block's 1024 nodes; that block is what the point
  writes back, and the eight row blocks cover the array.
-/
import proofs.«155579_j31937376813550_1_alg».proof.Proof.Region1
import proofs.«155579_j31937376813550_1_alg».proof.Proof.Pay1
import proofs.«155579_j31937376813550_1_alg».proof.Proof.GinSum

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Each window's block is its array at the block's position -/

/-- The printed index maps, decided over the grid: point t = 4·(row block) + tile. -/
theorem idx1 : ∀ t : Fin cfg1.N,
    win1_0.index t (0 : Fin 2) = t.val % 4 ∧ win1_0.index t (1 : Fin 2) = t.val / 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0 :=
  (by decide +kernel : ∀ t : Fin grid1.N, _)

/-- The adjacency tile at (jj, p) is the adjacency array at (2048·(t % 4) + jj, 1024·(t / 4) + p). -/
theorem iblk1_0_apply (c : Dev nD) (t : Fin cfg1.N) (jj : Fin 2048) (p : Fin 1024) (J R : Fin 8192)
    (hJ : J.val = 2048 * (t.val % 4) + jj.val) (hR : R.val = 1024 * (t.val / 4) + p.val) :
    (iblk1 V c 0 t : Vec Ideal S2048x1024 .i32) (ix2 jj p) = (V c main_arg1 : S8192x8192.Idx → BitVec 32) (ix2 J R) := by
  obtain ⟨e0, e1, -⟩ := idx1 t
  unfold iblk1
  rw [View.read_apply]
  show V c main_arg1 _ = V c main_arg1 _
  congr 1
  funext a
  apply Fin.ext
  match a with
  | ⟨0, _⟩ => show win1_0.index t (0 : Fin 2) * 2048 + 1 * jj.val = J.val; rw [e0, hJ]; omega
  | ⟨1, _⟩ => show win1_0.index t (1 : Fin 2) * 1024 + 1 * p.val = R.val; rw [e1, hR]; omega

/-- The contraction-side rows of x at (jj, k) are x at (2048·(t % 4) + jj, k). -/
theorem iblk1_1_apply (c : Dev nD) (t : Fin cfg1.N) (jj : Fin 2048) (k : Fin 128) (J : Fin 8192)
    (hJ : J.val = 2048 * (t.val % 4) + jj.val) :
    (iblk1 V c 1 t : Vec Ideal S2048x128 .f32) (ix2 jj k) = (V c main_v26 : S8192x128.Idx → EReal) (ix2 J k) := by
  obtain ⟨-, -, e0, e1, -⟩ := idx1 t
  unfold iblk1
  rw [View.read_apply]
  show V c main_v26 _ = V c main_v26 _
  congr 1
  funext a
  apply Fin.ext
  match a with
  | ⟨0, _⟩ => show win1_1.index t (0 : Fin 2) * 2048 + 1 * jj.val = J.val; rw [e0, hJ]; omega
  | ⟨1, _⟩ => show win1_1.index t (1 : Fin 2) * 128 + 1 * k.val = k.val; rw [e1]; omega

/-- The own rows of x at (p, k) are x at (1024·(t / 4) + p, k). -/
theorem iblk1_2_apply (c : Dev nD) (t : Fin cfg1.N) (p : Fin 1024) (k : Fin 128) (R : Fin 8192)
    (hR : R.val = 1024 * (t.val / 4) + p.val) :
    (iblk1 V c 2 t : Vec Ideal S1024x128 .f32) (ix2 p k) = (V c main_v26 : S8192x128.Idx → EReal) (ix2 R k) := by
  obtain ⟨-, -, -, -, e0, e1, -⟩ := idx1 t
  unfold iblk1
  rw [View.read_apply]
  show V c main_v26 _ = V c main_v26 _
  congr 1
  funext a
  apply Fin.ext
  match a with
  | ⟨0, _⟩ => show win1_2.index t (0 : Fin 2) * 1024 + 1 * p.val = R.val; rw [e0, hR]; omega
  | ⟨1, _⟩ => show win1_2.index t (1 : Fin 2) * 128 + 1 * k.val = k.val; rw [e1]; omega

/-- The weights' block is the weights. -/
theorem iblk1_3_apply (c : Dev nD) (t : Fin cfg1.N) (k : Fin 128) (q : Fin 128) :
    (iblk1 V c 3 t : Vec Ideal S128x128 .f32) (ix2 k q) = (V c main_arg8 : S128x128.Idx → EReal) (ix2 k q) := by
  obtain ⟨-, -, -, -, -, -, e0, e1, -⟩ := idx1 t
  unfold iblk1
  rw [View.read_apply]
  show V c main_arg8 _ = V c main_arg8 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias row's block is the bias row. -/
theorem iblk1_4_apply (c : Dev nD) (t : Fin cfg1.N) (u : Fin 1) (q : Fin 128) :
    (iblk1 V c 4 t : Vec Ideal S1x128 .f32) (ix2 u q) = (V c main_v27 : S1x128.Idx → EReal) (ix2 u q) := by
  obtain ⟨-, -, -, -, -, -, -, -, e0, e1, -⟩ := idx1 t
  unfold iblk1
  rw [View.read_apply]
  show V c main_v27 _ = V c main_v27 _
  congr 1
  funext a
  apply Fin.ext
  match a with
  | ⟨0, _⟩ => show win1_4.index t (0 : Fin 2) * 1 + 1 * u.val = u.val; rw [e0]; omega
  | ⟨1, _⟩ => show win1_4.index t (1 : Fin 2) * 128 + 1 * q.val = q.val; rw [e1]; omega

/-! ## The accumulator is the running neighbour sum -/

/-- Node r's neighbour terms at feature k: position j contributes [adj(j, r) ≠ 0] · x(j, k). -/
def aggTerm1 (adj : (⟨2, ![8192, 8192]⟩ : Shape).Idx → BitVec 32) (x : (⟨2, ![8192, 128]⟩ : Shape).Idx → EReal)
    (r : Fin 8192) (k : Fin 128) : Fin 8192 → EReal := fun j => ind (adj (ix2 j r)) * x (ix2 j k)

/-- One tile's product at (p, k) is that tile's part of the node's neighbour sum. -/
theorem tile1_apply (c : Dev nD) (t : Fin cfg1.N) (p : Fin 1024) (k : Fin 128) (r : Fin 8192)
    (hr : r.val = 1024 * (t.val / 4) + p.val) :
    (∑ jj : Fin 2048, ind ((iblk1 V c 0 t : Vec Ideal S2048x1024 .i32) (ix2 jj p))
        * (iblk1 V c 1 t : Vec Ideal S2048x128 .f32) (ix2 jj k))
      = BlockSums.blockSum 2048 (aggTerm1 (V c main_arg1) (V c main_v26) r k) (t.val % 4) := by
  have h4 : t.val % 4 < 4 := Nat.mod_lt _ (by decide)
  rw [tile_sum _ _ h4]
  refine Finset.sum_congr rfl fun jj _ => ?_
  have hjj : jj.val < 2048 := jj.isLt
  unfold aggTerm1
  exact congrArg₂ (· * ·)
    (congrArg ind (iblk1_0_apply V c t jj p ⟨jj.val + 2048 * (t.val % 4), by omega⟩ r (Nat.add_comm _ _) hr))
    (iblk1_1_apply V c t jj k ⟨jj.val + 2048 * (t.val % 4), by omega⟩ (Nat.add_comm _ _))

/-- At the first tile of a row block the accumulator at (p, k) is zero plus the first tile's part. -/
theorem acc1_reset_apply (c : Dev nD) (t : Fin cfg1.N) (h0 : t.val % 4 = 0) (p : Fin 1024) (k : Fin 128) (r : Fin 8192)
    (hr : r.val = 1024 * (t.val / 4) + p.val) :
    acc1 V c t.val t.isLt (ix2 p k)
      = BlockSums.runSum 2048 (aggTerm1 (V c main_arg1) (V c main_v26) r k) (t.val % 4) := by
  refine (congrFun (acc1_reset V c t h0) (ix2 p k)).trans ?_
  refine (k1_pay2_apply (iblk1 V c 0 t) (iblk1 V c 1 t) (k1_pay1 (F := Ideal)) p k).trans ?_
  refine (congrArg₂ (· + ·) (k1_pay1_apply p k) (tile1_apply V c t p k r hr)).trans ?_
  rw [h0]; rfl

/-- THE ACCUMULATOR after point n at (p, k): node r's neighbour sum taken tile by tile from zero, up to tile n % 4 —
    by induction on the point, a reset at the first tile of a row block and a step from the point before elsewhere. -/
theorem acc1_apply (c : Dev nD) (n : ℕ) : ∀ (hn : n < cfg1.N) (p : Fin 1024) (k : Fin 128) (r : Fin 8192),
    r.val = 1024 * (n / 4) + p.val →
    acc1 V c n hn (ix2 p k) = BlockSums.runSum 2048 (aggTerm1 (V c main_arg1) (V c main_v26) r k) (n % 4) := by
  induction n with
  | zero => exact fun hn p k r hr => acc1_reset_apply V c ⟨0, hn⟩ rfl p k r hr
  | succ n ih =>
    intro hn p k r hr
    by_cases h0 : (n + 1) % 4 = 0
    · exact acc1_reset_apply V c ⟨n + 1, hn⟩ h0 p k r hr
    · have hm : (n + 1) % 4 = n % 4 + 1 := by omega
      have hd : (n + 1) / 4 = n / 4 := by omega
      refine (congrFun (acc1_step V c ⟨n + 1, hn⟩ h0) (ix2 p k)).trans ?_
      refine (k1_pay2_apply (iblk1 V c 0 ⟨n + 1, hn⟩) (iblk1 V c 1 ⟨n + 1, hn⟩)
        (acc1 V c n (Nat.lt_of_succ_lt hn)) p k).trans ?_
      rw [hm, BlockSums.runSum_succ, ← hm]
      exact congrArg₂ (· + ·) (ih (Nat.lt_of_succ_lt hn) p k r (by rw [hr, hd])) (tile1_apply V c ⟨n + 1, hn⟩ p k r hr)

/-! ## The finished block, the write-back, the array -/

/-- THE FINISHED BLOCK at the last tile of row block t / 4, at (p, q), is the stage's value at node 1024·(t / 4) + p:
    after the fourth tile the accumulator is the node's whole neighbour sum. -/
theorem out1_apply (c : Dev nD) (t : Fin cfg1.N) (h3 : t.val % 4 = 3) (p : Fin 1024) (q : Fin 128) (r : Fin 8192)
    (hr : r.val = 1024 * (t.val / 4) + p.val) :
    out1 V c t (ix2 p q) = pre_128 (V c main_arg1) (V c main_v26) (V c main_arg8) (V c main_v27) (ix2 r q) := by
  unfold out1
  refine (k1_pay3_apply (iblk1 V c 2 t) (acc1 V c t.val t.isLt) (iblk1 V c 3 t) (iblk1 V c 4 t) p q).trans ?_
  unfold pre_128
  refine congrArg₂ (· + ·) (Finset.sum_congr rfl fun k _ => ?_) (iblk1_4_apply V c t 0 q)
  refine congrArg₂ (· * ·) (congrArg₂ (· + ·) (iblk1_2_apply V c t p k r hr) ?_) (iblk1_3_apply V c t k q)
  refine (acc1_apply V c t.val t.isLt p k r hr).trans ?_
  rw [h3]
  exact tiles_sum _

/-- What the write-back at the last tile of a row block writes is that block of the stage's value. -/
theorem flushed1_eq (c : Dev nD) (t : Fin cfg1.N) (hf : (cfg1.win 5).flush t = true) :
    (dat1 V c).flushed 5 t
      = ((cfg1.win 5).blk t).view.read (Elt Ideal) (pre_128 (V c main_arg1) (V c main_v26) (V c main_arg8) (V c main_v27)) := by
  have h3 : t.val % 4 = 3 := (flush1_5 t).mp hf
  have hN : t.val < 32 := lt_of_lt_of_eq t.isLt (show cfg1.N = 32 from N_1)
  obtain ⟨-, -, -, -, -, -, -, -, -, -, e0, e1⟩ := idx1 t
  show (cfg1.win 5).cut (grid1.coords t) ((dat1 V c).after 5 t) = _
  rw [after1_5]
  funext y
  have hy0 : (y 0).val < 1024 := (y 0).isLt
  have hy1 : (y 1).val < 128 := (y 1).isLt
  rw [View.read_apply]
  have hx : (cfg1.win 5).xinj (grid1.coords t) y = ix2 (⟨(y 0).val, hy0⟩ : Fin 1024) (⟨(y 1).val, hy1⟩ : Fin 128) :=
    funext fun a => by match a with | ⟨0, _⟩ => rfl | ⟨1, _⟩ => rfl
  have he : ((cfg1.win 5).blk t).view.emb y
      = ix2 (⟨1024 * (t.val / 4) + (y 0).val, by omega⟩ : Fin 8192) (⟨(y 1).val, hy1⟩ : Fin 128) := by
    funext a; apply Fin.ext
    match a with
    | ⟨0, _⟩ => show win1_5.index t (0 : Fin 2) * 1024 + 1 * (y 0).val = 1024 * (t.val / 4) + (y 0).val; rw [e0]; omega
    | ⟨1, _⟩ => show win1_5.index t (1 : Fin 2) * 128 + 1 * (y 1).val = (y 1).val; rw [e1]; omega
  rw [he]
  refine (congrArg (out1 V c t) hx).trans ?_
  exact out1_apply V c t h3 _ _ _ rfl

/-- An index of the output array is in point t's block iff each coordinate is in the block's range on its axis. -/
theorem mem_blk1_5 (t : Fin cfg1.N) (i : S8192x128.Idx) :
    i ∈ ((cfg1.win 5).blk t).view.set ↔ ∀ a : Fin 2, win1_5.index t a * S1024x128.size a ≤ (i a).val
      ∧ (i a).val < win1_5.index t a * S1024x128.size a + S1024x128.size a := by
  show i ∈ ((View.whole main_v28).slice (win1_5.rect t)).set ↔ _
  rw [View.set_slice_whole, Rect.mem_set_unit]
  exact Iff.rfl

/-- Row r of the output array is written at the last tile of its row block, point 4·(r / 1024) + 3: the eight row
    blocks cover the array. -/
theorem cover1_5 (i : S8192x128.Idx) :
    ∃ t : Fin cfg1.N, (cfg1.win 5).flush t = true ∧ i ∈ ((cfg1.win 5).blk t).view.set := by
  have hi0 : (i 0).val < 8192 := (i 0).isLt
  have hi1 : (i 1).val < 128 := (i 1).isLt
  have hN : cfg1.N = 32 := N_1
  have hlt : 4 * ((i 0).val / 1024) + 3 < cfg1.N := by rw [hN]; omega
  obtain ⟨-, -, -, -, -, -, -, -, -, -, e0, e1⟩ := idx1 ⟨4 * ((i 0).val / 1024) + 3, hlt⟩
  refine ⟨⟨4 * ((i 0).val / 1024) + 3, hlt⟩, (flush1_5 _).mpr (by show (4 * ((i 0).val / 1024) + 3) % 4 = 3; omega), ?_⟩
  rw [mem_blk1_5]
  intro a
  match a with
  | ⟨0, _⟩ =>
    show win1_5.index ⟨4 * ((i 0).val / 1024) + 3, hlt⟩ (0 : Fin 2) * 1024 ≤ (i 0).val
      ∧ (i 0).val < win1_5.index ⟨4 * ((i 0).val / 1024) + 3, hlt⟩ (0 : Fin 2) * 1024 + 1024
    rw [e0]; dsimp only; omega
  | ⟨1, _⟩ =>
    show win1_5.index ⟨4 * ((i 0).val / 1024) + 3, hlt⟩ (1 : Fin 2) * 128 ≤ (i 1).val
      ∧ (i 1).val < win1_5.index ⟨4 * ((i 0).val / 1024) + 3, hlt⟩ (1 : Fin 2) * 128 + 128
    rw [e1]; omega

/-- THE OUTPUT ARRAY after the last write-back is the stage's value, as one function of the four input arrays. -/
theorem region1_value (c : Dev nD) :
    (dat1 V c).arrAt 5 cfg1.N = pre_128 (V c main_arg1) (V c main_v26) (V c main_arg8) (V c main_v27) :=
  (dat1 V c).arrAt_eq_of_cover 5 (pre_128 (V c main_arg1) (V c main_v26) (V c main_arg8) (V c main_v27))
    (fun t hf => flushed1_eq V c t hf) cover1_5

end Cert.KernelIdeal.Hand

end
-- ==== Proof.Pay2.lean ====
/-
  The three value terms of the body of pallas_call 2, read at an entry, over the extended reals.

  The zero block is 0 everywhere. The accumulator's update at entry (p, k) is the old accumulator's entry plus the sum,
  over the 2048 rows jj of this tile, of the nonzero pattern of the adjacency tile at (jj, p) times the tile's row of x at
  (jj, k): the matrix product contracts the FIRST axis of both operands, and the pattern is the comparison bit widened
  and read as an integer. The finished block at entry (p, q) is the sum over the 128 features k of (own row + accumulator)
  at (p, k) times the weights at (k, q), plus the bias row at (0, q). A change of float format is the identity on
  extended reals, and so is a shape cast to the same shape.
-/
import proofs.«155579_j31937376813550_1_alg».proof.Proof.Gen.KernelIdeal.Skeleton
import proofs.«155579_j31937376813550_1_alg».proof.Proof.GinSpec
import proofs.«155579_j31937376813550_1_alg».proof.Proof.LibMatmulEntry
import Idealize.ShloMosaic.Lib.Pipeline.Value
import Idealize.ShloMosaic.Lib.ValueLayout

noncomputable section

open scoped BigOperators

namespace Cert.KernelIdeal.Hand

open Cert.KernelIdeal Cert.KernelIdeal.Gen
open Idealize.ShloMosaic Idealize.ShloMosaic.ValueIdx

/-- The aggregation's product: [2048, 1024] against [2048, 128], both contracted along their first axis. -/
abbrev Dagg2 := dot_S2048x1024_S2048x128_S1024x128_0_0_1_1_n_n
/-- The affine map's product: [1024, 128] against [128, 128], a plain matrix product. -/
abbrev Dlin2 := dot_S1024x128_S128x128_S1024x128_1_0_0_1_n_n

/-! ## Where the two products read their operands -/

theorem agg2_lhs0 (j : S1024x128.Idx) (q : Dagg2.contr.Idx) : (Dagg2.lhsIdx j q 0 : ℕ) = q ⟨0, by decide⟩ := by
  simp [DotDims.lhsIdx, Dagg2, dot_S2048x1024_S2048x128_S1024x128_0_0_1_1_n_n]; rfl
theorem agg2_lhs1 (j : S1024x128.Idx) (q : Dagg2.contr.Idx) : (Dagg2.lhsIdx j q 1 : ℕ) = j 0 := by
  simp [DotDims.lhsIdx, Dagg2, dot_S2048x1024_S2048x128_S1024x128_0_0_1_1_n_n]; rfl
theorem agg2_rhs0 (j : S1024x128.Idx) (q : Dagg2.contr.Idx) : (Dagg2.rhsIdx j q 0 : ℕ) = q ⟨0, by decide⟩ := by
  simp [DotDims.rhsIdx, Dagg2, dot_S2048x1024_S2048x128_S1024x128_0_0_1_1_n_n]; rfl
theorem agg2_rhs1 (j : S1024x128.Idx) (q : Dagg2.contr.Idx) : (Dagg2.rhsIdx j q 1 : ℕ) = j 1 := by
  simp [DotDims.rhsIdx, Dagg2, dot_S2048x1024_S2048x128_S1024x128_0_0_1_1_n_n]; rfl

theorem lin2_lhs0 (j : S1024x128.Idx) (q : Dlin2.contr.Idx) : (Dlin2.lhsIdx j q 0 : ℕ) = j 0 := by
  simp [DotDims.lhsIdx, Dlin2, dot_S1024x128_S128x128_S1024x128_1_0_0_1_n_n]; rfl
theorem lin2_lhs1 (j : S1024x128.Idx) (q : Dlin2.contr.Idx) : (Dlin2.lhsIdx j q 1 : ℕ) = q ⟨0, by decide⟩ := by
  simp [DotDims.lhsIdx, Dlin2, dot_S1024x128_S128x128_S1024x128_1_0_0_1_n_n]; rfl
theorem lin2_rhs0 (j : S1024x128.Idx) (q : Dlin2.contr.Idx) : (Dlin2.rhsIdx j q 0 : ℕ) = q ⟨0, by decide⟩ := by
  simp [DotDims.rhsIdx, Dlin2, dot_S1024x128_S128x128_S1024x128_1_0_0_1_n_n]; rfl
theorem lin2_rhs1 (j : S1024x128.Idx) (q : Dlin2.contr.Idx) : (Dlin2.rhsIdx j q 1 : ℕ) = j 1 := by
  simp [DotDims.rhsIdx, Dlin2, dot_S1024x128_S128x128_S1024x128_1_0_0_1_n_n]; rfl

/-! ## The three value terms at an entry -/

/-- The zero block is 0 at every entry. -/
theorem k2_pay1_apply (p : Fin 1024) (k : Fin 128) : k2_pay1 (F := Ideal) (ix2 p k) = 0 := by
  unfold k2_pay1
  refine (congrFun (shapeCast_self _ _) (ix2 p k)).trans ?_
  exact Ideal.ofBits_zero_f32

/-- The accumulator's update at (p, k): the old entry plus Σ_jj [xa(jj, p) ≠ 0] · xj(jj, k). -/
theorem k2_pay2_apply (xa : Vec Ideal S2048x1024 .i32) (xj : Vec Ideal S2048x128 .f32) (a : Vec Ideal S1024x128 .f32)
    (p : Fin 1024) (k : Fin 128) :
    k2_pay2 xa xj a (ix2 p k) = a (ix2 p k) + ∑ jj : Fin 2048, ind (xa (ix2 jj p)) * xj (ix2 jj k) := by
  unfold k2_pay2
  refine (congrFun (shapeCast_self _ _) (ix2 p k)).trans ?_
  refine congrArg (a (ix2 p k) + ·) ?_
  refine (Cert.LibMatmulEntry.matmul_zero_entry Dagg2 none (by decide) (by decide)
    (fun p jj => ix2 jj p) (fun k jj => ix2 jj k) ?_ ?_ _ _ p k).trans ?_
  · intro p c q jj hq
    funext ax; refine Fin.ext ?_
    match ax with
    | ⟨0, _⟩ => exact (agg2_lhs0 _ q).trans hq
    | ⟨1, _⟩ => exact agg2_lhs1 _ q
  · intro p c q jj hq
    funext ax; refine Fin.ext ?_
    match ax with
    | ⟨0, _⟩ => exact (agg2_rhs0 _ q).trans hq
    | ⟨1, _⟩ => exact agg2_rhs1 _ q
  · refine Finset.sum_congr rfl fun jj _ => ?_
    exact congrArg₂ (· * ·) (ind_of_sitofp_extui (xa (ix2 jj p))) (congrFun (shapeCast_self xj _) (ix2 jj k))

/-- The finished block at (p, q): Σ_k (xi(p, k) + a(p, k)) · w(k, q) + b(0, q). -/
theorem k2_pay3_apply (xi a : Vec Ideal S1024x128 .f32) (w : Vec Ideal S128x128 .f32) (b : Vec Ideal S1x128 .f32)
    (p : Fin 1024) (q : Fin 128) :
    k2_pay3 xi a w b (ix2 p q)
      = (∑ k : Fin 128, (xi (ix2 p k) + a (ix2 p k)) * w (ix2 k q)) + b (ix2 (0 : Fin 1) q) := by
  unfold k2_pay3
  refine congrArg₂ (· + ·) ?_ ?_
  · refine (Cert.LibMatmulEntry.matmul_zero_entry Dlin2 none (by decide) (by decide)
      (fun p k => ix2 p k) (fun q k => ix2 k q) ?_ ?_ _ _ p q).trans ?_
    · intro p c qq k hq
      funext ax; refine Fin.ext ?_
      match ax with
      | ⟨0, _⟩ => exact lin2_lhs0 _ qq
      | ⟨1, _⟩ => exact (lin2_lhs1 _ qq).trans hq
    · intro p c qq k hq
      funext ax; refine Fin.ext ?_
      match ax with
      | ⟨0, _⟩ => exact (lin2_rhs0 _ qq).trans hq
      | ⟨1, _⟩ => exact lin2_rhs1 _ qq
    · refine Finset.sum_congr rfl fun k _ => ?_
      exact congrArg (· * w (ix2 k q)) (congrArg (· + a (ix2 p k)) (congrFun (shapeCast_self xi _) (ix2 p k)))
  · refine (broadcastTo_1b_ab_apply _ _ p q).trans ?_
    exact congrFun (shapeCast_self b _) _

end Cert.KernelIdeal.Hand

end
-- ==== Proof.Value2.lean ====
/-
  pallas_call 2 at the extended reals: the output ARRAY after the last write-back is ONE function of the region's four
  input arrays — the stage `pre_128` of the adjacency array, the node features, the weights and the bias row.

  The road. Each window's block at a grid point is its array read at the block's position: point t = 4·(row block) + tile
  reads adjacency rows 2048·(t % 4) + jj and columns 1024·(t / 4) + p, feature rows 2048·(t % 4) + jj on the contraction
  side and 1024·(t / 4) + p on the own side, and all of the weights and the bias. So one tile's product at (p, k) is that
  tile's part of node r = 1024·(t / 4) + p's neighbour sum; the accumulator, reset at tile 0 and stepped at tiles 1, 2, 3,
  is the running sum of those parts from zero, and after tile 3 it is the whole neighbour sum (the regrouping law). The
  finished block at the last tile is then the stage's value on the row block's 1024 nodes; that block is what the point
  writes back, and the eight row blocks cover the array.
-/
import proofs.«155579_j31937376813550_1_alg».proof.Proof.Region2
import proofs.«155579_j31937376813550_1_alg».proof.Proof.Pay2
import proofs.«155579_j31937376813550_1_alg».proof.Proof.GinSum

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Each window's block is its array at the block's position -/

/-- The printed index maps, decided over the grid: point t = 4·(row block) + tile. -/
theorem idx2 : ∀ t : Fin cfg2.N,
    win2_0.index t (0 : Fin 2) = t.val % 4 ∧ win2_0.index t (1 : Fin 2) = t.val / 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 4 ∧ win2_5.index t (1 : Fin 2) = 0 :=
  (by decide +kernel : ∀ t : Fin grid2.N, _)

/-- The adjacency tile at (jj, p) is the adjacency array at (2048·(t % 4) + jj, 1024·(t / 4) + p). -/
theorem iblk2_0_apply (c : Dev nD) (t : Fin cfg2.N) (jj : Fin 2048) (p : Fin 1024) (J R : Fin 8192)
    (hJ : J.val = 2048 * (t.val % 4) + jj.val) (hR : R.val = 1024 * (t.val / 4) + p.val) :
    (iblk2 V c 0 t : Vec Ideal S2048x1024 .i32) (ix2 jj p) = (V c main_arg1 : S8192x8192.Idx → BitVec 32) (ix2 J R) := by
  obtain ⟨e0, e1, -⟩ := idx2 t
  unfold iblk2
  rw [View.read_apply]
  show V c main_arg1 _ = V c main_arg1 _
  congr 1
  funext a
  apply Fin.ext
  match a with
  | ⟨0, _⟩ => show win2_0.index t (0 : Fin 2) * 2048 + 1 * jj.val = J.val; rw [e0, hJ]; omega
  | ⟨1, _⟩ => show win2_0.index t (1 : Fin 2) * 1024 + 1 * p.val = R.val; rw [e1, hR]; omega

/-- The contraction-side rows of x at (jj, k) are x at (2048·(t % 4) + jj, k). -/
theorem iblk2_1_apply (c : Dev nD) (t : Fin cfg2.N) (jj : Fin 2048) (k : Fin 128) (J : Fin 8192)
    (hJ : J.val = 2048 * (t.val % 4) + jj.val) :
    (iblk2 V c 1 t : Vec Ideal S2048x128 .f32) (ix2 jj k) = (V c main_v53 : S8192x128.Idx → EReal) (ix2 J k) := by
  obtain ⟨-, -, e0, e1, -⟩ := idx2 t
  unfold iblk2
  rw [View.read_apply]
  show V c main_v53 _ = V c main_v53 _
  congr 1
  funext a
  apply Fin.ext
  match a with
  | ⟨0, _⟩ => show win2_1.index t (0 : Fin 2) * 2048 + 1 * jj.val = J.val; rw [e0, hJ]; omega
  | ⟨1, _⟩ => show win2_1.index t (1 : Fin 2) * 128 + 1 * k.val = k.val; rw [e1]; omega

/-- The own rows of x at (p, k) are x at (1024·(t / 4) + p, k). -/
theorem iblk2_2_apply (c : Dev nD) (t : Fin cfg2.N) (p : Fin 1024) (k : Fin 128) (R : Fin 8192)
    (hR : R.val = 1024 * (t.val / 4) + p.val) :
    (iblk2 V c 2 t : Vec Ideal S1024x128 .f32) (ix2 p k) = (V c main_v53 : S8192x128.Idx → EReal) (ix2 R k) := by
  obtain ⟨-, -, -, -, e0, e1, -⟩ := idx2 t
  unfold iblk2
  rw [View.read_apply]
  show V c main_v53 _ = V c main_v53 _
  congr 1
  funext a
  apply Fin.ext
  match a with
  | ⟨0, _⟩ => show win2_2.index t (0 : Fin 2) * 1024 + 1 * p.val = R.val; rw [e0, hR]; omega
  | ⟨1, _⟩ => show win2_2.index t (1 : Fin 2) * 128 + 1 * k.val = k.val; rw [e1]; omega

/-- The weights' block is the weights. -/
theorem iblk2_3_apply (c : Dev nD) (t : Fin cfg2.N) (k : Fin 128) (q : Fin 128) :
    (iblk2 V c 3 t : Vec Ideal S128x128 .f32) (ix2 k q) = (V c main_arg14 : S128x128.Idx → EReal) (ix2 k q) := by
  obtain ⟨-, -, -, -, -, -, e0, e1, -⟩ := idx2 t
  unfold iblk2
  rw [View.read_apply]
  show V c main_arg14 _ = V c main_arg14 _
  congr 1
  funext a
  apply Fin.ext
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- The bias row's block is the bias row. -/
theorem iblk2_4_apply (c : Dev nD) (t : Fin cfg2.N) (u : Fin 1) (q : Fin 128) :
    (iblk2 V c 4 t : Vec Ideal S1x128 .f32) (ix2 u q) = (V c main_v54 : S1x128.Idx → EReal) (ix2 u q) := by
  obtain ⟨-, -, -, -, -, -, -, -, e0, e1, -⟩ := idx2 t
  unfold iblk2
  rw [View.read_apply]
  show V c main_v54 _ = V c main_v54 _
  congr 1
  funext a
  apply Fin.ext
  match a with
  | ⟨0, _⟩ => show win2_4.index t (0 : Fin 2) * 1 + 1 * u.val = u.val; rw [e0]; omega
  | ⟨1, _⟩ => show win2_4.index t (1 : Fin 2) * 128 + 1 * q.val = q.val; rw [e1]; omega

/-! ## The accumulator is the running neighbour sum -/

/-- Node r's neighbour terms at feature k: position j contributes [adj(j, r) ≠ 0] · x(j, k). -/
def aggTerm2 (adj : (⟨2, ![8192, 8192]⟩ : Shape).Idx → BitVec 32) (x : (⟨2, ![8192, 128]⟩ : Shape).Idx → EReal)
    (r : Fin 8192) (k : Fin 128) : Fin 8192 → EReal := fun j => ind (adj (ix2 j r)) * x (ix2 j k)

/-- One tile's product at (p, k) is that tile's part of the node's neighbour sum. -/
theorem tile2_apply (c : Dev nD) (t : Fin cfg2.N) (p : Fin 1024) (k : Fin 128) (r : Fin 8192)
    (hr : r.val = 1024 * (t.val / 4) + p.val) :
    (∑ jj : Fin 2048, ind ((iblk2 V c 0 t : Vec Ideal S2048x1024 .i32) (ix2 jj p))
        * (iblk2 V c 1 t : Vec Ideal S2048x128 .f32) (ix2 jj k))
      = BlockSums.blockSum 2048 (aggTerm2 (V c main_arg1) (V c main_v53) r k) (t.val % 4) := by
  have h4 : t.val % 4 < 4 := Nat.mod_lt _ (by decide)
  rw [tile_sum _ _ h4]
  refine Finset.sum_congr rfl fun jj _ => ?_
  have hjj : jj.val < 2048 := jj.isLt
  unfold aggTerm2
  exact congrArg₂ (· * ·)
    (congrArg ind (iblk2_0_apply V c t jj p ⟨jj.val + 2048 * (t.val % 4), by omega⟩ r (Nat.add_comm _ _) hr))
    (iblk2_1_apply V c t jj k ⟨jj.val + 2048 * (t.val % 4), by omega⟩ (Nat.add_comm _ _))

/-- At the first tile of a row block the accumulator at (p, k) is zero plus the first tile's part. -/
theorem acc2_reset_apply (c : Dev nD) (t : Fin cfg2.N) (h0 : t.val % 4 = 0) (p : Fin 1024) (k : Fin 128) (r : Fin 8192)
    (hr : r.val = 1024 * (t.val / 4) + p.val) :
    acc2 V c t.val t.isLt (ix2 p k)
      = BlockSums.runSum 2048 (aggTerm2 (V c main_arg1) (V c main_v53) r k) (t.val % 4) := by
  refine (congrFun (acc2_reset V c t h0) (ix2 p k)).trans ?_
  refine (k2_pay2_apply (iblk2 V c 0 t) (iblk2 V c 1 t) (k2_pay1 (F := Ideal)) p k).trans ?_
  refine (congrArg₂ (· + ·) (k2_pay1_apply p k) (tile2_apply V c t p k r hr)).trans ?_
  rw [h0]; rfl

/-- THE ACCUMULATOR after point n at (p, k): node r's neighbour sum taken tile by tile from zero, up to tile n % 4 —
    by induction on the point, a reset at the first tile of a row block and a step from the point before elsewhere. -/
theorem acc2_apply (c : Dev nD) (n : ℕ) : ∀ (hn : n < cfg2.N) (p : Fin 1024) (k : Fin 128) (r : Fin 8192),
    r.val = 1024 * (n / 4) + p.val →
    acc2 V c n hn (ix2 p k) = BlockSums.runSum 2048 (aggTerm2 (V c main_arg1) (V c main_v53) r k) (n % 4) := by
  induction n with
  | zero => exact fun hn p k r hr => acc2_reset_apply V c ⟨0, hn⟩ rfl p k r hr
  | succ n ih =>
    intro hn p k r hr
    by_cases h0 : (n + 1) % 4 = 0
    · exact acc2_reset_apply V c ⟨n + 1, hn⟩ h0 p k r hr
    · have hm : (n + 1) % 4 = n % 4 + 1 := by omega
      have hd : (n + 1) / 4 = n / 4 := by omega
      refine (congrFun (acc2_step V c ⟨n + 1, hn⟩ h0) (ix2 p k)).trans ?_
      refine (k2_pay2_apply (iblk2 V c 0 ⟨n + 1, hn⟩) (iblk2 V c 1 ⟨n + 1, hn⟩)
        (acc2 V c n (Nat.lt_of_succ_lt hn)) p k).trans ?_
      rw [hm, BlockSums.runSum_succ, ← hm]
      exact congrArg₂ (· + ·) (ih (Nat.lt_of_succ_lt hn) p k r (by rw [hr, hd])) (tile2_apply V c ⟨n + 1, hn⟩ p k r hr)

/-! ## The finished block, the write-back, the array -/

/-- THE FINISHED BLOCK at the last tile of row block t / 4, at (p, q), is the stage's value at node 1024·(t / 4) + p:
    after the fourth tile the accumulator is the node's whole neighbour sum. -/
theorem out2_apply (c : Dev nD) (t : Fin cfg2.N) (h3 : t.val % 4 = 3) (p : Fin 1024) (q : Fin 128) (r : Fin 8192)
    (hr : r.val = 1024 * (t.val / 4) + p.val) :
    out2 V c t (ix2 p q) = pre_128 (V c main_arg1) (V c main_v53) (V c main_arg14) (V c main_v54) (ix2 r q) := by
  unfold out2
  refine (k2_pay3_apply (iblk2 V c 2 t) (acc2 V c t.val t.isLt) (iblk2 V c 3 t) (iblk2 V c 4 t) p q).trans ?_
  unfold pre_128
  refine congrArg₂ (· + ·) (Finset.sum_congr rfl fun k _ => ?_) (iblk2_4_apply V c t 0 q)
  refine congrArg₂ (· * ·) (congrArg₂ (· + ·) (iblk2_2_apply V c t p k r hr) ?_) (iblk2_3_apply V c t k q)
  refine (acc2_apply V c t.val t.isLt p k r hr).trans ?_
  rw [h3]
  exact tiles_sum _

/-- What the write-back at the last tile of a row block writes is that block of the stage's value. -/
theorem flushed2_eq (c : Dev nD) (t : Fin cfg2.N) (hf : (cfg2.win 5).flush t = true) :
    (dat2 V c).flushed 5 t
      = ((cfg2.win 5).blk t).view.read (Elt Ideal) (pre_128 (V c main_arg1) (V c main_v53) (V c main_arg14) (V c main_v54)) := by
  have h3 : t.val % 4 = 3 := (flush2_5 t).mp hf
  have hN : t.val < 32 := lt_of_lt_of_eq t.isLt (show cfg2.N = 32 from N_2)
  obtain ⟨-, -, -, -, -, -, -, -, -, -, e0, e1⟩ := idx2 t
  show (cfg2.win 5).cut (grid2.coords t) ((dat2 V c).after 5 t) = _
  rw [after2_5]
  funext y
  have hy0 : (y 0).val < 1024 := (y 0).isLt
  have hy1 : (y 1).val < 128 := (y 1).isLt
  rw [View.read_apply]
  have hx : (cfg2.win 5).xinj (grid2.coords t) y = ix2 (⟨(y 0).val, hy0⟩ : Fin 1024) (⟨(y 1).val, hy1⟩ : Fin 128) :=
    funext fun a => by match a with | ⟨0, _⟩ => rfl | ⟨1, _⟩ => rfl
  have he : ((cfg2.win 5).blk t).view.emb y
      = ix2 (⟨1024 * (t.val / 4) + (y 0).val, by omega⟩ : Fin 8192) (⟨(y 1).val, hy1⟩ : Fin 128) := by
    funext a; apply Fin.ext
    match a with
    | ⟨0, _⟩ => show win2_5.index t (0 : Fin 2) * 1024 + 1 * (y 0).val = 1024 * (t.val / 4) + (y 0).val; rw [e0]; omega
    | ⟨1, _⟩ => show win2_5.index t (1 : Fin 2) * 128 + 1 * (y 1).val = (y 1).val; rw [e1]; omega
  rw [he]
  refine (congrArg (out2 V c t) hx).trans ?_
  exact out2_apply V c t h3 _ _ _ rfl

/-- An index of the output array is in point t's block iff each coordinate is in the block's range on its axis. -/
theorem mem_blk2_5 (t : Fin cfg2.N) (i : S8192x128.Idx) :
    i ∈ ((cfg2.win 5).blk t).view.set ↔ ∀ a : Fin 2, win2_5.index t a * S1024x128.size a ≤ (i a).val
      ∧ (i a).val < win2_5.index t a * S1024x128.size a + S1024x128.size a := by
  show i ∈ ((View.whole main_v55).slice (win2_5.rect t)).set ↔ _
  rw [View.set_slice_whole, Rect.mem_set_unit]
  exact Iff.rfl

/-- Row r of the output array is written at the last tile of its row block, point 4·(r / 1024) + 3: the eight row
    blocks cover the array. -/
theorem cover2_5 (i : S8192x128.Idx) :
    ∃ t : Fin cfg2.N, (cfg2.win 5).flush t = true ∧ i ∈ ((cfg2.win 5).blk t).view.set := by
  have hi0 : (i 0).val < 8192 := (i 0).isLt
  have hi1 : (i 1).val < 128 := (i 1).isLt
  have hN : cfg2.N = 32 := N_2
  have hlt : 4 * ((i 0).val / 1024) + 3 < cfg2.N := by rw [hN]; omega
  obtain ⟨-, -, -, -, -, -, -, -, -, -, e0, e1⟩ := idx2 ⟨4 * ((i 0).val / 1024) + 3, hlt⟩
  refine ⟨⟨4 * ((i 0).val / 1024) + 3, hlt⟩, (flush2_5 _).mpr (by show (4 * ((i 0).val / 1024) + 3) % 4 = 3; omega), ?_⟩
  rw [mem_blk2_5]
  intro a
  match a with
  | ⟨0, _⟩ =>
    show win2_5.index ⟨4 * ((i 0).val / 1024) + 3, hlt⟩ (0 : Fin 2) * 1024 ≤ (i 0).val
      ∧ (i 0).val < win2_5.index ⟨4 * ((i 0).val / 1024) + 3, hlt⟩ (0 : Fin 2) * 1024 + 1024
    rw [e0]; dsimp only; omega
  | ⟨1, _⟩ =>
    show win2_5.index ⟨4 * ((i 0).val / 1024) + 3, hlt⟩ (1 : Fin 2) * 128 ≤ (i 1).val
      ∧ (i 1).val < win2_5.index ⟨4 * ((i 0).val / 1024) + 3, hlt⟩ (1 : Fin 2) * 128 + 128
    rw [e1]; omega

/-- THE OUTPUT ARRAY after the last write-back is the stage's value, as one function of the four input arrays. -/
theorem region2_value (c : Dev nD) :
    (dat2 V c).arrAt 5 cfg2.N = pre_128 (V c main_arg1) (V c main_v53) (V c main_arg14) (V c main_v54) :=
  (dat2 V c).arrAt_eq_of_cover 5 (pre_128 (V c main_arg1) (V c main_v53) (V c main_arg14) (V c main_v54))
    (fun t hf => flushed2_eq V c t hf) cover2_5

end Cert.KernelIdeal.Hand

end
-- ==== Proof.Bridge.lean ====
import proofs.«155579_j31937376813550_1_alg».proof.Proof.KHost
import proofs.«155579_j31937376813550_1_alg».proof.Proof.RefResult
import proofs.«155579_j31937376813550_1_alg».proof.Proof.RefSpec
import proofs.«155579_j31937376813550_1_alg».proof.Proof.Run
import proofs.«155579_j31937376813550_1_alg».proof.Proof.Value0
import proofs.«155579_j31937376813550_1_alg».proof.Proof.Value1
import proofs.«155579_j31937376813550_1_alg».proof.Proof.Value2
import proofs.«155579_j31937376813550_1_alg».proof.Defs
import proofs.«155579_j31937376813550_1_alg».proof.Proof.Gen.Pre_finite_inputs
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Hand (adjOf lin1 linN ginTail ginLayer ginLayer1 meanPool headLogit headOut rowOf lin1_spec linN_spec)

/-! # The two programs end at the same value

Layer by layer over the extended reals: each kernel region's output array is the specification of its four inputs
(the tiled accumulation), the specification is the reference's pre-activation (the textbook sums), and the glue
between the layers is the same function on both sides. So the three layer outputs agree, and with them the pooled
rows, the logit and the final log-softmax. -/

/-- A bias reshaped to one row reads, at (0, q), the bias at q. -/
theorem shapeCast_row (b : (⟨1, ![128]⟩ : Shape).Idx → EReal) (h : (⟨1, ![128]⟩ : Shape).ShapeCasts ⟨2, ![1, 128]⟩) :
    shapeCast ⟨2, ![1, 128]⟩ b h = rowOf b := by
  funext i
  obtain ⟨u, q, rfl⟩ : ∃ (u : Fin 1) (q : Fin 128), i = ix2 u q := ⟨i 0, i 1, eq_ix2 i⟩
  obtain rfl : u = 0 := Subsingleton.elim _ _
  exact shapeCast_a_1a_apply b h 0 q

variable (m : (ℓ : Loc nD τ sig) → Buf (Elt Ideal) ℓ) (c : Dev nD)

/-- The first layer's output on the kernel side, as the reference's function of the arguments. -/
abbrev K1 := ginTail (F := Ideal) (lin1 (adjOf (m ((c.tc : Thread nD τ).loc main_arg1))) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7))
abbrev K2 := ginTail (F := Ideal) (linN (adjOf (m ((c.tc : Thread nD τ).loc main_arg1))) (K1 m c) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg13))
abbrev K3 := ginTail (F := Ideal) (linN (adjOf (m ((c.tc : Thread nD τ).loc main_arg1))) (K2 m c) (m ((c.tc : Thread nD τ).loc main_arg14)) (m ((c.tc : Thread nD τ).loc main_arg15))) (m ((c.tc : Thread nD τ).loc main_arg16)) (m ((c.tc : Thread nD τ).loc main_arg17)) (m ((c.tc : Thread nD τ).loc main_arg18)) (m ((c.tc : Thread nD τ).loc main_arg19))

/-- Region 0's output array is the reference's first pre-activation of the arguments. -/
theorem O0_eq : (dat0 (Vr0 m) c).arrAt 5 cfg0.N = lin1 (adjOf (m ((c.tc : Thread nD τ).loc main_arg1))) (m ((c.tc : Thread nD τ).loc main_arg0)) (m ((c.tc : Thread nD τ).loc main_arg2)) (m ((c.tc : Thread nD τ).loc main_arg3)) := by
  rw [region0_value, Vr0_arg1, Vr0_arg0, Vr0_arg2, Vr0_bias, shapeCast_row, ← lin1_spec]

/-- Region 1 is entered with layer 1's output, -/
theorem X1_eq : Vr1 m c main_v26 = K1 m c := by
  rw [Vr1_x, O0_eq m c]

/-- and its output array is the reference's second pre-activation. -/
theorem O1_eq : (dat1 (Vr1 m) c).arrAt 5 cfg1.N = linN (adjOf (m ((c.tc : Thread nD τ).loc main_arg1))) (K1 m c) (m ((c.tc : Thread nD τ).loc main_arg8)) (m ((c.tc : Thread nD τ).loc main_arg9)) := by
  rw [region1_value, Vr1_arg1, X1_eq m c, Vr1_arg8, Vr1_bias, shapeCast_row, ← linN_spec]

theorem X2_eq : Vr2 m c main_v53 = K2 m c := by
  rw [Vr2_x, O1_eq m c]

theorem O2_eq : (dat2 (Vr2 m) c).arrAt 5 cfg2.N = linN (adjOf (m ((c.tc : Thread nD τ).loc main_arg1))) (K2 m c) (m ((c.tc : Thread nD τ).loc main_arg14)) (m ((c.tc : Thread nD τ).loc main_arg15)) := by
  rw [region2_value, Vr2_arg1, X2_eq m c, Vr2_arg14, Vr2_bias, shapeCast_row, ← linN_spec]

/-- THE KERNEL PROGRAM'S RESULT as the reference's function of the arguments. -/
theorem kernel_value : B29 m c (Proc.devRef .tc main_v102)
    = headOut (headLogit (meanPool (K1 m c)) (meanPool (K2 m c)) (meanPool (K3 m c)) (m ((c.tc : Thread nD τ).loc main_arg20)) (m ((c.tc : Thread nD τ).loc main_arg21)) (m ((c.tc : Thread nD τ).loc main_arg22)) (m ((c.tc : Thread nD τ).loc main_arg23))) := by
  rw [kernel_result, O0_eq m c, O1_eq m c, O2_eq m c]

/-- The reference's result at arguments agreeing with the kernel's is the same function of them. -/
theorem reference_value (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)
      ∧ m' ((c.tc : Thread Cert.ReferenceIdeal.nD Cert.ReferenceIdeal.τ).loc Cert.ReferenceIdeal.main_arg20) = m ((c.tc : Thread nD τ).loc main_arg20)
      ∧ m' ((c.tc : Thread Cert.ReferenceIdeal.nD Cert.ReferenceIdeal.τ).loc Cert.ReferenceIdeal.main_arg21) = m ((c.tc : Thread nD τ).loc main_arg21)
      ∧ m' ((c.tc : Thread Cert.ReferenceIdeal.nD Cert.ReferenceIdeal.τ).loc Cert.ReferenceIdeal.main_arg22) = m ((c.tc : Thread nD τ).loc main_arg22)
      ∧ m' ((c.tc : Thread Cert.ReferenceIdeal.nD Cert.ReferenceIdeal.τ).loc Cert.ReferenceIdeal.main_arg23) = m ((c.tc : Thread nD τ).loc main_arg23)) :
    Cert.ReferenceIdeal.Hand.rOut (F := Ideal) (launchContents m' c)
      = headOut (headLogit (meanPool (K1 m c)) (meanPool (K2 m c)) (meanPool (K3 m c)) (m ((c.tc : Thread nD τ).loc main_arg20)) (m ((c.tc : Thread nD τ).loc main_arg21)) (m ((c.tc : Thread nD τ).loc main_arg22)) (m ((c.tc : Thread nD τ).loc main_arg23))) := by
  obtain ⟨h0, h1, h2, h3, h4, h5, h6, h7, h8, h9, h10, h11, h12, h13, h14, h15, h16, h17, h18, h19, h20, h21, h22, h23⟩ := hagree
  rw [Cert.ReferenceIdeal.Hand.rOut_eq, Cert.ReferenceIdeal.Hand.rH3_eq, Cert.ReferenceIdeal.Hand.rH2_eq, Cert.ReferenceIdeal.Hand.rH1_eq]
  unfold Cert.ReferenceIdeal.Hand.ginLayer Cert.ReferenceIdeal.Hand.ginLayer1 Cert.ReferenceIdeal.Hand.rAdj
  have e0 : launchContents m' c (Proc.devRef .tc Cert.ReferenceIdeal.main_arg0) = m ((c.tc : Thread nD τ).loc main_arg0) := h0
  have e1 : launchContents m' c (Proc.devRef .tc Cert.ReferenceIdeal.main_arg1) = m ((c.tc : Thread nD τ).loc main_arg1) := h1
  have e2 : launchContents m' c (Proc.devRef .tc Cert.ReferenceIdeal.main_arg2) = m ((c.tc : Thread nD τ).loc main_arg2) := h2
  have e3 : launchContents m' c (Proc.devRef .tc Cert.ReferenceIdeal.main_arg3) = m ((c.tc : Thread nD τ).loc main_arg3) := h3
  have e4 : launchContents m' c (Proc.devRef .tc Cert.ReferenceIdeal.main_arg4) = m ((c.tc : Thread nD τ).loc main_arg4) := h4
  have e5 : launchContents m' c (Proc.devRef .tc Cert.ReferenceIdeal.main_arg5) = m ((c.tc : Thread nD τ).loc main_arg5) := h5
  have e6 : launchContents m' c (Proc.devRef .tc Cert.ReferenceIdeal.main_arg6) = m ((c.tc : Thread nD τ).loc main_arg6) := h6
  have e7 : launchContents m' c (Proc.devRef .tc Cert.ReferenceIdeal.main_arg7) = m ((c.tc : Thread nD τ).loc main_arg7) := h7
  have e8 : launchContents m' c (Proc.devRef .tc Cert.ReferenceIdeal.main_arg8) = m ((c.tc : Thread nD τ).loc main_arg8) := h8
  have e9 : launchContents m' c (Proc.devRef .tc Cert.ReferenceIdeal.main_arg9) = m ((c.tc : Thread nD τ).loc main_arg9) := h9
  have e10 : launchContents m' c (Proc.devRef .tc Cert.ReferenceIdeal.main_arg10) = m ((c.tc : Thread nD τ).loc main_arg10) := h10
  have e11 : launchContents m' c (Proc.devRef .tc Cert.ReferenceIdeal.main_arg11) = m ((c.tc : Thread nD τ).loc main_arg11) := h11
  have e12 : launchContents m' c (Proc.devRef .tc Cert.ReferenceIdeal.main_arg12) = m ((c.tc : Thread nD τ).loc main_arg12) := h12
  have e13 : launchContents m' c (Proc.devRef .tc Cert.ReferenceIdeal.main_arg13) = m ((c.tc : Thread nD τ).loc main_arg13) := h13
  have e14 : launchContents m' c (Proc.devRef .tc Cert.ReferenceIdeal.main_arg14) = m ((c.tc : Thread nD τ).loc main_arg14) := h14
  have e15 : launchContents m' c (Proc.devRef .tc Cert.ReferenceIdeal.main_arg15) = m ((c.tc : Thread nD τ).loc main_arg15) := h15
  have e16 : launchContents m' c (Proc.devRef .tc Cert.ReferenceIdeal.main_arg16) = m ((c.tc : Thread nD τ).loc main_arg16) := h16
  have e17 : launchContents m' c (Proc.devRef .tc Cert.ReferenceIdeal.main_arg17) = m ((c.tc : Thread nD τ).loc main_arg17) := h17
  have e18 : launchContents m' c (Proc.devRef .tc Cert.ReferenceIdeal.main_arg18) = m ((c.tc : Thread nD τ).loc main_arg18) := h18
  have e19 : launchContents m' c (Proc.devRef .tc Cert.ReferenceIdeal.main_arg19) = m ((c.tc : Thread nD τ).loc main_arg19) := h19
  have e20 : launchContents m' c (Proc.devRef .tc Cert.ReferenceIdeal.main_arg20) = m ((c.tc : Thread nD τ).loc main_arg20) := h20
  have e21 : launchContents m' c (Proc.devRef .tc Cert.ReferenceIdeal.main_arg21) = m ((c.tc : Thread nD τ).loc main_arg21) := h21
  have e22 : launchContents m' c (Proc.devRef .tc Cert.ReferenceIdeal.main_arg22) = m ((c.tc : Thread nD τ).loc main_arg22) := h22
  have e23 : launchContents m' c (Proc.devRef .tc Cert.ReferenceIdeal.main_arg23) = m ((c.tc : Thread nD τ).loc main_arg23) := h23
  rw [e0, e1, e2, e3, e4, e5, e6, e7, e8, e9, e10, e11, e12, e13, e14, e15, e16, e17, e18, e19, e20, e21, e22, e23]

/-- THE VALUE CLAIM: from memories agreeing on the arguments both programs run to the end, the arguments unchanged, and
    their results are the same extended reals. -/
theorem algebraic : @Cert.algebraic_KernelIdeal_ReferenceIdeal Cert.KernelIdeal.Gen.facts Cert.ReferenceIdeal.Gen.facts Cert.Pre_finite_inputs.Gen.facts := by
  intro m g m' g' _ hagree
  refine ⟨fun c => B29 (F := Ideal) m c (Proc.devRef .tc main_v102), result (F := Ideal) m g, ?_⟩
  refine (θ_run Cert.ReferenceIdeal.defs _ _).mono (fun _ h c => ⟨(h c).1.trans ?_, (h c).2⟩)
    (Cert.ReferenceIdeal.Hand.run_full (F := Ideal) m' g')
  exact (reference_value m c m' (hagree c)).trans (kernel_value m c).symm

end Cert.KernelIdeal.Hand

end
-- ==== Proof.lean ====
/- The certificate of one graph-network forward pass: three message-passing layers, each a tiled kernel computing
   pre[r, q] = Σ_k (x[r,k] + Σ_j [adj[j,r] ≠ 0]·x[j,k])·W[k,q] + b[q] followed by batch normalisation, a rectifier, a
   second linear map and a rectifier; then mean pooling of the three layers' outputs, a two-layer head and a log-softmax.
   The kernel accumulates the inner sum over j in four tiles from zero and narrows its matrix operands to a shorter float
   format, which over the extended reals changes nothing: a sum taken block by block from zero is the whole sum, and a
   change of float format is the identity. The glue around the three kernels is the reference's own text. -/
import proofs.«155579_j31937376813550_1_alg».proof.Defs
import proofs.«155579_j31937376813550_1_alg».proof.Proof.Run
import proofs.«155579_j31937376813550_1_alg».proof.Proof.KRun
import proofs.«155579_j31937376813550_1_alg».proof.Proof.RefRun
import proofs.«155579_j31937376813550_1_alg».proof.Proof.Gen.Pre_finite_inputs
import proofs.«155579_j31937376813550_1_alg».proof.Proof.Bridge
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : @Cert.frame_Kernel Cert.Kernel.Gen.facts Cert.Pre_finite_inputs.Gen.facts :=
  fun m ρ _ => Cert.Kernel.Hand.frame (F := Bits) m ρ
/-- So does the program read over the extended reals, -/
theorem frame_ki : @Cert.frame_KernelIdeal Cert.KernelIdeal.Gen.facts Cert.Pre_finite_inputs.Gen.facts :=
  fun m ρ _ => Cert.KernelIdeal.Hand.frame (F := Ideal) m ρ
/-- and the reference. -/
theorem frame_ri : @Cert.frame_ReferenceIdeal Cert.ReferenceIdeal.Gen.facts Cert.Pre_finite_inputs.Gen.facts :=
  fun m g _ => Cert.ReferenceIdeal.Hand.frame (F := Ideal) m g
/-- The idealization rewrote no operation. -/
theorem preserves : Cert.preserves_Kernel_KernelIdeal := trivial

/-- The two programs read over the extended reals end with equal results. -/
theorem algebraic : @Cert.algebraic_KernelIdeal_ReferenceIdeal Cert.KernelIdeal.Gen.facts Cert.ReferenceIdeal.Gen.facts Cert.Pre_finite_inputs.Gen.facts :=
  Cert.KernelIdeal.Hand.algebraic

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
